-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v238)) (v1 : (c : Dev Cert.KernelIdeal.nD) → Buf (Elt Ideal) ((c.tc : Thread Cert.KernelIdeal.nD Cert.KernelIdeal.τ).loc Cert.KernelIdeal.main_arg3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v238) = v0 c
          ∧ r.2.mem ((c.tc : Thread Cert.KernelIdeal.nD Cert.KernelIdeal.τ).loc Cert.KernelIdeal.main_arg3) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v224) = v0 c
          ∧ r.2.mem ((c.tc : Thread Cert.ReferenceIdeal.nD Cert.ReferenceIdeal.τ).loc Cert.ReferenceIdeal.main_arg3) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x256 : Shape := ⟨2, ![20000, 256]⟩
abbrev S2x320000 : Shape := ⟨2, ![2, 320000]⟩
abbrev S320000x6 : Shape := ⟨2, ![320000, 6]⟩
abbrev S320000 : Shape := ⟨1, ![320000]⟩
abbrev S4x3x256x256 : Shape := ⟨4, ![4, 3, 256, 256]⟩
abbrev S1024x256 : Shape := ⟨2, ![1024, 256]⟩
abbrev S256 : Shape := ⟨1, ![256]⟩
abbrev S256x2 : Shape := ⟨2, ![256, 2]⟩
abbrev S2 : Shape := ⟨1, ![2]⟩
abbrev S_ : Shape := ⟨0, ![]⟩

class Facts : Prop where
  bcast_S_S20000x256 : S_.BroadcastsInDim S20000x256 (![] : Fin 0 → Fin S20000x256.rank)
  reducesTo_S20000x256_S_d0_1 : S20000x256.ReducesTo [0, 1] S_
  h_S_ : 0 < S_.numel
  bcast_S_S320000x6 : S_.BroadcastsInDim S320000x6 (![] : Fin 0 → Fin S320000x6.rank)
  reducesTo_S320000x6_S_d0_1 : S320000x6.ReducesTo [0, 1] S_
  bcast_S_S320000 : S_.BroadcastsInDim S320000 (![] : Fin 0 → Fin S320000.rank)
  reducesTo_S320000_S_d0 : S320000.ReducesTo [0] S_
  bcast_S_S4x3x256x256 : S_.BroadcastsInDim S4x3x256x256 (![] : Fin 0 → Fin S4x3x256x256.rank)
  reducesTo_S4x3x256x256_S_d0_1_2_3 : S4x3x256x256.ReducesTo [0, 1, 2, 3] S_
  bcast_S_S1024x256 : S_.BroadcastsInDim S1024x256 (![] : Fin 0 → Fin S1024x256.rank)
  reducesTo_S1024x256_S_d0_1 : S1024x256.ReducesTo [0, 1] S_
  bcast_S_S256 : S_.BroadcastsInDim S256 (![] : Fin 0 → Fin S256.rank)
  reducesTo_S256_S_d0 : S256.ReducesTo [0] S_
  bcast_S_S256x2 : S_.BroadcastsInDim S256x2 (![] : Fin 0 → Fin S256x2.rank)
  reducesTo_S256x2_S_d0_1 : S256x2.ReducesTo [0, 1] S_
  bcast_S_S2 : S_.BroadcastsInDim S2 (![] : Fin 0 → Fin S2.rank)
  reducesTo_S2_S_d0 : S2.ReducesTo [0] S_

variable [Facts]

def fn_part3 {F : FTy → Type} [FloatOps F] (main_arg10 : FVec F S256 .f32) (main_arg12 : FVec F S2 .f32) (main_v48 : IVec S_ 1) (main_v49 : FVec F S256x2 .f32) (main_v50 : FVec F S256x2 .f32) : IVec S_ 1 :=
  let main_v51 : IVec S256x2 1 := cmpf .olt main_v49 main_v50
  let main_c_19 : IVec S_ 1 := constantI S_ 1 1#1
  let main_v52 : IVec S_ 1 := (fun x v => Host.reduce IntOp.andi x v reducesTo_S256x2_S_d0_1 h_S_) main_v51 main_c_19
  let main_v53 : IVec S_ 1 := andi main_v48 main_v52
  let main_v54 : FVec F S2 .f32 := Host.absf main_arg12
  let main_cst_20 : FVec F S_ .f32 := constant S_ .f32 0x7F800000#32
  let main_v55 : FVec F S2 .f32 := broadcastInDim S2 ![] bcast_S_S2 main_cst_20
  let main_v56 : IVec S2 1 := cmpf .olt main_v54 main_v55
  let main_c_21 : IVec S_ 1 := constantI S_ 1 1#1
  let main_v57 : IVec S_ 1 := (fun x v => Host.reduce IntOp.andi x v reducesTo_S2_S_d0 h_S_) main_v56 main_c_21
  let main_v58 : IVec S_ 1 := andi main_v53 main_v57
  let main_cst_22 : FVec F S_ .f32 := constant S_ .f32 0x00000000#32
  let main_v59 : FVec F S256 .f32 := broadcastInDim S256 ![] bcast_S_S256 main_cst_22
  let main_v60 : IVec S256 1 := cmpf .oge main_arg10 main_v59
  let main_c_23 : IVec S_ 1 := constantI S_ 1 1#1
  let main_v61 : IVec S_ 1 := (fun x v => Host.reduce IntOp.andi x v reducesTo_S256_S_d0 h_S_) main_v60 main_c_23
  let main_v62 : IVec S_ 1 := andi main_v58 main_v61
  main_v62

def fn_part2 {F : FTy → Type} [FloatOps F] (main_arg8 : FVec F S256 .f32) (main_arg9 : FVec F S256 .f32) (main_arg10 : FVec F S256 .f32) (main_arg11 : FVec F S256x2 .f32) (main_arg12 : FVec F S2 .f32) (main_v33 : IVec S_ 1) : IVec S_ 1 :=
  let main_v34 : FVec F S256 .f32 := Host.absf main_arg8
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256 .f32 := Host.absf main_arg9
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256 .f32 := Host.absf main_arg10
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256x2 .f32 := Host.absf main_arg11
  let main_cst_18 : FVec F S_ .f32 := constant S_ .f32 0x7F800000#32
  let main_v50 : FVec F S256x2 .f32 := broadcastInDim S256x2 ![] bcast_S_S256x2 main_cst_18
  fn_part3 (F := F) main_arg10 main_arg12 main_v48 main_v49 main_v50

def fn_part1 {F : FTy → Type} [FloatOps F] (main_arg5 : FVec F S1024x256 .f32) (main_arg6 : FVec F S256 .f32) (main_arg7 : FVec F S256 .f32) (main_arg8 : FVec F S256 .f32) (main_arg9 : FVec F S256 .f32) (main_arg10 : FVec F S256 .f32) (main_arg11 : FVec F S256x2 .f32) (main_arg12 : FVec F S2 .f32) (main_v13 : IVec S_ 1) (main_v16 : IVec S4x3x256x256 1) : IVec S_ 1 :=
  let main_c_5 : IVec S_ 1 := constantI S_ 1 1#1
  let main_v17 : IVec S_ 1 := (fun x v => Host.reduce IntOp.andi x v reducesTo_S4x3x256x256_S_d0_1_2_3 h_S_) main_v16 main_c_5
  let main_v18 : IVec S_ 1 := andi main_v13 main_v17
  let main_v19 : FVec F S1024x256 .f32 := Host.absf main_arg5
  let main_cst_6 : FVec F S_ .f32 := constant S_ .f32 0x7F800000#32
  let main_v20 : FVec F S1024x256 .f32 := broadcastInDim S1024x256 ![] bcast_S_S1024x256 main_cst_6
  let main_v21 : IVec S1024x256 1 := cmpf .olt main_v19 main_v20
  let main_c_7 : IVec S_ 1 := constantI S_ 1 1#1
  let main_v22 : IVec S_ 1 := (fun x v => Host.reduce IntOp.andi x v reducesTo_S1024x256_S_d0_1 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg8 main_arg9 main_arg10 main_arg11 main_arg12 main_v33

def fn {F : FTy → Type} [FloatOps F] (main_arg0 : FVec F S20000x256 .f32) (main_arg1 : IVec S2x320000 32) (main_arg2 : FVec F S320000x6 .f32) (main_arg3 : FVec F S320000 .f32) (main_arg4 : FVec F S4x3x256x256 .f32) (main_arg5 : FVec F S1024x256 .f32) (main_arg6 : FVec F S256 .f32) (main_arg7 : FVec F S256 .f32) (main_arg8 : FVec F S256 .f32) (main_arg9 : FVec F S256 .f32) (main_arg10 : FVec F S256 .f32) (main_arg11 : FVec F S256x2 .f32) (main_arg12 : FVec F S2 .f32) : IVec S_ 1 :=
  let main_v0 : FVec F S20000x256 .f32 := Host.absf main_arg0
  let main_cst : FVec F S_ .f32 := constant S_ .f32 0x7F800000#32
  let main_v1 : FVec F S20000x256 .f32 := broadcastInDim S20000x256 ![] bcast_S_S20000x256 main_cst
  let main_v2 : IVec S20000x256 1 := cmpf .olt main_v0 main_v1
  let main_c : IVec S_ 1 := constantI S_ 1 1#1
  let main_v3 : IVec S_ 1 := (fun x v => Host.reduce IntOp.andi x v reducesTo_S20000x256_S_d0_1 h_S_) main_v2 main_c
  let main_v4 : FVec F S320000x6 .f32 := Host.absf main_arg2
  let main_cst_0 : FVec F S_ .f32 := constant S_ .f32 0x7F800000#32
  let main_v5 : FVec F S320000x6 .f32 := broadcastInDim S320000x6 ![] bcast_S_S320000x6 main_cst_0
  let main_v6 : IVec S320000x6 1 := cmpf .olt main_v4 main_v5
  let main_c_1 : IVec S_ 1 := constantI S_ 1 1#1
  let main_v7 : IVec S_ 1 := (fun x v => Host.reduce IntOp.andi x v reducesTo_S320000x6_S_d0_1 h_S_) main_v6 main_c_1
  let main_v8 : IVec S_ 1 := andi main_v3 main_v7
  let main_v9 : FVec F S320000 .f32 := Host.absf main_arg3
  let main_cst_2 : FVec F S_ .f32 := constant S_ .f32 0x7F800000#32
  let main_v10 : FVec F S320000 .f32 := broadcastInDim S320000 ![] bcast_S_S320000 main_cst_2
  let main_v11 : IVec S320000 1 := cmpf .olt main_v9 main_v10
  let main_c_3 : IVec S_ 1 := constantI S_ 1 1#1
  let main_v12 : IVec S_ 1 := (fun x v => Host.reduce IntOp.andi x v reducesTo_S320000_S_d0 h_S_) main_v11 main_c_3
  let main_v13 : IVec S_ 1 := andi main_v8 main_v12
  let main_v14 : FVec F S4x3x256x256 .f32 := Host.absf main_arg4
  let main_cst_4 : FVec F S_ .f32 := constant S_ .f32 0x7F800000#32
  let main_v15 : FVec F S4x3x256x256 .f32 := broadcastInDim S4x3x256x256 ![] bcast_S_S4x3x256x256 main_cst_4
  let main_v16 : IVec S4x3x256x256 1 := cmpf .olt main_v14 main_v15
  fn_part1 (F := F) main_arg5 main_arg6 main_arg7 main_arg8 main_arg9 main_arg10 main_arg11 main_arg12 main_v13 main_v16
-- ==== Kernel.lean ====
abbrev S20000x256 : Shape := ⟨2, ![20000, 256]⟩
abbrev S2x320000 : Shape := ⟨2, ![2, 320000]⟩
abbrev S320000x6 : Shape := ⟨2, ![320000, 6]⟩
abbrev S320000 : Shape := ⟨1, ![320000]⟩
abbrev S4x3x256x256 : Shape := ⟨4, ![4, 3, 256, 256]⟩
abbrev S1024x256 : Shape := ⟨2, ![1024, 256]⟩
abbrev S256 : Shape := ⟨1, ![256]⟩
abbrev S256x2 : Shape := ⟨2, ![256, 2]⟩
abbrev S2 : Shape := ⟨1, ![2]⟩
abbrev S1x320000 : Shape := ⟨2, ![1, 320000]⟩
abbrev S_ : Shape := ⟨0, ![]⟩
abbrev S20000 : Shape := ⟨1, ![20000]⟩
abbrev S320000x1 : Shape := ⟨2, ![320000, 1]⟩
abbrev S1x3x256x256 : Shape := ⟨4, ![1, 3, 256, 256]⟩
abbrev S3x256x256 : Shape := ⟨3, ![3, 256, 256]⟩
abbrev S320000x256 : Shape := ⟨2, ![320000, 256]⟩
abbrev S1x256x256 : Shape := ⟨3, ![1, 256, 256]⟩
abbrev S256x256 : Shape := ⟨2, ![256, 256]⟩
abbrev S2000x256 : Shape := ⟨2, ![2000, 256]⟩
abbrev S1x256 : Shape := ⟨2, ![1, 256]⟩
abbrev S256x128 : Shape := ⟨2, ![256, 128]⟩
abbrev S128 : Shape := ⟨1, ![128]⟩
abbrev S1x128 : Shape := ⟨2, ![1, 128]⟩
abbrev S20000x128 : Shape := ⟨2, ![20000, 128]⟩
abbrev S2000x128 : Shape := ⟨2, ![2000, 128]⟩
abbrev S20000x2 : Shape := ⟨2, ![20000, 2]⟩

abbrev nBuf : Space → Nat
  | .hbm => 294
  | .vmem => 63
  | .smem => 0
  | _ => 0

abbrev hbmTy0_0 (i : Nat) : BufTy := match i % 128 with
  | 0 => ⟨S20000x256, .f32⟩
  | 1 => ⟨S2x320000, .i32⟩
  | 2 => ⟨S320000x6, .f32⟩
  | 3 => ⟨S320000, .f32⟩
  | 4 => ⟨S4x3x256x256, .f32⟩
  | 5 => ⟨S1024x256, .f32⟩
  | 6 => ⟨S256, .f32⟩
  | 7 => ⟨S256, .f32⟩
  | 8 => ⟨S256, .f32⟩
  | 9 => ⟨S256, .f32⟩
  | 10 => ⟨S256, .f32⟩
  | 11 => ⟨S256x2, .f32⟩
  | 12 => ⟨S2, .f32⟩
  | 13 => ⟨S1x320000, .i32⟩
  | 14 => ⟨S320000, .i32⟩
  | 15 => ⟨S1x320000, .i32⟩
  | 16 => ⟨S320000, .i32⟩
  | 17 => ⟨S_, .f32⟩
  | 18 => ⟨S20000, .f32⟩
  | 19 => ⟨S320000x1, .i32⟩
  | 20 => ⟨S20000, .f32⟩
  | 21 => ⟨S_, .f32⟩
  | 22 => ⟨S20000, .f32⟩
  | 23 => ⟨S20000, .i1⟩
  | 24 => ⟨S20000, .f32⟩
  | 25 => ⟨S_, .f32⟩
  | 26 => ⟨S_, .f32⟩
  | 27 => ⟨S20000, .f32⟩
  | 28 => ⟨S20000, .f32⟩
  | 29 => ⟨S_, .i32⟩
  | 30 => ⟨S320000, .i32⟩
  | 31 => ⟨S320000, .i1⟩
  | 32 => ⟨S_, .i32⟩
  | 33 => ⟨S320000, .i32⟩
  | 34 => ⟨S320000, .i32⟩
  | 35 => ⟨S320000, .i32⟩
  | 36 => ⟨S320000x1, .i32⟩
  | 37 => ⟨S320000, .f32⟩
  | 38 => ⟨S320000, .f32⟩
  | 39 => ⟨S_, .i32⟩
  | 40 => ⟨S320000, .i32⟩
  | 41 => ⟨S320000, .i1⟩
  | 42 => ⟨S_, .i32⟩
  | 43 => ⟨S320000, .i32⟩
  | 44 => ⟨S320000, .i32⟩
  | 45 => ⟨S320000, .i32⟩
  | 46 => ⟨S320000x1, .i32⟩
  | 47 => ⟨S320000, .f32⟩
  | 48 => ⟨S320000, .f32⟩
  | 49 => ⟨S320000, .f32⟩
  | 50 => ⟨S1x3x256x256, .f32⟩
  | 51 => ⟨S3x256x256, .f32⟩
  | 52 => ⟨S20000x256, .bf16⟩
  | 53 => ⟨S_, .i32⟩
  | 54 => ⟨S320000, .i32⟩
  | 55 => ⟨S320000, .i1⟩
  | 56 => ⟨S_, .i32⟩
  | 57 => ⟨S320000, .i32⟩
  | 58 => ⟨S320000, .i32⟩
  | 59 => ⟨S320000, .i32⟩
  | 60 => ⟨S320000x1, .i32⟩
  | 61 => ⟨S320000x256, .bf16⟩
  | 62 => ⟨S320000x256, .f32⟩
  | 63 => ⟨S320000x1, .f32⟩
  | 64 => ⟨S320000x256, .f32⟩
  | 65 => ⟨S320000x256, .f32⟩
  | 66 => ⟨S_, .f32⟩
  | 67 => ⟨S20000x256, .f32⟩
  | 68 => ⟨S320000x1, .i32⟩
  | 69 => ⟨S20000x256, .f32⟩
  | 70 => ⟨S20000x256, .bf16⟩
  | 71 => ⟨S_, .i32⟩
  | 72 => ⟨S320000, .i32⟩
  | 73 => ⟨S320000, .i1⟩
  | 74 => ⟨S_, .i32⟩
  | 75 => ⟨S320000, .i32⟩
  | 76 => ⟨S320000, .i32⟩
  | 77 => ⟨S320000, .i32⟩
  | 78 => ⟨S320000x1, .i32⟩
  | 79 => ⟨S320000x256, .bf16⟩
  | 80 => ⟨S320000x256, .f32⟩
  | 81 => ⟨S320000x1, .f32⟩
  | 82 => ⟨S320000x256, .f32⟩
  | 83 => ⟨S320000x256, .f32⟩
  | 84 => ⟨S_, .f32⟩
  | 85 => ⟨S20000x256, .f32⟩
  | 86 => ⟨S320000x1, .i32⟩
  | 87 => ⟨S20000x256, .f32⟩
  | 88 => ⟨S1x256x256, .f32⟩
  | 89 => ⟨S256x256, .f32⟩
  | 90 => ⟨S1x256x256, .f32⟩
  | 91 => ⟨S256x256, .f32⟩
  | 92 => ⟨S256x256, .f32⟩
  | 93 => ⟨S256x256, .bf16⟩
  | 94 => ⟨S1x256x256, .f32⟩
  | 95 => ⟨S256x256, .f32⟩
  | 96 => ⟨S256x256, .bf16⟩
  | 97 => ⟨S1x256x256, .f32⟩
  | 98 => ⟨S256x256, .f32⟩
  | 99 => ⟨S_, .f32⟩
  | 100 => ⟨S256x256, .f32⟩
  | 101 => ⟨S256x256, .f32⟩
  | 102 => ⟨S256x256, .bf16⟩
  | 103 => ⟨S20000x256, .f32⟩
  | 104 => ⟨S1x3x256x256, .f32⟩
  | 105 => ⟨S3x256x256, .f32⟩
  | 106 => ⟨S20000x256, .bf16⟩
  | 107 => ⟨S_, .i32⟩
  | 108 => ⟨S320000, .i32⟩
  | 109 => ⟨S320000, .i1⟩
  | 110 => ⟨S_, .i32⟩
  | 111 => ⟨S320000, .i32⟩
  | 112 => ⟨S320000, .i32⟩
  | 113 => ⟨S320000, .i32⟩
  | 114 => ⟨S320000x1, .i32⟩
  | 115 => ⟨S320000x256, .bf16⟩
  | 116 => ⟨S320000x256, .f32⟩
  | 117 => ⟨S320000x1, .f32⟩
  | 118 => ⟨S320000x256, .f32⟩
  | 119 => ⟨S320000x256, .f32⟩
  | 120 => ⟨S_, .f32⟩
  | 121 => ⟨S20000x256, .f32⟩
  | 122 => ⟨S320000x1, .i32⟩
  | 123 => ⟨S20000x256, .f32⟩
  | 124 => ⟨S20000x256, .bf16⟩
  | 125 => ⟨S_, .i32⟩
  | 126 => ⟨S320000, .i32⟩
  | 127 => ⟨S320000, .i1⟩
  | _ => ⟨S20000x256, .f32⟩

abbrev hbmTy0_1 (i : Nat) : BufTy := match i % 128 with
  | 0 => ⟨S_, .i32⟩
  | 1 => ⟨S320000, .i32⟩
  | 2 => ⟨S320000, .i32⟩
  | 3 => ⟨S320000, .i32⟩
  | 4 => ⟨S320000x1, .i32⟩
  | 5 => ⟨S320000x256, .bf16⟩
  | 6 => ⟨S320000x256, .f32⟩
  | 7 => ⟨S320000x1, .f32⟩
  | 8 => ⟨S320000x256, .f32⟩
  | 9 => ⟨S320000x256, .f32⟩
  | 10 => ⟨S_, .f32⟩
  | 11 => ⟨S20000x256, .f32⟩
  | 12 => ⟨S320000x1, .i32⟩
  | 13 => ⟨S20000x256, .f32⟩
  | 14 => ⟨S1x256x256, .f32⟩
  | 15 => ⟨S256x256, .f32⟩
  | 16 => ⟨S1x256x256, .f32⟩
  | 17 => ⟨S256x256, .f32⟩
  | 18 => ⟨S256x256, .f32⟩
  | 19 => ⟨S256x256, .bf16⟩
  | 20 => ⟨S1x256x256, .f32⟩
  | 21 => ⟨S256x256, .f32⟩
  | 22 => ⟨S256x256, .bf16⟩
  | 23 => ⟨S1x256x256, .f32⟩
  | 24 => ⟨S256x256, .f32⟩
  | 25 => ⟨S_, .f32⟩
  | 26 => ⟨S256x256, .f32⟩
  | 27 => ⟨S256x256, .f32⟩
  | 28 => ⟨S256x256, .bf16⟩
  | 29 => ⟨S20000x256, .f32⟩
  | 30 => ⟨S1x3x256x256, .f32⟩
  | 31 => ⟨S3x256x256, .f32⟩
  | 32 => ⟨S20000x256, .bf16⟩
  | 33 => ⟨S_, .i32⟩
  | 34 => ⟨S320000, .i32⟩
  | 35 => ⟨S320000, .i1⟩
  | 36 => ⟨S_, .i32⟩
  | 37 => ⟨S320000, .i32⟩
  | 38 => ⟨S320000, .i32⟩
  | 39 => ⟨S320000, .i32⟩
  | 40 => ⟨S320000x1, .i32⟩
  | 41 => ⟨S320000x256, .bf16⟩
  | 42 => ⟨S320000x256, .f32⟩
  | 43 => ⟨S320000x1, .f32⟩
  | 44 => ⟨S320000x256, .f32⟩
  | 45 => ⟨S320000x256, .f32⟩
  | 46 => ⟨S_, .f32⟩
  | 47 => ⟨S20000x256, .f32⟩
  | 48 => ⟨S320000x1, .i32⟩
  | 49 => ⟨S20000x256, .f32⟩
  | 50 => ⟨S20000x256, .bf16⟩
  | 51 => ⟨S_, .i32⟩
  | 52 => ⟨S320000, .i32⟩
  | 53 => ⟨S320000, .i1⟩
  | 54 => ⟨S_, .i32⟩
  | 55 => ⟨S320000, .i32⟩
  | 56 => ⟨S320000, .i32⟩
  | 57 => ⟨S320000, .i32⟩
  | 58 => ⟨S320000x1, .i32⟩
  | 59 => ⟨S320000x256, .bf16⟩
  | 60 => ⟨S320000x256, .f32⟩
  | 61 => ⟨S320000x1, .f32⟩
  | 62 => ⟨S320000x256, .f32⟩
  | 63 => ⟨S320000x256, .f32⟩
  | 64 => ⟨S_, .f32⟩
  | 65 => ⟨S20000x256, .f32⟩
  | 66 => ⟨S320000x1, .i32⟩
  | 67 => ⟨S20000x256, .f32⟩
  | 68 => ⟨S1x256x256, .f32⟩
  | 69 => ⟨S256x256, .f32⟩
  | 70 => ⟨S1x256x256, .f32⟩
  | 71 => ⟨S256x256, .f32⟩
  | 72 => ⟨S256x256, .f32⟩
  | 73 => ⟨S256x256, .bf16⟩
  | 74 => ⟨S1x256x256, .f32⟩
  | 75 => ⟨S256x256, .f32⟩
  | 76 => ⟨S256x256, .bf16⟩
  | 77 => ⟨S1x256x256, .f32⟩
  | 78 => ⟨S256x256, .f32⟩
  | 79 => ⟨S_, .f32⟩
  | 80 => ⟨S256x256, .f32⟩
  | 81 => ⟨S256x256, .f32⟩
  | 82 => ⟨S256x256, .bf16⟩
  | 83 => ⟨S20000x256, .f32⟩
  | 84 => ⟨S1x3x256x256, .f32⟩
  | 85 => ⟨S3x256x256, .f32⟩
  | 86 => ⟨S20000x256, .bf16⟩
  | 87 => ⟨S_, .i32⟩
  | 88 => ⟨S320000, .i32⟩
  | 89 => ⟨S320000, .i1⟩
  | 90 => ⟨S_, .i32⟩
  | 91 => ⟨S320000, .i32⟩
  | 92 => ⟨S320000, .i32⟩
  | 93 => ⟨S320000, .i32⟩
  | 94 => ⟨S320000x1, .i32⟩
  | 95 => ⟨S320000x256, .bf16⟩
  | 96 => ⟨S320000x256, .f32⟩
  | 97 => ⟨S320000x1, .f32⟩
  | 98 => ⟨S320000x256, .f32⟩
  | 99 => ⟨S320000x256, .f32⟩
  | 100 => ⟨S_, .f32⟩
  | 101 => ⟨S20000x256, .f32⟩
  | 102 => ⟨S320000x1, .i32⟩
  | 103 => ⟨S20000x256, .f32⟩
  | 104 => ⟨S20000x256, .bf16⟩
  | 105 => ⟨S_, .i32⟩
  | 106 => ⟨S320000, .i32⟩
  | 107 => ⟨S320000, .i1⟩
  | 108 => ⟨S_, .i32⟩
  | 109 => ⟨S320000, .i32⟩
  | 110 => ⟨S320000, .i32⟩
  | 111 => ⟨S320000, .i32⟩
  | 112 => ⟨S320000x1, .i32⟩
  | 113 => ⟨S320000x256, .bf16⟩
  | 114 => ⟨S320000x256, .f32⟩
  | 115 => ⟨S320000x1, .f32⟩
  | 116 => ⟨S320000x256, .f32⟩
  | 117 => ⟨S320000x256, .f32⟩
  | 118 => ⟨S_, .f32⟩
  | 119 => ⟨S20000x256, .f32⟩
  | 120 => ⟨S320000x1, .i32⟩
  | 121 => ⟨S20000x256, .f32⟩
  | 122 => ⟨S1x256x256, .f32⟩
  | 123 => ⟨S256x256, .f32⟩
  | 124 => ⟨S1x256x256, .f32⟩
  | 125 => ⟨S256x256, .f32⟩
  | 126 => ⟨S256x256, .f32⟩
  | 127 => ⟨S256x256, .bf16⟩
  | _ => ⟨S20000x256, .f32⟩

abbrev hbmTy0_2 (i : Nat) : BufTy := match i % 128 with
  | 0 => ⟨S1x256x256, .f32⟩
  | 1 => ⟨S256x256, .f32⟩
  | 2 => ⟨S256x256, .bf16⟩
  | 3 => ⟨S1x256x256, .f32⟩
  | 4 => ⟨S256x256, .f32⟩
  | 5 => ⟨S_, .f32⟩
  | 6 => ⟨S256x256, .f32⟩
  | 7 => ⟨S256x256, .f32⟩
  | 8 => ⟨S256x256, .bf16⟩
  | 9 => ⟨S20000x256, .f32⟩
  | 10 => ⟨S_, .f32⟩
  | 11 => ⟨S256, .f32⟩
  | 12 => ⟨S256, .f32⟩
  | 13 => ⟨S256, .f32⟩
  | 14 => ⟨S256, .f32⟩
  | 15 => ⟨S256, .f32⟩
  | 16 => ⟨S256, .f32⟩
  | 17 => ⟨S256x256, .f32⟩
  | 18 => ⟨S256x256, .bf16⟩
  | 19 => ⟨S256x256, .f32⟩
  | 20 => ⟨S256x256, .bf16⟩
  | 21 => ⟨S256x256, .f32⟩
  | 22 => ⟨S256x256, .bf16⟩
  | 23 => ⟨S256x256, .f32⟩
  | 24 => ⟨S256x256, .bf16⟩
  | 25 => ⟨S1x256, .f32⟩
  | 26 => ⟨S1x256, .f32⟩
  | 27 => ⟨S1x256, .f32⟩
  | 28 => ⟨S_, .i32⟩
  | 29 => ⟨S_, .f32⟩
  | 30 => ⟨S256x128, .f32⟩
  | 31 => ⟨S256x128, .bf16⟩
  | 32 => ⟨S_, .i32⟩
  | 33 => ⟨S_, .f32⟩
  | 34 => ⟨S128, .f32⟩
  | 35 => ⟨S1x128, .f32⟩
  | 36 => ⟨S20000x128, .f32⟩
  | 37 => ⟨S20000x2, .f32⟩
  | _ => ⟨S20000x256, .f32⟩

abbrev hbmTy (i : Nat) : BufTy := match i / 128 with
  | 0 => hbmTy0_0 i
  | 1 => hbmTy0_1 i
  | 2 => hbmTy0_2 i
  | _ => ⟨S20000x256, .f32⟩

abbrev bufTy : (tb : Table) → Fin (tcTables nBuf tb) → BufTy
  | .hbm, ⟨i, _⟩ => hbmTy i
  | .local _ .vmem, ⟨0, _⟩ => ⟨S2000x256, .f32⟩
  | .local _ .vmem, ⟨1, _⟩ => ⟨S2000x256, .f32⟩
  | .local _ .vmem, ⟨2, _⟩ => ⟨S2000x256, .f32⟩
  | .local _ .vmem, ⟨3, _⟩ => ⟨S2000x256, .f32⟩
  | .local _ .vmem, ⟨4, _⟩ => ⟨S2000x256, .f32⟩
  | .local _ .vmem, ⟨5, _⟩ => ⟨S2000x256, .f32⟩
  | .local _ .vmem, ⟨6, _⟩ => ⟨S256x256, .bf16⟩
  | .local _ .vmem, ⟨7, _⟩ => ⟨S256x256, .bf16⟩
  | .local _ .vmem, ⟨8, _⟩ => ⟨S256x256, .bf16⟩
  | .local _ .vmem, ⟨9, _⟩ => ⟨S2000x256, .f32⟩
  | .local _ .vmem, ⟨10, _⟩ => ⟨S2000x256, .f32⟩
  | .local _ .vmem, ⟨11, _⟩ => ⟨S2000x256, .f32⟩
  | .local _ .vmem, ⟨12, _⟩ => ⟨S2000x256, .f32⟩
  | .local _ .vmem, ⟨13, _⟩ => ⟨S2000x256, .f32⟩
  | .local _ .vmem, ⟨14, _⟩ => ⟨S2000x256, .f32⟩
  | .local _ .vmem, ⟨15, _⟩ => ⟨S2000x256, .f32⟩
  | .local _ .vmem, ⟨16, _⟩ => ⟨S2000x256, .f32⟩
  | .local _ .vmem, ⟨17, _⟩ => ⟨S256x256, .bf16⟩
  | .local _ .vmem, ⟨18, _⟩ => ⟨S256x256, .bf16⟩
  | .local _ .vmem, ⟨19, _⟩ => ⟨S256x256, .bf16⟩
  | .local _ .vmem, ⟨20, _⟩ => ⟨S2000x256, .f32⟩
  | .local _ .vmem, ⟨21, _⟩ => ⟨S2000x256, .f32⟩
  | .local _ .vmem, ⟨22, _⟩ => ⟨S2000x256, .f32⟩
  | .local _ .vmem, ⟨23, _⟩ => ⟨S2000x256, .f32⟩
  | .local _ .vmem, ⟨24, _⟩ => ⟨S2000x256, .f32⟩
  | .local _ .vmem, ⟨25, _⟩ => ⟨S2000x256, .f32⟩
  | .local _ .vmem, ⟨26, _⟩ => ⟨S2000x256, .f32⟩
  | .local _ .vmem, ⟨27, _⟩ => ⟨S2000x256, .f32⟩
  | .local _ .vmem, ⟨28, _⟩ => ⟨S256x256, .bf16⟩
  | .local _ .vmem, ⟨29, _⟩ => ⟨S256x256, .bf16⟩
  | .local _ .vmem, ⟨30, _⟩ => ⟨S256x256, .bf16⟩
  | .local _ .vmem, ⟨31, _⟩ => ⟨S2000x256, .f32⟩
  | .local _ .vmem, ⟨32, _⟩ => ⟨S2000x256, .f32⟩
  | .local _ .vmem, ⟨33, _⟩ => ⟨S2000x256, .f32⟩
  | .local _ .vmem, ⟨34, _⟩ => ⟨S2000x256, .f32⟩
  | .local _ .vmem, ⟨35, _⟩ => ⟨S2000x256, .f32⟩
  | .local _ .vmem, ⟨36, _⟩ => ⟨S2000x256, .f32⟩
  | .local _ .vmem, ⟨37, _⟩ => ⟨S2000x256, .f32⟩
  | .local _ .vmem, ⟨38, _⟩ => ⟨S2000x256, .f32⟩
  | .local _ .vmem, ⟨39, _⟩ => ⟨S256x256, .bf16⟩
  | .local _ .vmem, ⟨40, _⟩ => ⟨S256x256, .bf16⟩
  | .local _ .vmem, ⟨41, _⟩ => ⟨S256x256, .bf16⟩
  | .local _ .vmem, ⟨42, _⟩ => ⟨S2000x256, .f32⟩
  | .local _ .vmem, ⟨43, _⟩ => ⟨S2000x256, .f32⟩
  | .local _ .vmem, ⟨44, _⟩ => ⟨S2000x256, .f32⟩
  | .local _ .vmem, ⟨45, _⟩ => ⟨S2000x256, .f32⟩
  | .local _ .vmem, ⟨46, _⟩ => ⟨S2000x256, .f32⟩
  | .local _ .vmem, ⟨47, _⟩ => ⟨S2000x256, .f32⟩
  | .local _ .vmem, ⟨48, _⟩ => ⟨S2000x256, .f32⟩
  | .local _ .vmem, ⟨49, _⟩ => ⟨S2000x256, .f32⟩
  | .local _ .vmem, ⟨50, _⟩ => ⟨S2000x256, .f32⟩
  | .local _ .vmem, ⟨51, _⟩ => ⟨S2000x256, .f32⟩
  | .local _ .vmem, ⟨52, _⟩ => ⟨S256x256, .bf16⟩
  | .local _ .vmem, ⟨53, _⟩ => ⟨S256x256, .bf16⟩
  | .local _ .vmem, ⟨54, _⟩ => ⟨S256x256, .bf16⟩
  | .local _ .vmem, ⟨55, _⟩ => ⟨S256x256, .bf16⟩
  | .local _ .vmem, ⟨56, _⟩ => ⟨S1x256, .f32⟩
  | .local _ .vmem, ⟨57, _⟩ => ⟨S1x256, .f32⟩
  | .local _ .vmem, ⟨58, _⟩ => ⟨S1x256, .f32⟩
  | .local _ .vmem, ⟨59, _⟩ => ⟨S256x128, .bf16⟩
  | .local _ .vmem, ⟨60, _⟩ => ⟨S1x128, .f32⟩
  | .local _ .vmem, ⟨61, _⟩ => ⟨S2000x128, .f32⟩
  | .local _ .vmem, ⟨62, _⟩ => ⟨S2000x128, .f32⟩
  | _, _ => ⟨S20000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | _, _ => false

abbrev semScoped : Fin 0 → Bool
  | ⟨_, h⟩ => absurd h (Nat.not_lt_zero _)

abbrev dmaSemScoped : Fin 63 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | _ => false

abbrev sig : RefSig :=
  ofTc nBuf bufTy 0 63 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst_0 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst_1 : Ref sig .tc := ⟨.hbm, 25, rfl⟩
abbrev main_call0_v0 : Ref sig .tc := ⟨.hbm, 26, rfl⟩
abbrev main_call0_v1 : Ref sig .tc := ⟨.hbm, 27, rfl⟩
abbrev main_v10 : Ref sig .tc := ⟨.hbm, 28, rfl⟩
abbrev main_c : Ref sig .tc := ⟨.hbm, 29, rfl⟩
abbrev main_v11 : Ref sig .tc := ⟨.hbm, 30, rfl⟩
abbrev main_v12 : Ref sig .tc := ⟨.hbm, 31, rfl⟩
abbrev main_c_2 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_c_3 : Ref sig .tc := ⟨.hbm, 39, rfl⟩
abbrev main_v19 : Ref sig .tc := ⟨.hbm, 40, rfl⟩
abbrev main_v20 : Ref sig .tc := ⟨.hbm, 41, rfl⟩
abbrev main_c_4 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_c_5 : Ref sig .tc := ⟨.hbm, 53, rfl⟩
abbrev main_v31 : Ref sig .tc := ⟨.hbm, 54, rfl⟩
abbrev main_v32 : Ref sig .tc := ⟨.hbm, 55, rfl⟩
abbrev main_c_6 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_cst_7 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_c_8 : Ref sig .tc := ⟨.hbm, 71, rfl⟩
abbrev main_v46 : Ref sig .tc := ⟨.hbm, 72, rfl⟩
abbrev main_v47 : Ref sig .tc := ⟨.hbm, 73, rfl⟩
abbrev main_c_9 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_cst_10 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_cst_11 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_c_12 : Ref sig .tc := ⟨.hbm, 107, rfl⟩
abbrev main_v78 : Ref sig .tc := ⟨.hbm, 108, rfl⟩
abbrev main_v79 : Ref sig .tc := ⟨.hbm, 109, rfl⟩
abbrev main_c_13 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_cst_14 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_c_15 : Ref sig .tc := ⟨.hbm, 125, rfl⟩
abbrev main_v93 : Ref sig .tc := ⟨.hbm, 126, rfl⟩
abbrev main_v94 : Ref sig .tc := ⟨.hbm, 127, rfl⟩
abbrev main_c_16 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_cst_17 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_cst_18 : Ref sig .tc := ⟨.hbm, 153, rfl⟩
abbrev main_v118 : Ref sig .tc := ⟨.hbm, 154, rfl⟩
abbrev main_v119 : Ref sig .tc := ⟨.hbm, 155, rfl⟩
abbrev main_v120 : Ref sig .tc := ⟨.hbm, 156, rfl⟩
abbrev main_v121 : Ref sig .tc := ⟨.hbm, 157, rfl⟩
abbrev main_v122 : Ref sig .tc := ⟨.hbm, 158, rfl⟩
abbrev main_v123 : Ref sig .tc := ⟨.hbm, 159, rfl⟩
abbrev main_v124 : Ref sig .tc := ⟨.hbm, 160, rfl⟩
abbrev main_c_19 : Ref sig .tc := ⟨.hbm, 161, rfl⟩
abbrev main_v125 : Ref sig .tc := ⟨.hbm, 162, rfl⟩
abbrev main_v126 : Ref sig .tc := ⟨.hbm, 163, rfl⟩
abbrev main_c_20 : Ref sig .tc := ⟨.hbm, 164, rfl⟩
abbrev main_v127 : Ref sig .tc := ⟨.hbm, 165, rfl⟩
abbrev main_v128 : Ref sig .tc := ⟨.hbm, 166, rfl⟩
abbrev main_v129 : Ref sig .tc := ⟨.hbm, 167, rfl⟩
abbrev main_v130 : Ref sig .tc := ⟨.hbm, 168, rfl⟩
abbrev main_v131 : Ref sig .tc := ⟨.hbm, 169, rfl⟩
abbrev main_v132 : Ref sig .tc := ⟨.hbm, 170, rfl⟩
abbrev main_v133 : Ref sig .tc := ⟨.hbm, 171, rfl⟩
abbrev main_v134 : Ref sig .tc := ⟨.hbm, 172, rfl⟩
abbrev main_v135 : Ref sig .tc := ⟨.hbm, 173, rfl⟩
abbrev main_cst_21 : Ref sig .tc := ⟨.hbm, 174, rfl⟩
abbrev main_v136 : Ref sig .tc := ⟨.hbm, 175, rfl⟩
abbrev main_v137 : Ref sig .tc := ⟨.hbm, 176, rfl⟩
abbrev main_v138 : Ref sig .tc := ⟨.hbm, 177, rfl⟩
abbrev main_v139 : Ref sig .tc := ⟨.hbm, 178, rfl⟩
abbrev main_c_22 : Ref sig .tc := ⟨.hbm, 179, rfl⟩
abbrev main_v140 : Ref sig .tc := ⟨.hbm, 180, rfl⟩
abbrev main_v141 : Ref sig .tc := ⟨.hbm, 181, rfl⟩
abbrev main_c_23 : Ref sig .tc := ⟨.hbm, 182, rfl⟩
abbrev main_v142 : Ref sig .tc := ⟨.hbm, 183, rfl⟩
abbrev main_v143 : Ref sig .tc := ⟨.hbm, 184, rfl⟩
abbrev main_v144 : Ref sig .tc := ⟨.hbm, 185, rfl⟩
abbrev main_v145 : Ref sig .tc := ⟨.hbm, 186, rfl⟩
abbrev main_v146 : Ref sig .tc := ⟨.hbm, 187, rfl⟩
abbrev main_v147 : Ref sig .tc := ⟨.hbm, 188, rfl⟩
abbrev main_v148 : Ref sig .tc := ⟨.hbm, 189, rfl⟩
abbrev main_v149 : Ref sig .tc := ⟨.hbm, 190, rfl⟩
abbrev main_v150 : Ref sig .tc := ⟨.hbm, 191, rfl⟩
abbrev main_cst_24 : Ref sig .tc := ⟨.hbm, 192, rfl⟩
abbrev main_v151 : Ref sig .tc := ⟨.hbm, 193, rfl⟩
abbrev main_v152 : Ref sig .tc := ⟨.hbm, 194, rfl⟩
abbrev main_v153 : Ref sig .tc := ⟨.hbm, 195, rfl⟩
abbrev main_v154 : Ref sig .tc := ⟨.hbm, 196, rfl⟩
abbrev main_v155 : Ref sig .tc := ⟨.hbm, 197, rfl⟩
abbrev main_v156 : Ref sig .tc := ⟨.hbm, 198, rfl⟩
abbrev main_v157 : Ref sig .tc := ⟨.hbm, 199, rfl⟩
abbrev main_v158 : Ref sig .tc := ⟨.hbm, 200, rfl⟩
abbrev main_v159 : Ref sig .tc := ⟨.hbm, 201, rfl⟩
abbrev main_v160 : Ref sig .tc := ⟨.hbm, 202, rfl⟩
abbrev main_v161 : Ref sig .tc := ⟨.hbm, 203, rfl⟩
abbrev main_v162 : Ref sig .tc := ⟨.hbm, 204, rfl⟩
abbrev main_v163 : Ref sig .tc := ⟨.hbm, 205, rfl⟩
abbrev main_v164 : Ref sig .tc := ⟨.hbm, 206, rfl⟩
abbrev main_cst_25 : Ref sig .tc := ⟨.hbm, 207, rfl⟩
abbrev main_v165 : Ref sig .tc := ⟨.hbm, 208, rfl⟩
abbrev main_v166 : Ref sig .tc := ⟨.hbm, 209, rfl⟩
abbrev main_v167 : Ref sig .tc := ⟨.hbm, 210, rfl⟩
abbrev main_v168 : Ref sig .tc := ⟨.hbm, 211, rfl⟩
abbrev main_v169 : Ref sig .tc := ⟨.hbm, 212, rfl⟩
abbrev main_v170 : Ref sig .tc := ⟨.hbm, 213, rfl⟩
abbrev main_v171 : Ref sig .tc := ⟨.hbm, 214, rfl⟩
abbrev main_c_26 : Ref sig .tc := ⟨.hbm, 215, rfl⟩
abbrev main_v172 : Ref sig .tc := ⟨.hbm, 216, rfl⟩
abbrev main_v173 : Ref sig .tc := ⟨.hbm, 217, rfl⟩
abbrev main_c_27 : Ref sig .tc := ⟨.hbm, 218, rfl⟩
abbrev main_v174 : Ref sig .tc := ⟨.hbm, 219, rfl⟩
abbrev main_v175 : Ref sig .tc := ⟨.hbm, 220, rfl⟩
abbrev main_v176 : Ref sig .tc := ⟨.hbm, 221, rfl⟩
abbrev main_v177 : Ref sig .tc := ⟨.hbm, 222, rfl⟩
abbrev main_v178 : Ref sig .tc := ⟨.hbm, 223, rfl⟩
abbrev main_v179 : Ref sig .tc := ⟨.hbm, 224, rfl⟩
abbrev main_v180 : Ref sig .tc := ⟨.hbm, 225, rfl⟩
abbrev main_v181 : Ref sig .tc := ⟨.hbm, 226, rfl⟩
abbrev main_v182 : Ref sig .tc := ⟨.hbm, 227, rfl⟩
abbrev main_cst_28 : Ref sig .tc := ⟨.hbm, 228, rfl⟩
abbrev main_v183 : Ref sig .tc := ⟨.hbm, 229, rfl⟩
abbrev main_v184 : Ref sig .tc := ⟨.hbm, 230, rfl⟩
abbrev main_v185 : Ref sig .tc := ⟨.hbm, 231, rfl⟩
abbrev main_v186 : Ref sig .tc := ⟨.hbm, 232, rfl⟩
abbrev main_c_29 : Ref sig .tc := ⟨.hbm, 233, rfl⟩
abbrev main_v187 : Ref sig .tc := ⟨.hbm, 234, rfl⟩
abbrev main_v188 : Ref sig .tc := ⟨.hbm, 235, rfl⟩
abbrev main_c_30 : Ref sig .tc := ⟨.hbm, 236, rfl⟩
abbrev main_v189 : Ref sig .tc := ⟨.hbm, 237, rfl⟩
abbrev main_v190 : Ref sig .tc := ⟨.hbm, 238, rfl⟩
abbrev main_v191 : Ref sig .tc := ⟨.hbm, 239, rfl⟩
abbrev main_v192 : Ref sig .tc := ⟨.hbm, 240, rfl⟩
abbrev main_v193 : Ref sig .tc := ⟨.hbm, 241, rfl⟩
abbrev main_v194 : Ref sig .tc := ⟨.hbm, 242, rfl⟩
abbrev main_v195 : Ref sig .tc := ⟨.hbm, 243, rfl⟩
abbrev main_v196 : Ref sig .tc := ⟨.hbm, 244, rfl⟩
abbrev main_v197 : Ref sig .tc := ⟨.hbm, 245, rfl⟩
abbrev main_cst_31 : Ref sig .tc := ⟨.hbm, 246, rfl⟩
abbrev main_v198 : Ref sig .tc := ⟨.hbm, 247, rfl⟩
abbrev main_v199 : Ref sig .tc := ⟨.hbm, 248, rfl⟩
abbrev main_v200 : Ref sig .tc := ⟨.hbm, 249, rfl⟩
abbrev main_v201 : Ref sig .tc := ⟨.hbm, 250, rfl⟩
abbrev main_v202 : Ref sig .tc := ⟨.hbm, 251, rfl⟩
abbrev main_v203 : Ref sig .tc := ⟨.hbm, 252, rfl⟩
abbrev main_v204 : Ref sig .tc := ⟨.hbm, 253, rfl⟩
abbrev main_v205 : Ref sig .tc := ⟨.hbm, 254, rfl⟩
abbrev main_v206 : Ref sig .tc := ⟨.hbm, 255, rfl⟩
abbrev main_v207 : Ref sig .tc := ⟨.hbm, 256, rfl⟩
abbrev main_v208 : Ref sig .tc := ⟨.hbm, 257, rfl⟩
abbrev main_v209 : Ref sig .tc := ⟨.hbm, 258, rfl⟩
abbrev main_v210 : Ref sig .tc := ⟨.hbm, 259, rfl⟩
abbrev main_v211 : Ref sig .tc := ⟨.hbm, 260, rfl⟩
abbrev main_cst_32 : Ref sig .tc := ⟨.hbm, 261, rfl⟩
abbrev main_v212 : Ref sig .tc := ⟨.hbm, 262, rfl⟩
abbrev main_v213 : Ref sig .tc := ⟨.hbm, 263, rfl⟩
abbrev main_v214 : Ref sig .tc := ⟨.hbm, 264, rfl⟩
abbrev main_v215 : Ref sig .tc := ⟨.hbm, 265, rfl⟩
abbrev main_cst_33 : Ref sig .tc := ⟨.hbm, 266, rfl⟩
abbrev main_v216 : Ref sig .tc := ⟨.hbm, 267, rfl⟩
abbrev main_v217 : Ref sig .tc := ⟨.hbm, 268, rfl⟩
abbrev main_v218 : Ref sig .tc := ⟨.hbm, 269, rfl⟩
abbrev main_v219 : Ref sig .tc := ⟨.hbm, 270, rfl⟩
abbrev main_v220 : Ref sig .tc := ⟨.hbm, 271, rfl⟩
abbrev main_v221 : Ref sig .tc := ⟨.hbm, 272, rfl⟩
abbrev main_v222 : Ref sig .tc := ⟨.hbm, 273, rfl⟩
abbrev main_v223 : Ref sig .tc := ⟨.hbm, 274, rfl⟩
abbrev main_v224 : Ref sig .tc := ⟨.hbm, 275, rfl⟩
abbrev main_v225 : Ref sig .tc := ⟨.hbm, 276, rfl⟩
abbrev main_v226 : Ref sig .tc := ⟨.hbm, 277, rfl⟩
abbrev main_v227 : Ref sig .tc := ⟨.hbm, 278, rfl⟩
abbrev main_v228 : Ref sig .tc := ⟨.hbm, 279, rfl⟩
abbrev main_v229 : Ref sig .tc := ⟨.hbm, 280, rfl⟩
abbrev main_v230 : Ref sig .tc := ⟨.hbm, 281, rfl⟩
abbrev main_v231 : Ref sig .tc := ⟨.hbm, 282, rfl⟩
abbrev main_v232 : Ref sig .tc := ⟨.hbm, 283, rfl⟩
abbrev main_c_34 : Ref sig .tc := ⟨.hbm, 284, rfl⟩
abbrev main_call1_v0 : Ref sig .tc := ⟨.hbm, 285, rfl⟩
abbrev main_v233 : Ref sig .tc := ⟨.hbm, 286, rfl⟩
abbrev main_v234 : Ref sig .tc := ⟨.hbm, 287, rfl⟩
abbrev main_c_35 : Ref sig .tc := ⟨.hbm, 288, rfl⟩
abbrev main_call2_v0 : Ref sig .tc := ⟨.hbm, 289, rfl⟩
abbrev main_v235 : Ref sig .tc := ⟨.hbm, 290, rfl⟩
abbrev main_v236 : Ref sig .tc := ⟨.hbm, 291, rfl⟩
abbrev main_v237 : Ref sig .tc := ⟨.hbm, 292, rfl⟩
abbrev main_v238 : Ref sig .tc := ⟨.hbm, 293, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg6_0 : Ref sig .tc := ⟨.vmem, 31, rfl⟩
abbrev cc2_stg6_1 : Ref sig .tc := ⟨.vmem, 32, rfl⟩
abbrev cc3_stg0_0 : Ref sig .tc := ⟨.vmem, 33, rfl⟩
abbrev cc3_stg0_1 : Ref sig .tc := ⟨.vmem, 34, rfl⟩
abbrev cc3_stg1_0 : Ref sig .tc := ⟨.vmem, 35, rfl⟩
abbrev cc3_stg1_1 : Ref sig .tc := ⟨.vmem, 36, rfl⟩
abbrev cc3_stg2_0 : Ref sig .tc := ⟨.vmem, 37, rfl⟩
abbrev cc3_stg2_1 : Ref sig .tc := ⟨.vmem, 38, rfl⟩
abbrev cc3_stg3_0 : Ref sig .tc := ⟨.vmem, 39, rfl⟩
abbrev cc3_stg4_0 : Ref sig .tc := ⟨.vmem, 40, rfl⟩
abbrev cc3_stg5_0 : Ref sig .tc := ⟨.vmem, 41, rfl⟩
abbrev cc3_stg6_0 : Ref sig .tc := ⟨.vmem, 42, rfl⟩
abbrev cc3_stg6_1 : Ref sig .tc := ⟨.vmem, 43, rfl⟩
abbrev cc4_stg0_0 : Ref sig .tc := ⟨.vmem, 44, rfl⟩
abbrev cc4_stg0_1 : Ref sig .tc := ⟨.vmem, 45, rfl⟩
abbrev cc4_stg1_0 : Ref sig .tc := ⟨.vmem, 46, rfl⟩
abbrev cc4_stg1_1 : Ref sig .tc := ⟨.vmem, 47, rfl⟩
abbrev cc4_stg2_0 : Ref sig .tc := ⟨.vmem, 48, rfl⟩
abbrev cc4_stg2_1 : Ref sig .tc := ⟨.vmem, 49, rfl⟩
abbrev cc4_stg3_0 : Ref sig .tc := ⟨.vmem, 50, rfl⟩
abbrev cc4_stg3_1 : Ref sig .tc := ⟨.vmem, 51, rfl⟩
abbrev cc4_stg4_0 : Ref sig .tc := ⟨.vmem, 52, rfl⟩
abbrev cc4_stg5_0 : Ref sig .tc := ⟨.vmem, 53, rfl⟩
abbrev cc4_stg6_0 : Ref sig .tc := ⟨.vmem, 54, rfl⟩
abbrev cc4_stg7_0 : Ref sig .tc := ⟨.vmem, 55, rfl⟩
abbrev cc4_stg8_0 : Ref sig .tc := ⟨.vmem, 56, rfl⟩
abbrev cc4_stg9_0 : Ref sig .tc := ⟨.vmem, 57, rfl⟩
abbrev cc4_stg10_0 : Ref sig .tc := ⟨.vmem, 58, rfl⟩
abbrev cc4_stg11_0 : Ref sig .tc := ⟨.vmem, 59, rfl⟩
abbrev cc4_stg12_0 : Ref sig .tc := ⟨.vmem, 60, rfl⟩
abbrev cc4_stg13_0 : Ref sig .tc := ⟨.vmem, 61, rfl⟩
abbrev cc4_stg13_1 : Ref sig .tc := ⟨.vmem, 62, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem2_1 : DmaSem sig := 27
abbrev cc2_sem3_0 : DmaSem sig := 28
abbrev cc2_sem4_0 : DmaSem sig := 29
abbrev cc2_sem5_0 : DmaSem sig := 30
abbrev cc2_sem6_0 : DmaSem sig := 31
abbrev cc2_sem6_1 : DmaSem sig := 32
abbrev cc3_sem0_0 : DmaSem sig := 33
abbrev cc3_sem0_1 : DmaSem sig := 34
abbrev cc3_sem1_0 : DmaSem sig := 35
abbrev cc3_sem1_1 : DmaSem sig := 36
abbrev cc3_sem2_0 : DmaSem sig := 37
abbrev cc3_sem2_1 : DmaSem sig := 38
abbrev cc3_sem3_0 : DmaSem sig := 39
abbrev cc3_sem4_0 : DmaSem sig := 40
abbrev cc3_sem5_0 : DmaSem sig := 41
abbrev cc3_sem6_0 : DmaSem sig := 42
abbrev cc3_sem6_1 : DmaSem sig := 43
abbrev cc4_sem0_0 : DmaSem sig := 44
abbrev cc4_sem0_1 : DmaSem sig := 45
abbrev cc4_sem1_0 : DmaSem sig := 46
abbrev cc4_sem1_1 : DmaSem sig := 47
abbrev cc4_sem2_0 : DmaSem sig := 48
abbrev cc4_sem2_1 : DmaSem sig := 49
abbrev cc4_sem3_0 : DmaSem sig := 50
abbrev cc4_sem3_1 : DmaSem sig := 51
abbrev cc4_sem4_0 : DmaSem sig := 52
abbrev cc4_sem5_0 : DmaSem sig := 53
abbrev cc4_sem6_0 : DmaSem sig := 54
abbrev cc4_sem7_0 : DmaSem sig := 55
abbrev cc4_sem8_0 : DmaSem sig := 56
abbrev cc4_sem9_0 : DmaSem sig := 57
abbrev cc4_sem10_0 : DmaSem sig := 58
abbrev cc4_sem11_0 : DmaSem sig := 59
abbrev cc4_sem12_0 : DmaSem sig := 60
abbrev cc4_sem13_0 : DmaSem sig := 61
abbrev cc4_sem13_1 : DmaSem sig := 62

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S256x256 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x256 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256x256 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S256x256 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S256x256 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S256x256 .bf16 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S2000x256 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x256 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S256x256 .bf16 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S256x256 .bf16 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S256x256 .bf16 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S2000x256 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_9 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_10 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_11 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_12 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_13 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x256 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S2000x256 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S2000x256 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 1 → Memref sig .tc .vmem S256x256 .bf16 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S256x256 .bf16 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S256x256 .bf16 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S256x256 .bf16 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S1x256 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev stage4_9 : Fin 1 → Memref sig .tc .vmem S1x256 .f32 := fun | 0 => Memref.whole cc4_stg9_0 | ⟨_ + 1, h⟩ => absurd h (Nat.not_lt.2 (Nat.le_add_left _ _))
abbrev sem4_9 : Fin 1 → DmaSem sig := fun | 0 => cc4_sem9_0 | ⟨_ + 1, h⟩ => absurd h (Nat.not_lt.2 (Nat.le_add_left _ _))
abbrev reads4_9 : Fin grid4.rank → Bool := ![false]

abbrev stage4_10 : Fin 1 → Memref sig .tc .vmem S1x256 .f32 := fun | 0 => Memref.whole cc4_stg10_0 | ⟨_ + 1, h⟩ => absurd h (Nat.not_lt.2 (Nat.le_add_left _ _))
abbrev sem4_10 : Fin 1 → DmaSem sig := fun | 0 => cc4_sem10_0 | ⟨_ + 1, h⟩ => absurd h (Nat.not_lt.2 (Nat.le_add_left _ _))
abbrev reads4_10 : Fin grid4.rank → Bool := ![false]

abbrev stage4_11 : Fin 1 → Memref sig .tc .vmem S256x128 .bf16 := fun | 0 => Memref.whole cc4_stg11_0 | ⟨_ + 1, h⟩ => absurd h (Nat.not_lt.2 (Nat.le_add_left _ _))
abbrev sem4_11 : Fin 1 → DmaSem sig := fun | 0 => cc4_sem11_0 | ⟨_ + 1, h⟩ => absurd h (Nat.not_lt.2 (Nat.le_add_left _ _))
abbrev reads4_11 : Fin grid4.rank → Bool := ![false]

abbrev stage4_12 : Fin 1 → Memref sig .tc .vmem S1x128 .f32 := fun | 0 => Memref.whole cc4_stg12_0 | ⟨_ + 1, h⟩ => absurd h (Nat.not_lt.2 (Nat.le_add_left _ _))
abbrev sem4_12 : Fin 1 → DmaSem sig := fun | 0 => cc4_sem12_0 | ⟨_ + 1, h⟩ => absurd h (Nat.not_lt.2 (Nat.le_add_left _ _))
abbrev reads4_12 : Fin grid4.rank → Bool := ![false]

abbrev stage4_13 : Fin 2 → Memref sig .tc .vmem S2000x128 .f32 := fun | 0 => Memref.whole cc4_stg13_0 | 1 => Memref.whole cc4_stg13_1 | ⟨_ + 2, h⟩ => absurd h (Nat.not_lt.2 (Nat.le_add_left _ _))
abbrev sem4_13 : Fin 2 → DmaSem sig := fun | 0 => cc4_sem13_0 | 1 => cc4_sem13_1 | ⟨_ + 2, h⟩ => absurd h (Nat.not_lt.2 (Nat.le_add_left _ _))
abbrev reads4_13 : Fin grid4.rank → Bool := ![true]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S20000 : S_.BroadcastsInDim S20000 (![] : Fin 0 → Fin S20000.rank)
  bcast_S320000_S320000x1_0 : S320000.BroadcastsInDim S320000x1 (![0] : Fin 1 → Fin S320000x1.rank)
  bcast_S_S320000 : S_.BroadcastsInDim S320000 (![] : Fin 0 → Fin S320000.rank)
  slices_S4x3x256x256_S1x3x256x256_0_0_0_0 : S4x3x256x256.Slices ![0, 0, 0, 0] S1x3x256x256
  shapeCasts_S1x3x256x256_S3x256x256 : S1x3x256x256.ShapeCasts S3x256x256
  bitsLt_bf16_f32 : FTy.bits .bf16 < FTy.bits .f32
  bcast_S320000x1_S320000x256_0_1 : S320000x1.BroadcastsInDim S320000x256 (![0, 1] : Fin 2 → Fin S320000x256.rank)
  bcast_S_S20000x256 : S_.BroadcastsInDim S20000x256 (![] : Fin 0 → Fin S20000x256.rank)
  slices_S3x256x256_S1x256x256_0_0_0 : S3x256x256.Slices ![0, 0, 0] S1x256x256
  shapeCasts_S1x256x256_S256x256 : S1x256x256.ShapeCasts S256x256
  slices_S3x256x256_S1x256x256_2_0_0 : S3x256x256.Slices ![2, 0, 0] S1x256x256
  slices_S3x256x256_S1x256x256_1_0_0 : S3x256x256.Slices ![1, 0, 0] S1x256x256
  bcast_S_S256x256 : S_.BroadcastsInDim S256x256 (![] : Fin 0 → Fin S256x256.rank)
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  slices_S4x3x256x256_S1x3x256x256_1_0_0_0 : S4x3x256x256.Slices ![1, 0, 0, 0] S1x3x256x256
  slices_S4x3x256x256_S1x3x256x256_2_0_0_0 : S4x3x256x256.Slices ![2, 0, 0, 0] S1x3x256x256
  slices_S4x3x256x256_S1x3x256x256_3_0_0_0 : S4x3x256x256.Slices ![3, 0, 0, 0] S1x3x256x256
  bcast_S_S256 : S_.BroadcastsInDim S256 (![] : Fin 0 → Fin S256.rank)
  slices_S1024x256_S256x256_0_0 : S1024x256.Slices ![0, 0] S256x256
  slices_S1024x256_S256x256_256_0 : S1024x256.Slices ![256, 0] S256x256
  slices_S1024x256_S256x256_512_0 : S1024x256.Slices ![512, 0] S256x256
  slices_S1024x256_S256x256_768_0 : S1024x256.Slices ![768, 0] S256x256
  shapeCasts_S256_S1x256 : S256.ShapeCasts S1x256
  pads_S256x2_S256x128_000_01260 : S256x2.Pads (![0, 0] : Fin 2 → Nat) ![0, 126] ![0, 0] S256x128
  h_S_ : 0 < S_.numel
  pads_S2_S128_01260 : S2.Pads (![0] : Fin 1 → Nat) ![126] ![0] S128
  shapeCasts_S128_S1x128 : S128.ShapeCasts S1x128
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S2000x128_S2000x128_0_0 : ∀ a, (![0, 0] : Fin 2 → Nat) a + S2000x128.size a ≤ S2000x128.size a
  h_S2000x128 : 0 < S2000x128.numel
  slices_S20000x128_S20000x2_0_0 : S20000x128.Slices ![0, 0] S20000x2
  scatter_S20000_S320000x1_S320000_n_0_0_1_wf : ScatterDims.WF S20000 S320000x1 S320000 [] [0] [0] 1
  gather_S20000_S320000x1_S320000_n_0_n_n_0_1_1_wf : GatherDims.WF S20000 S320000x1 S320000 [] [0] [] [0] [] 1 ![1]
  gather_S20000x256_S320000x1_S320000x256_1_0_n_n_0_1_1256_wf : GatherDims.WF S20000x256 S320000x1 S320000x256 [1] [0] [] [0] [] 1 ![1, 256]
  scatter_S20000x256_S320000x1_S320000x256_1_0_0_1_wf : ScatterDims.WF S20000x256 S320000x1 S320000x256 [1] [0] [0] 1
  dot_S2000x256_S256x256_S2000x256_1_0_0_1_n_n_wf : DotDims.WF S2000x256 S256x256 S2000x256 [1] [0] [0] [1] [] []
  dot_S2000x256_S256x128_S2000x128_1_0_0_1_n_n_wf : DotDims.WF S2000x256 S256x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S20000x256.size a
  hwx0_0 : ∀ i : grid0.Coords, EltTy.bits .f32 = 32 ∨ (Rect.block (s := S20000x256) S2000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x256.size a ≤ S20000x256.size a
  hwx0_1 : ∀ i : grid0.Coords, EltTy.bits .f32 = 32 ∨ (Rect.block (s := S20000x256) S2000x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S20000x256.size a
  hwx0_2 : ∀ i : grid0.Coords, EltTy.bits .f32 = 32 ∨ (Rect.block (s := S20000x256) S2000x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .bf16 = 32 ∨ (Rect.block (s := S256x256) S256x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .bf16 = 32 ∨ (Rect.block (s := S256x256) S256x256.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .bf16 = 32 ∨ (Rect.block (s := S256x256) S256x256.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x256.size a ≤ S20000x256.size a
  hwx0_6 : ∀ i : grid0.Coords, EltTy.bits .f32 = 32 ∨ (Rect.block (s := S20000x256) S2000x256.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S20000x256.size a
  hwx1_0 : ∀ i : grid1.Coords, EltTy.bits .f32 = 32 ∨ (Rect.block (s := S20000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S20000x256.size a
  hwx1_1 : ∀ i : grid1.Coords, EltTy.bits .f32 = 32 ∨ (Rect.block (s := S20000x256) S2000x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x256.size a ≤ S20000x256.size a
  hwx1_2 : ∀ i : grid1.Coords, EltTy.bits .f32 = 32 ∨ (Rect.block (s := S20000x256) S2000x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .bf16 = 32 ∨ (Rect.block (s := S256x256) S256x256.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x256.size a ≤ S256x256.size a
  hwx1_4 : ∀ i : grid1.Coords, EltTy.bits .bf16 = 32 ∨ (Rect.block (s := S256x256) S256x256.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256x256.size a ≤ S256x256.size a
  hwx1_5 : ∀ i : grid1.Coords, EltTy.bits .bf16 = 32 ∨ (Rect.block (s := S256x256) S256x256.size (cc1_transform_5 i) (hinb1_5 i)).WholeWords (EltTy.packing .bf16)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x256.size a ≤ S20000x256.size a
  hwx1_6 : ∀ i : grid1.Coords, EltTy.bits .f32 = 32 ∨ (Rect.block (s := S20000x256) S2000x256.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S20000x256.size a
  hwx2_0 : ∀ i : grid2.Coords, EltTy.bits .f32 = 32 ∨ (Rect.block (s := S20000x256) S2000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x256.size a ≤ S20000x256.size a
  hwx2_1 : ∀ i : grid2.Coords, EltTy.bits .f32 = 32 ∨ (Rect.block (s := S20000x256) S2000x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x256.size a ≤ S20000x256.size a
  hwx2_2 : ∀ i : grid2.Coords, EltTy.bits .f32 = 32 ∨ (Rect.block (s := S20000x256) S2000x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x256.size a ≤ S256x256.size a
  hwx2_3 : ∀ i : grid2.Coords, EltTy.bits .bf16 = 32 ∨ (Rect.block (s := S256x256) S256x256.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S256x256.size a ≤ S256x256.size a
  hwx2_4 : ∀ i : grid2.Coords, EltTy.bits .bf16 = 32 ∨ (Rect.block (s := S256x256) S256x256.size (cc2_transform_4 i) (hinb2_4 i)).WholeWords (EltTy.packing .bf16)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S256x256.size a ≤ S256x256.size a
  hwx2_5 : ∀ i : grid2.Coords, EltTy.bits .bf16 = 32 ∨ (Rect.block (s := S256x256) S256x256.size (cc2_transform_5 i) (hinb2_5 i)).WholeWords (EltTy.packing .bf16)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x256.size a ≤ S20000x256.size a
  hwx2_6 : ∀ i : grid2.Coords, EltTy.bits .f32 = 32 ∨ (Rect.block (s := S20000x256) S2000x256.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S20000x256.size a
  hwx3_0 : ∀ i : grid3.Coords, EltTy.bits .f32 = 32 ∨ (Rect.block (s := S20000x256) S2000x256.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x256.size a ≤ S20000x256.size a
  hwx3_1 : ∀ i : grid3.Coords, EltTy.bits .f32 = 32 ∨ (Rect.block (s := S20000x256) S2000x256.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x256.size a ≤ S20000x256.size a
  hwx3_2 : ∀ i : grid3.Coords, EltTy.bits .f32 = 32 ∨ (Rect.block (s := S20000x256) S2000x256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S256x256.size a ≤ S256x256.size a
  hwx3_3 : ∀ i : grid3.Coords, EltTy.bits .bf16 = 32 ∨ (Rect.block (s := S256x256) S256x256.size (cc3_transform_3 i) (hinb3_3 i)).WholeWords (EltTy.packing .bf16)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S256x256.size a ≤ S256x256.size a
  hwx3_4 : ∀ i : grid3.Coords, EltTy.bits .bf16 = 32 ∨ (Rect.block (s := S256x256) S256x256.size (cc3_transform_4 i) (hinb3_4 i)).WholeWords (EltTy.packing .bf16)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S256x256.size a ≤ S256x256.size a
  hwx3_5 : ∀ i : grid3.Coords, EltTy.bits .bf16 = 32 ∨ (Rect.block (s := S256x256) S256x256.size (cc3_transform_5 i) (hinb3_5 i)).WholeWords (EltTy.packing .bf16)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S2000x256.size a ≤ S20000x256.size a
  hwx3_6 : ∀ i : grid3.Coords, EltTy.bits .f32 = 32 ∨ (Rect.block (s := S20000x256) S2000x256.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x256.size a ≤ S20000x256.size a
  hwx4_0 : ∀ i : grid4.Coords, EltTy.bits .f32 = 32 ∨ (Rect.block (s := S20000x256) S2000x256.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x256.size a ≤ S20000x256.size a
  hwx4_1 : ∀ i : grid4.Coords, EltTy.bits .f32 = 32 ∨ (Rect.block (s := S20000x256) S2000x256.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x256.size a ≤ S20000x256.size a
  hwx4_2 : ∀ i : grid4.Coords, EltTy.bits .f32 = 32 ∨ (Rect.block (s := S20000x256) S2000x256.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S2000x256.size a ≤ S20000x256.size a
  hwx4_3 : ∀ i : grid4.Coords, EltTy.bits .f32 = 32 ∨ (Rect.block (s := S20000x256) S2000x256.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S256x256.size a ≤ S256x256.size a
  hwx4_4 : ∀ i : grid4.Coords, EltTy.bits .bf16 = 32 ∨ (Rect.block (s := S256x256) S256x256.size (cc4_transform_4 i) (hinb4_4 i)).WholeWords (EltTy.packing .bf16)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S256x256.size a ≤ S256x256.size a
  hwx4_5 : ∀ i : grid4.Coords, EltTy.bits .bf16 = 32 ∨ (Rect.block (s := S256x256) S256x256.size (cc4_transform_5 i) (hinb4_5 i)).WholeWords (EltTy.packing .bf16)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S256x256.size a ≤ S256x256.size a
  hwx4_6 : ∀ i : grid4.Coords, EltTy.bits .bf16 = 32 ∨ (Rect.block (s := S256x256) S256x256.size (cc4_transform_6 i) (hinb4_6 i)).WholeWords (EltTy.packing .bf16)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S256x256.size a ≤ S256x256.size a
  hwx4_7 : ∀ i : grid4.Coords, EltTy.bits .bf16 = 32 ∨ (Rect.block (s := S256x256) S256x256.size (cc4_transform_7 i) (hinb4_7 i)).WholeWords (EltTy.packing .bf16)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S1x256.size a ≤ S1x256.size a
  hwx4_8 : ∀ i : grid4.Coords, EltTy.bits .f32 = 32 ∨ (Rect.block (s := S1x256) S1x256.size (cc4_transform_8 i) (hinb4_8 i)).WholeWords (EltTy.packing .f32)
  hstage4_9 : ∀ j, (stage4_9 j).IsWhole
  nbuf4_9 : grid4.bufCount reads4_9 true = 1
  hreads4_9 : ∀ i i' : grid4.Coords, (∀ a, reads4_9 a = true → i a = i' a) → cc4_transform_9 i = cc4_transform_9 i'
  hinb4_9 : ∀ (i : grid4.Coords) a, (cc4_transform_9 i a + 1) * S1x256.size a ≤ S1x256.size a
  hwx4_9 : ∀ i : grid4.Coords, EltTy.bits .f32 = 32 ∨ (Rect.block (s := S1x256) S1x256.size (cc4_transform_9 i) (hinb4_9 i)).WholeWords (EltTy.packing .f32)
  hstage4_10 : ∀ j, (stage4_10 j).IsWhole
  nbuf4_10 : grid4.bufCount reads4_10 true = 1
  hreads4_10 : ∀ i i' : grid4.Coords, (∀ a, reads4_10 a = true → i a = i' a) → cc4_transform_10 i = cc4_transform_10 i'
  hinb4_10 : ∀ (i : grid4.Coords) a, (cc4_transform_10 i a + 1) * S1x256.size a ≤ S1x256.size a
  hwx4_10 : ∀ i : grid4.Coords, EltTy.bits .f32 = 32 ∨ (Rect.block (s := S1x256) S1x256.size (cc4_transform_10 i) (hinb4_10 i)).WholeWords (EltTy.packing .f32)
  hstage4_11 : ∀ j, (stage4_11 j).IsWhole
  nbuf4_11 : grid4.bufCount reads4_11 true = 1
  hreads4_11 : ∀ i i' : grid4.Coords, (∀ a, reads4_11 a = true → i a = i' a) → cc4_transform_11 i = cc4_transform_11 i'
  hinb4_11 : ∀ (i : grid4.Coords) a, (cc4_transform_11 i a + 1) * S256x128.size a ≤ S256x128.size a
  hwx4_11 : ∀ i : grid4.Coords, EltTy.bits .bf16 = 32 ∨ (Rect.block (s := S256x128) S256x128.size (cc4_transform_11 i) (hinb4_11 i)).WholeWords (EltTy.packing .bf16)
  hstage4_12 : ∀ j, (stage4_12 j).IsWhole
  nbuf4_12 : grid4.bufCount reads4_12 true = 1
  hreads4_12 : ∀ i i' : grid4.Coords, (∀ a, reads4_12 a = true → i a = i' a) → cc4_transform_12 i = cc4_transform_12 i'
  hinb4_12 : ∀ (i : grid4.Coords) a, (cc4_transform_12 i a + 1) * S1x128.size a ≤ S1x128.size a
  hwx4_12 : ∀ i : grid4.Coords, EltTy.bits .f32 = 32 ∨ (Rect.block (s := S1x128) S1x128.size (cc4_transform_12 i) (hinb4_12 i)).WholeWords (EltTy.packing .f32)
  hstage4_13 : ∀ j, (stage4_13 j).IsWhole
  nbuf4_13 : grid4.bufCount reads4_13 false = 2
  hreads4_13 : ∀ i i' : grid4.Coords, (∀ a, reads4_13 a = true → i a = i' a) → cc4_transform_13 i = cc4_transform_13 i'
  hinb4_13 : ∀ (i : grid4.Coords) a, (cc4_transform_13 i a + 1) * S2000x128.size a ≤ S20000x128.size a
  hwx4_13 : ∀ i : grid4.Coords, EltTy.bits .f32 = 32 ∨ (Rect.block (s := S20000x128) S2000x128.size (cc4_transform_13 i) (hinb4_13 i)).WholeWords (EltTy.packing .f32)

variable [Facts₀]

def scatter_S20000_S320000x1_S320000_n_0_0_1 : ScatterDims S20000 S320000x1 S320000 where
  updateWindowDims := []
  insertedWindowDims := [0]
  scatterDimsToOperandDims := [0]
  indexVectorDim := 1
  wf := scatter_S20000_S320000x1_S320000_n_0_0_1_wf
def gather_S20000_S320000x1_S320000_n_0_n_n_0_1_1 : GatherDims S20000 S320000x1 S320000 where
  offsetDims := []
  collapsedSliceDims := [0]
  operandBatchingDims := []
  startIndicesBatchingDims := []
  startIndexMap := [0]
  indexVectorDim := 1
  sliceSizes := ![1]
  wf := gather_S20000_S320000x1_S320000_n_0_n_n_0_1_1_wf
def gather_S20000x256_S320000x1_S320000x256_1_0_n_n_0_1_1256 : GatherDims S20000x256 S320000x1 S320000x256 where
  offsetDims := [1]
  collapsedSliceDims := [0]
  operandBatchingDims := []
  startIndicesBatchingDims := []
  startIndexMap := [0]
  indexVectorDim := 1
  sliceSizes := ![1, 256]
  wf := gather_S20000x256_S320000x1_S320000x256_1_0_n_n_0_1_1256_wf
def scatter_S20000x256_S320000x1_S320000x256_1_0_0_1 : ScatterDims S20000x256 S320000x1 S320000x256 where
  updateWindowDims := [1]
  insertedWindowDims := [0]
  scatterDimsToOperandDims := [0]
  indexVectorDim := 1
  wf := scatter_S20000x256_S320000x1_S320000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v44) S2000x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v59) S2000x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v65) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v68) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v73) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v74) S2000x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v74) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v91) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v106) S2000x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v112) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v115) S256x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v120) S256x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v121) S2000x256.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v121) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v138) S2000x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v153) S2000x256.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v159) S256x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v162) S256x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v167) S256x256.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v168) S2000x256.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v168) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v185) S2000x256.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v200) S2000x256.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v206) S256x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v209) S256x256.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v214) S256x256.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v215) S2000x256.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v74) S2000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v121) S2000x256.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v168) S2000x256.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v215) S2000x256.size cc4_transform_3 reads4_3 false false 2 stage4_3 sem4_3
    hrank4 hreads4_3 hinb4_3 nbuf4_3 (Memref.isWhole_whole _) hwx4_3 hstage4_3

abbrev win4_4 : Pipeline.Window sig grid4 :=
  Pipeline.Window.ofSpec (Memref.whole main_v223) S256x256.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v225) S256x256.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v227) S256x256.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v229) S256x256.size cc4_transform_7 reads4_7 false true 1 stage4_7 sem4_7
    hrank4 hreads4_7 hinb4_7 nbuf4_7 (Memref.isWhole_whole _) hwx4_7 hstage4_7

abbrev win4_8 : Pipeline.Window sig grid4 :=
  Pipeline.Window.ofSpec (Memref.whole main_v230) S1x256.size cc4_transform_8 reads4_8 false true 1 stage4_8 sem4_8
    hrank4 hreads4_8 hinb4_8 nbuf4_8 (Memref.isWhole_whole _) hwx4_8 hstage4_8

abbrev win4_9 : Pipeline.Window sig grid4 :=
  Pipeline.Window.ofSpec (Memref.whole main_v231) S1x256.size cc4_transform_9 reads4_9 false true 1 stage4_9 sem4_9
    hrank4 hreads4_9 hinb4_9 nbuf4_9 (Memref.isWhole_whole _) hwx4_9 hstage4_9

abbrev win4_10 : Pipeline.Window sig grid4 :=
  Pipeline.Window.ofSpec (Memref.whole main_v232) S1x256.size cc4_transform_10 reads4_10 false true 1 stage4_10 sem4_10
    hrank4 hreads4_10 hinb4_10 nbuf4_10 (Memref.isWhole_whole _) hwx4_10 hstage4_10

abbrev win4_11 : Pipeline.Window sig grid4 :=
  Pipeline.Window.ofSpec (Memref.whole main_v234) S256x128.size cc4_transform_11 reads4_11 false true 1 stage4_11 sem4_11
    hrank4 hreads4_11 hinb4_11 nbuf4_11 (Memref.isWhole_whole _) hwx4_11 hstage4_11

abbrev win4_12 : Pipeline.Window sig grid4 :=
  Pipeline.Window.ofSpec (Memref.whole main_v236) S1x128.size cc4_transform_12 reads4_12 false true 1 stage4_12 sem4_12
    hrank4 hreads4_12 hinb4_12 nbuf4_12 (Memref.isWhole_whole _) hwx4_12 hstage4_12

abbrev win4_13 : Pipeline.Window sig grid4 :=
  Pipeline.Window.ofSpec (Memref.whole main_v237) S2000x128.size cc4_transform_13 reads4_13 true false 2 stage4_13 sem4_13
    hrank4 hreads4_13 hinb4_13 nbuf4_13 (Memref.isWhole_whole _) hwx4_13 hstage4_13

abbrev win4 : Fin 14 → Pipeline.Window sig grid4 := fun | 0 => win4_0 | 1 => win4_1 | 2 => win4_2 | 3 => win4_3 | 4 => win4_4 | 5 => win4_5 | 6 => win4_6 | 7 => win4_7 | 8 => win4_8 | 9 => win4_9 | 10 => win4_10 | 11 => win4_11 | 12 => win4_12 | 13 => win4_13 | ⟨_ + 14, h⟩ => absurd h (Nat.not_lt.2 (Nat.le_add_left _ _))
abbrev spec4 : Fin 14 → Pipeline.WinSpec sig grid4.rank := fun w => (win4 w).toWinSpec

class Facts : Prop extends Facts₀ where

variable [Facts]
-- ==== ReferenceIdeal.lean ====
abbrev S20000x256 : Shape := ⟨2, ![20000, 256]⟩
abbrev S2x320000 : Shape := ⟨2, ![2, 320000]⟩
abbrev S320000x6 : Shape := ⟨2, ![320000, 6]⟩
abbrev S320000 : Shape := ⟨1, ![320000]⟩
abbrev S4x3x256x256 : Shape := ⟨4, ![4, 3, 256, 256]⟩
abbrev S1024x256 : Shape := ⟨2, ![1024, 256]⟩
abbrev S256 : Shape := ⟨1, ![256]⟩
abbrev S256x2 : Shape := ⟨2, ![256, 2]⟩
abbrev S2 : Shape := ⟨1, ![2]⟩
abbrev S1x320000 : Shape := ⟨2, ![1, 320000]⟩
abbrev S_ : Shape := ⟨0, ![]⟩
abbrev S20000 : Shape := ⟨1, ![20000]⟩
abbrev S320000x1 : Shape := ⟨2, ![320000, 1]⟩
abbrev S1x3x256x256 : Shape := ⟨4, ![1, 3, 256, 256]⟩
abbrev S3x256x256 : Shape := ⟨3, ![3, 256, 256]⟩
abbrev S320000x256 : Shape := ⟨2, ![320000, 256]⟩
abbrev S1x256x256 : Shape := ⟨3, ![1, 256, 256]⟩
abbrev S256x256 : Shape := ⟨2, ![256, 256]⟩
abbrev S20000x512 : Shape := ⟨2, ![20000, 512]⟩
abbrev S20000x768 : Shape := ⟨2, ![20000, 768]⟩
abbrev S20000x1024 : Shape := ⟨2, ![20000, 1024]⟩
abbrev S1x256 : Shape := ⟨2, ![1, 256]⟩
abbrev S20000x2 : Shape := ⟨2, ![20000, 2]⟩
abbrev S1x2 : Shape := ⟨2, ![1, 2]⟩

abbrev nBuf : Space → Nat
  | .hbm => 286
  | .vmem => 0
  | .smem => 0
  | _ => 0

abbrev hbmTy0_0 (i : Nat) : BufTy := match i % 128 with
  | 0 => ⟨S20000x256, .f32⟩
  | 1 => ⟨S2x320000, .i32⟩
  | 2 => ⟨S320000x6, .f32⟩
  | 3 => ⟨S320000, .f32⟩
  | 4 => ⟨S4x3x256x256, .f32⟩
  | 5 => ⟨S1024x256, .f32⟩
  | 6 => ⟨S256, .f32⟩
  | 7 => ⟨S256, .f32⟩
  | 8 => ⟨S256, .f32⟩
  | 9 => ⟨S256, .f32⟩
  | 10 => ⟨S256, .f32⟩
  | 11 => ⟨S256x2, .f32⟩
  | 12 => ⟨S2, .f32⟩
  | 13 => ⟨S1x320000, .i32⟩
  | 14 => ⟨S320000, .i32⟩
  | 15 => ⟨S1x320000, .i32⟩
  | 16 => ⟨S320000, .i32⟩
  | 17 => ⟨S_, .f32⟩
  | 18 => ⟨S20000, .f32⟩
  | 19 => ⟨S320000x1, .i32⟩
  | 20 => ⟨S20000, .f32⟩
  | 21 => ⟨S_, .f32⟩
  | 22 => ⟨S20000, .f32⟩
  | 23 => ⟨S20000, .i1⟩
  | 24 => ⟨S20000, .f32⟩
  | 25 => ⟨S_, .f32⟩
  | 26 => ⟨S_, .f32⟩
  | 27 => ⟨S20000, .f32⟩
  | 28 => ⟨S20000, .f32⟩
  | 29 => ⟨S_, .i32⟩
  | 30 => ⟨S320000, .i32⟩
  | 31 => ⟨S320000, .i1⟩
  | 32 => ⟨S_, .i32⟩
  | 33 => ⟨S320000, .i32⟩
  | 34 => ⟨S320000, .i32⟩
  | 35 => ⟨S320000, .i32⟩
  | 36 => ⟨S320000x1, .i32⟩
  | 37 => ⟨S320000, .f32⟩
  | 38 => ⟨S320000, .f32⟩
  | 39 => ⟨S_, .i32⟩
  | 40 => ⟨S320000, .i32⟩
  | 41 => ⟨S320000, .i1⟩
  | 42 => ⟨S_, .i32⟩
  | 43 => ⟨S320000, .i32⟩
  | 44 => ⟨S320000, .i32⟩
  | 45 => ⟨S320000, .i32⟩
  | 46 => ⟨S320000x1, .i32⟩
  | 47 => ⟨S320000, .f32⟩
  | 48 => ⟨S320000, .f32⟩
  | 49 => ⟨S320000, .f32⟩
  | 50 => ⟨S1x3x256x256, .f32⟩
  | 51 => ⟨S3x256x256, .f32⟩
  | 52 => ⟨S320000x1, .f32⟩
  | 53 => ⟨S_, .i32⟩
  | 54 => ⟨S320000, .i32⟩
  | 55 => ⟨S320000, .i1⟩
  | 56 => ⟨S_, .i32⟩
  | 57 => ⟨S320000, .i32⟩
  | 58 => ⟨S320000, .i32⟩
  | 59 => ⟨S320000, .i32⟩
  | 60 => ⟨S320000x1, .i32⟩
  | 61 => ⟨S320000x256, .f32⟩
  | 62 => ⟨S320000x256, .f32⟩
  | 63 => ⟨S320000x256, .f32⟩
  | 64 => ⟨S_, .f32⟩
  | 65 => ⟨S20000x256, .f32⟩
  | 66 => ⟨S320000x1, .i32⟩
  | 67 => ⟨S20000x256, .f32⟩
  | 68 => ⟨S1x256x256, .f32⟩
  | 69 => ⟨S256x256, .f32⟩
  | 70 => ⟨S20000x256, .f32⟩
  | 71 => ⟨S1x256x256, .f32⟩
  | 72 => ⟨S256x256, .f32⟩
  | 73 => ⟨S20000x256, .f32⟩
  | 74 => ⟨S20000x256, .f32⟩
  | 75 => ⟨S320000x1, .f32⟩
  | 76 => ⟨S_, .i32⟩
  | 77 => ⟨S320000, .i32⟩
  | 78 => ⟨S320000, .i1⟩
  | 79 => ⟨S_, .i32⟩
  | 80 => ⟨S320000, .i32⟩
  | 81 => ⟨S320000, .i32⟩
  | 82 => ⟨S320000, .i32⟩
  | 83 => ⟨S320000x1, .i32⟩
  | 84 => ⟨S320000x256, .f32⟩
  | 85 => ⟨S320000x256, .f32⟩
  | 86 => ⟨S320000x256, .f32⟩
  | 87 => ⟨S_, .f32⟩
  | 88 => ⟨S20000x256, .f32⟩
  | 89 => ⟨S320000x1, .i32⟩
  | 90 => ⟨S20000x256, .f32⟩
  | 91 => ⟨S_, .f32⟩
  | 92 => ⟨S20000x256, .f32⟩
  | 93 => ⟨S20000x256, .f32⟩
  | 94 => ⟨S20000x256, .f32⟩
  | 95 => ⟨S1x256x256, .f32⟩
  | 96 => ⟨S256x256, .f32⟩
  | 97 => ⟨S20000x256, .f32⟩
  | 98 => ⟨S20000x256, .f32⟩
  | 99 => ⟨S_, .f32⟩
  | 100 => ⟨S20000x256, .f32⟩
  | 101 => ⟨S20000x256, .f32⟩
  | 102 => ⟨S1x3x256x256, .f32⟩
  | 103 => ⟨S3x256x256, .f32⟩
  | 104 => ⟨S320000x1, .f32⟩
  | 105 => ⟨S_, .i32⟩
  | 106 => ⟨S320000, .i32⟩
  | 107 => ⟨S320000, .i1⟩
  | 108 => ⟨S_, .i32⟩
  | 109 => ⟨S320000, .i32⟩
  | 110 => ⟨S320000, .i32⟩
  | 111 => ⟨S320000, .i32⟩
  | 112 => ⟨S320000x1, .i32⟩
  | 113 => ⟨S320000x256, .f32⟩
  | 114 => ⟨S320000x256, .f32⟩
  | 115 => ⟨S320000x256, .f32⟩
  | 116 => ⟨S_, .f32⟩
  | 117 => ⟨S20000x256, .f32⟩
  | 118 => ⟨S320000x1, .i32⟩
  | 119 => ⟨S20000x256, .f32⟩
  | 120 => ⟨S1x256x256, .f32⟩
  | 121 => ⟨S256x256, .f32⟩
  | 122 => ⟨S20000x256, .f32⟩
  | 123 => ⟨S1x256x256, .f32⟩
  | 124 => ⟨S256x256, .f32⟩
  | 125 => ⟨S20000x256, .f32⟩
  | 126 => ⟨S20000x256, .f32⟩
  | 127 => ⟨S320000x1, .f32⟩
  | _ => ⟨S20000x256, .f32⟩

abbrev hbmTy0_1 (i : Nat) : BufTy := match i % 128 with
  | 0 => ⟨S_, .i32⟩
  | 1 => ⟨S320000, .i32⟩
  | 2 => ⟨S320000, .i1⟩
  | 3 => ⟨S_, .i32⟩
  | 4 => ⟨S320000, .i32⟩
  | 5 => ⟨S320000, .i32⟩
  | 6 => ⟨S320000, .i32⟩
  | 7 => ⟨S320000x1, .i32⟩
  | 8 => ⟨S320000x256, .f32⟩
  | 9 => ⟨S320000x256, .f32⟩
  | 10 => ⟨S320000x256, .f32⟩
  | 11 => ⟨S_, .f32⟩
  | 12 => ⟨S20000x256, .f32⟩
  | 13 => ⟨S320000x1, .i32⟩
  | 14 => ⟨S20000x256, .f32⟩
  | 15 => ⟨S_, .f32⟩
  | 16 => ⟨S20000x256, .f32⟩
  | 17 => ⟨S20000x256, .f32⟩
  | 18 => ⟨S20000x256, .f32⟩
  | 19 => ⟨S1x256x256, .f32⟩
  | 20 => ⟨S256x256, .f32⟩
  | 21 => ⟨S20000x256, .f32⟩
  | 22 => ⟨S20000x256, .f32⟩
  | 23 => ⟨S_, .f32⟩
  | 24 => ⟨S20000x256, .f32⟩
  | 25 => ⟨S20000x256, .f32⟩
  | 26 => ⟨S20000x512, .f32⟩
  | 27 => ⟨S1x3x256x256, .f32⟩
  | 28 => ⟨S3x256x256, .f32⟩
  | 29 => ⟨S320000x1, .f32⟩
  | 30 => ⟨S_, .i32⟩
  | 31 => ⟨S320000, .i32⟩
  | 32 => ⟨S320000, .i1⟩
  | 33 => ⟨S_, .i32⟩
  | 34 => ⟨S320000, .i32⟩
  | 35 => ⟨S320000, .i32⟩
  | 36 => ⟨S320000, .i32⟩
  | 37 => ⟨S320000x1, .i32⟩
  | 38 => ⟨S320000x256, .f32⟩
  | 39 => ⟨S320000x256, .f32⟩
  | 40 => ⟨S320000x256, .f32⟩
  | 41 => ⟨S_, .f32⟩
  | 42 => ⟨S20000x256, .f32⟩
  | 43 => ⟨S320000x1, .i32⟩
  | 44 => ⟨S20000x256, .f32⟩
  | 45 => ⟨S1x256x256, .f32⟩
  | 46 => ⟨S256x256, .f32⟩
  | 47 => ⟨S20000x256, .f32⟩
  | 48 => ⟨S1x256x256, .f32⟩
  | 49 => ⟨S256x256, .f32⟩
  | 50 => ⟨S20000x256, .f32⟩
  | 51 => ⟨S20000x256, .f32⟩
  | 52 => ⟨S320000x1, .f32⟩
  | 53 => ⟨S_, .i32⟩
  | 54 => ⟨S320000, .i32⟩
  | 55 => ⟨S320000, .i1⟩
  | 56 => ⟨S_, .i32⟩
  | 57 => ⟨S320000, .i32⟩
  | 58 => ⟨S320000, .i32⟩
  | 59 => ⟨S320000, .i32⟩
  | 60 => ⟨S320000x1, .i32⟩
  | 61 => ⟨S320000x256, .f32⟩
  | 62 => ⟨S320000x256, .f32⟩
  | 63 => ⟨S320000x256, .f32⟩
  | 64 => ⟨S_, .f32⟩
  | 65 => ⟨S20000x256, .f32⟩
  | 66 => ⟨S320000x1, .i32⟩
  | 67 => ⟨S20000x256, .f32⟩
  | 68 => ⟨S_, .f32⟩
  | 69 => ⟨S20000x256, .f32⟩
  | 70 => ⟨S20000x256, .f32⟩
  | 71 => ⟨S20000x256, .f32⟩
  | 72 => ⟨S1x256x256, .f32⟩
  | 73 => ⟨S256x256, .f32⟩
  | 74 => ⟨S20000x256, .f32⟩
  | 75 => ⟨S20000x256, .f32⟩
  | 76 => ⟨S_, .f32⟩
  | 77 => ⟨S20000x256, .f32⟩
  | 78 => ⟨S20000x256, .f32⟩
  | 79 => ⟨S20000x768, .f32⟩
  | 80 => ⟨S1x3x256x256, .f32⟩
  | 81 => ⟨S3x256x256, .f32⟩
  | 82 => ⟨S320000x1, .f32⟩
  | 83 => ⟨S_, .i32⟩
  | 84 => ⟨S320000, .i32⟩
  | 85 => ⟨S320000, .i1⟩
  | 86 => ⟨S_, .i32⟩
  | 87 => ⟨S320000, .i32⟩
  | 88 => ⟨S320000, .i32⟩
  | 89 => ⟨S320000, .i32⟩
  | 90 => ⟨S320000x1, .i32⟩
  | 91 => ⟨S320000x256, .f32⟩
  | 92 => ⟨S320000x256, .f32⟩
  | 93 => ⟨S320000x256, .f32⟩
  | 94 => ⟨S_, .f32⟩
  | 95 => ⟨S20000x256, .f32⟩
  | 96 => ⟨S320000x1, .i32⟩
  | 97 => ⟨S20000x256, .f32⟩
  | 98 => ⟨S1x256x256, .f32⟩
  | 99 => ⟨S256x256, .f32⟩
  | 100 => ⟨S20000x256, .f32⟩
  | 101 => ⟨S1x256x256, .f32⟩
  | 102 => ⟨S256x256, .f32⟩
  | 103 => ⟨S20000x256, .f32⟩
  | 104 => ⟨S20000x256, .f32⟩
  | 105 => ⟨S320000x1, .f32⟩
  | 106 => ⟨S_, .i32⟩
  | 107 => ⟨S320000, .i32⟩
  | 108 => ⟨S320000, .i1⟩
  | 109 => ⟨S_, .i32⟩
  | 110 => ⟨S320000, .i32⟩
  | 111 => ⟨S320000, .i32⟩
  | 112 => ⟨S320000, .i32⟩
  | 113 => ⟨S320000x1, .i32⟩
  | 114 => ⟨S320000x256, .f32⟩
  | 115 => ⟨S320000x256, .f32⟩
  | 116 => ⟨S320000x256, .f32⟩
  | 117 => ⟨S_, .f32⟩
  | 118 => ⟨S20000x256, .f32⟩
  | 119 => ⟨S320000x1, .i32⟩
  | 120 => ⟨S20000x256, .f32⟩
  | 121 => ⟨S_, .f32⟩
  | 122 => ⟨S20000x256, .f32⟩
  | 123 => ⟨S20000x256, .f32⟩
  | 124 => ⟨S20000x256, .f32⟩
  | 125 => ⟨S1x256x256, .f32⟩
  | 126 => ⟨S256x256, .f32⟩
  | 127 => ⟨S20000x256, .f32⟩
  | _ => ⟨S20000x256, .f32⟩

abbrev hbmTy0_2 (i : Nat) : BufTy := match i % 128 with
  | 0 => ⟨S20000x256, .f32⟩
  | 1 => ⟨S_, .f32⟩
  | 2 => ⟨S20000x256, .f32⟩
  | 3 => ⟨S20000x256, .f32⟩
  | 4 => ⟨S20000x1024, .f32⟩
  | 5 => ⟨S20000x256, .f32⟩
  | 6 => ⟨S1x256, .f32⟩
  | 7 => ⟨S20000x256, .f32⟩
  | 8 => ⟨S20000x256, .f32⟩
  | 9 => ⟨S_, .f32⟩
  | 10 => ⟨S20000x256, .f32⟩
  | 11 => ⟨S20000x256, .f32⟩
  | 12 => ⟨S1x256, .f32⟩
  | 13 => ⟨S20000x256, .f32⟩
  | 14 => ⟨S20000x256, .f32⟩
  | 15 => ⟨S_, .f32⟩
  | 16 => ⟨S256, .f32⟩
  | 17 => ⟨S256, .f32⟩
  | 18 => ⟨S256, .f32⟩
  | 19 => ⟨S256, .f32⟩
  | 20 => ⟨S1x256, .f32⟩
  | 21 => ⟨S20000x256, .f32⟩
  | 22 => ⟨S20000x256, .f32⟩
  | 23 => ⟨S1x256, .f32⟩
  | 24 => ⟨S20000x256, .f32⟩
  | 25 => ⟨S20000x256, .f32⟩
  | 26 => ⟨S20000x2, .f32⟩
  | 27 => ⟨S1x2, .f32⟩
  | 28 => ⟨S20000x2, .f32⟩
  | 29 => ⟨S20000x2, .f32⟩
  | _ => ⟨S20000x256, .f32⟩

abbrev hbmTy (i : Nat) : BufTy := match i / 128 with
  | 0 => hbmTy0_0 i
  | 1 => hbmTy0_1 i
  | 2 => hbmTy0_2 i
  | _ => ⟨S20000x256, .f32⟩

abbrev bufTy : (tb : Table) → Fin (tcTables nBuf tb) → BufTy
  | .hbm, ⟨i, _⟩ => hbmTy i
  | _, _ => ⟨S20000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst_0 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst_1 : Ref sig .tc := ⟨.hbm, 25, rfl⟩
abbrev main_call0_v0 : Ref sig .tc := ⟨.hbm, 26, rfl⟩
abbrev main_call0_v1 : Ref sig .tc := ⟨.hbm, 27, rfl⟩
abbrev main_v10 : Ref sig .tc := ⟨.hbm, 28, rfl⟩
abbrev main_c : Ref sig .tc := ⟨.hbm, 29, rfl⟩
abbrev main_v11 : Ref sig .tc := ⟨.hbm, 30, rfl⟩
abbrev main_v12 : Ref sig .tc := ⟨.hbm, 31, rfl⟩
abbrev main_c_2 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_c_3 : Ref sig .tc := ⟨.hbm, 39, rfl⟩
abbrev main_v19 : Ref sig .tc := ⟨.hbm, 40, rfl⟩
abbrev main_v20 : Ref sig .tc := ⟨.hbm, 41, rfl⟩
abbrev main_c_4 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_c_5 : Ref sig .tc := ⟨.hbm, 53, rfl⟩
abbrev main_v31 : Ref sig .tc := ⟨.hbm, 54, rfl⟩
abbrev main_v32 : Ref sig .tc := ⟨.hbm, 55, rfl⟩
abbrev main_c_6 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_cst_7 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_c_8 : Ref sig .tc := ⟨.hbm, 76, rfl⟩
abbrev main_v51 : Ref sig .tc := ⟨.hbm, 77, rfl⟩
abbrev main_v52 : Ref sig .tc := ⟨.hbm, 78, rfl⟩
abbrev main_c_9 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_cst_10 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_cst_11 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_call1_cst : Ref sig .tc := ⟨.hbm, 99, rfl⟩
abbrev main_call1_v0 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_c_12 : Ref sig .tc := ⟨.hbm, 105, rfl⟩
abbrev main_v74 : Ref sig .tc := ⟨.hbm, 106, rfl⟩
abbrev main_v75 : Ref sig .tc := ⟨.hbm, 107, rfl⟩
abbrev main_c_13 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_cst_14 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_c_15 : Ref sig .tc := ⟨.hbm, 128, rfl⟩
abbrev main_v94 : Ref sig .tc := ⟨.hbm, 129, rfl⟩
abbrev main_v95 : Ref sig .tc := ⟨.hbm, 130, rfl⟩
abbrev main_c_16 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_cst_17 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_cst_18 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_call2_cst : Ref sig .tc := ⟨.hbm, 151, rfl⟩
abbrev main_call2_v0 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_c_19 : Ref sig .tc := ⟨.hbm, 158, rfl⟩
abbrev main_v118 : Ref sig .tc := ⟨.hbm, 159, rfl⟩
abbrev main_v119 : Ref sig .tc := ⟨.hbm, 160, rfl⟩
abbrev main_c_20 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_v125 : Ref sig .tc := ⟨.hbm, 167, rfl⟩
abbrev main_v126 : Ref sig .tc := ⟨.hbm, 168, rfl⟩
abbrev main_cst_21 : Ref sig .tc := ⟨.hbm, 169, rfl⟩
abbrev main_v127 : Ref sig .tc := ⟨.hbm, 170, rfl⟩
abbrev main_v128 : Ref sig .tc := ⟨.hbm, 171, rfl⟩
abbrev main_v129 : Ref sig .tc := ⟨.hbm, 172, rfl⟩
abbrev main_v130 : Ref sig .tc := ⟨.hbm, 173, rfl⟩
abbrev main_v131 : Ref sig .tc := ⟨.hbm, 174, rfl⟩
abbrev main_v132 : Ref sig .tc := ⟨.hbm, 175, rfl⟩
abbrev main_v133 : Ref sig .tc := ⟨.hbm, 176, rfl⟩
abbrev main_v134 : Ref sig .tc := ⟨.hbm, 177, rfl⟩
abbrev main_v135 : Ref sig .tc := ⟨.hbm, 178, rfl⟩
abbrev main_v136 : Ref sig .tc := ⟨.hbm, 179, rfl⟩
abbrev main_v137 : Ref sig .tc := ⟨.hbm, 180, rfl⟩
abbrev main_c_22 : Ref sig .tc := ⟨.hbm, 181, rfl⟩
abbrev main_v138 : Ref sig .tc := ⟨.hbm, 182, rfl⟩
abbrev main_v139 : Ref sig .tc := ⟨.hbm, 183, rfl⟩
abbrev main_c_23 : Ref sig .tc := ⟨.hbm, 184, rfl⟩
abbrev main_v140 : Ref sig .tc := ⟨.hbm, 185, rfl⟩
abbrev main_v141 : Ref sig .tc := ⟨.hbm, 186, rfl⟩
abbrev main_v142 : Ref sig .tc := ⟨.hbm, 187, rfl⟩
abbrev main_v143 : Ref sig .tc := ⟨.hbm, 188, rfl⟩
abbrev main_v144 : Ref sig .tc := ⟨.hbm, 189, rfl⟩
abbrev main_v145 : Ref sig .tc := ⟨.hbm, 190, rfl⟩
abbrev main_v146 : Ref sig .tc := ⟨.hbm, 191, rfl⟩
abbrev main_cst_24 : Ref sig .tc := ⟨.hbm, 192, rfl⟩
abbrev main_v147 : Ref sig .tc := ⟨.hbm, 193, rfl⟩
abbrev main_v148 : Ref sig .tc := ⟨.hbm, 194, rfl⟩
abbrev main_v149 : Ref sig .tc := ⟨.hbm, 195, rfl⟩
abbrev main_cst_25 : Ref sig .tc := ⟨.hbm, 196, rfl⟩
abbrev main_v150 : Ref sig .tc := ⟨.hbm, 197, rfl⟩
abbrev main_v151 : Ref sig .tc := ⟨.hbm, 198, rfl⟩
abbrev main_v152 : Ref sig .tc := ⟨.hbm, 199, rfl⟩
abbrev main_v153 : Ref sig .tc := ⟨.hbm, 200, rfl⟩
abbrev main_v154 : Ref sig .tc := ⟨.hbm, 201, rfl⟩
abbrev main_v155 : Ref sig .tc := ⟨.hbm, 202, rfl⟩
abbrev main_v156 : Ref sig .tc := ⟨.hbm, 203, rfl⟩
abbrev main_call3_cst : Ref sig .tc := ⟨.hbm, 204, rfl⟩
abbrev main_call3_v0 : Ref sig .tc := ⟨.hbm, 205, rfl⟩
abbrev main_v157 : Ref sig .tc := ⟨.hbm, 206, rfl⟩
abbrev main_v158 : Ref sig .tc := ⟨.hbm, 207, rfl⟩
abbrev main_v159 : Ref sig .tc := ⟨.hbm, 208, rfl⟩
abbrev main_v160 : Ref sig .tc := ⟨.hbm, 209, rfl⟩
abbrev main_v161 : Ref sig .tc := ⟨.hbm, 210, rfl⟩
abbrev main_c_26 : Ref sig .tc := ⟨.hbm, 211, rfl⟩
abbrev main_v162 : Ref sig .tc := ⟨.hbm, 212, rfl⟩
abbrev main_v163 : Ref sig .tc := ⟨.hbm, 213, rfl⟩
abbrev main_c_27 : Ref sig .tc := ⟨.hbm, 214, rfl⟩
abbrev main_v164 : Ref sig .tc := ⟨.hbm, 215, rfl⟩
abbrev main_v165 : Ref sig .tc := ⟨.hbm, 216, rfl⟩
abbrev main_v166 : Ref sig .tc := ⟨.hbm, 217, rfl⟩
abbrev main_v167 : Ref sig .tc := ⟨.hbm, 218, rfl⟩
abbrev main_v168 : Ref sig .tc := ⟨.hbm, 219, rfl⟩
abbrev main_v169 : Ref sig .tc := ⟨.hbm, 220, rfl⟩
abbrev main_v170 : Ref sig .tc := ⟨.hbm, 221, rfl⟩
abbrev main_cst_28 : Ref sig .tc := ⟨.hbm, 222, rfl⟩
abbrev main_v171 : Ref sig .tc := ⟨.hbm, 223, rfl⟩
abbrev main_v172 : Ref sig .tc := ⟨.hbm, 224, rfl⟩
abbrev main_v173 : Ref sig .tc := ⟨.hbm, 225, rfl⟩
abbrev main_v174 : Ref sig .tc := ⟨.hbm, 226, rfl⟩
abbrev main_v175 : Ref sig .tc := ⟨.hbm, 227, rfl⟩
abbrev main_v176 : Ref sig .tc := ⟨.hbm, 228, rfl⟩
abbrev main_v177 : Ref sig .tc := ⟨.hbm, 229, rfl⟩
abbrev main_v178 : Ref sig .tc := ⟨.hbm, 230, rfl⟩
abbrev main_v179 : Ref sig .tc := ⟨.hbm, 231, rfl⟩
abbrev main_v180 : Ref sig .tc := ⟨.hbm, 232, rfl⟩
abbrev main_v181 : Ref sig .tc := ⟨.hbm, 233, rfl⟩
abbrev main_c_29 : Ref sig .tc := ⟨.hbm, 234, rfl⟩
abbrev main_v182 : Ref sig .tc := ⟨.hbm, 235, rfl⟩
abbrev main_v183 : Ref sig .tc := ⟨.hbm, 236, rfl⟩
abbrev main_c_30 : Ref sig .tc := ⟨.hbm, 237, rfl⟩
abbrev main_v184 : Ref sig .tc := ⟨.hbm, 238, rfl⟩
abbrev main_v185 : Ref sig .tc := ⟨.hbm, 239, rfl⟩
abbrev main_v186 : Ref sig .tc := ⟨.hbm, 240, rfl⟩
abbrev main_v187 : Ref sig .tc := ⟨.hbm, 241, rfl⟩
abbrev main_v188 : Ref sig .tc := ⟨.hbm, 242, rfl⟩
abbrev main_v189 : Ref sig .tc := ⟨.hbm, 243, rfl⟩
abbrev main_v190 : Ref sig .tc := ⟨.hbm, 244, rfl⟩
abbrev main_cst_31 : Ref sig .tc := ⟨.hbm, 245, rfl⟩
abbrev main_v191 : Ref sig .tc := ⟨.hbm, 246, rfl⟩
abbrev main_v192 : Ref sig .tc := ⟨.hbm, 247, rfl⟩
abbrev main_v193 : Ref sig .tc := ⟨.hbm, 248, rfl⟩
abbrev main_cst_32 : Ref sig .tc := ⟨.hbm, 249, rfl⟩
abbrev main_v194 : Ref sig .tc := ⟨.hbm, 250, rfl⟩
abbrev main_v195 : Ref sig .tc := ⟨.hbm, 251, rfl⟩
abbrev main_v196 : Ref sig .tc := ⟨.hbm, 252, rfl⟩
abbrev main_v197 : Ref sig .tc := ⟨.hbm, 253, rfl⟩
abbrev main_v198 : Ref sig .tc := ⟨.hbm, 254, rfl⟩
abbrev main_v199 : Ref sig .tc := ⟨.hbm, 255, rfl⟩
abbrev main_v200 : Ref sig .tc := ⟨.hbm, 256, rfl⟩
abbrev main_call4_cst : Ref sig .tc := ⟨.hbm, 257, rfl⟩
abbrev main_call4_v0 : Ref sig .tc := ⟨.hbm, 258, rfl⟩
abbrev main_v201 : Ref sig .tc := ⟨.hbm, 259, rfl⟩
abbrev main_v202 : Ref sig .tc := ⟨.hbm, 260, rfl⟩
abbrev main_v203 : Ref sig .tc := ⟨.hbm, 261, rfl⟩
abbrev main_v204 : Ref sig .tc := ⟨.hbm, 262, rfl⟩
abbrev main_v205 : Ref sig .tc := ⟨.hbm, 263, rfl⟩
abbrev main_v206 : Ref sig .tc := ⟨.hbm, 264, rfl⟩
abbrev main_call5_cst : Ref sig .tc := ⟨.hbm, 265, rfl⟩
abbrev main_call5_v0 : Ref sig .tc := ⟨.hbm, 266, rfl⟩
abbrev main_v207 : Ref sig .tc := ⟨.hbm, 267, rfl⟩
abbrev main_v208 : Ref sig .tc := ⟨.hbm, 268, rfl⟩
abbrev main_v209 : Ref sig .tc := ⟨.hbm, 269, rfl⟩
abbrev main_v210 : Ref sig .tc := ⟨.hbm, 270, rfl⟩
abbrev main_cst_33 : Ref sig .tc := ⟨.hbm, 271, rfl⟩
abbrev main_v211 : Ref sig .tc := ⟨.hbm, 272, rfl⟩
abbrev main_v212 : Ref sig .tc := ⟨.hbm, 273, rfl⟩
abbrev main_v213 : Ref sig .tc := ⟨.hbm, 274, rfl⟩
abbrev main_v214 : Ref sig .tc := ⟨.hbm, 275, rfl⟩
abbrev main_v215 : Ref sig .tc := ⟨.hbm, 276, rfl⟩
abbrev main_v216 : Ref sig .tc := ⟨.hbm, 277, rfl⟩
abbrev main_v217 : Ref sig .tc := ⟨.hbm, 278, rfl⟩
abbrev main_v218 : Ref sig .tc := ⟨.hbm, 279, rfl⟩
abbrev main_v219 : Ref sig .tc := ⟨.hbm, 280, rfl⟩
abbrev main_v220 : Ref sig .tc := ⟨.hbm, 281, rfl⟩
abbrev main_v221 : Ref sig .tc := ⟨.hbm, 282, rfl⟩
abbrev main_v222 : Ref sig .tc := ⟨.hbm, 283, rfl⟩
abbrev main_v223 : Ref sig .tc := ⟨.hbm, 284, rfl⟩
abbrev main_v224 : Ref sig .tc := ⟨.hbm, 285, rfl⟩

abbrev nD : Nat := 1
abbrev τ : Topo := Topo.v7x

variable {F : FTy → Type} [FloatOps F]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S20000 : S_.BroadcastsInDim S20000 (![] : Fin 0 → Fin S20000.rank)
  bcast_S320000_S320000x1_0 : S320000.BroadcastsInDim S320000x1 (![0] : Fin 1 → Fin S320000x1.rank)
  bcast_S_S320000 : S_.BroadcastsInDim S320000 (![] : Fin 0 → Fin S320000.rank)
  slices_S4x3x256x256_S1x3x256x256_0_0_0_0 : S4x3x256x256.Slices ![0, 0, 0, 0] S1x3x256x256
  shapeCasts_S1x3x256x256_S3x256x256 : S1x3x256x256.ShapeCasts S3x256x256
  bcast_S320000x1_S320000x256_0_1 : S320000x1.BroadcastsInDim S320000x256 (![0, 1] : Fin 2 → Fin S320000x256.rank)
  bcast_S_S20000x256 : S_.BroadcastsInDim S20000x256 (![] : Fin 0 → Fin S20000x256.rank)
  slices_S3x256x256_S1x256x256_0_0_0 : S3x256x256.Slices ![0, 0, 0] S1x256x256
  shapeCasts_S1x256x256_S256x256 : S1x256x256.ShapeCasts S256x256
  slices_S3x256x256_S1x256x256_1_0_0 : S3x256x256.Slices ![1, 0, 0] S1x256x256
  slices_S3x256x256_S1x256x256_2_0_0 : S3x256x256.Slices ![2, 0, 0] S1x256x256
  slices_S4x3x256x256_S1x3x256x256_1_0_0_0 : S4x3x256x256.Slices ![1, 0, 0, 0] S1x3x256x256
  concatenates_S20000x256_S20000x256_S20000x512_d1 : Shape.Concatenates [S20000x256, S20000x256] S20000x512 1
  slices_S4x3x256x256_S1x3x256x256_2_0_0_0 : S4x3x256x256.Slices ![2, 0, 0, 0] S1x3x256x256
  concatenates_S20000x512_S20000x256_S20000x768_d1 : Shape.Concatenates [S20000x512, S20000x256] S20000x768 1
  slices_S4x3x256x256_S1x3x256x256_3_0_0_0 : S4x3x256x256.Slices ![3, 0, 0, 0] S1x3x256x256
  concatenates_S20000x768_S20000x256_S20000x1024_d1 : Shape.Concatenates [S20000x768, S20000x256] S20000x1024 1
  bcast_S256_S1x256_1 : S256.BroadcastsInDim S1x256 (![1] : Fin 1 → Fin S1x256.rank)
  bcast_S1x256_S20000x256_0_1 : S1x256.BroadcastsInDim S20000x256 (![0, 1] : Fin 2 → Fin S20000x256.rank)
  bcast_S_S256 : S_.BroadcastsInDim S256 (![] : Fin 0 → Fin S256.rank)
  bcast_S2_S1x2_1 : S2.BroadcastsInDim S1x2 (![1] : Fin 1 → Fin S1x2.rank)
  bcast_S1x2_S20000x2_0_1 : S1x2.BroadcastsInDim S20000x2 (![0, 1] : Fin 2 → Fin S20000x2.rank)
  scatter_S20000_S320000x1_S320000_n_0_0_1_wf : ScatterDims.WF S20000 S320000x1 S320000 [] [0] [0] 1
  gather_S20000_S320000x1_S320000_n_0_n_n_0_1_1_wf : GatherDims.WF S20000 S320000x1 S320000 [] [0] [] [0] [] 1 ![1]
  gather_S20000x256_S320000x1_S320000x256_1_0_n_n_0_1_1256_wf : GatherDims.WF S20000x256 S320000x1 S320000x256 [1] [0] [] [0] [] 1 ![1, 256]
  scatter_S20000x256_S320000x1_S320000x256_1_0_0_1_wf : ScatterDims.WF S20000x256 S320000x1 S320000x256 [1] [0] [0] 1
  dot_S20000x256_S256x256_S20000x256_1_0_0_1_n_n_wf : DotDims.WF S20000x256 S256x256 S20000x256 [1] [0] [0] [1] [] []
  dot_S20000x1024_S1024x256_S20000x256_1_0_0_1_n_n_wf : DotDims.WF S20000x1024 S1024x256 S20000x256 [1] [0] [0] [1] [] []
  dot_S20000x256_S256x2_S20000x2_1_0_0_1_n_n_wf : DotDims.WF S20000x256 S256x2 S20000x2 [1] [0] [0] [1] [] []

variable [Facts₀]

def scatter_S20000_S320000x1_S320000_n_0_0_1 : ScatterDims S20000 S320000x1 S320000 where
  updateWindowDims := []
  insertedWindowDims := [0]
  scatterDimsToOperandDims := [0]
  indexVectorDim := 1
  wf := scatter_S20000_S320000x1_S320000_n_0_0_1_wf
def gather_S20000_S320000x1_S320000_n_0_n_n_0_1_1 : GatherDims S20000 S320000x1 S320000 where
  offsetDims := []
  collapsedSliceDims := [0]
  operandBatchingDims := []
  startIndicesBatchingDims := []
  startIndexMap := [0]
  indexVectorDim := 1
  sliceSizes := ![1]
  wf := gather_S20000_S320000x1_S320000_n_0_n_n_0_1_1_wf
def gather_S20000x256_S320000x1_S320000x256_1_0_n_n_0_1_1256 : GatherDims S20000x256 S320000x1 S320000x256 where
  offsetDims := [1]
  collapsedSliceDims := [0]
  operandBatchingDims := []
  startIndicesBatchingDims := []
  startIndexMap := [0]
  indexVectorDim := 1
  sliceSizes := ![1, 256]
  wf := gather_S20000x256_S320000x1_S320000x256_1_0_n_n_0_1_1256_wf
def scatter_S20000x256_S320000x1_S320000x256_1_0_0_1 : ScatterDims S20000x256 S320000x1 S320000x256 where
  updateWindowDims := [1]
  insertedWindowDims := [0]
  scatterDimsToOperandDims := [0]
  indexVectorDim := 1
  wf := scatter_S20000x256_S320000x1_S320000x256_1_0_0_1_wf
def dot_S20000x256_S256x256_S20000x256_1_0_0_1_n_n : DotDims S20000x256 S256x256 S20000x256 where
  lhsContracting := [1]
  rhsContracting := [0]
  lhsNonContracting := [0]
  rhsNonContracting := [1]
  lhsBatch := []
  rhsBatch := []
  wf := dot_S20000x256_S256x256_S20000x256_1_0_0_1_n_n_wf
def dot_S20000x1024_S1024x256_S20000x256_1_0_0_1_n_n : DotDims S20000x1024 S1024x256 S20000x256 where
  lhsContracting := [1]
  rhsContracting := [0]
  lhsNonContracting := [0]
  rhsNonContracting := [1]
  lhsBatch := []
  rhsBatch := []
  wf := dot_S20000x1024_S1024x256_S20000x256_1_0_0_1_n_n_wf
def dot_S20000x256_S256x2_S20000x2_1_0_0_1_n_n : DotDims S20000x256 S256x2 S20000x2 where
  lhsContracting := [1]
  rhsContracting := [0]
  lhsNonContracting := [0]
  rhsNonContracting := [1]
  lhsBatch := []
  rhsBatch := []
  wf := dot_S20000x256_S256x2_S20000x2_1_0_0_1_n_n_wf

class Facts : Prop extends Facts₀ where

variable [Facts]
-- ==== Proof.KernelRun.lean ====
/-
  The kernel program's run, with its result named.

  The program is seventeen segments: stretches of host operations and five pipelined kernel launches. Its frame
  theorem already follows the contents of every buffer through all of them, from the launch memory to the last
  boundary, and then keeps only what it needs: that the argument arrays end as launched. The same launch keeps one
  more fact here: the result buffer ends at the last boundary's contents, which later modules read back through the
  segments as a function of the arguments.
-/
import proofs.«165358_j80178449481840_2_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the last
    boundary's contents and the argument arrays as launched. -/
theorem run : θ_run defs (onTc (τ := τ) (main (F := F))) ⟨m, fun _ => 0, ρ⟩ (fun r => ∀ c : Dev nD,
      r.2.mem ((c.tc : Thread nD τ).loc main_v238) = W17 m ρ c (Proc.devRef .tc main_v238)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W17 m ρ c b)
    (hfin := fun c s' => by
      iintro ⟨⟨Hh, -⟩, HSI⟩
      unfold StableHlo.held
      imodintro
      iapply (pointsTo_read_all (Pipeline.ucRefs τ sig) (fun b => (((c : Thread nD τ)).1, b)) (W17 m ρ c) s')
      isplitl [Hh] <;> iassumption)
    (hQ := fun s h c =>
      ⟨h c _ (mem_uc main_v238 (by decide)),
       (h c _ (mem_uc main_arg0 (by decide))).trans (W17_main_arg0 m ρ c),
       (h c _ (mem_uc main_arg1 (by decide))).trans (W17_main_arg1 m ρ c),
       (h c _ (mem_uc main_arg2 (by decide))).trans (W17_main_arg2 m ρ c),
       (h c _ (mem_uc main_arg3 (by decide))).trans (W17_main_arg3 m ρ c),
       (h c _ (mem_uc main_arg4 (by decide))).trans (W17_main_arg4 m ρ c),
       (h c _ (mem_uc main_arg5 (by decide))).trans (W17_main_arg5 m ρ c),
       (h c _ (mem_uc main_arg6 (by decide))).trans (W17_main_arg6 m ρ c),
       (h c _ (mem_uc main_arg7 (by decide))).trans (W17_main_arg7 m ρ c),
       (h c _ (mem_uc main_arg8 (by decide))).trans (W17_main_arg8 m ρ c),
       (h c _ (mem_uc main_arg9 (by decide))).trans (W17_main_arg9 m ρ c),
       (h c _ (mem_uc main_arg10 (by decide))).trans (W17_main_arg10 m ρ c),
       (h c _ (mem_uc main_arg11 (by decide))).trans (W17_main_arg11 m ρ c),
       (h c _ (mem_uc main_arg12 (by decide))).trans (W17_main_arg12 m ρ c)⟩)

end Cert.KernelIdeal.Run

end
-- ==== Proof.Spec.lean ====
/-
  The functions both programs compute, index by index, over the extended reals.

  A feature matrix has 20000 rows (graph nodes) and 256 columns. One Chebyshev layer combines the layer's input
  `X`, its first propagation `T1` and the propagation of that, `P2`, with three 256×256 weight matrices:

    reference form   relu( X·W₀ + T1·W₁ + (2·P2 − X)·W₂ )
    folded form      relu( X·A + T1·B + P2·C )              with A = W₀ − W₂, B = W₁, C = 2·W₂ formed beforehand.

  The classifier head contracts the four layers' outputs, side by side (1024 columns), with a 1024×256 matrix, adds
  a bias, applies relu, then an affine normalisation per column (scale `γ·rsqrt(var + ε)`), then a 256×2 matrix and
  a bias. The folded program contracts block by block and applies the normalisation as `z·s + (β − μ·s)`.
-/
import Idealize.ShloMosaic.PureOps.Ideal
import Idealize.ShloMosaic.Lib.ValueIdx

noncomputable section

namespace Cert.Spec

open Idealize.ShloMosaic Idealize.ShloMosaic.ValueIdx
open scoped BigOperators

/-- A matrix of extended reals with literal extents. -/
abbrev Mat (r c : Nat) : Type := (⟨2, ![r, c]⟩ : Shape).Idx → EReal
/-- A vector of extended reals with a literal extent. -/
abbrev Row (c : Nat) : Type := (⟨1, ![c]⟩ : Shape).Idx → EReal
/-- The four layers' three weight matrices. -/
abbrev Weights : Type := (⟨4, ![4, 3, 256, 256]⟩ : Shape).Idx → EReal

/-- Row `n` of `a` against column `j` of `w`: `Σ_k a[n,k]·w[k,j]`. -/
def dot {r c : Nat} (K : Nat) (a : Mat r K) (w : Mat K c) (n : Fin r) (j : Fin c) : EReal :=
  ∑ k : Fin K, a (ix2 n k) * w (ix2 k j)

/-- The float literal 2.0, as printed in both programs. -/
def two : EReal := Ideal.ofBits .f32 0x40000000#32
/-- The normalisation's ε (the float nearest 1e-5), as printed in both programs. -/
def eps : EReal := Ideal.ofBits .f32 0x3727C5AC#32

/-- One Chebyshev layer in the reference's form, at row `n`, column `j`; `W` holds layer `l`'s three matrices. -/
def layerRef (X T1 P2 : Mat 20000 256) (W : Weights) (l : Fin 4) (n : Fin 20000) (j : Fin 256) : EReal :=
  max ((∑ k : Fin 256, X (ix2 n k) * W (ix4 l (0 : Fin 3) k j) + ∑ k : Fin 256, T1 (ix2 n k) * W (ix4 l (1 : Fin 3) k j))
        + ∑ k : Fin 256, (two * P2 (ix2 n k) - X (ix2 n k)) * W (ix4 l (2 : Fin 3) k j)) 0

/-- One Chebyshev layer with the recursion folded into the weights `A B C` formed beforehand. -/
def layerFolded (X T1 P2 : Mat 20000 256) (A B C : Mat 256 256) (n : Fin 20000) (j : Fin 256) : EReal :=
  max ((dot 256 X A n j + dot 256 T1 B n j) + dot 256 P2 C n j) 0

/-- The head's hidden layer in the reference's form: the 1024-column concatenation `jk` against `w1`, bias, relu. -/
def hiddenRef (jk : Mat 20000 1024) (w1 : Mat 1024 256) (b1 : Row 256) (n : Fin 20000) (q : Fin 256) : EReal :=
  max (∑ k : Fin 1024, jk (ix2 n k) * w1 (ix2 k q) + b1 (ix1 q)) 0

/-- The head's hidden layer contracted block by block against the four 256-row blocks of `w1`. -/
def hiddenBlocks (h0 h1 h2 h3 : Mat 20000 256) (v0 v1 v2 v3 : Mat 256 256) (b1 : Mat 1 256) (n : Fin 20000) (q : Fin 256) : EReal :=
  max (((((dot 256 h0 v0 n q + dot 256 h1 v1 n q) + dot 256 h2 v2 n q) + dot 256 h3 v3 n q)) + b1 (ix2 (0 : Fin 1) q)) 0

/-- The logits in the reference's form: `((z − μ)·(γ·rsqrt(var + ε)) + β)·w2 + b2`. -/
def logitRef (z : Mat 20000 256) (γ β μ var : Row 256) (w2 : Mat 256 2) (b2 : Row 2) (n : Fin 20000) (j : Fin 2) : EReal :=
  ∑ k : Fin 256, ((z (ix2 n k) - μ (ix1 k)) * (γ (ix1 k) * Ideal.rsqrt (var (ix1 k) + eps)) + β (ix1 k)) * w2 (ix2 k j)
    + b2 (ix1 j)

end Cert.Spec

end
-- ==== Proof.RefLayers.lean ====
/-
  The reference program, read layer by layer over the extended reals.

  The graph propagation (gather the rows of a feature matrix at the edges' sources, scale each by the edge's
  normalised weight, add the results up at the edges' targets) is kept as ONE opaque function propR of the
  normalised weights, the two rows of the edge list, and the feature matrix: all eight propagations of the
  program are this one function at different feature matrices.

  Around it, each Chebyshev layer at row n, column j is
      max ((sum_k X[n,k] W0[k,j] + sum_k T1[n,k] W1[k,j]) + sum_k (2 P2[n,k] - X[n,k]) W2[k,j]) 0
  with T1 = propR X and P2 = propR T1; the head reads the four layers' outputs side by side as one
  1024-column matrix, contracts it with a 1024 x 256 matrix, adds a bias and clamps at 0; the logits are an
  affine normalisation per column followed by a 256 x 2 contraction and a bias.
-/
import proofs.«165358_j80178449481840_2_alg».proof.Proof.RefRead
import proofs.«165358_j80178449481840_2_alg».proof.Proof.Spec
import Idealize.ShloMosaic.Lib.Pipeline.Value
import Idealize.ShloMosaic.Lib.ValueIdx
import Idealize.ShloMosaic.PureOps.Ideal.Laws

noncomputable section

namespace Cert.RefLayers

open Cert.ReferenceIdeal Cert.ReferenceIdeal.Gen Cert.ReferenceIdeal.ReadP Idealize.ShloMosaic Idealize.ShloMosaic.TcCoe Idealize.SL.Sem Idealize.ShloMosaic.StableHlo Idealize.ShloMosaic.ValueIdx
open scoped BigOperators

variable (x0 : (⟨S20000x256, .f32⟩ : BufTy).Contents (Elt Ideal)) (x1 : (⟨S2x320000, .i32⟩ : BufTy).Contents (Elt Ideal))
  (x3 : (⟨S320000, .f32⟩ : BufTy).Contents (Elt Ideal)) (x4 : (⟨S4x3x256x256, .f32⟩ : BufTy).Contents (Elt Ideal))
  (x5 : (⟨S1024x256, .f32⟩ : BufTy).Contents (Elt Ideal)) (x6 x7 x8 x9 x10 : (⟨S256, .f32⟩ : BufTy).Contents (Elt Ideal))
  (x11 : (⟨S256x2, .f32⟩ : BufTy).Contents (Elt Ideal)) (x12 : (⟨S2, .f32⟩ : BufTy).Contents (Elt Ideal))

/-! ## The stages, named once -/

/-- The edges' sources. -/
abbrev rowI := val_main_v1 (F := Ideal) x1
/-- The edges' targets. -/
abbrev colI := val_main_v3 (F := Ideal) x1
/-- The edges' normalised weights. -/
abbrev nrm := val_main_v27 (F := Ideal) x1 x3
abbrev T1_0 := val_main_v42 (F := Ideal) x0 x1 x3
abbrev P2_0 := val_main_v62 (F := Ideal) x0 x1 x3
abbrev H0 := val_main_v70 (F := Ideal) x0 x1 x3 x4
abbrev T1_1 := val_main_v85 (F := Ideal) x0 x1 x3 x4
abbrev P2_1 := val_main_v105 (F := Ideal) x0 x1 x3 x4
abbrev H1 := val_main_v113 (F := Ideal) x0 x1 x3 x4
abbrev T1_2 := val_main_v129 (F := Ideal) x0 x1 x3 x4
abbrev P2_2 := val_main_v149 (F := Ideal) x0 x1 x3 x4
abbrev H2 := val_main_v157 (F := Ideal) x0 x1 x3 x4
abbrev T1_3 := val_main_v173 (F := Ideal) x0 x1 x3 x4
abbrev P2_3 := val_main_v193 (F := Ideal) x0 x1 x3 x4
abbrev H3 := val_main_v201 (F := Ideal) x0 x1 x3 x4
abbrev JK := val_main_v202 (F := Ideal) x0 x1 x3 x4
abbrev Z := val_main_v207 (F := Ideal) x0 x1 x3 x4 x5 x6
abbrev OUT := val_main_v224 (F := Ideal) x0 x1 x3 x4 x5 x6 x7 x8 x9 x10 x11 x12

/-! ## Indices of a contraction: row n of the left factor against column j of the right one -/

/-! ## Layer 0 -/

theorem lidx_v45 (n : Fin 20000) (j k : Fin 256) : lidx_main_v45 (ix2 n j) k = ix2 n k :=
  funext fun a => Fin.ext (by match a with | ⟨0, _⟩ => rfl | ⟨1, _⟩ => rfl)
theorem ridx_v45 (n : Fin 20000) (j k : Fin 256) : ridx_main_v45 (ix2 n j) k = ix2 k j :=
  funext fun a => Fin.ext (by match a with | ⟨0, _⟩ => rfl | ⟨1, _⟩ => rfl)
/-- Matrix 0 of layer 0, entry (k, j), is entry (0, 0, k, j) of the weight array: two slices, each followed by the
    reshape that drops the unit axis. -/
theorem W_v44 (k j : Fin 256) : val_main_v44 (F := Ideal) x4 (ix2 k j) = x4 (ix4 (0 : Fin 4) (0 : Fin 3) k j) := by
  rw [val_main_v44_apply, val_main_v43_apply, val_main_v29_apply, val_main_v28_apply]
  refine congrArg x4 (funext fun a => Fin.ext ?_)
  have hk := k.isLt
  have hj := j.isLt
  match a with
  | ⟨0, _⟩ => rfl
  | ⟨1, _⟩ => show (((0) * 256 + (k.val * 256 + j.val) / 256 % 256) * 256 + (k.val * 256 + j.val) % 256) / 65536 % 3 = 0; omega
  | ⟨2, _⟩ => show (((0) * 256 + (k.val * 256 + j.val) / 256 % 256) * 256 + (k.val * 256 + j.val) % 256) / 256 % 256 = k.val; omega
  | ⟨3, _⟩ => show (((0) * 256 + (k.val * 256 + j.val) / 256 % 256) * 256 + (k.val * 256 + j.val) % 256) % 256 = j.val; omega

theorem lidx_v48 (n : Fin 20000) (j k : Fin 256) : lidx_main_v48 (ix2 n j) k = ix2 n k :=
  funext fun a => Fin.ext (by match a with | ⟨0, _⟩ => rfl | ⟨1, _⟩ => rfl)
theorem ridx_v48 (n : Fin 20000) (j k : Fin 256) : ridx_main_v48 (ix2 n j) k = ix2 k j :=
  funext fun a => Fin.ext (by match a with | ⟨0, _⟩ => rfl | ⟨1, _⟩ => rfl)
/-- Matrix 1 of layer 0, entry (k, j), is entry (0, 1, k, j) of the weight array: two slices, each followed by the
    reshape that drops the unit axis. -/
theorem W_v47 (k j : Fin 256) : val_main_v47 (F := Ideal) x4 (ix2 k j) = x4 (ix4 (0 : Fin 4) (1 : Fin 3) k j) := by
  rw [val_main_v47_apply, val_main_v46_apply, val_main_v29_apply, val_main_v28_apply]
  refine congrArg x4 (funext fun a => Fin.ext ?_)
  have hk := k.isLt
  have hj := j.isLt
  match a with
  | ⟨0, _⟩ => rfl
  | ⟨1, _⟩ => show (((1 + 0) * 256 + (k.val * 256 + j.val) / 256 % 256) * 256 + (k.val * 256 + j.val) % 256) / 65536 % 3 = 1; omega
  | ⟨2, _⟩ => show (((1 + 0) * 256 + (k.val * 256 + j.val) / 256 % 256) * 256 + (k.val * 256 + j.val) % 256) / 256 % 256 = k.val; omega
  | ⟨3, _⟩ => show (((1 + 0) * 256 + (k.val * 256 + j.val) / 256 % 256) * 256 + (k.val * 256 + j.val) % 256) % 256 = j.val; omega

theorem lidx_v68 (n : Fin 20000) (j k : Fin 256) : lidx_main_v68 (ix2 n j) k = ix2 n k :=
  funext fun a => Fin.ext (by match a with | ⟨0, _⟩ => rfl | ⟨1, _⟩ => rfl)
theorem ridx_v68 (n : Fin 20000) (j k : Fin 256) : ridx_main_v68 (ix2 n j) k = ix2 k j :=
  funext fun a => Fin.ext (by match a with | ⟨0, _⟩ => rfl | ⟨1, _⟩ => rfl)
/-- Matrix 2 of layer 0, entry (k, j), is entry (0, 2, k, j) of the weight array: two slices, each followed by the
    reshape that drops the unit axis. -/
theorem W_v67 (k j : Fin 256) : val_main_v67 (F := Ideal) x4 (ix2 k j) = x4 (ix4 (0 : Fin 4) (2 : Fin 3) k j) := by
  rw [val_main_v67_apply, val_main_v66_apply, val_main_v29_apply, val_main_v28_apply]
  refine congrArg x4 (funext fun a => Fin.ext ?_)
  have hk := k.isLt
  have hj := j.isLt
  match a with
  | ⟨0, _⟩ => rfl
  | ⟨1, _⟩ => show (((2 + 0) * 256 + (k.val * 256 + j.val) / 256 % 256) * 256 + (k.val * 256 + j.val) % 256) / 65536 % 3 = 2; omega
  | ⟨2, _⟩ => show (((2 + 0) * 256 + (k.val * 256 + j.val) / 256 % 256) * 256 + (k.val * 256 + j.val) % 256) / 256 % 256 = k.val; omega
  | ⟨3, _⟩ => show (((2 + 0) * 256 + (k.val * 256 + j.val) / 256 % 256) * 256 + (k.val * 256 + j.val) % 256) % 256 = j.val; omega

/-- Layer 0 at row n, column j, in the reference's form. -/
theorem H0_apply (n : Fin 20000) (j : Fin 256) :
    H0 x0 x1 x3 x4 (ix2 n j) = Cert.Spec.layerRef x0 (T1_0 x0 x1 x3) (P2_0 x0 x1 x3) x4 0 n j := by
  show val_main_v70 (F := Ideal) x0 x1 x3 x4 (ix2 n j) = _
  rw [val_main_v70_apply, val_main_v69_apply, val_main_v49_apply, val_main_v45_apply, val_main_v48_apply,
    val_main_v68_apply, val_main_call1_v0_apply, val_main_call1_cst_apply]
  simp only [lidx_v45, ridx_v45, lidx_v48, ridx_v48, lidx_v68, ridx_v68, W_v44, W_v47, W_v67,
    val_main_v65_apply, val_main_v64_apply, val_main_v63_apply, val_main_cst_11_apply]
  unfold Cert.Spec.layerRef Cert.Spec.two
  simp only [Ideal.maximumf_def, Ideal.addf_def, Ideal.subf_def, Ideal.mulf_def, Ideal.ofBits_def, Ideal.ofBits_zero_f32]

/-! ## Layer 1 -/

theorem lidx_v88 (n : Fin 20000) (j k : Fin 256) : lidx_main_v88 (ix2 n j) k = ix2 n k :=
  funext fun a => Fin.ext (by match a with | ⟨0, _⟩ => rfl | ⟨1, _⟩ => rfl)
theorem ridx_v88 (n : Fin 20000) (j k : Fin 256) : ridx_main_v88 (ix2 n j) k = ix2 k j :=
  funext fun a => Fin.ext (by match a with | ⟨0, _⟩ => rfl | ⟨1, _⟩ => rfl)
/-- Matrix 0 of layer 1, entry (k, j), is entry (1, 0, k, j) of the weight array: two slices, each followed by the
    reshape that drops the unit axis. -/
theorem W_v87 (k j : Fin 256) : val_main_v87 (F := Ideal) x4 (ix2 k j) = x4 (ix4 (1 : Fin 4) (0 : Fin 3) k j) := by
  rw [val_main_v87_apply, val_main_v86_apply, val_main_v72_apply, val_main_v71_apply]
  refine congrArg x4 (funext fun a => Fin.ext ?_)
  have hk := k.isLt
  have hj := j.isLt
  match a with
  | ⟨0, _⟩ => rfl
  | ⟨1, _⟩ => show (((0) * 256 + (k.val * 256 + j.val) / 256 % 256) * 256 + (k.val * 256 + j.val) % 256) / 65536 % 3 = 0; omega
  | ⟨2, _⟩ => show (((0) * 256 + (k.val * 256 + j.val) / 256 % 256) * 256 + (k.val * 256 + j.val) % 256) / 256 % 256 = k.val; omega
  | ⟨3, _⟩ => show (((0) * 256 + (k.val * 256 + j.val) / 256 % 256) * 256 + (k.val * 256 + j.val) % 256) % 256 = j.val; omega

theorem lidx_v91 (n : Fin 20000) (j k : Fin 256) : lidx_main_v91 (ix2 n j) k = ix2 n k :=
  funext fun a => Fin.ext (by match a with | ⟨0, _⟩ => rfl | ⟨1, _⟩ => rfl)
theorem ridx_v91 (n : Fin 20000) (j k : Fin 256) : ridx_main_v91 (ix2 n j) k = ix2 k j :=
  funext fun a => Fin.ext (by match a with | ⟨0, _⟩ => rfl | ⟨1, _⟩ => rfl)
/-- Matrix 1 of layer 1, entry (k, j), is entry (1, 1, k, j) of the weight array. -/
theorem W_v90 (k j : Fin 256) : val_main_v90 (F := Ideal) x4 (ix2 k j) = x4 (ix4 (1 : Fin 4) (1 : Fin 3) k j) := by
  rw [val_main_v90_apply, val_main_v89_apply, val_main_v72_apply, val_main_v71_apply]
  refine congrArg x4 (funext fun a => Fin.ext ?_)
  have hk := k.isLt
  have hj := j.isLt
  match a with
  | ⟨0, _⟩ => rfl
  | ⟨1, _⟩ => show (((1 + 0) * 256 + (k.val * 256 + j.val) / 256 % 256) * 256 + (k.val * 256 + j.val) % 256) / 65536 % 3 = 1; omega
  | ⟨2, _⟩ => show (((1 + 0) * 256 + (k.val * 256 + j.val) / 256 % 256) * 256 + (k.val * 256 + j.val) % 256) / 256 % 256 = k.val; omega
  | ⟨3, _⟩ => show (((1 + 0) * 256 + (k.val * 256 + j.val) / 256 % 256) * 256 + (k.val * 256 + j.val) % 256) % 256 = j.val; omega

theorem lidx_v111 (n : Fin 20000) (j k : Fin 256) : lidx_main_v111 (ix2 n j) k = ix2 n k :=
  funext fun a => Fin.ext (by match a with | ⟨0, _⟩ => rfl | ⟨1, _⟩ => rfl)
theorem ridx_v111 (n : Fin 20000) (j k : Fin 256) : ridx_main_v111 (ix2 n j) k = ix2 k j :=
  funext fun a => Fin.ext (by match a with | ⟨0, _⟩ => rfl | ⟨1, _⟩ => rfl)
/-- Matrix 2 of layer 1, entry (k, j), is entry (1, 2, k, j) of the weight array. -/
theorem W_v110 (k j : Fin 256) : val_main_v110 (F := Ideal) x4 (ix2 k j) = x4 (ix4 (1 : Fin 4) (2 : Fin 3) k j) := by
  rw [val_main_v110_apply, val_main_v109_apply, val_main_v72_apply, val_main_v71_apply]
  refine congrArg x4 (funext fun a => Fin.ext ?_)
  have hk := k.isLt
  have hj := j.isLt
  match a with
  | ⟨0, _⟩ => rfl
  | ⟨1, _⟩ => show (((2 + 0) * 256 + (k.val * 256 + j.val) / 256 % 256) * 256 + (k.val * 256 + j.val) % 256) / 65536 % 3 = 2; omega
  | ⟨2, _⟩ => show (((2 + 0) * 256 + (k.val * 256 + j.val) / 256 % 256) * 256 + (k.val * 256 + j.val) % 256) / 256 % 256 = k.val; omega
  | ⟨3, _⟩ => show (((2 + 0) * 256 + (k.val * 256 + j.val) / 256 % 256) * 256 + (k.val * 256 + j.val) % 256) % 256 = j.val; omega

/-- Layer 1 at row n, column j, in the reference's form. -/
theorem H1_apply (n : Fin 20000) (j : Fin 256) :
    H1 x0 x1 x3 x4 (ix2 n j)
      = Cert.Spec.layerRef (H0 x0 x1 x3 x4) (T1_1 x0 x1 x3 x4) (P2_1 x0 x1 x3 x4) x4 1 n j := by
  show val_main_v113 (F := Ideal) x0 x1 x3 x4 (ix2 n j) = _
  rw [val_main_v113_apply, val_main_v112_apply, val_main_v92_apply, val_main_v88_apply, val_main_v91_apply,
    val_main_v111_apply, val_main_call2_v0_apply, val_main_call2_cst_apply]
  simp only [lidx_v88, ridx_v88, lidx_v91, ridx_v91, lidx_v111, ridx_v111, W_v87, W_v90, W_v110,
    val_main_v108_apply, val_main_v107_apply, val_main_v106_apply, val_main_cst_18_apply]
  unfold Cert.Spec.layerRef Cert.Spec.two
  simp only [Ideal.maximumf_def, Ideal.addf_def, Ideal.subf_def, Ideal.mulf_def, Ideal.ofBits_def, Ideal.ofBits_zero_f32]

/-! ## Layer 2 -/

theorem lidx_v132 (n : Fin 20000) (j k : Fin 256) : lidx_main_v132 (ix2 n j) k = ix2 n k :=
  funext fun a => Fin.ext (by match a with | ⟨0, _⟩ => rfl | ⟨1, _⟩ => rfl)
theorem ridx_v132 (n : Fin 20000) (j k : Fin 256) : ridx_main_v132 (ix2 n j) k = ix2 k j :=
  funext fun a => Fin.ext (by match a with | ⟨0, _⟩ => rfl | ⟨1, _⟩ => rfl)
/-- Matrix 0 of layer 2, entry (k, j), is entry (2, 0, k, j) of the weight array. -/
theorem W_v131 (k j : Fin 256) : val_main_v131 (F := Ideal) x4 (ix2 k j) = x4 (ix4 (2 : Fin 4) (0 : Fin 3) k j) := by
  rw [val_main_v131_apply, val_main_v130_apply, val_main_v116_apply, val_main_v115_apply]
  refine congrArg x4 (funext fun a => Fin.ext ?_)
  have hk := k.isLt
  have hj := j.isLt
  match a with
  | ⟨0, _⟩ => rfl
  | ⟨1, _⟩ => show (((0) * 256 + (k.val * 256 + j.val) / 256 % 256) * 256 + (k.val * 256 + j.val) % 256) / 65536 % 3 = 0; omega
  | ⟨2, _⟩ => show (((0) * 256 + (k.val * 256 + j.val) / 256 % 256) * 256 + (k.val * 256 + j.val) % 256) / 256 % 256 = k.val; omega
  | ⟨3, _⟩ => show (((0) * 256 + (k.val * 256 + j.val) / 256 % 256) * 256 + (k.val * 256 + j.val) % 256) % 256 = j.val; omega

theorem lidx_v135 (n : Fin 20000) (j k : Fin 256) : lidx_main_v135 (ix2 n j) k = ix2 n k :=
  funext fun a => Fin.ext (by match a with | ⟨0, _⟩ => rfl | ⟨1, _⟩ => rfl)
theorem ridx_v135 (n : Fin 20000) (j k : Fin 256) : ridx_main_v135 (ix2 n j) k = ix2 k j :=
  funext fun a => Fin.ext (by match a with | ⟨0, _⟩ => rfl | ⟨1, _⟩ => rfl)
/-- Matrix 1 of layer 2, entry (k, j), is entry (2, 1, k, j) of the weight array. -/
theorem W_v134 (k j : Fin 256) : val_main_v134 (F := Ideal) x4 (ix2 k j) = x4 (ix4 (2 : Fin 4) (1 : Fin 3) k j) := by
  rw [val_main_v134_apply, val_main_v133_apply, val_main_v116_apply, val_main_v115_apply]
  refine congrArg x4 (funext fun a => Fin.ext ?_)
  have hk := k.isLt
  have hj := j.isLt
  match a with
  | ⟨0, _⟩ => rfl
  | ⟨1, _⟩ => show (((1 + 0) * 256 + (k.val * 256 + j.val) / 256 % 256) * 256 + (k.val * 256 + j.val) % 256) / 65536 % 3 = 1; omega
  | ⟨2, _⟩ => show (((1 + 0) * 256 + (k.val * 256 + j.val) / 256 % 256) * 256 + (k.val * 256 + j.val) % 256) / 256 % 256 = k.val; omega
  | ⟨3, _⟩ => show (((1 + 0) * 256 + (k.val * 256 + j.val) / 256 % 256) * 256 + (k.val * 256 + j.val) % 256) % 256 = j.val; omega

theorem lidx_v155 (n : Fin 20000) (j k : Fin 256) : lidx_main_v155 (ix2 n j) k = ix2 n k :=
  funext fun a => Fin.ext (by match a with | ⟨0, _⟩ => rfl | ⟨1, _⟩ => rfl)
theorem ridx_v155 (n : Fin 20000) (j k : Fin 256) : ridx_main_v155 (ix2 n j) k = ix2 k j :=
  funext fun a => Fin.ext (by match a with | ⟨0, _⟩ => rfl | ⟨1, _⟩ => rfl)
/-- Matrix 2 of layer 2, entry (k, j), is entry (2, 2, k, j) of the weight array. -/
theorem W_v154 (k j : Fin 256) : val_main_v154 (F := Ideal) x4 (ix2 k j) = x4 (ix4 (2 : Fin 4) (2 : Fin 3) k j) := by
  rw [val_main_v154_apply, val_main_v153_apply, val_main_v116_apply, val_main_v115_apply]
  refine congrArg x4 (funext fun a => Fin.ext ?_)
  have hk := k.isLt
  have hj := j.isLt
  match a with
  | ⟨0, _⟩ => rfl
  | ⟨1, _⟩ => show (((2 + 0) * 256 + (k.val * 256 + j.val) / 256 % 256) * 256 + (k.val * 256 + j.val) % 256) / 65536 % 3 = 2; omega
  | ⟨2, _⟩ => show (((2 + 0) * 256 + (k.val * 256 + j.val) / 256 % 256) * 256 + (k.val * 256 + j.val) % 256) / 256 % 256 = k.val; omega
  | ⟨3, _⟩ => show (((2 + 0) * 256 + (k.val * 256 + j.val) / 256 % 256) * 256 + (k.val * 256 + j.val) % 256) % 256 = j.val; omega

/-- Layer 2 at row n, column j, in the reference's form. -/
theorem H2_apply (n : Fin 20000) (j : Fin 256) :
    H2 x0 x1 x3 x4 (ix2 n j)
      = Cert.Spec.layerRef (H1 x0 x1 x3 x4) (T1_2 x0 x1 x3 x4) (P2_2 x0 x1 x3 x4) x4 2 n j := by
  show val_main_v157 (F := Ideal) x0 x1 x3 x4 (ix2 n j) = _
  rw [val_main_v157_apply, val_main_v156_apply, val_main_v136_apply, val_main_v132_apply, val_main_v135_apply,
    val_main_v155_apply, val_main_call3_v0_apply, val_main_call3_cst_apply]
  simp only [lidx_v132, ridx_v132, lidx_v135, ridx_v135, lidx_v155, ridx_v155, W_v131, W_v134, W_v154,
    val_main_v152_apply, val_main_v151_apply, val_main_v150_apply, val_main_cst_25_apply]
  unfold Cert.Spec.layerRef Cert.Spec.two
  simp only [Ideal.maximumf_def, Ideal.addf_def, Ideal.subf_def, Ideal.mulf_def, Ideal.ofBits_def, Ideal.ofBits_zero_f32]

/-! ## Layer 3 -/

theorem lidx_v176 (n : Fin 20000) (j k : Fin 256) : lidx_main_v176 (ix2 n j) k = ix2 n k :=
  funext fun a => Fin.ext (by match a with | ⟨0, _⟩ => rfl | ⟨1, _⟩ => rfl)
theorem ridx_v176 (n : Fin 20000) (j k : Fin 256) : ridx_main_v176 (ix2 n j) k = ix2 k j :=
  funext fun a => Fin.ext (by match a with | ⟨0, _⟩ => rfl | ⟨1, _⟩ => rfl)
/-- Matrix 0 of layer 3, entry (k, j), is entry (3, 0, k, j) of the weight array. -/
theorem W_v175 (k j : Fin 256) : val_main_v175 (F := Ideal) x4 (ix2 k j) = x4 (ix4 (3 : Fin 4) (0 : Fin 3) k j) := by
  rw [val_main_v175_apply, val_main_v174_apply, val_main_v160_apply, val_main_v159_apply]
  refine congrArg x4 (funext fun a => Fin.ext ?_)
  have hk := k.isLt
  have hj := j.isLt
  match a with
  | ⟨0, _⟩ => rfl
  | ⟨1, _⟩ => show (((0) * 256 + (k.val * 256 + j.val) / 256 % 256) * 256 + (k.val * 256 + j.val) % 256) / 65536 % 3 = 0; omega
  | ⟨2, _⟩ => show (((0) * 256 + (k.val * 256 + j.val) / 256 % 256) * 256 + (k.val * 256 + j.val) % 256) / 256 % 256 = k.val; omega
  | ⟨3, _⟩ => show (((0) * 256 + (k.val * 256 + j.val) / 256 % 256) * 256 + (k.val * 256 + j.val) % 256) % 256 = j.val; omega

theorem lidx_v179 (n : Fin 20000) (j k : Fin 256) : lidx_main_v179 (ix2 n j) k = ix2 n k :=
  funext fun a => Fin.ext (by match a with | ⟨0, _⟩ => rfl | ⟨1, _⟩ => rfl)
theorem ridx_v179 (n : Fin 20000) (j k : Fin 256) : ridx_main_v179 (ix2 n j) k = ix2 k j :=
  funext fun a => Fin.ext (by match a with | ⟨0, _⟩ => rfl | ⟨1, _⟩ => rfl)
/-- Matrix 1 of layer 3, entry (k, j), is entry (3, 1, k, j) of the weight array. -/
theorem W_v178 (k j : Fin 256) : val_main_v178 (F := Ideal) x4 (ix2 k j) = x4 (ix4 (3 : Fin 4) (1 : Fin 3) k j) := by
  rw [val_main_v178_apply, val_main_v177_apply, val_main_v160_apply, val_main_v159_apply]
  refine congrArg x4 (funext fun a => Fin.ext ?_)
  have hk := k.isLt
  have hj := j.isLt
  match a with
  | ⟨0, _⟩ => rfl
  | ⟨1, _⟩ => show (((1 + 0) * 256 + (k.val * 256 + j.val) / 256 % 256) * 256 + (k.val * 256 + j.val) % 256) / 65536 % 3 = 1; omega
  | ⟨2, _⟩ => show (((1 + 0) * 256 + (k.val * 256 + j.val) / 256 % 256) * 256 + (k.val * 256 + j.val) % 256) / 256 % 256 = k.val; omega
  | ⟨3, _⟩ => show (((1 + 0) * 256 + (k.val * 256 + j.val) / 256 % 256) * 256 + (k.val * 256 + j.val) % 256) % 256 = j.val; omega

theorem lidx_v199 (n : Fin 20000) (j k : Fin 256) : lidx_main_v199 (ix2 n j) k = ix2 n k :=
  funext fun a => Fin.ext (by match a with | ⟨0, _⟩ => rfl | ⟨1, _⟩ => rfl)
theorem ridx_v199 (n : Fin 20000) (j k : Fin 256) : ridx_main_v199 (ix2 n j) k = ix2 k j :=
  funext fun a => Fin.ext (by match a with | ⟨0, _⟩ => rfl | ⟨1, _⟩ => rfl)
/-- Matrix 2 of layer 3, entry (k, j), is entry (3, 2, k, j) of the weight array. -/
theorem W_v198 (k j : Fin 256) : val_main_v198 (F := Ideal) x4 (ix2 k j) = x4 (ix4 (3 : Fin 4) (2 : Fin 3) k j) := by
  rw [val_main_v198_apply, val_main_v197_apply, val_main_v160_apply, val_main_v159_apply]
  refine congrArg x4 (funext fun a => Fin.ext ?_)
  have hk := k.isLt
  have hj := j.isLt
  match a with
  | ⟨0, _⟩ => rfl
  | ⟨1, _⟩ => show (((2 + 0) * 256 + (k.val * 256 + j.val) / 256 % 256) * 256 + (k.val * 256 + j.val) % 256) / 65536 % 3 = 2; omega
  | ⟨2, _⟩ => show (((2 + 0) * 256 + (k.val * 256 + j.val) / 256 % 256) * 256 + (k.val * 256 + j.val) % 256) / 256 % 256 = k.val; omega
  | ⟨3, _⟩ => show (((2 + 0) * 256 + (k.val * 256 + j.val) / 256 % 256) * 256 + (k.val * 256 + j.val) % 256) % 256 = j.val; omega

/-- Layer 3 at row n, column j, in the reference's form. -/
theorem H3_apply (n : Fin 20000) (j : Fin 256) :
    H3 x0 x1 x3 x4 (ix2 n j)
      = Cert.Spec.layerRef (H2 x0 x1 x3 x4) (T1_3 x0 x1 x3 x4) (P2_3 x0 x1 x3 x4) x4 3 n j := by
  show val_main_v201 (F := Ideal) x0 x1 x3 x4 (ix2 n j) = _
  rw [val_main_v201_apply, val_main_v200_apply, val_main_v180_apply, val_main_v176_apply, val_main_v179_apply,
    val_main_v199_apply, val_main_call4_v0_apply, val_main_call4_cst_apply]
  simp only [lidx_v176, ridx_v176, lidx_v179, ridx_v179, lidx_v199, ridx_v199, W_v175, W_v178, W_v198,
    val_main_v196_apply, val_main_v195_apply, val_main_v194_apply, val_main_cst_32_apply]
  unfold Cert.Spec.layerRef Cert.Spec.two
  simp only [Ideal.maximumf_def, Ideal.addf_def, Ideal.subf_def, Ideal.mulf_def, Ideal.ofBits_def, Ideal.ofBits_zero_f32]

/-! ## The propagation, as one function

  Gather the rows of x at the edges' sources (an index below zero counts from the end), scale row e by the
  e-th normalised weight, and add the scaled rows up at the edges' targets, starting from the zero matrix. -/

def propR (nrm : (⟨S320000, .f32⟩ : BufTy).Contents (Elt Ideal)) (row col : (⟨S320000, .i32⟩ : BufTy).Contents (Elt Ideal))
    (x : (⟨S20000x256, .f32⟩ : BufTy).Contents (Elt Ideal)) : (⟨S20000x256, .f32⟩ : BufTy).Contents (Elt Ideal) :=
  Host.scatterAdd (F := Ideal) scatter_S20000x256_S320000x1_S320000x256_1_0_0_1
    (broadcastInDim S20000x256 ![] bcast_S_S20000x256 (constant (F := Ideal) S_ .f32 0x00000000#32))
    (broadcastInDim S320000x1 ![0] bcast_S320000_S320000x1_0 col)
    (mulf
      (broadcastInDim S320000x256 ![0, 1] bcast_S320000x1_S320000x256_0_1
        (broadcastInDim S320000x1 ![0] bcast_S320000_S320000x1_0 nrm))
      (Host.gather gather_S20000x256_S320000x1_S320000x256_1_0_n_n_0_1_1256 x
        (broadcastInDim S320000x1 ![0] bcast_S320000_S320000x1_0
          (select (cmpi .slt row (broadcastInDim S320000 ![] bcast_S_S320000 (constantI S_ 32 0#32)))
            (addi row (broadcastInDim S320000 ![] bcast_S_S320000 (constantI S_ 32 20000#32)))
            row))))

theorem T1_0_eq : T1_0 x0 x1 x3 = propR (nrm x1 x3) (rowI x1) (colI x1) x0 := by
  show val_main_v42 (F := Ideal) x0 x1 x3 = _
  unfold propR val_main_v42 val_main_v41 val_main_v40 val_main_v39 val_main_v38 val_main_v37 val_main_v36 val_main_v35
    val_main_v34 val_main_v33 val_main_v32 val_main_v31 val_main_v30 val_main_c_5 val_main_c_6 val_main_cst_7
  rfl

theorem P2_0_eq : P2_0 x0 x1 x3 = propR (nrm x1 x3) (rowI x1) (colI x1) (T1_0 x0 x1 x3) := by
  show val_main_v62 (F := Ideal) x0 x1 x3 = _
  unfold propR val_main_v62 val_main_v61 val_main_v60 val_main_v59 val_main_v58 val_main_v57 val_main_v56 val_main_v55
    val_main_v54 val_main_v53 val_main_v52 val_main_v51 val_main_v50 val_main_c_8 val_main_c_9 val_main_cst_10
  rfl

theorem T1_1_eq : T1_1 x0 x1 x3 x4 = propR (nrm x1 x3) (rowI x1) (colI x1) (H0 x0 x1 x3 x4) := by
  show val_main_v85 (F := Ideal) x0 x1 x3 x4 = _
  unfold propR val_main_v85 val_main_v84 val_main_v83 val_main_v82 val_main_v81 val_main_v80 val_main_v79 val_main_v78
    val_main_v77 val_main_v76 val_main_v75 val_main_v74 val_main_v73 val_main_c_12 val_main_c_13 val_main_cst_14
  rfl

theorem P2_1_eq : P2_1 x0 x1 x3 x4 = propR (nrm x1 x3) (rowI x1) (colI x1) (T1_1 x0 x1 x3 x4) := by
  show val_main_v105 (F := Ideal) x0 x1 x3 x4 = _
  unfold propR val_main_v105 val_main_v104 val_main_v103 val_main_v102 val_main_v101 val_main_v100 val_main_v99 val_main_v98
    val_main_v97 val_main_v96 val_main_v95 val_main_v94 val_main_v93 val_main_c_15 val_main_c_16 val_main_cst_17
  rfl

theorem T1_2_eq : T1_2 x0 x1 x3 x4 = propR (nrm x1 x3) (rowI x1) (colI x1) (H1 x0 x1 x3 x4) := by
  show val_main_v129 (F := Ideal) x0 x1 x3 x4 = _
  unfold propR val_main_v129 val_main_v128 val_main_v127 val_main_v126 val_main_v125 val_main_v124 val_main_v123 val_main_v122
    val_main_v121 val_main_v120 val_main_v119 val_main_v118 val_main_v117 val_main_c_19 val_main_c_20 val_main_cst_21
  rfl

theorem P2_2_eq : P2_2 x0 x1 x3 x4 = propR (nrm x1 x3) (rowI x1) (colI x1) (T1_2 x0 x1 x3 x4) := by
  show val_main_v149 (F := Ideal) x0 x1 x3 x4 = _
  unfold propR val_main_v149 val_main_v148 val_main_v147 val_main_v146 val_main_v145 val_main_v144 val_main_v143 val_main_v142
    val_main_v141 val_main_v140 val_main_v139 val_main_v138 val_main_v137 val_main_c_22 val_main_c_23 val_main_cst_24
  rfl

theorem T1_3_eq : T1_3 x0 x1 x3 x4 = propR (nrm x1 x3) (rowI x1) (colI x1) (H2 x0 x1 x3 x4) := by
  show val_main_v173 (F := Ideal) x0 x1 x3 x4 = _
  unfold propR val_main_v173 val_main_v172 val_main_v171 val_main_v170 val_main_v169 val_main_v168 val_main_v167 val_main_v166
    val_main_v165 val_main_v164 val_main_v163 val_main_v162 val_main_v161 val_main_c_26 val_main_c_27 val_main_cst_28
  rfl

theorem P2_3_eq : P2_3 x0 x1 x3 x4 = propR (nrm x1 x3) (rowI x1) (colI x1) (T1_3 x0 x1 x3 x4) := by
  show val_main_v193 (F := Ideal) x0 x1 x3 x4 = _
  unfold propR val_main_v193 val_main_v192 val_main_v191 val_main_v190 val_main_v189 val_main_v188 val_main_v187 val_main_v186
    val_main_v185 val_main_v184 val_main_v183 val_main_v182 val_main_v181 val_main_c_29 val_main_c_30 val_main_cst_31
  rfl

/-! ## The head: the four layers' outputs side by side

  The 1024-column matrix is built by three two-piece concatenations along the columns: (H0 | H1), then
  (that | H2), then (that | H3). A column below the first piece's width reads the first piece at the same
  column; a column at or past it reads the second piece at the column less that width. -/

theorem cat202_left (n : Fin 20000) (c : Fin 768) :
    val_main_v202 (F := Ideal) x0 x1 x3 x4 (ix2 n (⟨c.val, by have := c.isLt; omega⟩ : Fin 1024))
      = val_main_v158 (F := Ideal) x0 x1 x3 x4 (ix2 n c) := by
  unfold val_main_v202
  exact concatenate_pair_apply_left _ _ _ concatenates_S20000x768_S20000x256_S20000x1024_d1 _ rfl (ix2 n c)
    (fun b => by match b with | ⟨0, _⟩ => rfl | ⟨1, _⟩ => rfl)

theorem cat202_right (n : Fin 20000) (k : Fin 256) :
    val_main_v202 (F := Ideal) x0 x1 x3 x4 (ix2 n (⟨768 + k.val, by have := k.isLt; omega⟩ : Fin 1024))
      = val_main_v201 (F := Ideal) x0 x1 x3 x4 (ix2 n k) := by
  unfold val_main_v202
  exact concatenate_pair_apply_right _ _ _ concatenates_S20000x768_S20000x256_S20000x1024_d1 _ rfl rfl (ix2 n k)
    (fun b hb => by match b with | ⟨0, _⟩ => rfl | ⟨1, _⟩ => exact absurd rfl hb)
    (by show k.val + 768 = 768 + k.val; omega)

theorem cat158_left (n : Fin 20000) (c : Fin 512) :
    val_main_v158 (F := Ideal) x0 x1 x3 x4 (ix2 n (⟨c.val, by have := c.isLt; omega⟩ : Fin 768))
      = val_main_v114 (F := Ideal) x0 x1 x3 x4 (ix2 n c) := by
  unfold val_main_v158
  exact concatenate_pair_apply_left _ _ _ concatenates_S20000x512_S20000x256_S20000x768_d1 _ rfl (ix2 n c)
    (fun b => by match b with | ⟨0, _⟩ => rfl | ⟨1, _⟩ => rfl)

theorem cat158_right (n : Fin 20000) (k : Fin 256) :
    val_main_v158 (F := Ideal) x0 x1 x3 x4 (ix2 n (⟨512 + k.val, by have := k.isLt; omega⟩ : Fin 768))
      = val_main_v157 (F := Ideal) x0 x1 x3 x4 (ix2 n k) := by
  unfold val_main_v158
  exact concatenate_pair_apply_right _ _ _ concatenates_S20000x512_S20000x256_S20000x768_d1 _ rfl rfl (ix2 n k)
    (fun b hb => by match b with | ⟨0, _⟩ => rfl | ⟨1, _⟩ => exact absurd rfl hb)
    (by show k.val + 512 = 512 + k.val; omega)

theorem cat114_left (n : Fin 20000) (k : Fin 256) :
    val_main_v114 (F := Ideal) x0 x1 x3 x4 (ix2 n (⟨k.val, by have := k.isLt; omega⟩ : Fin 512))
      = val_main_v70 (F := Ideal) x0 x1 x3 x4 (ix2 n k) := by
  unfold val_main_v114
  exact concatenate_pair_apply_left _ _ _ concatenates_S20000x256_S20000x256_S20000x512_d1 _ rfl (ix2 n k)
    (fun b => by match b with | ⟨0, _⟩ => rfl | ⟨1, _⟩ => rfl)

theorem cat114_right (n : Fin 20000) (k : Fin 256) :
    val_main_v114 (F := Ideal) x0 x1 x3 x4 (ix2 n (⟨256 + k.val, by have := k.isLt; omega⟩ : Fin 512))
      = val_main_v113 (F := Ideal) x0 x1 x3 x4 (ix2 n k) := by
  unfold val_main_v114
  exact concatenate_pair_apply_right _ _ _ concatenates_S20000x256_S20000x256_S20000x512_d1 _ rfl rfl (ix2 n k)
    (fun b hb => by match b with | ⟨0, _⟩ => rfl | ⟨1, _⟩ => exact absurd rfl hb)
    (by show k.val + 256 = 256 + k.val; omega)

/-- Columns 0 … 255 of the side-by-side matrix are layer 0's output. -/
theorem JK_block0 (n : Fin 20000) (k : Fin 256) :
    JK x0 x1 x3 x4 (ix2 n (⟨k.val, by have := k.isLt; omega⟩ : Fin 1024)) = H0 x0 x1 x3 x4 (ix2 n k) :=
  (cat202_left x0 x1 x3 x4 n ⟨k.val, by have := k.isLt; omega⟩).trans
    ((cat158_left x0 x1 x3 x4 n ⟨k.val, by have := k.isLt; omega⟩).trans (cat114_left x0 x1 x3 x4 n k))

/-- Columns 256 … 511 are layer 1's output. -/
theorem JK_block1 (n : Fin 20000) (k : Fin 256) :
    JK x0 x1 x3 x4 (ix2 n (⟨256 + k.val, by have := k.isLt; omega⟩ : Fin 1024)) = H1 x0 x1 x3 x4 (ix2 n k) :=
  (cat202_left x0 x1 x3 x4 n ⟨256 + k.val, by have := k.isLt; omega⟩).trans
    ((cat158_left x0 x1 x3 x4 n ⟨256 + k.val, by have := k.isLt; omega⟩).trans (cat114_right x0 x1 x3 x4 n k))

/-- Columns 512 … 767 are layer 2's output. -/
theorem JK_block2 (n : Fin 20000) (k : Fin 256) :
    JK x0 x1 x3 x4 (ix2 n (⟨512 + k.val, by have := k.isLt; omega⟩ : Fin 1024)) = H2 x0 x1 x3 x4 (ix2 n k) :=
  (cat202_left x0 x1 x3 x4 n ⟨512 + k.val, by have := k.isLt; omega⟩).trans (cat158_right x0 x1 x3 x4 n k)

/-- Columns 768 … 1023 are layer 3's output. -/
theorem JK_block3 (n : Fin 20000) (k : Fin 256) :
    JK x0 x1 x3 x4 (ix2 n (⟨768 + k.val, by have := k.isLt; omega⟩ : Fin 1024)) = H3 x0 x1 x3 x4 (ix2 n k) :=
  cat202_right x0 x1 x3 x4 n k

theorem lidx_v203 (n : Fin 20000) (q : Fin 256) (k : Fin 1024) : lidx_main_v203 (ix2 n q) k = ix2 n k :=
  funext fun a => Fin.ext (by match a with | ⟨0, _⟩ => rfl | ⟨1, _⟩ => rfl)
theorem ridx_v203 (n : Fin 20000) (q : Fin 256) (k : Fin 1024) : ridx_main_v203 (ix2 n q) k = ix2 k q :=
  funext fun a => Fin.ext (by match a with | ⟨0, _⟩ => rfl | ⟨1, _⟩ => rfl)
/-- A vector broadcast along the rows reads its own entry at the column. -/
theorem idx_v204_v205 (n : Fin 20000) (q : Fin 256) : idx_main_v204 (idx_main_v205 (ix2 n q)) = ix1 q :=
  funext fun a => Fin.ext (by match a with | ⟨0, _⟩ => rfl)

/-- The head's hidden layer at row n, column q. -/
theorem Z_apply (n : Fin 20000) (q : Fin 256) :
    Z x0 x1 x3 x4 x5 x6 (ix2 n q) = Cert.Spec.hiddenRef (JK x0 x1 x3 x4) x5 x6 n q := by
  show val_main_v207 (F := Ideal) x0 x1 x3 x4 x5 x6 (ix2 n q) = _
  rw [val_main_v207_apply, val_main_v206_apply, val_main_v203_apply, val_main_v205_apply, val_main_v204_apply,
    val_main_call5_v0_apply, val_main_call5_cst_apply]
  simp only [lidx_v203, ridx_v203, idx_v204_v205]
  unfold Cert.Spec.hiddenRef
  simp only [Ideal.maximumf_def, Ideal.addf_def, Ideal.ofBits_def, Ideal.ofBits_zero_f32]

/-! ## The logits -/

theorem lidx_v221 (n : Fin 20000) (j : Fin 2) (k : Fin 256) : lidx_main_v221 (ix2 n j) k = ix2 n k :=
  funext fun a => Fin.ext (by match a with | ⟨0, _⟩ => rfl | ⟨1, _⟩ => rfl)
theorem ridx_v221 (n : Fin 20000) (j : Fin 2) (k : Fin 256) : ridx_main_v221 (ix2 n j) k = ix2 k j :=
  funext fun a => Fin.ext (by match a with | ⟨0, _⟩ => rfl | ⟨1, _⟩ => rfl)
theorem idx_v208_v209 (n : Fin 20000) (k : Fin 256) : idx_main_v208 (idx_main_v209 (ix2 n k)) = ix1 k :=
  funext fun a => Fin.ext (by match a with | ⟨0, _⟩ => rfl)
theorem idx_v215_v216 (n : Fin 20000) (k : Fin 256) : idx_main_v215 (idx_main_v216 (ix2 n k)) = ix1 k :=
  funext fun a => Fin.ext (by match a with | ⟨0, _⟩ => rfl)
theorem idx_v218_v219 (n : Fin 20000) (k : Fin 256) : idx_main_v218 (idx_main_v219 (ix2 n k)) = ix1 k :=
  funext fun a => Fin.ext (by match a with | ⟨0, _⟩ => rfl)
theorem idx_v222_v223 (n : Fin 20000) (j : Fin 2) : idx_main_v222 (idx_main_v223 (ix2 n j)) = ix1 j :=
  funext fun a => Fin.ext (by match a with | ⟨0, _⟩ => rfl)

/-- The logits at row n, class j: the normalisation per column, then the 256 x 2 contraction and the bias. -/
theorem OUT_apply (n : Fin 20000) (j : Fin 2) :
    OUT x0 x1 x3 x4 x5 x6 x7 x8 x9 x10 x11 x12 (ix2 n j)
      = Cert.Spec.logitRef (Z x0 x1 x3 x4 x5 x6) x7 x8 x9 x10 x11 x12 n j := by
  show val_main_v224 (F := Ideal) x0 x1 x3 x4 x5 x6 x7 x8 x9 x10 x11 x12 (ix2 n j) = _
  rw [val_main_v224_apply, val_main_v221_apply, val_main_v223_apply, val_main_v222_apply]
  simp only [lidx_v221, ridx_v221, idx_v222_v223, val_main_v220_apply, val_main_v217_apply, val_main_v210_apply,
    val_main_v209_apply, val_main_v208_apply, val_main_v216_apply, val_main_v215_apply, val_main_v214_apply,
    val_main_v213_apply, val_main_v212_apply, val_main_v211_apply, val_main_cst_33_apply, val_main_v219_apply,
    val_main_v218_apply, idx_v208_v209, idx_v215_v216, idx_v218_v219]
  unfold Cert.Spec.logitRef Cert.Spec.eps
  simp only [Ideal.addf_def, Ideal.subf_def, Ideal.mulf_def, Ideal.ofBits_def, Ideal.hostUnary_rsqrt_def]

end Cert.RefLayers

end
-- ==== Proof.LibRealSums.lean ====
/-
  Extended reals that are real numbers, and the three algebraic laws this certificate's bridge rests on.

  An extended real is REAL when it is the coercion of a real number; the reals inside the extended reals are
  closed under sum, difference, product, negation, maximum and finite sums, and on them the ring laws hold
  (they fail at the infinities: distributivity needs every term real). Over a finite index type:

  * folding a three-term Chebyshev combination into the weights:
      Σ a·(u − w) + Σ b·v + Σ c·(t·w)  =  Σ a·u + Σ b·v + Σ (t·c − a)·w      (every entry real);
  * an affine map written two ways:  z·s + (β − μ·s) = (z − μ)·s + β          (every entry real);
  * a sum over 4·n indices is the sum of its four consecutive blocks of n (any commutative monoid: no
    finiteness needed).
-/
import Mathlib.Data.EReal.Basic
import Mathlib.Data.EReal.Operations
import Mathlib.Algebra.BigOperators.Fin
import Mathlib.Tactic.Ring
import Mathlib.Tactic.NormNum

namespace Cert.Lib.RealSums

open scoped BigOperators

/-- The extended real `x` is a real number. -/
def IsReal (x : EReal) : Prop := ∃ r : ℝ, x = (r : EReal)

theorem isReal_coe (r : ℝ) : IsReal (r : EReal) := ⟨r, rfl⟩
theorem isReal_zero : IsReal (0 : EReal) := ⟨0, rfl⟩

theorem IsReal.add {x y : EReal} (hx : IsReal x) (hy : IsReal y) : IsReal (x + y) := by
  obtain ⟨r, rfl⟩ := hx
  obtain ⟨s, rfl⟩ := hy
  exact ⟨r + s, (EReal.coe_add r s).symm⟩
theorem IsReal.sub {x y : EReal} (hx : IsReal x) (hy : IsReal y) : IsReal (x - y) := by
  obtain ⟨r, rfl⟩ := hx
  obtain ⟨s, rfl⟩ := hy
  exact ⟨r - s, (EReal.coe_sub r s).symm⟩
theorem IsReal.mul {x y : EReal} (hx : IsReal x) (hy : IsReal y) : IsReal (x * y) := by
  obtain ⟨r, rfl⟩ := hx
  obtain ⟨s, rfl⟩ := hy
  exact ⟨r * s, (EReal.coe_mul r s).symm⟩
theorem IsReal.neg {x : EReal} (hx : IsReal x) : IsReal (-x) := by
  obtain ⟨r, rfl⟩ := hx
  exact ⟨-r, (EReal.coe_neg r).symm⟩
theorem IsReal.max {x y : EReal} (hx : IsReal x) (hy : IsReal y) : IsReal (max x y) := by
  rcases le_total x y with h | h
  · rw [max_eq_right h]; exact hy
  · rw [max_eq_left h]; exact hx

/-- A finite sum of reals is real. -/
theorem isReal_sum {ι : Type*} (s : Finset ι) (f : ι → EReal) (h : ∀ i ∈ s, IsReal (f i)) :
    IsReal (∑ i ∈ s, f i) := by
  classical
  revert h
  refine Finset.induction_on s ?_ ?_
  · intro _
    rw [Finset.sum_empty]
    exact isReal_zero
  · intro a s ha ih h
    rw [Finset.sum_insert ha]
    exact (h a (Finset.mem_insert_self a s)).add (ih fun i hi => h i (Finset.mem_insert_of_mem hi))

/-- The coercion of a finite sum of reals is the sum of the coercions. -/
theorem coe_finset_sum {ι : Type*} (s : Finset ι) (f : ι → ℝ) :
    ((∑ i ∈ s, f i : ℝ) : EReal) = ∑ i ∈ s, (f i : EReal) := by
  classical
  refine Finset.induction_on s ?_ ?_
  · rw [Finset.sum_empty, Finset.sum_empty]; rfl
  · intro a s ha ih
    rw [Finset.sum_insert ha, Finset.sum_insert ha, EReal.coe_add, ih]

/-- A real extended real is neither infinity. -/
theorem IsReal.ne_top {x : EReal} (hx : IsReal x) : x ≠ ⊤ := by
  obtain ⟨r, rfl⟩ := hx
  exact EReal.coe_ne_top r
theorem IsReal.ne_bot {x : EReal} (hx : IsReal x) : x ≠ ⊥ := by
  obtain ⟨r, rfl⟩ := hx
  exact EReal.coe_ne_bot r
/-- An extended real strictly between the infinities is real. -/
theorem isReal_of_ne {x : EReal} (h1 : x ≠ ⊤) (h2 : x ≠ ⊥) : IsReal x := by
  induction x using EReal.rec with
  | bot => exact absurd rfl h2
  | coe r => exact ⟨r, rfl⟩
  | top => exact absurd rfl h1

/-- Folding the Chebyshev recursion into the weights: with every entry real and any real `t`,
    `Σ a·(u − w) + Σ b·v + Σ c·(t·w) = Σ a·u + Σ b·v + Σ (t·c − a)·w`. -/
theorem fold_weights {K : Type*} [Fintype K] (a b c u v w : K → EReal) (t : EReal)
    (ha : ∀ k, IsReal (a k)) (hb : ∀ k, IsReal (b k)) (hc : ∀ k, IsReal (c k))
    (hu : ∀ k, IsReal (u k)) (hv : ∀ k, IsReal (v k)) (hw : ∀ k, IsReal (w k)) (ht : IsReal t) :
    (∑ k, a k * (u k - w k) + ∑ k, b k * v k) + ∑ k, c k * (t * w k)
      = (∑ k, a k * u k + ∑ k, b k * v k) + ∑ k, (t * c k - a k) * w k := by
  choose a' ha' using ha
  choose b' hb' using hb
  choose c' hc' using hc
  choose u' hu' using hu
  choose v' hv' using hv
  choose w' hw' using hw
  obtain ⟨t', rfl⟩ := ht
  obtain rfl : a = fun k => (a' k : EReal) := funext ha'
  obtain rfl : b = fun k => (b' k : EReal) := funext hb'
  obtain rfl : c = fun k => (c' k : EReal) := funext hc'
  obtain rfl : u = fun k => (u' k : EReal) := funext hu'
  obtain rfl : v = fun k => (v' k : EReal) := funext hv'
  obtain rfl : w = fun k => (w' k : EReal) := funext hw'
  simp only [← EReal.coe_mul, ← EReal.coe_sub, ← EReal.coe_add, ← coe_finset_sum]
  rw [EReal.coe_eq_coe_iff]
  rw [← Finset.sum_add_distrib, ← Finset.sum_add_distrib, ← Finset.sum_add_distrib,
    ← Finset.sum_add_distrib]
  refine Finset.sum_congr rfl fun k _ => ?_
  ring

/-- An affine map of a real written two ways. -/
theorem affine_two_ways {z s β μ : EReal} (hz : IsReal z) (hs : IsReal s) (hβ : IsReal β) (hμ : IsReal μ) :
    z * s + (β - μ * s) = (z - μ) * s + β := by
  obtain ⟨z', rfl⟩ := hz
  obtain ⟨s', rfl⟩ := hs
  obtain ⟨β', rfl⟩ := hβ
  obtain ⟨μ', rfl⟩ := hμ
  simp only [← EReal.coe_mul, ← EReal.coe_sub, ← EReal.coe_add]
  rw [EReal.coe_eq_coe_iff]
  ring

/-- A sum over `n + n + n + n` indices is the sum of its four consecutive blocks. -/
theorem sum_four_blocks {M : Type*} [AddCommMonoid M] (n : Nat) (f : Fin (n + n + n + n) → M) :
    ∑ k, f k
      = ((∑ k : Fin n, f ⟨k.val, by omega⟩ + ∑ k : Fin n, f ⟨n + k.val, by omega⟩)
          + ∑ k : Fin n, f ⟨n + n + k.val, by omega⟩) + ∑ k : Fin n, f ⟨n + n + n + k.val, by omega⟩ := by
  rw [Fin.sum_univ_add, Fin.sum_univ_add, Fin.sum_univ_add]
  rfl

end Cert.Lib.RealSums
-- ==== Proof.Consts.lean ====
/-
  The two float literals both programs share, as the real numbers their words denote: 2.0 is the real 2, and the
  normalisation's ε, the float nearest 1e-5, is 2748779 / 2^38, a positive real.
-/
import Idealize.ShloMosaic.PureOps.Ideal
import proofs.«165358_j80178449481840_2_alg».proof.Proof.Spec
import proofs.«165358_j80178449481840_2_alg».proof.Proof.LibRealSums

noncomputable section

namespace Cert.Consts

open Idealize.ShloMosaic Cert.Lib.RealSums

/-- The word of 2.0 denotes the real 2. -/
theorem ofBits_two : Ideal.ofBits .f32 0x40000000#32 = ((2 : ℝ) : EReal) := by
  simp [Ideal.ofBits, Ideal.ieee, -EReal.coe_mul]; norm_num

/-- The word of the float nearest 1e-5 denotes 2748779 / 2^38. -/
theorem ofBits_eps : Ideal.ofBits .f32 0x3727C5AC#32 = ((2748779 / 274877906944 : ℝ) : EReal) := by
  simp [Ideal.ofBits, Ideal.ieee, -EReal.coe_mul]; norm_num

theorem two_real : IsReal Cert.Spec.two := ⟨2, ofBits_two⟩
theorem eps_real : IsReal Cert.Spec.eps := ⟨_, ofBits_eps⟩
theorem eps_pos : (0 : EReal) < Cert.Spec.eps := by
  unfold Cert.Spec.eps
  rw [ofBits_eps]
  exact_mod_cast (by norm_num : (0 : ℝ) < 2748779 / 274877906944)

end Cert.Consts

end
-- ==== Proof.BridgeLaws.lean ====
/-
  The algebra that joins the two programs, over the forms of Spec.lean.

  * One layer. With A = W₀ − W₂, B = W₁, C = 2·W₂, row n of X·A + T1·B + P2·C is row n of
    X·W₀ + T1·W₁ + (2·P2 − X)·W₂ — distributivity, which holds because every entry is a real number; the relu on
    top is the same on both sides.
  * The hidden layer. A contraction over 1024 columns is the sum of the contractions over its four blocks of 256.
  * The logits. z·s + (β − μ·s) = (z − μ)·s + β for reals, entry by entry under the sum over the 256 columns.
  A layer's output is again real (sums and products of reals, a maximum with 0), which carries the hypothesis from
  one layer to the next.
-/
import proofs.«165358_j80178449481840_2_alg».proof.Proof.Spec
import proofs.«165358_j80178449481840_2_alg».proof.Proof.LibRealSums
import proofs.«165358_j80178449481840_2_alg».proof.Proof.Consts

noncomputable section

namespace Cert.BridgeLaws

open Idealize.ShloMosaic Idealize.ShloMosaic.ValueIdx Cert.Spec Cert.Lib.RealSums
open scoped BigOperators

/-! ## One layer -/

/-- Layer `l`'s first folded matrix, W₀ − W₂. -/
def foldA (W : Weights) (l : Fin 4) : Mat 256 256 :=
  fun i => W (ix4 l (0 : Fin 3) (⟨(i 0).val, idx2_lt0 i⟩ : Fin 256) (⟨(i 1).val, idx2_lt1 i⟩ : Fin 256))
    - W (ix4 l (2 : Fin 3) (⟨(i 0).val, idx2_lt0 i⟩ : Fin 256) (⟨(i 1).val, idx2_lt1 i⟩ : Fin 256))
/-- Layer `l`'s second matrix, W₁ as it is. -/
def foldB (W : Weights) (l : Fin 4) : Mat 256 256 :=
  fun i => W (ix4 l (1 : Fin 3) (⟨(i 0).val, idx2_lt0 i⟩ : Fin 256) (⟨(i 1).val, idx2_lt1 i⟩ : Fin 256))
/-- Layer `l`'s third folded matrix, 2·W₂. -/
def foldC (W : Weights) (l : Fin 4) : Mat 256 256 :=
  fun i => two * W (ix4 l (2 : Fin 3) (⟨(i 0).val, idx2_lt0 i⟩ : Fin 256) (⟨(i 1).val, idx2_lt1 i⟩ : Fin 256))

/-- The folded layer is the reference's layer when every entry is real. -/
theorem layer_fold (X T1 P2 : Mat 20000 256) (W : Weights) (l : Fin 4) (n : Fin 20000) (j : Fin 256)
    (hX : ∀ i, IsReal (X i)) (hT : ∀ i, IsReal (T1 i)) (hP : ∀ i, IsReal (P2 i)) (hW : ∀ i, IsReal (W i)) :
    layerFolded X T1 P2 (foldA W l) (foldB W l) (foldC W l) n j = layerRef X T1 P2 W l n j := by
  show max ((∑ k : Fin 256, X (ix2 n k) * (W (ix4 l (0 : Fin 3) k j) - W (ix4 l (2 : Fin 3) k j))
        + ∑ k : Fin 256, T1 (ix2 n k) * W (ix4 l (1 : Fin 3) k j))
        + ∑ k : Fin 256, P2 (ix2 n k) * (two * W (ix4 l (2 : Fin 3) k j))) 0 = _
  unfold layerRef
  exact congrArg (fun s => max s 0)
    (fold_weights (fun k => X (ix2 n k)) (fun k => T1 (ix2 n k)) (fun k => P2 (ix2 n k))
      (fun k => W (ix4 l (0 : Fin 3) k j)) (fun k => W (ix4 l (1 : Fin 3) k j)) (fun k => W (ix4 l (2 : Fin 3) k j)) two
      (fun _ => hX _) (fun _ => hT _) (fun _ => hP _) (fun _ => hW _) (fun _ => hW _) (fun _ => hW _) Cert.Consts.two_real)

/-- A reference layer of real arrays is real. -/
theorem isReal_layerRef (X T1 P2 : Mat 20000 256) (W : Weights) (l : Fin 4) (n : Fin 20000) (j : Fin 256)
    (hX : ∀ i, IsReal (X i)) (hT : ∀ i, IsReal (T1 i)) (hP : ∀ i, IsReal (P2 i)) (hW : ∀ i, IsReal (W i)) :
    IsReal (layerRef X T1 P2 W l n j) := by
  unfold layerRef
  refine IsReal.max (IsReal.add (IsReal.add ?_ ?_) ?_) isReal_zero
  · exact isReal_sum _ _ fun k _ => (hX _).mul (hW _)
  · exact isReal_sum _ _ fun k _ => (hT _).mul (hW _)
  · exact isReal_sum _ _ fun k _ => ((Cert.Consts.two_real.mul (hP _)).sub (hX _)).mul (hW _)

/-! ## The hidden layer -/

/-- Block `b` (256 rows) of a 1024-row matrix. -/
def rowBlock (w : Mat 1024 256) (b : Fin 4) : Mat 256 256 :=
  fun i => w (ix2 (⟨256 * b.val + (i 0).val, by have := idx2_lt0 i; have := b.isLt; omega⟩ : Fin 1024) (⟨(i 1).val, idx2_lt1 i⟩ : Fin 256))

/-- A vector as a one-row matrix. -/
def asRow {c : Nat} (v : Row c) : Mat 1 c := fun i => v (ix1 (⟨(i 1).val, idx2_lt1 i⟩ : Fin c))

/-- The same two positions give the same product. -/
theorem mul_same_idx (jk : Mat 20000 1024) (w1 : Mat 1024 256) (n : Fin 20000) (q : Fin 256) {a a' b b' : Fin 1024}
    (ha : a = a') (hb : b = b') : jk (ix2 n a) * w1 (ix2 b q) = jk (ix2 n a') * w1 (ix2 b' q) := by
  subst ha hb; rfl

/-- Contracting block by block is contracting the concatenation. -/
theorem hidden_blocks (h0 h1 h2 h3 : Mat 20000 256) (jk : Mat 20000 1024) (w1 : Mat 1024 256) (b1 : Row 256)
    (n : Fin 20000) (q : Fin 256)
    (e0 : ∀ k : Fin 256, jk (ix2 n (⟨k.val, by omega⟩ : Fin 1024)) = h0 (ix2 n k))
    (e1 : ∀ k : Fin 256, jk (ix2 n (⟨256 + k.val, by omega⟩ : Fin 1024)) = h1 (ix2 n k))
    (e2 : ∀ k : Fin 256, jk (ix2 n (⟨512 + k.val, by omega⟩ : Fin 1024)) = h2 (ix2 n k))
    (e3 : ∀ k : Fin 256, jk (ix2 n (⟨768 + k.val, by omega⟩ : Fin 1024)) = h3 (ix2 n k)) :
    hiddenBlocks h0 h1 h2 h3 (rowBlock w1 0) (rowBlock w1 1) (rowBlock w1 2) (rowBlock w1 3) (asRow b1) n q
      = hiddenRef jk w1 b1 n q := by
  unfold hiddenBlocks hiddenRef dot
  have hs := sum_four_blocks 256 (fun k : Fin (256 + 256 + 256 + 256) => jk (ix2 n (⟨k.val, k.isLt⟩ : Fin 1024)) * w1 (ix2 (⟨k.val, k.isLt⟩ : Fin 1024) q))
  have hL : ∑ k : Fin 1024, jk (ix2 n k) * w1 (ix2 k q)
      = ∑ k : Fin (256 + 256 + 256 + 256), jk (ix2 n (⟨k.val, k.isLt⟩ : Fin 1024)) * w1 (ix2 (⟨k.val, k.isLt⟩ : Fin 1024) q) := rfl
  rw [hL, hs]
  refine congrArg (fun s => max (s + b1 (ix1 q)) 0) ?_
  refine congrArg₂ (· + ·) (congrArg₂ (· + ·) (congrArg₂ (· + ·) ?_ ?_) ?_) ?_
  · exact Finset.sum_congr rfl fun k _ => by
      rw [← e0 k]
      exact mul_same_idx jk w1 n q (Fin.ext (by simp)) (Fin.ext (by simp [rowBlock]))
  · exact Finset.sum_congr rfl fun k _ => by
      rw [← e1 k]
      exact mul_same_idx jk w1 n q (Fin.ext (by simp)) (Fin.ext (by simp [rowBlock]))
  · exact Finset.sum_congr rfl fun k _ => by
      rw [← e2 k]
      exact mul_same_idx jk w1 n q (Fin.ext (by simp)) (Fin.ext (by simp [rowBlock]))
  · exact Finset.sum_congr rfl fun k _ => by
      rw [← e3 k]
      exact mul_same_idx jk w1 n q (Fin.ext (by simp)) (Fin.ext (by simp [rowBlock]))

/-! ## The logits -/

/-- The normalisation's scale, γ·rsqrt(var + ε), as a row. -/
def scaleRow (γ var : Row 256) : Row 256 := fun i => γ i * Ideal.rsqrt (var i + eps)
/-- The folded shift, β − μ·scale, as a row. -/
def shiftRow (γ β μ var : Row 256) : Row 256 := fun i => β i - μ i * scaleRow γ var i

/-- With a nonnegative real variance the scale is real. -/
theorem isReal_scale (γ var : Row 256) (hγ : ∀ i, IsReal (γ i)) (hv : ∀ i, IsReal (var i)) (hv0 : ∀ i, (0 : EReal) ≤ var i)
    (hr : ∀ x : EReal, IsReal x → 0 < x → IsReal (Ideal.rsqrt x)) (i : (⟨1, ![256]⟩ : Shape).Idx) : IsReal (scaleRow γ var i) := by
  unfold scaleRow
  refine (hγ i).mul (hr _ ((hv i).add Cert.Consts.eps_real) ?_)
  exact lt_of_lt_of_le Cert.Consts.eps_pos (le_add_of_nonneg_left (hv0 i))

/-- The affine map folded into a scale and a shift is the reference's, entry by entry, so the logits agree. -/
theorem logit_fold (z : Mat 20000 256) (γ β μ var : Row 256) (w2 : Mat 256 2) (b2 : Row 2) (n : Fin 20000) (j : Fin 2)
    (hz : ∀ i, IsReal (z i)) (hs : ∀ i, IsReal (scaleRow γ var i)) (hβ : ∀ i, IsReal (β i)) (hμ : ∀ i, IsReal (μ i)) :
    ∑ k : Fin 256, (z (ix2 n k) * scaleRow γ var (ix1 k) + shiftRow γ β μ var (ix1 k)) * w2 (ix2 k j) + b2 (ix1 j)
      = logitRef z γ β μ var w2 b2 n j := by
  unfold logitRef
  refine congrArg (· + b2 (ix1 j)) (Finset.sum_congr rfl fun k _ => ?_)
  refine congrArg (· * w2 (ix2 k j)) ?_
  exact affine_two_ways (hz _) (hs _) (hβ _) (hμ _)

end Cert.BridgeLaws

end
-- ==== Proof.RefParts.lean ====
/-
  The reference's stages, cut where the kernel program's host stretches are cut.

  The edge norm is `−((dis[row]·w)·dis[col])`, with negative indices wrapped by the array's length: as a function of
  `dis`, the two index rows and the edge weights it is the tail of the reference's norm chain, and `dis` itself is a
  `select` between `rsqrt(deg)` and zero. A layer's three folded matrices, `W₀ − W₂`, `W₁` and `2·W₂`, are read entry by
  entry off the weight tensor.
-/
import proofs.«165358_j80178449481840_2_alg».proof.Proof.RefLayers
import proofs.«165358_j80178449481840_2_alg».proof.Proof.BridgeLaws
import Idealize.ShloMosaic.Lib.ValueIdx

set_option maxRecDepth 16384

noncomputable section

namespace Cert.RefParts

open Cert.ReferenceIdeal Cert.ReferenceIdeal.Gen Cert.ReferenceIdeal.ReadP
open Idealize.ShloMosaic Idealize.ShloMosaic.ValueIdx

/-- The tail of the norm chain: wrap the two index rows, gather `dis` at each, multiply with the weights, negate. -/
def normTail (dis : (⟨S20000, .f32⟩ : BufTy).Contents (Elt Ideal)) (row col : (⟨S320000, .i32⟩ : BufTy).Contents (Elt Ideal))
    (w : (⟨S320000, .f32⟩ : BufTy).Contents (Elt Ideal)) : (⟨S320000, .f32⟩ : BufTy).Contents (Elt Ideal) :=
  Host.negf (F := Ideal) (φ := .f32) (mulf (F := Ideal) (φ := .f32) (mulf (F := Ideal) (φ := .f32)
    (Host.gather gather_S20000_S320000x1_S320000_n_0_n_n_0_1_1 dis
      (broadcastInDim S320000x1 ![0] bcast_S320000_S320000x1_0
        (select (cmpi .slt row (broadcastInDim S320000 ![] bcast_S_S320000 (constantI S_ 32 0#32)))
          (addi row (broadcastInDim S320000 ![] bcast_S_S320000 (constantI S_ 32 20000#32))) row)))
    w)
    (Host.gather gather_S20000_S320000x1_S320000_n_0_n_n_0_1_1 dis
      (broadcastInDim S320000x1 ![0] bcast_S320000_S320000x1_0
        (select (cmpi .slt col (broadcastInDim S320000 ![] bcast_S_S320000 (constantI S_ 32 0#32)))
          (addi col (broadcastInDim S320000 ![] bcast_S_S320000 (constantI S_ 32 20000#32))) col))))

section
variable (x1 : (⟨S2x320000, .i32⟩ : BufTy).Contents (Elt Ideal)) (x3 : (⟨S320000, .f32⟩ : BufTy).Contents (Elt Ideal))
  (x4 : (⟨S4x3x256x256, .f32⟩ : BufTy).Contents (Elt Ideal))

/-- The reference's norm is that tail of its `dis`, its index rows and the weights. -/
theorem v27_eq : val_main_v27 (F := Ideal) x1 x3
    = normTail (val_main_v10 (F := Ideal) x1 x3) (val_main_v1 (F := Ideal) x1) (val_main_v3 (F := Ideal) x1) x3 := by
  simp only [val_main_v27, val_main_v26, val_main_v25, val_main_v24, val_main_v23, val_main_v22, val_main_v21, val_main_v20, val_main_v19, val_main_v18, val_main_v17, val_main_v16, val_main_v15, val_main_v14, val_main_v13, val_main_v12, val_main_v11, val_main_c, val_main_c_2, val_main_c_3, val_main_c_4]
  rfl

/-- The reference's `dis` is the `select` between `rsqrt(deg)` and a zero array. -/
theorem v10_eq : val_main_v10 (F := Ideal) x1 x3
    = select (val_main_v8 (F := Ideal) x1 x3) (val_main_v9 (F := Ideal) x1 x3)
        (broadcastInDim S20000 ![] bcast_S_S20000 (id (constant (F := Ideal) S_ .f32 0x00000000#32))) := by
  simp only [val_main_v10, val_main_call0_v1, val_main_call0_v0, val_main_cst_1]

/-- Layer 0's folded matrices, entry by entry, from the weight tensor. -/
theorem foldA0_apply (k j : Fin 256) :
    (subf (F := Ideal) (φ := .f32) (val_main_v44 (F := Ideal) x4) (val_main_v67 (F := Ideal) x4)) (ix2 k j) = Cert.BridgeLaws.foldA x4 0 (ix2 k j) := by
  show val_main_v44 (F := Ideal) x4 (ix2 k j) - val_main_v67 (F := Ideal) x4 (ix2 k j) = _
  rw [Cert.RefLayers.W_v44 x4 k j, Cert.RefLayers.W_v67 x4 k j]; rfl
theorem foldB0_apply (k j : Fin 256) :
    (val_main_v47 (F := Ideal) x4) (ix2 k j) = Cert.BridgeLaws.foldB x4 0 (ix2 k j) := by
  rw [Cert.RefLayers.W_v47 x4 k j]; rfl
theorem foldC0_apply (t2 : (⟨S256x256, .f32⟩ : BufTy).Contents (Elt Ideal)) (ht : ∀ i, t2 i = Cert.Spec.two) (k j : Fin 256) :
    (mulf (F := Ideal) (φ := .f32) t2 (val_main_v67 (F := Ideal) x4)) (ix2 k j) = Cert.BridgeLaws.foldC x4 0 (ix2 k j) := by
  show t2 (ix2 k j) * val_main_v67 (F := Ideal) x4 (ix2 k j) = _
  rw [ht]
  rw [Cert.RefLayers.W_v67 x4 k j]; rfl

/-- Layer 1's folded matrices, entry by entry, from the weight tensor. -/
theorem foldA1_apply (k j : Fin 256) :
    (subf (F := Ideal) (φ := .f32) (val_main_v87 (F := Ideal) x4) (val_main_v110 (F := Ideal) x4)) (ix2 k j) = Cert.BridgeLaws.foldA x4 1 (ix2 k j) := by
  show val_main_v87 (F := Ideal) x4 (ix2 k j) - val_main_v110 (F := Ideal) x4 (ix2 k j) = _
  rw [Cert.RefLayers.W_v87 x4 k j, Cert.RefLayers.W_v110 x4 k j]; rfl
theorem foldB1_apply (k j : Fin 256) :
    (val_main_v90 (F := Ideal) x4) (ix2 k j) = Cert.BridgeLaws.foldB x4 1 (ix2 k j) := by
  rw [Cert.RefLayers.W_v90 x4 k j]; rfl
theorem foldC1_apply (t2 : (⟨S256x256, .f32⟩ : BufTy).Contents (Elt Ideal)) (ht : ∀ i, t2 i = Cert.Spec.two) (k j : Fin 256) :
    (mulf (F := Ideal) (φ := .f32) t2 (val_main_v110 (F := Ideal) x4)) (ix2 k j) = Cert.BridgeLaws.foldC x4 1 (ix2 k j) := by
  show t2 (ix2 k j) * val_main_v110 (F := Ideal) x4 (ix2 k j) = _
  rw [ht]
  rw [Cert.RefLayers.W_v110 x4 k j]; rfl

/-- Layer 2's folded matrices, entry by entry, from the weight tensor. -/
theorem foldA2_apply (k j : Fin 256) :
    (subf (F := Ideal) (φ := .f32) (val_main_v131 (F := Ideal) x4) (val_main_v154 (F := Ideal) x4)) (ix2 k j) = Cert.BridgeLaws.foldA x4 2 (ix2 k j) := by
  show val_main_v131 (F := Ideal) x4 (ix2 k j) - val_main_v154 (F := Ideal) x4 (ix2 k j) = _
  rw [Cert.RefLayers.W_v131 x4 k j, Cert.RefLayers.W_v154 x4 k j]; rfl
theorem foldB2_apply (k j : Fin 256) :
    (val_main_v134 (F := Ideal) x4) (ix2 k j) = Cert.BridgeLaws.foldB x4 2 (ix2 k j) := by
  rw [Cert.RefLayers.W_v134 x4 k j]; rfl
theorem foldC2_apply (t2 : (⟨S256x256, .f32⟩ : BufTy).Contents (Elt Ideal)) (ht : ∀ i, t2 i = Cert.Spec.two) (k j : Fin 256) :
    (mulf (F := Ideal) (φ := .f32) t2 (val_main_v154 (F := Ideal) x4)) (ix2 k j) = Cert.BridgeLaws.foldC x4 2 (ix2 k j) := by
  show t2 (ix2 k j) * val_main_v154 (F := Ideal) x4 (ix2 k j) = _
  rw [ht]
  rw [Cert.RefLayers.W_v154 x4 k j]; rfl

/-- Layer 3's folded matrices, entry by entry, from the weight tensor. -/
theorem foldA3_apply (k j : Fin 256) :
    (subf (F := Ideal) (φ := .f32) (val_main_v175 (F := Ideal) x4) (val_main_v198 (F := Ideal) x4)) (ix2 k j) = Cert.BridgeLaws.foldA x4 3 (ix2 k j) := by
  show val_main_v175 (F := Ideal) x4 (ix2 k j) - val_main_v198 (F := Ideal) x4 (ix2 k j) = _
  rw [Cert.RefLayers.W_v175 x4 k j, Cert.RefLayers.W_v198 x4 k j]; rfl
theorem foldB3_apply (k j : Fin 256) :
    (val_main_v178 (F := Ideal) x4) (ix2 k j) = Cert.BridgeLaws.foldB x4 3 (ix2 k j) := by
  rw [Cert.RefLayers.W_v178 x4 k j]; rfl
theorem foldC3_apply (t2 : (⟨S256x256, .f32⟩ : BufTy).Contents (Elt Ideal)) (ht : ∀ i, t2 i = Cert.Spec.two) (k j : Fin 256) :
    (mulf (F := Ideal) (φ := .f32) t2 (val_main_v198 (F := Ideal) x4)) (ix2 k j) = Cert.BridgeLaws.foldC x4 3 (ix2 k j) := by
  show t2 (ix2 k j) * val_main_v198 (F := Ideal) x4 (ix2 k j) = _
  rw [ht]
  rw [Cert.RefLayers.W_v198 x4 k j]; rfl

end

end Cert.RefParts

end
-- ==== Proof.KernelHost.lean ====
/-
  The kernel program's host stretches, read off.

  Between launches the program runs the same host operations as the reference: it splits the edge list into source
  and target rows, forms the edge norm once, propagates features along edges, and slices and folds each layer's three
  weight matrices. Each lemma here says what one buffer holds after ONE stretch, as a function of the buffers the
  stretch starts from — whatever those hold — and names that function with the reference's own stages wherever the
  two programs apply the same operations to the same values. The kernel program rounds a propagation's operand to a
  narrower float format before gathering and widens it after: on extended reals both are the identity.
-/
import proofs.«165358_j80178449481840_2_alg».proof.Proof.Gen.KernelIdeal.Frame
import proofs.«165358_j80178449481840_2_alg».proof.Proof.RefParts
import Idealize.ShloMosaic.Lib.StableHlo.Run
import Idealize.ShloMosaic.PureOps.Ideal

set_option maxRecDepth 16384

noncomputable section

namespace Cert.KernelHost

open Cert.KernelIdeal Cert.KernelIdeal.Gen
open Idealize.ShloMosaic Idealize.ShloMosaic.TcCoe Idealize.SL.Sem Idealize.ShloMosaic.StableHlo
open Cert.ReferenceIdeal.ReadP

variable (W : Valuation τ sig (Elt Ideal))

/-! ## The first stretch: the edge list's two rows, the degrees' comparison and reciprocal root -/

theorem s0_row : StableHlo.after hostOps0 W (Proc.devRef .tc main_v1) = val_main_v1 (F := Ideal) (W (Proc.devRef .tc main_arg1)) := by
  after_results_simp
  rfl
theorem s0_col : StableHlo.after hostOps0 W (Proc.devRef .tc main_v3) = val_main_v3 (F := Ideal) (W (Proc.devRef .tc main_arg1)) := by
  after_results_simp
  rfl
theorem s0_pos : StableHlo.after hostOps0 W (Proc.devRef .tc main_v8) = val_main_v8 (F := Ideal) (W (Proc.devRef .tc main_arg1)) (W (Proc.devRef .tc main_arg3)) := by
  after_results_simp
  simp only [val_main_v8, val_main_v7, val_main_v6, val_main_v5, val_main_v4, val_main_v1, val_main_v0, val_main_cst, val_main_cst_0]
  rfl
theorem s0_rsqrt : StableHlo.after hostOps0 W (Proc.devRef .tc main_v9) = val_main_v9 (F := Ideal) (W (Proc.devRef .tc main_arg1)) (W (Proc.devRef .tc main_arg3)) := by
  after_results_simp
  simp only [val_main_v9, val_main_v6, val_main_v5, val_main_v4, val_main_v1, val_main_v0, val_main_cst]
  rfl
theorem s0_zero : StableHlo.after hostOps0 W (Proc.devRef .tc main_cst_1) = constant (F := Ideal) S_ .f32 0x00000000#32 := by
  after_results_simp
theorem s0_keeps_arg0 : StableHlo.after hostOps0 W (Proc.devRef .tc main_arg0) = W (Proc.devRef .tc main_arg0) := by after_results_simp
theorem s0_keeps_arg1 : StableHlo.after hostOps0 W (Proc.devRef .tc main_arg1) = W (Proc.devRef .tc main_arg1) := by after_results_simp
theorem s0_keeps_arg3 : StableHlo.after hostOps0 W (Proc.devRef .tc main_arg3) = W (Proc.devRef .tc main_arg3) := by after_results_simp
theorem s0_keeps_arg4 : StableHlo.after hostOps0 W (Proc.devRef .tc main_arg4) = W (Proc.devRef .tc main_arg4) := by after_results_simp
theorem s0_keeps_arg5 : StableHlo.after hostOps0 W (Proc.devRef .tc main_arg5) = W (Proc.devRef .tc main_arg5) := by after_results_simp
theorem s0_keeps_arg6 : StableHlo.after hostOps0 W (Proc.devRef .tc main_arg6) = W (Proc.devRef .tc main_arg6) := by after_results_simp
theorem s0_keeps_arg7 : StableHlo.after hostOps0 W (Proc.devRef .tc main_arg7) = W (Proc.devRef .tc main_arg7) := by after_results_simp
theorem s0_keeps_arg8 : StableHlo.after hostOps0 W (Proc.devRef .tc main_arg8) = W (Proc.devRef .tc main_arg8) := by after_results_simp
theorem s0_keeps_arg9 : StableHlo.after hostOps0 W (Proc.devRef .tc main_arg9) = W (Proc.devRef .tc main_arg9) := by after_results_simp
theorem s0_keeps_arg10 : StableHlo.after hostOps0 W (Proc.devRef .tc main_arg10) = W (Proc.devRef .tc main_arg10) := by after_results_simp
theorem s0_keeps_arg11 : StableHlo.after hostOps0 W (Proc.devRef .tc main_arg11) = W (Proc.devRef .tc main_arg11) := by after_results_simp
theorem s0_keeps_arg12 : StableHlo.after hostOps0 W (Proc.devRef .tc main_arg12) = W (Proc.devRef .tc main_arg12) := by after_results_simp

/-! ## The second stretch: `dis`, a select between the reciprocal root and zero -/

theorem s01_dis : StableHlo.after hostOps0_1 W (Proc.devRef .tc main_v10)
    = select (W (Proc.devRef .tc main_v8)) (W (Proc.devRef .tc main_v9)) (broadcastInDim S20000 ![] bcast_S_S20000 (id (W (Proc.devRef .tc main_cst_1)))) := by
  after_results_simp
  rfl
theorem s01_keeps_v1 : StableHlo.after hostOps0_1 W (Proc.devRef .tc main_v1) = W (Proc.devRef .tc main_v1) := by after_results_simp
theorem s01_keeps_v3 : StableHlo.after hostOps0_1 W (Proc.devRef .tc main_v3) = W (Proc.devRef .tc main_v3) := by after_results_simp
theorem s01_keeps_arg0 : StableHlo.after hostOps0_1 W (Proc.devRef .tc main_arg0) = W (Proc.devRef .tc main_arg0) := by after_results_simp
theorem s01_keeps_arg1 : StableHlo.after hostOps0_1 W (Proc.devRef .tc main_arg1) = W (Proc.devRef .tc main_arg1) := by after_results_simp
theorem s01_keeps_arg3 : StableHlo.after hostOps0_1 W (Proc.devRef .tc main_arg3) = W (Proc.devRef .tc main_arg3) := by after_results_simp
theorem s01_keeps_arg4 : StableHlo.after hostOps0_1 W (Proc.devRef .tc main_arg4) = W (Proc.devRef .tc main_arg4) := by after_results_simp
theorem s01_keeps_arg5 : StableHlo.after hostOps0_1 W (Proc.devRef .tc main_arg5) = W (Proc.devRef .tc main_arg5) := by after_results_simp
theorem s01_keeps_arg6 : StableHlo.after hostOps0_1 W (Proc.devRef .tc main_arg6) = W (Proc.devRef .tc main_arg6) := by after_results_simp
theorem s01_keeps_arg7 : StableHlo.after hostOps0_1 W (Proc.devRef .tc main_arg7) = W (Proc.devRef .tc main_arg7) := by after_results_simp
theorem s01_keeps_arg8 : StableHlo.after hostOps0_1 W (Proc.devRef .tc main_arg8) = W (Proc.devRef .tc main_arg8) := by after_results_simp
theorem s01_keeps_arg9 : StableHlo.after hostOps0_1 W (Proc.devRef .tc main_arg9) = W (Proc.devRef .tc main_arg9) := by after_results_simp
theorem s01_keeps_arg10 : StableHlo.after hostOps0_1 W (Proc.devRef .tc main_arg10) = W (Proc.devRef .tc main_arg10) := by after_results_simp
theorem s01_keeps_arg11 : StableHlo.after hostOps0_1 W (Proc.devRef .tc main_arg11) = W (Proc.devRef .tc main_arg11) := by after_results_simp
theorem s01_keeps_arg12 : StableHlo.after hostOps0_1 W (Proc.devRef .tc main_arg12) = W (Proc.devRef .tc main_arg12) := by after_results_simp

/-! ## The third stretch: the norm, layer 0's two propagations and folded matrices -/

theorem s02_norm : StableHlo.after hostOps0_2 W (Proc.devRef .tc main_v27)
    = Cert.RefParts.normTail (W (Proc.devRef .tc main_v10)) (W (Proc.devRef .tc main_v1)) (W (Proc.devRef .tc main_v3)) (W (Proc.devRef .tc main_arg3)) := by
  after_results_simp
  unfold Cert.RefParts.normTail
  rfl
theorem s02_T1 : StableHlo.after hostOps0_2 W (Proc.devRef .tc main_v44)
    = Cert.RefLayers.propR (Cert.RefParts.normTail (W (Proc.devRef .tc main_v10)) (W (Proc.devRef .tc main_v1)) (W (Proc.devRef .tc main_v3)) (W (Proc.devRef .tc main_arg3)))
        (W (Proc.devRef .tc main_v1)) (W (Proc.devRef .tc main_v3)) (W (Proc.devRef .tc main_arg0)) := by
  after_results_simp
  unfold Cert.RefLayers.propR Cert.RefParts.normTail
  rfl
theorem s02_P2 : StableHlo.after hostOps0_2 W (Proc.devRef .tc main_v59)
    = Cert.RefLayers.propR (Cert.RefParts.normTail (W (Proc.devRef .tc main_v10)) (W (Proc.devRef .tc main_v1)) (W (Proc.devRef .tc main_v3)) (W (Proc.devRef .tc main_arg3)))
        (W (Proc.devRef .tc main_v1)) (W (Proc.devRef .tc main_v3))
        (Cert.RefLayers.propR (Cert.RefParts.normTail (W (Proc.devRef .tc main_v10)) (W (Proc.devRef .tc main_v1)) (W (Proc.devRef .tc main_v3)) (W (Proc.devRef .tc main_arg3)))
          (W (Proc.devRef .tc main_v1)) (W (Proc.devRef .tc main_v3)) (W (Proc.devRef .tc main_arg0))) := by
  after_results_simp
  unfold Cert.RefLayers.propR Cert.RefParts.normTail
  rfl

/-- Layer 0's folded matrices are the reference's slices of the weight tensor, combined. -/
theorem s02_A : StableHlo.after hostOps0_2 W (Proc.devRef .tc main_v65)
    = truncf (F := Ideal) (φ := .f32) .bf16 (subf (F := Ideal) (φ := .f32) (val_main_v44 (F := Ideal) (W (Proc.devRef .tc main_arg4))) (val_main_v67 (F := Ideal) (W (Proc.devRef .tc main_arg4)))) bitsLt_bf16_f32 := by
  after_results_simp
  simp only [val_main_v44, val_main_v43, val_main_v47, val_main_v46, val_main_v67, val_main_v66, val_main_v29, val_main_v28]
  rfl
theorem s02_B : StableHlo.after hostOps0_2 W (Proc.devRef .tc main_v68)
    = truncf (F := Ideal) (φ := .f32) .bf16 (val_main_v47 (F := Ideal) (W (Proc.devRef .tc main_arg4))) bitsLt_bf16_f32 := by
  after_results_simp
  simp only [val_main_v44, val_main_v43, val_main_v47, val_main_v46, val_main_v67, val_main_v66, val_main_v29, val_main_v28]
  rfl
theorem s02_C : StableHlo.after hostOps0_2 W (Proc.devRef .tc main_v73)
    = truncf (F := Ideal) (φ := .f32) .bf16 (mulf (F := Ideal) (φ := .f32) (broadcastInDim S256x256 ![] bcast_S_S256x256 (constant (F := Ideal) S_ .f32 0x40000000#32))
        (val_main_v67 (F := Ideal) (W (Proc.devRef .tc main_arg4)))) bitsLt_bf16_f32 := by
  after_results_simp
  simp only [val_main_v44, val_main_v43, val_main_v47, val_main_v46, val_main_v67, val_main_v66, val_main_v29, val_main_v28]
  rfl

theorem s02_keeps_v1 : StableHlo.after hostOps0_2 W (Proc.devRef .tc main_v1) = W (Proc.devRef .tc main_v1) := by after_results_simp
theorem s02_keeps_v3 : StableHlo.after hostOps0_2 W (Proc.devRef .tc main_v3) = W (Proc.devRef .tc main_v3) := by after_results_simp
theorem s02_keeps_arg0 : StableHlo.after hostOps0_2 W (Proc.devRef .tc main_arg0) = W (Proc.devRef .tc main_arg0) := by after_results_simp
theorem s02_keeps_arg1 : StableHlo.after hostOps0_2 W (Proc.devRef .tc main_arg1) = W (Proc.devRef .tc main_arg1) := by after_results_simp
theorem s02_keeps_arg3 : StableHlo.after hostOps0_2 W (Proc.devRef .tc main_arg3) = W (Proc.devRef .tc main_arg3) := by after_results_simp
theorem s02_keeps_arg4 : StableHlo.after hostOps0_2 W (Proc.devRef .tc main_arg4) = W (Proc.devRef .tc main_arg4) := by after_results_simp
theorem s02_keeps_arg5 : StableHlo.after hostOps0_2 W (Proc.devRef .tc main_arg5) = W (Proc.devRef .tc main_arg5) := by after_results_simp
theorem s02_keeps_arg6 : StableHlo.after hostOps0_2 W (Proc.devRef .tc main_arg6) = W (Proc.devRef .tc main_arg6) := by after_results_simp
theorem s02_keeps_arg7 : StableHlo.after hostOps0_2 W (Proc.devRef .tc main_arg7) = W (Proc.devRef .tc main_arg7) := by after_results_simp
theorem s02_keeps_arg8 : StableHlo.after hostOps0_2 W (Proc.devRef .tc main_arg8) = W (Proc.devRef .tc main_arg8) := by after_results_simp
theorem s02_keeps_arg9 : StableHlo.after hostOps0_2 W (Proc.devRef .tc main_arg9) = W (Proc.devRef .tc main_arg9) := by after_results_simp
theorem s02_keeps_arg10 : StableHlo.after hostOps0_2 W (Proc.devRef .tc main_arg10) = W (Proc.devRef .tc main_arg10) := by after_results_simp
theorem s02_keeps_arg11 : StableHlo.after hostOps0_2 W (Proc.devRef .tc main_arg11) = W (Proc.devRef .tc main_arg11) := by after_results_simp
theorem s02_keeps_arg12 : StableHlo.after hostOps0_2 W (Proc.devRef .tc main_arg12) = W (Proc.devRef .tc main_arg12) := by after_results_simp

/-! ## The stretch before launch 1 -/

/-- The first propagation of the previous layer's output. -/
theorem s1_T1 : StableHlo.after hostOps1 W (Proc.devRef .tc main_v91)
    = Cert.RefLayers.propR (W (Proc.devRef .tc main_v27)) (W (Proc.devRef .tc main_v1)) (W (Proc.devRef .tc main_v3)) (W (Proc.devRef .tc main_v74)) := by
  after_results_simp
  unfold Cert.RefLayers.propR
  rfl
/-- The propagation of that. -/
theorem s1_P2 : StableHlo.after hostOps1 W (Proc.devRef .tc main_v106)
    = Cert.RefLayers.propR (W (Proc.devRef .tc main_v27)) (W (Proc.devRef .tc main_v1)) (W (Proc.devRef .tc main_v3))
        (Cert.RefLayers.propR (W (Proc.devRef .tc main_v27)) (W (Proc.devRef .tc main_v1)) (W (Proc.devRef .tc main_v3)) (W (Proc.devRef .tc main_v74))) := by
  after_results_simp
  unfold Cert.RefLayers.propR
  rfl

/-- Layer 1's folded matrices are the reference's slices of the weight tensor, combined. -/
theorem s1_A : StableHlo.after hostOps1 W (Proc.devRef .tc main_v112)
    = truncf (F := Ideal) (φ := .f32) .bf16 (subf (F := Ideal) (φ := .f32) (val_main_v87 (F := Ideal) (W (Proc.devRef .tc main_arg4))) (val_main_v110 (F := Ideal) (W (Proc.devRef .tc main_arg4)))) bitsLt_bf16_f32 := by
  after_results_simp
  simp only [val_main_v87, val_main_v86, val_main_v90, val_main_v89, val_main_v110, val_main_v109, val_main_v72, val_main_v71]
  rfl
theorem s1_B : StableHlo.after hostOps1 W (Proc.devRef .tc main_v115)
    = truncf (F := Ideal) (φ := .f32) .bf16 (val_main_v90 (F := Ideal) (W (Proc.devRef .tc main_arg4))) bitsLt_bf16_f32 := by
  after_results_simp
  simp only [val_main_v87, val_main_v86, val_main_v90, val_main_v89, val_main_v110, val_main_v109, val_main_v72, val_main_v71]
  rfl
theorem s1_C : StableHlo.after hostOps1 W (Proc.devRef .tc main_v120)
    = truncf (F := Ideal) (φ := .f32) .bf16 (mulf (F := Ideal) (φ := .f32) (broadcastInDim S256x256 ![] bcast_S_S256x256 (constant (F := Ideal) S_ .f32 0x40000000#32))
        (val_main_v110 (F := Ideal) (W (Proc.devRef .tc main_arg4)))) bitsLt_bf16_f32 := by
  after_results_simp
  simp only [val_main_v87, val_main_v86, val_main_v90, val_main_v89, val_main_v110, val_main_v109, val_main_v72, val_main_v71]
  rfl

theorem s1_keeps_v74 : StableHlo.after hostOps1 W (Proc.devRef .tc main_v74) = W (Proc.devRef .tc main_v74) := by after_results_simp
theorem s1_keeps_v27 : StableHlo.after hostOps1 W (Proc.devRef .tc main_v27) = W (Proc.devRef .tc main_v27) := by after_results_simp
theorem s1_keeps_v1 : StableHlo.after hostOps1 W (Proc.devRef .tc main_v1) = W (Proc.devRef .tc main_v1) := by after_results_simp
theorem s1_keeps_v3 : StableHlo.after hostOps1 W (Proc.devRef .tc main_v3) = W (Proc.devRef .tc main_v3) := by after_results_simp
theorem s1_keeps_arg0 : StableHlo.after hostOps1 W (Proc.devRef .tc main_arg0) = W (Proc.devRef .tc main_arg0) := by after_results_simp
theorem s1_keeps_arg1 : StableHlo.after hostOps1 W (Proc.devRef .tc main_arg1) = W (Proc.devRef .tc main_arg1) := by after_results_simp
theorem s1_keeps_arg3 : StableHlo.after hostOps1 W (Proc.devRef .tc main_arg3) = W (Proc.devRef .tc main_arg3) := by after_results_simp
theorem s1_keeps_arg4 : StableHlo.after hostOps1 W (Proc.devRef .tc main_arg4) = W (Proc.devRef .tc main_arg4) := by after_results_simp
theorem s1_keeps_arg5 : StableHlo.after hostOps1 W (Proc.devRef .tc main_arg5) = W (Proc.devRef .tc main_arg5) := by after_results_simp
theorem s1_keeps_arg6 : StableHlo.after hostOps1 W (Proc.devRef .tc main_arg6) = W (Proc.devRef .tc main_arg6) := by after_results_simp
theorem s1_keeps_arg7 : StableHlo.after hostOps1 W (Proc.devRef .tc main_arg7) = W (Proc.devRef .tc main_arg7) := by after_results_simp
theorem s1_keeps_arg8 : StableHlo.after hostOps1 W (Proc.devRef .tc main_arg8) = W (Proc.devRef .tc main_arg8) := by after_results_simp
theorem s1_keeps_arg9 : StableHlo.after hostOps1 W (Proc.devRef .tc main_arg9) = W (Proc.devRef .tc main_arg9) := by after_results_simp
theorem s1_keeps_arg10 : StableHlo.after hostOps1 W (Proc.devRef .tc main_arg10) = W (Proc.devRef .tc main_arg10) := by after_results_simp
theorem s1_keeps_arg11 : StableHlo.after hostOps1 W (Proc.devRef .tc main_arg11) = W (Proc.devRef .tc main_arg11) := by after_results_simp
theorem s1_keeps_arg12 : StableHlo.after hostOps1 W (Proc.devRef .tc main_arg12) = W (Proc.devRef .tc main_arg12) := by after_results_simp

/-! ## The stretch before launch 2 -/

/-- The first propagation of the previous layer's output. -/
theorem s2_T1 : StableHlo.after hostOps2 W (Proc.devRef .tc main_v138)
    = Cert.RefLayers.propR (W (Proc.devRef .tc main_v27)) (W (Proc.devRef .tc main_v1)) (W (Proc.devRef .tc main_v3)) (W (Proc.devRef .tc main_v121)) := by
  after_results_simp
  unfold Cert.RefLayers.propR
  rfl
/-- The propagation of that. -/
theorem s2_P2 : StableHlo.after hostOps2 W (Proc.devRef .tc main_v153)
    = Cert.RefLayers.propR (W (Proc.devRef .tc main_v27)) (W (Proc.devRef .tc main_v1)) (W (Proc.devRef .tc main_v3))
        (Cert.RefLayers.propR (W (Proc.devRef .tc main_v27)) (W (Proc.devRef .tc main_v1)) (W (Proc.devRef .tc main_v3)) (W (Proc.devRef .tc main_v121))) := by
  after_results_simp
  unfold Cert.RefLayers.propR
  rfl

/-- Layer 2's folded matrices are the reference's slices of the weight tensor, combined. -/
theorem s2_A : StableHlo.after hostOps2 W (Proc.devRef .tc main_v159)
    = truncf (F := Ideal) (φ := .f32) .bf16 (subf (F := Ideal) (φ := .f32) (val_main_v131 (F := Ideal) (W (Proc.devRef .tc main_arg4))) (val_main_v154 (F := Ideal) (W (Proc.devRef .tc main_arg4)))) bitsLt_bf16_f32 := by
  after_results_simp
  simp only [val_main_v131, val_main_v130, val_main_v134, val_main_v133, val_main_v154, val_main_v153, val_main_v116, val_main_v115]
  rfl
theorem s2_B : StableHlo.after hostOps2 W (Proc.devRef .tc main_v162)
    = truncf (F := Ideal) (φ := .f32) .bf16 (val_main_v134 (F := Ideal) (W (Proc.devRef .tc main_arg4))) bitsLt_bf16_f32 := by
  after_results_simp
  simp only [val_main_v131, val_main_v130, val_main_v134, val_main_v133, val_main_v154, val_main_v153, val_main_v116, val_main_v115]
  rfl
theorem s2_C : StableHlo.after hostOps2 W (Proc.devRef .tc main_v167)
    = truncf (F := Ideal) (φ := .f32) .bf16 (mulf (F := Ideal) (φ := .f32) (broadcastInDim S256x256 ![] bcast_S_S256x256 (constant (F := Ideal) S_ .f32 0x40000000#32))
        (val_main_v154 (F := Ideal) (W (Proc.devRef .tc main_arg4)))) bitsLt_bf16_f32 := by
  after_results_simp
  simp only [val_main_v131, val_main_v130, val_main_v134, val_main_v133, val_main_v154, val_main_v153, val_main_v116, val_main_v115]
  rfl

theorem s2_keeps_v74 : StableHlo.after hostOps2 W (Proc.devRef .tc main_v74) = W (Proc.devRef .tc main_v74) := by after_results_simp
theorem s2_keeps_v121 : StableHlo.after hostOps2 W (Proc.devRef .tc main_v121) = W (Proc.devRef .tc main_v121) := by after_results_simp
theorem s2_keeps_v27 : StableHlo.after hostOps2 W (Proc.devRef .tc main_v27) = W (Proc.devRef .tc main_v27) := by after_results_simp
theorem s2_keeps_v1 : StableHlo.after hostOps2 W (Proc.devRef .tc main_v1) = W (Proc.devRef .tc main_v1) := by after_results_simp
theorem s2_keeps_v3 : StableHlo.after hostOps2 W (Proc.devRef .tc main_v3) = W (Proc.devRef .tc main_v3) := by after_results_simp
theorem s2_keeps_arg0 : StableHlo.after hostOps2 W (Proc.devRef .tc main_arg0) = W (Proc.devRef .tc main_arg0) := by after_results_simp
theorem s2_keeps_arg1 : StableHlo.after hostOps2 W (Proc.devRef .tc main_arg1) = W (Proc.devRef .tc main_arg1) := by after_results_simp
theorem s2_keeps_arg3 : StableHlo.after hostOps2 W (Proc.devRef .tc main_arg3) = W (Proc.devRef .tc main_arg3) := by after_results_simp
theorem s2_keeps_arg4 : StableHlo.after hostOps2 W (Proc.devRef .tc main_arg4) = W (Proc.devRef .tc main_arg4) := by after_results_simp
theorem s2_keeps_arg5 : StableHlo.after hostOps2 W (Proc.devRef .tc main_arg5) = W (Proc.devRef .tc main_arg5) := by after_results_simp
theorem s2_keeps_arg6 : StableHlo.after hostOps2 W (Proc.devRef .tc main_arg6) = W (Proc.devRef .tc main_arg6) := by after_results_simp
theorem s2_keeps_arg7 : StableHlo.after hostOps2 W (Proc.devRef .tc main_arg7) = W (Proc.devRef .tc main_arg7) := by after_results_simp
theorem s2_keeps_arg8 : StableHlo.after hostOps2 W (Proc.devRef .tc main_arg8) = W (Proc.devRef .tc main_arg8) := by after_results_simp
theorem s2_keeps_arg9 : StableHlo.after hostOps2 W (Proc.devRef .tc main_arg9) = W (Proc.devRef .tc main_arg9) := by after_results_simp
theorem s2_keeps_arg10 : StableHlo.after hostOps2 W (Proc.devRef .tc main_arg10) = W (Proc.devRef .tc main_arg10) := by after_results_simp
theorem s2_keeps_arg11 : StableHlo.after hostOps2 W (Proc.devRef .tc main_arg11) = W (Proc.devRef .tc main_arg11) := by after_results_simp
theorem s2_keeps_arg12 : StableHlo.after hostOps2 W (Proc.devRef .tc main_arg12) = W (Proc.devRef .tc main_arg12) := by after_results_simp

/-! ## The stretch before launch 3 -/

/-- The first propagation of the previous layer's output. -/
theorem s3_T1 : StableHlo.after hostOps3 W (Proc.devRef .tc main_v185)
    = Cert.RefLayers.propR (W (Proc.devRef .tc main_v27)) (W (Proc.devRef .tc main_v1)) (W (Proc.devRef .tc main_v3)) (W (Proc.devRef .tc main_v168)) := by
  after_results_simp
  unfold Cert.RefLayers.propR
  rfl
/-- The propagation of that. -/
theorem s3_P2 : StableHlo.after hostOps3 W (Proc.devRef .tc main_v200)
    = Cert.RefLayers.propR (W (Proc.devRef .tc main_v27)) (W (Proc.devRef .tc main_v1)) (W (Proc.devRef .tc main_v3))
        (Cert.RefLayers.propR (W (Proc.devRef .tc main_v27)) (W (Proc.devRef .tc main_v1)) (W (Proc.devRef .tc main_v3)) (W (Proc.devRef .tc main_v168))) := by
  after_results_simp
  unfold Cert.RefLayers.propR
  rfl

/-- Layer 3's folded matrices are the reference's slices of the weight tensor, combined. -/
theorem s3_A : StableHlo.after hostOps3 W (Proc.devRef .tc main_v206)
    = truncf (F := Ideal) (φ := .f32) .bf16 (subf (F := Ideal) (φ := .f32) (val_main_v175 (F := Ideal) (W (Proc.devRef .tc main_arg4))) (val_main_v198 (F := Ideal) (W (Proc.devRef .tc main_arg4)))) bitsLt_bf16_f32 := by
  after_results_simp
  simp only [val_main_v175, val_main_v174, val_main_v178, val_main_v177, val_main_v198, val_main_v197, val_main_v160, val_main_v159]
  rfl
theorem s3_B : StableHlo.after hostOps3 W (Proc.devRef .tc main_v209)
    = truncf (F := Ideal) (φ := .f32) .bf16 (val_main_v178 (F := Ideal) (W (Proc.devRef .tc main_arg4))) bitsLt_bf16_f32 := by
  after_results_simp
  simp only [val_main_v175, val_main_v174, val_main_v178, val_main_v177, val_main_v198, val_main_v197, val_main_v160, val_main_v159]
  rfl
theorem s3_C : StableHlo.after hostOps3 W (Proc.devRef .tc main_v214)
    = truncf (F := Ideal) (φ := .f32) .bf16 (mulf (F := Ideal) (φ := .f32) (broadcastInDim S256x256 ![] bcast_S_S256x256 (constant (F := Ideal) S_ .f32 0x40000000#32))
        (val_main_v198 (F := Ideal) (W (Proc.devRef .tc main_arg4)))) bitsLt_bf16_f32 := by
  after_results_simp
  simp only [val_main_v175, val_main_v174, val_main_v178, val_main_v177, val_main_v198, val_main_v197, val_main_v160, val_main_v159]
  rfl

theorem s3_keeps_v74 : StableHlo.after hostOps3 W (Proc.devRef .tc main_v74) = W (Proc.devRef .tc main_v74) := by after_results_simp
theorem s3_keeps_v121 : StableHlo.after hostOps3 W (Proc.devRef .tc main_v121) = W (Proc.devRef .tc main_v121) := by after_results_simp
theorem s3_keeps_v168 : StableHlo.after hostOps3 W (Proc.devRef .tc main_v168) = W (Proc.devRef .tc main_v168) := by after_results_simp
theorem s3_keeps_v27 : StableHlo.after hostOps3 W (Proc.devRef .tc main_v27) = W (Proc.devRef .tc main_v27) := by after_results_simp
theorem s3_keeps_v1 : StableHlo.after hostOps3 W (Proc.devRef .tc main_v1) = W (Proc.devRef .tc main_v1) := by after_results_simp
theorem s3_keeps_v3 : StableHlo.after hostOps3 W (Proc.devRef .tc main_v3) = W (Proc.devRef .tc main_v3) := by after_results_simp
theorem s3_keeps_arg0 : StableHlo.after hostOps3 W (Proc.devRef .tc main_arg0) = W (Proc.devRef .tc main_arg0) := by after_results_simp
theorem s3_keeps_arg1 : StableHlo.after hostOps3 W (Proc.devRef .tc main_arg1) = W (Proc.devRef .tc main_arg1) := by after_results_simp
theorem s3_keeps_arg3 : StableHlo.after hostOps3 W (Proc.devRef .tc main_arg3) = W (Proc.devRef .tc main_arg3) := by after_results_simp
theorem s3_keeps_arg4 : StableHlo.after hostOps3 W (Proc.devRef .tc main_arg4) = W (Proc.devRef .tc main_arg4) := by after_results_simp
theorem s3_keeps_arg5 : StableHlo.after hostOps3 W (Proc.devRef .tc main_arg5) = W (Proc.devRef .tc main_arg5) := by after_results_simp
theorem s3_keeps_arg6 : StableHlo.after hostOps3 W (Proc.devRef .tc main_arg6) = W (Proc.devRef .tc main_arg6) := by after_results_simp
theorem s3_keeps_arg7 : StableHlo.after hostOps3 W (Proc.devRef .tc main_arg7) = W (Proc.devRef .tc main_arg7) := by after_results_simp
theorem s3_keeps_arg8 : StableHlo.after hostOps3 W (Proc.devRef .tc main_arg8) = W (Proc.devRef .tc main_arg8) := by after_results_simp
theorem s3_keeps_arg9 : StableHlo.after hostOps3 W (Proc.devRef .tc main_arg9) = W (Proc.devRef .tc main_arg9) := by after_results_simp
theorem s3_keeps_arg10 : StableHlo.after hostOps3 W (Proc.devRef .tc main_arg10) = W (Proc.devRef .tc main_arg10) := by after_results_simp
theorem s3_keeps_arg11 : StableHlo.after hostOps3 W (Proc.devRef .tc main_arg11) = W (Proc.devRef .tc main_arg11) := by after_results_simp
theorem s3_keeps_arg12 : StableHlo.after hostOps3 W (Proc.devRef .tc main_arg12) = W (Proc.devRef .tc main_arg12) := by after_results_simp

end Cert.KernelHost

end
-- ==== Proof.PadSlice.lean ====
/-
  Padding a matrix or a vector with zero columns on the right, read at a column of the original.

  The padded array has, on every axis, the operand's entry at position lo + k (interior + 1) for k below the
  operand's extent, and the padding value elsewhere. With no low padding and no interior padding, an index whose
  coordinates are all inside the operand's extents therefore reads the operand at the same coordinates.
-/
import Idealize.ShloMosaic.PureOps.Ideal
import Idealize.ShloMosaic.Lib.ValueIdx
import Idealize.ShloMosaic.Lib.ValueLayout
import Idealize.ShloMosaic.Lib.Pipeline.Value

namespace Cert.PadSlice

open Idealize.ShloMosaic Idealize.ShloMosaic.ValueIdx

/-- A 256 x 2 matrix padded to 256 x 128 by 126 columns on the right: column j < 2 of row k is the matrix's own
    entry (k, j). -/
theorem pad_cols_apply {α : Type} (x : (⟨2, ![256, 2]⟩ : Shape).Idx → α) {u : Shape} (v : u.Idx → α)
    (h : (⟨2, ![256, 2]⟩ : Shape).Pads (![0, 0] : Fin 2 → Nat) ![0, 126] ![0, 0] ⟨2, ![256, 128]⟩)
    (hu : 0 < u.numel) (k : Fin 256) (j : Fin 2) :
    pad ⟨2, ![256, 128]⟩ ![0, 0] ![0, 126] ![0, 0] x v h hu (ix2 k (⟨j.val, by have := j.isLt; omega⟩ : Fin 128))
      = x (ix2 k j) := by
  have hk := k.isLt
  have hj := j.isLt
  unfold pad
  rw [dif_pos (fun a => by
    match a with
    | ⟨0, _⟩ => exact ⟨Nat.zero_le _, by show (k.val - 0) % (0 + 1) = 0; omega, by show (k.val - 0) / (0 + 1) < 256; omega⟩
    | ⟨1, _⟩ => exact ⟨Nat.zero_le _, by show (j.val - 0) % (0 + 1) = 0; omega, by show (j.val - 0) / (0 + 1) < 2; omega⟩)]
  refine congrArg x (funext fun a => Fin.ext ?_)
  match a with
  | ⟨0, _⟩ => show (k.val - 0) / (0 + 1) = k.val; omega
  | ⟨1, _⟩ => show (j.val - 0) / (0 + 1) = j.val; omega

/-- A vector of 2 entries padded to 128 by 126 entries on the right: entry j < 2 is the vector's own entry j. -/
theorem pad_vec_apply {α : Type} (x : (⟨1, ![2]⟩ : Shape).Idx → α) {u : Shape} (v : u.Idx → α)
    (h : (⟨1, ![2]⟩ : Shape).Pads (![0] : Fin 1 → Nat) ![126] ![0] ⟨1, ![128]⟩)
    (hu : 0 < u.numel) (j : Fin 2) :
    pad ⟨1, ![128]⟩ ![0] ![126] ![0] x v h hu (ix1 (⟨j.val, by have := j.isLt; omega⟩ : Fin 128)) = x (ix1 j) := by
  have hj := j.isLt
  unfold pad
  rw [dif_pos (fun a => by
    match a with
    | ⟨0, _⟩ => exact ⟨Nat.zero_le _, by show (j.val - 0) % (0 + 1) = 0; omega, by show (j.val - 0) / (0 + 1) < 2; omega⟩)]
  refine congrArg x (funext fun a => Fin.ext ?_)
  match a with
  | ⟨0, _⟩ => show (j.val - 0) / (0 + 1) = j.val; omega

end Cert.PadSlice
-- ==== Proof.KernelHostTail.lean ====
/-
  The classifier launch's operands, and the result's last slice, read off the host stretches.

  Before the classifier launch the program cuts the hidden layer's 1024×256 matrix into its four blocks of 256 rows,
  turns the bias, the normalisation's scale `γ·rsqrt(var + ε)` and the folded shift `β − μ·scale` into one-row
  matrices, and pads the last matrix and bias with zero columns up to 128. After the launch it keeps the first two
  columns of the 128-column result. Each lemma reads one of these at an entry, from whatever the stretch starts from.
-/
import proofs.«165358_j80178449481840_2_alg».proof.Proof.Gen.KernelIdeal.Frame
import proofs.«165358_j80178449481840_2_alg».proof.Proof.PadSlice
import proofs.«165358_j80178449481840_2_alg».proof.Proof.BridgeLaws
import proofs.«165358_j80178449481840_2_alg».proof.Proof.Spec
import Idealize.ShloMosaic.Lib.StableHlo.Run
import Idealize.ShloMosaic.Lib.ValueIdx
import Idealize.ShloMosaic.Lib.ValueLayout
import Idealize.ShloMosaic.PureOps.Ideal

set_option maxRecDepth 16384

noncomputable section

namespace Cert.KernelHostTail

open Cert.KernelIdeal Cert.KernelIdeal.Gen Cert.Spec
open Idealize.ShloMosaic Idealize.ShloMosaic.TcCoe Idealize.ShloMosaic.ValueIdx Idealize.SL.Sem Idealize.ShloMosaic.StableHlo

variable (W : Valuation τ sig (Elt Ideal))

/-- The buffers' contents after the five stretches that prepare the classifier's operands, from contents `W`. -/
abbrev tail4 : Valuation τ sig (Elt Ideal) :=
  StableHlo.after hostOps4_4 (StableHlo.after hostOps4_3 (StableHlo.after hostOps4_2 (StableHlo.after hostOps4_1 (StableHlo.after hostOps4 W))))

/-- Block 0 of the hidden layer's matrix: rows 0 … 255. -/
theorem t4_chunk0 (k q : Fin 256) :
    (tail4 W (Proc.devRef .tc main_v223) : Mat 256 256) (ix2 k q) = Cert.BridgeLaws.rowBlock (W (Proc.devRef .tc main_arg5)) 0 (ix2 k q) := by
  have e : tail4 W (Proc.devRef .tc main_v223)
      = truncf (F := Ideal) (φ := .f32) .bf16 (extractStridedSlice S256x256 ![0, 0] (W (Proc.devRef .tc main_arg5)) slices_S1024x256_S256x256_0_0) bitsLt_bf16_f32 := by
    dsimp only [tail4]
    after_results_simp
  rw [e]
  show extractStridedSlice S256x256 ![0, 0] (W (Proc.devRef .tc main_arg5)) slices_S1024x256_S256x256_0_0 (ix2 k q) = _
  rw [slice2_axis0_apply 0 (W (Proc.devRef .tc main_arg5)) slices_S1024x256_S256x256_0_0 k q (⟨0 + k.val, by have := k.isLt; omega⟩ : Fin 1024) rfl]
  unfold Cert.BridgeLaws.rowBlock
  exact congrArg (W (Proc.devRef .tc main_arg5)) (congrArg₂ ix2 (Fin.ext (by simp)) (Fin.ext (by simp)))

/-- Block 1 of the hidden layer's matrix: rows 256 … 511. -/
theorem t4_chunk1 (k q : Fin 256) :
    (tail4 W (Proc.devRef .tc main_v225) : Mat 256 256) (ix2 k q) = Cert.BridgeLaws.rowBlock (W (Proc.devRef .tc main_arg5)) 1 (ix2 k q) := by
  have e : tail4 W (Proc.devRef .tc main_v225)
      = truncf (F := Ideal) (φ := .f32) .bf16 (extractStridedSlice S256x256 ![256, 0] (W (Proc.devRef .tc main_arg5)) slices_S1024x256_S256x256_256_0) bitsLt_bf16_f32 := by
    dsimp only [tail4]
    after_results_simp
  rw [e]
  show extractStridedSlice S256x256 ![256, 0] (W (Proc.devRef .tc main_arg5)) slices_S1024x256_S256x256_256_0 (ix2 k q) = _
  rw [slice2_axis0_apply 256 (W (Proc.devRef .tc main_arg5)) slices_S1024x256_S256x256_256_0 k q (⟨256 + k.val, by have := k.isLt; omega⟩ : Fin 1024) rfl]
  unfold Cert.BridgeLaws.rowBlock
  exact congrArg (W (Proc.devRef .tc main_arg5)) (congrArg₂ ix2 (Fin.ext (by simp)) (Fin.ext (by simp)))

/-- Block 2 of the hidden layer's matrix: rows 512 … 767. -/
theorem t4_chunk2 (k q : Fin 256) :
    (tail4 W (Proc.devRef .tc main_v227) : Mat 256 256) (ix2 k q) = Cert.BridgeLaws.rowBlock (W (Proc.devRef .tc main_arg5)) 2 (ix2 k q) := by
  have e : tail4 W (Proc.devRef .tc main_v227)
      = truncf (F := Ideal) (φ := .f32) .bf16 (extractStridedSlice S256x256 ![512, 0] (W (Proc.devRef .tc main_arg5)) slices_S1024x256_S256x256_512_0) bitsLt_bf16_f32 := by
    dsimp only [tail4]
    after_results_simp
  rw [e]
  show extractStridedSlice S256x256 ![512, 0] (W (Proc.devRef .tc main_arg5)) slices_S1024x256_S256x256_512_0 (ix2 k q) = _
  rw [slice2_axis0_apply 512 (W (Proc.devRef .tc main_arg5)) slices_S1024x256_S256x256_512_0 k q (⟨512 + k.val, by have := k.isLt; omega⟩ : Fin 1024) rfl]
  unfold Cert.BridgeLaws.rowBlock
  exact congrArg (W (Proc.devRef .tc main_arg5)) (congrArg₂ ix2 (Fin.ext (by simp)) (Fin.ext (by simp)))

/-- Block 3 of the hidden layer's matrix: rows 768 … 1023. -/
theorem t4_chunk3 (k q : Fin 256) :
    (tail4 W (Proc.devRef .tc main_v229) : Mat 256 256) (ix2 k q) = Cert.BridgeLaws.rowBlock (W (Proc.devRef .tc main_arg5)) 3 (ix2 k q) := by
  have e : tail4 W (Proc.devRef .tc main_v229)
      = truncf (F := Ideal) (φ := .f32) .bf16 (extractStridedSlice S256x256 ![768, 0] (W (Proc.devRef .tc main_arg5)) slices_S1024x256_S256x256_768_0) bitsLt_bf16_f32 := by
    dsimp only [tail4]
    after_results_simp
  rw [e]
  show extractStridedSlice S256x256 ![768, 0] (W (Proc.devRef .tc main_arg5)) slices_S1024x256_S256x256_768_0 (ix2 k q) = _
  rw [slice2_axis0_apply 768 (W (Proc.devRef .tc main_arg5)) slices_S1024x256_S256x256_768_0 k q (⟨768 + k.val, by have := k.isLt; omega⟩ : Fin 1024) rfl]
  unfold Cert.BridgeLaws.rowBlock
  exact congrArg (W (Proc.devRef .tc main_arg5)) (congrArg₂ ix2 (Fin.ext (by simp)) (Fin.ext (by simp)))

/-- The bias as a one-row matrix. -/
theorem t4_bias (q : Fin 256) :
    (tail4 W (Proc.devRef .tc main_v230) : Mat 1 256) (ix2 (0 : Fin 1) q) = Cert.BridgeLaws.asRow (W (Proc.devRef .tc main_arg6)) (ix2 (0 : Fin 1) q) := by
  have e : tail4 W (Proc.devRef .tc main_v230) = fun i => shapeCast S1x256 (W (Proc.devRef .tc main_arg6)) shapeCasts_S256_S1x256 i := by
    dsimp only [tail4]
    after_results_simp
    rfl
  rw [e]
  exact shapeCast_a_1a_apply (W (Proc.devRef .tc main_arg6)) shapeCasts_S256_S1x256 (0 : Fin 1) q

/-- The scale row, `γ·rsqrt(var + ε)`. -/
theorem t4_scale (k : Fin 256) :
    (tail4 W (Proc.devRef .tc main_v231) : Mat 1 256) (ix2 (0 : Fin 1) k)
      = Cert.BridgeLaws.scaleRow (W (Proc.devRef .tc main_arg7)) (W (Proc.devRef .tc main_arg10)) (ix1 k) := by
  have e : tail4 W (Proc.devRef .tc main_v231) = fun i => shapeCast S1x256
      (mulf (W (Proc.devRef .tc main_arg7)) (Host.rsqrt (addf (W (Proc.devRef .tc main_arg10)) (broadcastInDim S256 ![] bcast_S_S256 (constant (F := Ideal) S_ .f32 0x3727C5AC#32)))))
      shapeCasts_S256_S1x256 i := by
    dsimp only [tail4]
    after_results_simp
    rfl
  rw [e]
  refine (shapeCast_a_1a_apply _ shapeCasts_S256_S1x256 (0 : Fin 1) k).trans ?_
  rfl

/-- The shift row, `β − μ·scale`. -/
theorem t4_shift (k : Fin 256) :
    (tail4 W (Proc.devRef .tc main_v232) : Mat 1 256) (ix2 (0 : Fin 1) k)
      = Cert.BridgeLaws.shiftRow (W (Proc.devRef .tc main_arg7)) (W (Proc.devRef .tc main_arg8)) (W (Proc.devRef .tc main_arg9)) (W (Proc.devRef .tc main_arg10)) (ix1 k) := by
  have e : tail4 W (Proc.devRef .tc main_v232) = fun i => shapeCast S1x256
      (subf (W (Proc.devRef .tc main_arg8)) (mulf (W (Proc.devRef .tc main_arg9))
        (mulf (W (Proc.devRef .tc main_arg7)) (Host.rsqrt (addf (W (Proc.devRef .tc main_arg10)) (broadcastInDim S256 ![] bcast_S_S256 (constant (F := Ideal) S_ .f32 0x3727C5AC#32)))))))
      shapeCasts_S256_S1x256 i := by
    dsimp only [tail4]
    after_results_simp
    rfl
  rw [e]
  refine (shapeCast_a_1a_apply _ shapeCasts_S256_S1x256 (0 : Fin 1) k).trans ?_
  rfl

/-- The first two columns of the padded last matrix are the matrix. -/
theorem t4_w2 (k : Fin 256) (j : Fin 2) :
    (tail4 W (Proc.devRef .tc main_v234) : Mat 256 128) (ix2 k (⟨j.val, by have := j.isLt; omega⟩ : Fin 128)) = (W (Proc.devRef .tc main_arg11) : Mat 256 2) (ix2 k j) := by
  have e : tail4 W (Proc.devRef .tc main_v234)
      = truncf .bf16 (pad S256x128 ![0, 0] ![0, 126] ![0, 0] (W (Proc.devRef .tc main_arg11)) (sitofp (F := Ideal) .f32 (constantI S_ 32 0#32)) pads_S256x2_S256x128_000_01260 h_S_) bitsLt_bf16_f32 := by
    dsimp only [tail4]
    after_results_simp
    rfl
  rw [e]
  exact Cert.PadSlice.pad_cols_apply (W (Proc.devRef .tc main_arg11)) _ pads_S256x2_S256x128_000_01260 h_S_ k j

/-- The first two entries of the padded last bias, as a one-row matrix, are the bias. -/
theorem t4_b2 (j : Fin 2) :
    (tail4 W (Proc.devRef .tc main_v236) : Mat 1 128) (ix2 (0 : Fin 1) (⟨j.val, by have := j.isLt; omega⟩ : Fin 128)) = (W (Proc.devRef .tc main_arg12) : Row 2) (ix1 j) := by
  have e : tail4 W (Proc.devRef .tc main_v236) = fun i => shapeCast S1x128
      (pad S128 ![0] ![126] ![0] (W (Proc.devRef .tc main_arg12)) (sitofp (F := Ideal) .f32 (constantI S_ 32 0#32)) pads_S2_S128_01260 h_S_)
      shapeCasts_S128_S1x128 i := by
    dsimp only [tail4]
    after_results_simp
    rfl
  rw [e]
  refine (shapeCast_a_1a_apply _ shapeCasts_S128_S1x128 (0 : Fin 1) _).trans ?_
  exact Cert.PadSlice.pad_vec_apply (W (Proc.devRef .tc main_arg12)) _ pads_S2_S128_01260 h_S_ j

theorem t4_keeps_v74 : tail4 W (Proc.devRef .tc main_v74) = W (Proc.devRef .tc main_v74) := by
  dsimp only [tail4]
  after_results_simp
theorem t4_keeps_v121 : tail4 W (Proc.devRef .tc main_v121) = W (Proc.devRef .tc main_v121) := by
  dsimp only [tail4]
  after_results_simp
theorem t4_keeps_v168 : tail4 W (Proc.devRef .tc main_v168) = W (Proc.devRef .tc main_v168) := by
  dsimp only [tail4]
  after_results_simp
theorem t4_keeps_v215 : tail4 W (Proc.devRef .tc main_v215) = W (Proc.devRef .tc main_v215) := by
  dsimp only [tail4]
  after_results_simp

/-- The result keeps the first two of the 128 columns. -/
theorem t5_result (n : Fin 20000) (j : Fin 2) :
    (StableHlo.after hostOps5 W (Proc.devRef .tc main_v238) : Mat 20000 2) (ix2 n j)
      = (W (Proc.devRef .tc main_v237) : Mat 20000 128) (ix2 n (⟨j.val, by have := j.isLt; omega⟩ : Fin 128)) := by
  have e : StableHlo.after hostOps5 W (Proc.devRef .tc main_v238)
      = extractStridedSlice S20000x2 ![0, 0] (W (Proc.devRef .tc main_v237)) slices_S20000x128_S20000x2_0_0 := by
    after_results_simp
  rw [e]
  exact slice2_axis1_apply 0 (W (Proc.devRef .tc main_v237)) slices_S20000x128_S20000x2_0_0 n j _ (by simp)

end Cert.KernelHostTail

end
-- ==== Proof.KernelBodies.lean ====
/-
  The kernel bodies, read at one entry of the block they write.

  The Chebyshev body takes a block of 2000 rows of each of three feature matrices and three 256×256 matrices and
  leaves, at row `p` and column `q` of its output block,

      max( (Σ_k x0[p,k]·w0[k,q] + Σ_k x1[p,k]·w1[k,q]) + Σ_k x2[p,k]·w2[k,q], 0 ):

  each product of a block with a matrix into a zero accumulator is the plain sum over the 256 contracted positions,
  a change of float format is the identity on extended reals, and the final maximum against the zero word is relu.
  The classifier body first forms, the same way, four such products plus a bias row under a relu, then applies an
  affine map per column (a scale row and a shift row), contracts with a 256×128 matrix and adds a bias row.
-/
import proofs.«165358_j80178449481840_2_alg».proof.Proof.Gen.KernelIdeal.Skeleton
import Idealize.ShloMosaic.PureOps.Ideal.Laws
import Idealize.ShloMosaic.Lib.ValueIdx
import Idealize.ShloMosaic.Lib.Pipeline.Value
import Idealize.ShloMosaic.Lib.ValueLayout

noncomputable section

namespace Cert.KernelBodies

open Idealize.ShloMosaic Idealize.ShloMosaic.ValueIdx Cert.KernelIdeal Cert.KernelIdeal.Gen
open scoped BigOperators

/-- The zero word of the float format denotes the extended real zero. -/
theorem zero_word : (Scalar.ofBits (F := Ideal) .f32 0x00000000#32 : EReal) = 0 := Ideal.ofBits_zero_f32

/-- A block's rows against a 256×256 matrix, into a zero accumulator, at row `p`, column `q`: the sum over the 256
    contracted positions of the products. -/
theorem matmul256 (l : FVec Ideal S2000x256 .bf16) (r : FVec Ideal S256x256 .bf16) (p : Fin 2000) (q : Fin 256) :
    matmul dot_S2000x256_S256x256_S2000x256_1_0_0_1_n_n none l r (constant (F := Ideal) S2000x256 .f32 0x00000000#32) (ix2 p q)
      = ∑ k : Fin 256, l (ix2 p k) * r (ix2 k q) := by
  simp only [matmul]
  rw [Ideal.matmul_constant_zero_apply, ← Equiv.sum_comp (contrEquiv1 dot_S2000x256_S256x256_S2000x256_1_0_0_1_n_n 256 rfl rfl).symm]
  refine Finset.sum_congr rfl fun k _ => ?_
  have hk := contrEquiv1_symm_val dot_S2000x256_S256x256_S2000x256_1_0_0_1_n_n 256 rfl rfl k
  have el : dot_S2000x256_S256x256_S2000x256_1_0_0_1_n_n.lhsIdx (ix2 p q) ((contrEquiv1 dot_S2000x256_S256x256_S2000x256_1_0_0_1_n_n 256 rfl rfl).symm k) = ix2 p k :=
    funext fun a => Fin.ext (by
      match a with
      | ⟨0, _⟩ =>
        show (dot_S2000x256_S256x256_S2000x256_1_0_0_1_n_n.lhsIdx (ix2 p q) ((contrEquiv1 dot_S2000x256_S256x256_S2000x256_1_0_0_1_n_n 256 rfl rfl).symm k) 0).val = p.val
        unfold DotDims.lhsIdx
        rw [dif_neg (show ¬(0 : Fin S2000x256.rank) ∈ dot_S2000x256_S256x256_S2000x256_1_0_0_1_n_n.lhsBatch by decide),
          dif_pos (show (0 : Fin S2000x256.rank) ∈ dot_S2000x256_S256x256_S2000x256_1_0_0_1_n_n.lhsNonContracting by decide)]
        rfl
      | ⟨1, _⟩ => exact (dot_S2000x256_S256x256_S2000x256_1_0_0_1_n_n.lhsIdx_val_of_single rfl (ix2 p q) _).trans hk)
  have er : dot_S2000x256_S256x256_S2000x256_1_0_0_1_n_n.rhsIdx (ix2 p q) ((contrEquiv1 dot_S2000x256_S256x256_S2000x256_1_0_0_1_n_n 256 rfl rfl).symm k) = ix2 k q :=
    funext fun a => Fin.ext (by
      match a with
      | ⟨0, _⟩ => exact (dot_S2000x256_S256x256_S2000x256_1_0_0_1_n_n.rhsIdx_val_of_single rfl (ix2 p q) _).trans hk
      | ⟨1, _⟩ =>
        show (dot_S2000x256_S256x256_S2000x256_1_0_0_1_n_n.rhsIdx (ix2 p q) ((contrEquiv1 dot_S2000x256_S256x256_S2000x256_1_0_0_1_n_n 256 rfl rfl).symm k) 1).val = q.val
        unfold DotDims.rhsIdx
        rw [dif_neg (show ¬(1 : Fin S256x256.rank) ∈ dot_S2000x256_S256x256_S2000x256_1_0_0_1_n_n.rhsBatch by decide),
          dif_pos (show (1 : Fin S256x256.rank) ∈ dot_S2000x256_S256x256_S2000x256_1_0_0_1_n_n.rhsNonContracting by decide)]
        rfl)
  rw [el, er]

/-- A block's rows against a 256×128 matrix, into a zero accumulator, at row `p`, column `q`: the sum over the 256
    contracted positions of the products. -/
theorem matmul128 (l : FVec Ideal S2000x256 .bf16) (r : FVec Ideal S256x128 .bf16) (p : Fin 2000) (q : Fin 128) :
    matmul dot_S2000x256_S256x128_S2000x128_1_0_0_1_n_n none l r (constant (F := Ideal) S2000x128 .f32 0x00000000#32) (ix2 p q)
      = ∑ k : Fin 256, l (ix2 p k) * r (ix2 k q) := by
  simp only [matmul]
  rw [Ideal.matmul_constant_zero_apply, ← Equiv.sum_comp (contrEquiv1 dot_S2000x256_S256x128_S2000x128_1_0_0_1_n_n 256 rfl rfl).symm]
  refine Finset.sum_congr rfl fun k _ => ?_
  have hk := contrEquiv1_symm_val dot_S2000x256_S256x128_S2000x128_1_0_0_1_n_n 256 rfl rfl k
  have el : dot_S2000x256_S256x128_S2000x128_1_0_0_1_n_n.lhsIdx (ix2 p q) ((contrEquiv1 dot_S2000x256_S256x128_S2000x128_1_0_0_1_n_n 256 rfl rfl).symm k) = ix2 p k :=
    funext fun a => Fin.ext (by
      match a with
      | ⟨0, _⟩ =>
        show (dot_S2000x256_S256x128_S2000x128_1_0_0_1_n_n.lhsIdx (ix2 p q) ((contrEquiv1 dot_S2000x256_S256x128_S2000x128_1_0_0_1_n_n 256 rfl rfl).symm k) 0).val = p.val
        unfold DotDims.lhsIdx
        rw [dif_neg (show ¬(0 : Fin S2000x256.rank) ∈ dot_S2000x256_S256x128_S2000x128_1_0_0_1_n_n.lhsBatch by decide),
          dif_pos (show (0 : Fin S2000x256.rank) ∈ dot_S2000x256_S256x128_S2000x128_1_0_0_1_n_n.lhsNonContracting by decide)]
        rfl
      | ⟨1, _⟩ => exact (dot_S2000x256_S256x128_S2000x128_1_0_0_1_n_n.lhsIdx_val_of_single rfl (ix2 p q) _).trans hk)
  have er : dot_S2000x256_S256x128_S2000x128_1_0_0_1_n_n.rhsIdx (ix2 p q) ((contrEquiv1 dot_S2000x256_S256x128_S2000x128_1_0_0_1_n_n 256 rfl rfl).symm k) = ix2 k q :=
    funext fun a => Fin.ext (by
      match a with
      | ⟨0, _⟩ => exact (dot_S2000x256_S256x128_S2000x128_1_0_0_1_n_n.rhsIdx_val_of_single rfl (ix2 p q) _).trans hk
      | ⟨1, _⟩ =>
        show (dot_S2000x256_S256x128_S2000x128_1_0_0_1_n_n.rhsIdx (ix2 p q) ((contrEquiv1 dot_S2000x256_S256x128_S2000x128_1_0_0_1_n_n 256 rfl rfl).symm k) 1).val = q.val
        unfold DotDims.rhsIdx
        rw [dif_neg (show ¬(1 : Fin S256x128.rank) ∈ dot_S2000x256_S256x128_S2000x128_1_0_0_1_n_n.rhsBatch by decide),
          dif_pos (show (1 : Fin S256x128.rank) ∈ dot_S2000x256_S256x128_S2000x128_1_0_0_1_n_n.rhsNonContracting by decide)]
        rfl)
  rw [el, er]

/-- Body 0 at row `p`, column `q` of its block. -/
theorem cheb0_apply (x0 x1 x2 : Vec Ideal S2000x256 .f32) (w0 w1 w2 : Vec Ideal S256x256 .bf16) (p : Fin 2000) (q : Fin 256) :
    k0_pay1 (F := Ideal) x0 x1 x2 w0 w1 w2 (ix2 p q)
      = max ((∑ k : Fin 256, x0 (ix2 p k) * w0 (ix2 k q) + ∑ k : Fin 256, x1 (ix2 p k) * w1 (ix2 k q))
              + ∑ k : Fin 256, x2 (ix2 p k) * w2 (ix2 k q)) 0 := by
  unfold k0_pay1
  simp only [shapeCast_self]
  rw [maximumf_apply, addf_apply, addf_apply, matmul256, matmul256, matmul256, broadcast_apply]
  simp only [truncf_apply]
  exact congrArg (max _) zero_word

/-- Body 1 at row `p`, column `q` of its block. -/
theorem cheb1_apply (x0 x1 x2 : Vec Ideal S2000x256 .f32) (w0 w1 w2 : Vec Ideal S256x256 .bf16) (p : Fin 2000) (q : Fin 256) :
    k1_pay1 (F := Ideal) x0 x1 x2 w0 w1 w2 (ix2 p q)
      = max ((∑ k : Fin 256, x0 (ix2 p k) * w0 (ix2 k q) + ∑ k : Fin 256, x1 (ix2 p k) * w1 (ix2 k q))
              + ∑ k : Fin 256, x2 (ix2 p k) * w2 (ix2 k q)) 0 := by
  unfold k1_pay1
  simp only [shapeCast_self]
  rw [maximumf_apply, addf_apply, addf_apply, matmul256, matmul256, matmul256, broadcast_apply]
  simp only [truncf_apply]
  exact congrArg (max _) zero_word

/-- Body 2 at row `p`, column `q` of its block. -/
theorem cheb2_apply (x0 x1 x2 : Vec Ideal S2000x256 .f32) (w0 w1 w2 : Vec Ideal S256x256 .bf16) (p : Fin 2000) (q : Fin 256) :
    k2_pay1 (F := Ideal) x0 x1 x2 w0 w1 w2 (ix2 p q)
      = max ((∑ k : Fin 256, x0 (ix2 p k) * w0 (ix2 k q) + ∑ k : Fin 256, x1 (ix2 p k) * w1 (ix2 k q))
              + ∑ k : Fin 256, x2 (ix2 p k) * w2 (ix2 k q)) 0 := by
  unfold k2_pay1
  simp only [shapeCast_self]
  rw [maximumf_apply, addf_apply, addf_apply, matmul256, matmul256, matmul256, broadcast_apply]
  simp only [truncf_apply]
  exact congrArg (max _) zero_word

/-- Body 3 at row `p`, column `q` of its block. -/
theorem cheb3_apply (x0 x1 x2 : Vec Ideal S2000x256 .f32) (w0 w1 w2 : Vec Ideal S256x256 .bf16) (p : Fin 2000) (q : Fin 256) :
    k3_pay1 (F := Ideal) x0 x1 x2 w0 w1 w2 (ix2 p q)
      = max ((∑ k : Fin 256, x0 (ix2 p k) * w0 (ix2 k q) + ∑ k : Fin 256, x1 (ix2 p k) * w1 (ix2 k q))
              + ∑ k : Fin 256, x2 (ix2 p k) * w2 (ix2 k q)) 0 := by
  unfold k3_pay1
  simp only [shapeCast_self]
  rw [maximumf_apply, addf_apply, addf_apply, matmul256, matmul256, matmul256, broadcast_apply]
  simp only [truncf_apply]
  exact congrArg (max _) zero_word

/-- The classifier body's hidden layer at row `p`, column `q`: four block products, a bias row, relu. -/
theorem hidden_apply (h0 : Vec Ideal S2000x256 .f32) (v0 : Vec Ideal S256x256 .bf16) (h1 : Vec Ideal S2000x256 .f32) (v1 : Vec Ideal S256x256 .bf16)
    (h2 : Vec Ideal S2000x256 .f32) (v2 : Vec Ideal S256x256 .bf16) (h3 : Vec Ideal S2000x256 .f32) (v3 : Vec Ideal S256x256 .bf16)
    (b : Vec Ideal S1x256 .f32) (p : Fin 2000) (q : Fin 256) :
    k4_pay2 (F := Ideal) h0 v0 h1 v1 h2 v2 h3 v3 b (ix2 p q)
      = max (((((∑ k : Fin 256, h0 (ix2 p k) * v0 (ix2 k q) + ∑ k : Fin 256, h1 (ix2 p k) * v1 (ix2 k q))
                + ∑ k : Fin 256, h2 (ix2 p k) * v2 (ix2 k q)) + ∑ k : Fin 256, h3 (ix2 p k) * v3 (ix2 k q)))
              + b (ix2 (0 : Fin 1) q)) 0 := by
  unfold k4_pay2
  simp only [shapeCast_self]
  rw [maximumf_apply, addf_apply, addf_apply, addf_apply, addf_apply, matmul256, matmul256, matmul256, matmul256,
    broadcast_apply, broadcastTo_1b_ab_apply]
  simp only [truncf_apply]
  exact congrArg (max _) zero_word

/-- The classifier body's output at row `p`, column `j`, from the hidden layer `z`: an affine map per column, a
    contraction with a 256×128 matrix, a bias row. -/
theorem logit_apply (z : FVec Ideal S2000x256 .f32) (s t : Vec Ideal S1x256 .f32) (w : Vec Ideal S256x128 .bf16)
    (b : Vec Ideal S1x128 .f32) (p : Fin 2000) (j : Fin 128) :
    k4_pay1 (F := Ideal) z s t w b (ix2 p j)
      = ∑ k : Fin 256, (z (ix2 p k) * s (ix2 (0 : Fin 1) k) + t (ix2 (0 : Fin 1) k)) * w (ix2 k j) + b (ix2 (0 : Fin 1) j) := by
  unfold k4_pay1
  simp only [shapeCast_self]
  rw [addf_apply, matmul128, broadcastTo_1b_ab_apply]
  simp only [truncf_apply, addf_apply, mulf_apply, broadcastTo_1b_ab_apply]

end Cert.KernelBodies

end
-- ==== Proof.KernelRegions.lean ====
/-
  What a Chebyshev launch leaves in its output array.

  The launch walks ten grid points; point `t` fetches rows `2000·t … 2000·t + 1999` of each of three 20000×256 feature
  matrices and the whole of three 256×256 matrices, runs the body on those blocks, and writes the body's 2000×256
  result back as the same rows of the output array. Row `r` of the output is therefore written by point `r / 2000`,
  every row by exactly one point, and the entry at `(r, q)` is the body's value at `(r mod 2000, q)`, which reads only
  row `r` of the features: the output array is the folded layer of the whole input arrays, entry by entry.
-/
import proofs.«165358_j80178449481840_2_alg».proof.Proof.Gen.KernelIdeal.Frame
import proofs.«165358_j80178449481840_2_alg».proof.Proof.KernelBodies
import proofs.«165358_j80178449481840_2_alg».proof.Proof.Spec
import Idealize.ShloMosaic.Lib.Pipeline.Value
import Idealize.ShloMosaic.Lib.ValueIdx

set_option maxRecDepth 16384

noncomputable section

namespace Cert.KernelRegions

open Idealize.ShloMosaic Idealize.ShloMosaic.TcCoe Idealize.ShloMosaic.ValueIdx Idealize.SL.Sem
open Cert.KernelIdeal Cert.KernelIdeal.Gen Cert.Spec Cert.KernelBodies
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The folded layer as one function of whole arrays. -/
def layerArr (X T1 P2 : Mat 20000 256) (A B C : Mat 256 256) : Mat 20000 256 :=
  fun i => layerFolded X T1 P2 A B C ⟨(i 0).val, idx2_lt0 i⟩ ⟨(i 1).val, idx2_lt1 i⟩

theorem layerArr_apply (X T1 P2 : Mat 20000 256) (A B C : Mat 256 256) (n : Fin 20000) (j : Fin 256) :
    layerArr X T1 P2 A B C (ix2 n j) = layerFolded X T1 P2 A B C n j := rfl

/-! ## Launch 0 -/

/-- The printed index maps over the grid: the row windows sit at block `t`, the matrix windows at block 0. -/
theorem idx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- The body's result is its one store's value of the blocks. -/
theorem out0_eq (x0 x1 x2 : Vec Ideal S2000x256 .f32) (w0 w1 w2 : Vec Ideal S256x256 .bf16) :
    out0_6 (F := Ideal) x0 x1 x2 w0 w1 w2 = k0_pay1 x0 x1 x2 w0 w1 w2 := by
  unfold out0_6
  rw [View.canon_unit_zero hz]
  simp only [View.ld_unit_zero (S := S2000x256) hz, View.ld_unit_zero (S := S256x256) hz]

/-- The grid has ten points. -/
theorem tN0 (t : Fin cfg0.N) : t.val < 10 := by
  have h := t.isLt
  have e : cfg0.N = 10 := N_0
  omega

/-- Row `p` of the layer input's block at point `t` is row `2000·t + p` of the array. -/
theorem rows0_0 (c : Dev nD) (t : Fin cfg0.N) (p : Fin 2000) (k : Fin 256) :
    (iblk0 V c 0 t : Vec Ideal S2000x256 .f32) (ix2 p k)
      = (V c main_arg0 : Mat 20000 256) (ix2 ⟨2000 * t.val + p.val, by have := tN0 t; omega⟩ k) := by
  obtain ⟨e0, e1, -⟩ := idx0 t
  unfold iblk0
  rw [View.read_apply]
  show V c main_arg0 _ = V c main_arg0 _
  congr 1
  funext a
  apply Fin.ext
  match a with
  | ⟨0, _⟩ => show win0_0.index t 0 * 2000 + 1 * p.val = 2000 * t.val + p.val; rw [e0]; omega
  | ⟨1, _⟩ => show win0_0.index t 1 * 256 + 1 * k.val = k.val; rw [e1]; omega

/-- The same for the first propagation's block. -/
theorem rows0_1 (c : Dev nD) (t : Fin cfg0.N) (p : Fin 2000) (k : Fin 256) :
    (iblk0 V c 1 t : Vec Ideal S2000x256 .f32) (ix2 p k)
      = (V c main_v44 : Mat 20000 256) (ix2 ⟨2000 * t.val + p.val, by have := tN0 t; omega⟩ k) := by
  obtain ⟨-, -, e0, e1, -⟩ := idx0 t
  unfold iblk0
  rw [View.read_apply]
  show V c main_v44 _ = V c main_v44 _
  congr 1
  funext a
  apply Fin.ext
  match a with
  | ⟨0, _⟩ => show win0_1.index t 0 * 2000 + 1 * p.val = 2000 * t.val + p.val; rw [e0]; omega
  | ⟨1, _⟩ => show win0_1.index t 1 * 256 + 1 * k.val = k.val; rw [e1]; omega

/-- The same for the second propagation's block. -/
theorem rows0_2 (c : Dev nD) (t : Fin cfg0.N) (p : Fin 2000) (k : Fin 256) :
    (iblk0 V c 2 t : Vec Ideal S2000x256 .f32) (ix2 p k)
      = (V c main_v59 : Mat 20000 256) (ix2 ⟨2000 * t.val + p.val, by have := tN0 t; omega⟩ k) := by
  obtain ⟨-, -, -, -, e0, e1, -⟩ := idx0 t
  unfold iblk0
  rw [View.read_apply]
  show V c main_v59 _ = V c main_v59 _
  congr 1
  funext a
  apply Fin.ext
  match a with
  | ⟨0, _⟩ => show win0_2.index t 0 * 2000 + 1 * p.val = 2000 * t.val + p.val; rw [e0]; omega
  | ⟨1, _⟩ => show win0_2.index t 1 * 256 + 1 * k.val = k.val; rw [e1]; omega

/-- A matrix window's one block is the whole matrix, at every point. -/
theorem mat0_3 (c : Dev nD) (t : Fin cfg0.N) (k : Fin 256) (q : Fin 256) :
    (iblk0 V c 3 t : Vec Ideal S256x256 .bf16) (ix2 k q) = (V c main_v65 : Mat 256 256) (ix2 k q) := by
  obtain ⟨-, -, -, -, -, -, e0, e1, -⟩ := idx0 t
  unfold iblk0
  rw [View.read_apply]
  show V c main_v65 _ = V c main_v65 _
  congr 1
  funext a
  apply Fin.ext
  match a with
  | ⟨0, _⟩ => show win0_3.index t 0 * 256 + 1 * k.val = k.val; rw [e0]; omega
  | ⟨1, _⟩ => show win0_3.index t 1 * 256 + 1 * q.val = q.val; rw [e1]; omega

/-- The same for the second matrix. -/
theorem mat0_4 (c : Dev nD) (t : Fin cfg0.N) (k : Fin 256) (q : Fin 256) :
    (iblk0 V c 4 t : Vec Ideal S256x256 .bf16) (ix2 k q) = (V c main_v68 : Mat 256 256) (ix2 k q) := by
  obtain ⟨-, -, -, -, -, -, -, -, e0, e1, -⟩ := idx0 t
  unfold iblk0
  rw [View.read_apply]
  show V c main_v68 _ = V c main_v68 _
  congr 1
  funext a
  apply Fin.ext
  match a with
  | ⟨0, _⟩ => show win0_4.index t 0 * 256 + 1 * k.val = k.val; rw [e0]; omega
  | ⟨1, _⟩ => show win0_4.index t 1 * 256 + 1 * q.val = q.val; rw [e1]; omega

/-- The same for the third matrix. -/
theorem mat0_5 (c : Dev nD) (t : Fin cfg0.N) (k : Fin 256) (q : Fin 256) :
    (iblk0 V c 5 t : Vec Ideal S256x256 .bf16) (ix2 k q) = (V c main_v73 : Mat 256 256) (ix2 k q) := by
  obtain ⟨-, -, -, -, -, -, -, -, -, -, e0, e1, -⟩ := idx0 t
  unfold iblk0
  rw [View.read_apply]
  show V c main_v73 _ = V c main_v73 _
  congr 1
  funext a
  apply Fin.ext
  match a with
  | ⟨0, _⟩ => show win0_5.index t 0 * 256 + 1 * k.val = k.val; rw [e0]; omega
  | ⟨1, _⟩ => show win0_5.index t 1 * 256 + 1 * q.val = q.val; rw [e1]; omega

/-- The entry at `(p, q)` of the output's block `t` sits at row `2000·t + p`, column `q` of the output array. -/
theorem emb0_6 (t : Fin cfg0.N) (p : Fin 2000) (q : Fin 256) :
    ((cfg0.win 6).blk t).view.emb (ix2 p q : S2000x256.Idx)
      = (ix2 (⟨2000 * t.val + p.val, by have := tN0 t; omega⟩ : Fin 20000) q : S20000x256.Idx) := by
  obtain ⟨-, -, -, -, -, -, -, -, -, -, -, -, e0, e1⟩ := idx0 t
  funext a
  apply Fin.ext
  match a with
  | ⟨0, _⟩ => show win0_6.index t 0 * 2000 + 1 * p.val = 2000 * t.val + p.val; rw [e0]; omega
  | ⟨1, _⟩ => show win0_6.index t 1 * 256 + 1 * q.val = q.val; rw [e1]; omega

/-- What point `t` writes back is block `t` of the folded layer of the whole arrays. -/
theorem flushed0 (c : Dev nD) (t : Fin cfg0.N) :
    (dat0 V c).flushed 6 t = ((cfg0.win 6).blk t).view.read (Elt Ideal)
      (layerArr (V c main_arg0) (V c main_v44) (V c main_v59) (V c main_v65) (V c main_v68) (V c main_v73)) := by
  show (cfg0.win 6).cut (grid0.coords t) ((dat0 V c).after 6 t) = _
  rw [after0_6, out0_eq]
  funext y
  obtain ⟨p, q, rfl⟩ : ∃ (p : Fin 2000) (q : Fin 256), y = ix2 p q := ⟨y 0, y 1, eq_ix2 y⟩
  rw [View.read_apply, emb0_6, layerArr_apply]
  refine (cheb0_apply _ _ _ _ _ _ p q).trans ?_
  unfold layerFolded dot
  simp only [rows0_0, rows0_1, rows0_2, mat0_3, mat0_4, mat0_5]
  rfl

/-- An index of the output array is in point `t`'s block iff its row is among rows `2000·t … 2000·t + 1999`. -/
theorem mem_blk0 (t : Fin cfg0.N) (i : S20000x256.Idx) :
    i ∈ ((cfg0.win 6).blk t).view.set ↔ ∀ a : Fin 2, win0_6.index t a * S2000x256.size a ≤ (i a).val ∧ (i a).val < win0_6.index t a * S2000x256.size a + S2000x256.size a := by
  show i ∈ ((View.whole main_v74).slice (win0_6.rect t)).set ↔ _
  rw [View.set_slice_whole, Rect.mem_set_unit]
  exact Iff.rfl

/-- Every index of the output array is in the block of the point its row belongs to. -/
theorem cover0 (i : S20000x256.Idx) : ∃ t : Fin cfg0.N, (cfg0.win 6).flush t = true ∧ i ∈ ((cfg0.win 6).blk t).view.set := by
  have h0 : (i 0).val < 20000 := (i 0).isLt
  have h1 : (i 1).val < 256 := (i 1).isLt
  let t : Fin cfg0.N := ⟨(i 0).val / 2000, by rw [show cfg0.N = 10 from N_0]; omega⟩
  obtain ⟨-, -, -, -, -, -, -, -, -, -, -, -, e0, e1⟩ := idx0 t
  refine ⟨t, flush0_6 t, ?_⟩
  rw [mem_blk0]
  intro a
  match a with
  | ⟨0, _⟩ => show win0_6.index t 0 * 2000 ≤ (i 0).val ∧ (i 0).val < win0_6.index t 0 * 2000 + 2000; rw [e0]; show (i 0).val / 2000 * 2000 ≤ _ ∧ _ < (i 0).val / 2000 * 2000 + 2000; omega
  | ⟨1, _⟩ => show win0_6.index t 1 * 256 ≤ (i 1).val ∧ (i 1).val < win0_6.index t 1 * 256 + 256; rw [e1]; omega

/-- THE OUTPUT ARRAY of launch 0: the folded layer of the arrays the launch finds. -/
theorem final0 (c : Dev nD) :
    (dat0 V c).arrAt 6 cfg0.N
      = layerArr (V c main_arg0) (V c main_v44) (V c main_v59) (V c main_v65) (V c main_v68) (V c main_v73) :=
  (dat0 V c).arrAt_eq_of_cover 6 _ (fun t _ => flushed0 V c t) (cover0)

/-! ## Launch 1 -/

/-- The printed index maps over the grid: the row windows sit at block `t`, the matrix windows at block 0. -/
theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- The body's result is its one store's value of the blocks. -/
theorem out1_eq (x0 x1 x2 : Vec Ideal S2000x256 .f32) (w0 w1 w2 : Vec Ideal S256x256 .bf16) :
    out1_6 (F := Ideal) x0 x1 x2 w0 w1 w2 = k1_pay1 x0 x1 x2 w0 w1 w2 := by
  unfold out1_6
  rw [View.canon_unit_zero hz]
  simp only [View.ld_unit_zero (S := S2000x256) hz, View.ld_unit_zero (S := S256x256) hz]

/-- The grid has ten points. -/
theorem tN1 (t : Fin cfg1.N) : t.val < 10 := by
  have h := t.isLt
  have e : cfg1.N = 10 := N_1
  omega

/-- Row `p` of the layer input's block at point `t` is row `2000·t + p` of the array. -/
theorem rows1_0 (c : Dev nD) (t : Fin cfg1.N) (p : Fin 2000) (k : Fin 256) :
    (iblk1 V c 0 t : Vec Ideal S2000x256 .f32) (ix2 p k)
      = (V c main_v74 : Mat 20000 256) (ix2 ⟨2000 * t.val + p.val, by have := tN1 t; omega⟩ k) := by
  obtain ⟨e0, e1, -⟩ := idx1 t
  unfold iblk1
  rw [View.read_apply]
  show V c main_v74 _ = V c main_v74 _
  congr 1
  funext a
  apply Fin.ext
  match a with
  | ⟨0, _⟩ => show win1_0.index t 0 * 2000 + 1 * p.val = 2000 * t.val + p.val; rw [e0]; omega
  | ⟨1, _⟩ => show win1_0.index t 1 * 256 + 1 * k.val = k.val; rw [e1]; omega

/-- The same for the first propagation's block. -/
theorem rows1_1 (c : Dev nD) (t : Fin cfg1.N) (p : Fin 2000) (k : Fin 256) :
    (iblk1 V c 1 t : Vec Ideal S2000x256 .f32) (ix2 p k)
      = (V c main_v91 : Mat 20000 256) (ix2 ⟨2000 * t.val + p.val, by have := tN1 t; omega⟩ k) := by
  obtain ⟨-, -, e0, e1, -⟩ := idx1 t
  unfold iblk1
  rw [View.read_apply]
  show V c main_v91 _ = V c main_v91 _
  congr 1
  funext a
  apply Fin.ext
  match a with
  | ⟨0, _⟩ => show win1_1.index t 0 * 2000 + 1 * p.val = 2000 * t.val + p.val; rw [e0]; omega
  | ⟨1, _⟩ => show win1_1.index t 1 * 256 + 1 * k.val = k.val; rw [e1]; omega

/-- The same for the second propagation's block. -/
theorem rows1_2 (c : Dev nD) (t : Fin cfg1.N) (p : Fin 2000) (k : Fin 256) :
    (iblk1 V c 2 t : Vec Ideal S2000x256 .f32) (ix2 p k)
      = (V c main_v106 : Mat 20000 256) (ix2 ⟨2000 * t.val + p.val, by have := tN1 t; omega⟩ k) := by
  obtain ⟨-, -, -, -, e0, e1, -⟩ := idx1 t
  unfold iblk1
  rw [View.read_apply]
  show V c main_v106 _ = V c main_v106 _
  congr 1
  funext a
  apply Fin.ext
  match a with
  | ⟨0, _⟩ => show win1_2.index t 0 * 2000 + 1 * p.val = 2000 * t.val + p.val; rw [e0]; omega
  | ⟨1, _⟩ => show win1_2.index t 1 * 256 + 1 * k.val = k.val; rw [e1]; omega

/-- A matrix window's one block is the whole matrix, at every point. -/
theorem mat1_3 (c : Dev nD) (t : Fin cfg1.N) (k : Fin 256) (q : Fin 256) :
    (iblk1 V c 3 t : Vec Ideal S256x256 .bf16) (ix2 k q) = (V c main_v112 : Mat 256 256) (ix2 k q) := by
  obtain ⟨-, -, -, -, -, -, e0, e1, -⟩ := idx1 t
  unfold iblk1
  rw [View.read_apply]
  show V c main_v112 _ = V c main_v112 _
  congr 1
  funext a
  apply Fin.ext
  match a with
  | ⟨0, _⟩ => show win1_3.index t 0 * 256 + 1 * k.val = k.val; rw [e0]; omega
  | ⟨1, _⟩ => show win1_3.index t 1 * 256 + 1 * q.val = q.val; rw [e1]; omega

/-- The same for the second matrix. -/
theorem mat1_4 (c : Dev nD) (t : Fin cfg1.N) (k : Fin 256) (q : Fin 256) :
    (iblk1 V c 4 t : Vec Ideal S256x256 .bf16) (ix2 k q) = (V c main_v115 : Mat 256 256) (ix2 k q) := by
  obtain ⟨-, -, -, -, -, -, -, -, e0, e1, -⟩ := idx1 t
  unfold iblk1
  rw [View.read_apply]
  show V c main_v115 _ = V c main_v115 _
  congr 1
  funext a
  apply Fin.ext
  match a with
  | ⟨0, _⟩ => show win1_4.index t 0 * 256 + 1 * k.val = k.val; rw [e0]; omega
  | ⟨1, _⟩ => show win1_4.index t 1 * 256 + 1 * q.val = q.val; rw [e1]; omega

/-- The same for the third matrix. -/
theorem mat1_5 (c : Dev nD) (t : Fin cfg1.N) (k : Fin 256) (q : Fin 256) :
    (iblk1 V c 5 t : Vec Ideal S256x256 .bf16) (ix2 k q) = (V c main_v120 : Mat 256 256) (ix2 k q) := by
  obtain ⟨-, -, -, -, -, -, -, -, -, -, e0, e1, -⟩ := idx1 t
  unfold iblk1
  rw [View.read_apply]
  show V c main_v120 _ = V c main_v120 _
  congr 1
  funext a
  apply Fin.ext
  match a with
  | ⟨0, _⟩ => show win1_5.index t 0 * 256 + 1 * k.val = k.val; rw [e0]; omega
  | ⟨1, _⟩ => show win1_5.index t 1 * 256 + 1 * q.val = q.val; rw [e1]; omega

/-- The entry at `(p, q)` of the output's block `t` sits at row `2000·t + p`, column `q` of the output array. -/
theorem emb1_6 (t : Fin cfg1.N) (p : Fin 2000) (q : Fin 256) :
    ((cfg1.win 6).blk t).view.emb (ix2 p q : S2000x256.Idx)
      = (ix2 (⟨2000 * t.val + p.val, by have := tN1 t; omega⟩ : Fin 20000) q : S20000x256.Idx) := by
  obtain ⟨-, -, -, -, -, -, -, -, -, -, -, -, e0, e1⟩ := idx1 t
  funext a
  apply Fin.ext
  match a with
  | ⟨0, _⟩ => show win1_6.index t 0 * 2000 + 1 * p.val = 2000 * t.val + p.val; rw [e0]; omega
  | ⟨1, _⟩ => show win1_6.index t 1 * 256 + 1 * q.val = q.val; rw [e1]; omega

/-- What point `t` writes back is block `t` of the folded layer of the whole arrays. -/
theorem flushed1 (c : Dev nD) (t : Fin cfg1.N) :
    (dat1 V c).flushed 6 t = ((cfg1.win 6).blk t).view.read (Elt Ideal)
      (layerArr (V c main_v74) (V c main_v91) (V c main_v106) (V c main_v112) (V c main_v115) (V c main_v120)) := by
  show (cfg1.win 6).cut (grid1.coords t) ((dat1 V c).after 6 t) = _
  rw [after1_6, out1_eq]
  funext y
  obtain ⟨p, q, rfl⟩ : ∃ (p : Fin 2000) (q : Fin 256), y = ix2 p q := ⟨y 0, y 1, eq_ix2 y⟩
  rw [View.read_apply, emb1_6, layerArr_apply]
  refine (cheb1_apply _ _ _ _ _ _ p q).trans ?_
  unfold layerFolded dot
  simp only [rows1_0, rows1_1, rows1_2, mat1_3, mat1_4, mat1_5]
  rfl

/-- An index of the output array is in point `t`'s block iff its row is among rows `2000·t … 2000·t + 1999`. -/
theorem mem_blk1 (t : Fin cfg1.N) (i : S20000x256.Idx) :
    i ∈ ((cfg1.win 6).blk t).view.set ↔ ∀ a : Fin 2, win1_6.index t a * S2000x256.size a ≤ (i a).val ∧ (i a).val < win1_6.index t a * S2000x256.size a + S2000x256.size a := by
  show i ∈ ((View.whole main_v121).slice (win1_6.rect t)).set ↔ _
  rw [View.set_slice_whole, Rect.mem_set_unit]
  exact Iff.rfl

/-- Every index of the output array is in the block of the point its row belongs to. -/
theorem cover1 (i : S20000x256.Idx) : ∃ t : Fin cfg1.N, (cfg1.win 6).flush t = true ∧ i ∈ ((cfg1.win 6).blk t).view.set := by
  have h0 : (i 0).val < 20000 := (i 0).isLt
  have h1 : (i 1).val < 256 := (i 1).isLt
  let t : Fin cfg1.N := ⟨(i 0).val / 2000, by rw [show cfg1.N = 10 from N_1]; omega⟩
  obtain ⟨-, -, -, -, -, -, -, -, -, -, -, -, e0, e1⟩ := idx1 t
  refine ⟨t, flush1_6 t, ?_⟩
  rw [mem_blk1]
  intro a
  match a with
  | ⟨0, _⟩ => show win1_6.index t 0 * 2000 ≤ (i 0).val ∧ (i 0).val < win1_6.index t 0 * 2000 + 2000; rw [e0]; show (i 0).val / 2000 * 2000 ≤ _ ∧ _ < (i 0).val / 2000 * 2000 + 2000; omega
  | ⟨1, _⟩ => show win1_6.index t 1 * 256 ≤ (i 1).val ∧ (i 1).val < win1_6.index t 1 * 256 + 256; rw [e1]; omega

/-- THE OUTPUT ARRAY of launch 1: the folded layer of the arrays the launch finds. -/
theorem final1 (c : Dev nD) :
    (dat1 V c).arrAt 6 cfg1.N
      = layerArr (V c main_v74) (V c main_v91) (V c main_v106) (V c main_v112) (V c main_v115) (V c main_v120) :=
  (dat1 V c).arrAt_eq_of_cover 6 _ (fun t _ => flushed1 V c t) (cover1)

/-! ## Launch 2 -/

/-- The printed index maps over the grid: the row windows sit at block `t`, the matrix windows at block 0. -/
theorem idx2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-- The body's result is its one store's value of the blocks. -/
theorem out2_eq (x0 x1 x2 : Vec Ideal S2000x256 .f32) (w0 w1 w2 : Vec Ideal S256x256 .bf16) :
    out2_6 (F := Ideal) x0 x1 x2 w0 w1 w2 = k2_pay1 x0 x1 x2 w0 w1 w2 := by
  unfold out2_6
  rw [View.canon_unit_zero hz]
  simp only [View.ld_unit_zero (S := S2000x256) hz, View.ld_unit_zero (S := S256x256) hz]

/-- The grid has ten points. -/
theorem tN2 (t : Fin cfg2.N) : t.val < 10 := by
  have h := t.isLt
  have e : cfg2.N = 10 := N_2
  omega

/-- Row `p` of the layer input's block at point `t` is row `2000·t + p` of the array. -/
theorem rows2_0 (c : Dev nD) (t : Fin cfg2.N) (p : Fin 2000) (k : Fin 256) :
    (iblk2 V c 0 t : Vec Ideal S2000x256 .f32) (ix2 p k)
      = (V c main_v121 : Mat 20000 256) (ix2 ⟨2000 * t.val + p.val, by have := tN2 t; omega⟩ k) := by
  obtain ⟨e0, e1, -⟩ := idx2 t
  unfold iblk2
  rw [View.read_apply]
  show V c main_v121 _ = V c main_v121 _
  congr 1
  funext a
  apply Fin.ext
  match a with
  | ⟨0, _⟩ => show win2_0.index t 0 * 2000 + 1 * p.val = 2000 * t.val + p.val; rw [e0]; omega
  | ⟨1, _⟩ => show win2_0.index t 1 * 256 + 1 * k.val = k.val; rw [e1]; omega

/-- The same for the first propagation's block. -/
theorem rows2_1 (c : Dev nD) (t : Fin cfg2.N) (p : Fin 2000) (k : Fin 256) :
    (iblk2 V c 1 t : Vec Ideal S2000x256 .f32) (ix2 p k)
      = (V c main_v138 : Mat 20000 256) (ix2 ⟨2000 * t.val + p.val, by have := tN2 t; omega⟩ k) := by
  obtain ⟨-, -, e0, e1, -⟩ := idx2 t
  unfold iblk2
  rw [View.read_apply]
  show V c main_v138 _ = V c main_v138 _
  congr 1
  funext a
  apply Fin.ext
  match a with
  | ⟨0, _⟩ => show win2_1.index t 0 * 2000 + 1 * p.val = 2000 * t.val + p.val; rw [e0]; omega
  | ⟨1, _⟩ => show win2_1.index t 1 * 256 + 1 * k.val = k.val; rw [e1]; omega

/-- The same for the second propagation's block. -/
theorem rows2_2 (c : Dev nD) (t : Fin cfg2.N) (p : Fin 2000) (k : Fin 256) :
    (iblk2 V c 2 t : Vec Ideal S2000x256 .f32) (ix2 p k)
      = (V c main_v153 : Mat 20000 256) (ix2 ⟨2000 * t.val + p.val, by have := tN2 t; omega⟩ k) := by
  obtain ⟨-, -, -, -, e0, e1, -⟩ := idx2 t
  unfold iblk2
  rw [View.read_apply]
  show V c main_v153 _ = V c main_v153 _
  congr 1
  funext a
  apply Fin.ext
  match a with
  | ⟨0, _⟩ => show win2_2.index t 0 * 2000 + 1 * p.val = 2000 * t.val + p.val; rw [e0]; omega
  | ⟨1, _⟩ => show win2_2.index t 1 * 256 + 1 * k.val = k.val; rw [e1]; omega

/-- A matrix window's one block is the whole matrix, at every point. -/
theorem mat2_3 (c : Dev nD) (t : Fin cfg2.N) (k : Fin 256) (q : Fin 256) :
    (iblk2 V c 3 t : Vec Ideal S256x256 .bf16) (ix2 k q) = (V c main_v159 : Mat 256 256) (ix2 k q) := by
  obtain ⟨-, -, -, -, -, -, e0, e1, -⟩ := idx2 t
  unfold iblk2
  rw [View.read_apply]
  show V c main_v159 _ = V c main_v159 _
  congr 1
  funext a
  apply Fin.ext
  match a with
  | ⟨0, _⟩ => show win2_3.index t 0 * 256 + 1 * k.val = k.val; rw [e0]; omega
  | ⟨1, _⟩ => show win2_3.index t 1 * 256 + 1 * q.val = q.val; rw [e1]; omega

/-- The same for the second matrix. -/
theorem mat2_4 (c : Dev nD) (t : Fin cfg2.N) (k : Fin 256) (q : Fin 256) :
    (iblk2 V c 4 t : Vec Ideal S256x256 .bf16) (ix2 k q) = (V c main_v162 : Mat 256 256) (ix2 k q) := by
  obtain ⟨-, -, -, -, -, -, -, -, e0, e1, -⟩ := idx2 t
  unfold iblk2
  rw [View.read_apply]
  show V c main_v162 _ = V c main_v162 _
  congr 1
  funext a
  apply Fin.ext
  match a with
  | ⟨0, _⟩ => show win2_4.index t 0 * 256 + 1 * k.val = k.val; rw [e0]; omega
  | ⟨1, _⟩ => show win2_4.index t 1 * 256 + 1 * q.val = q.val; rw [e1]; omega

/-- The same for the third matrix. -/
theorem mat2_5 (c : Dev nD) (t : Fin cfg2.N) (k : Fin 256) (q : Fin 256) :
    (iblk2 V c 5 t : Vec Ideal S256x256 .bf16) (ix2 k q) = (V c main_v167 : Mat 256 256) (ix2 k q) := by
  obtain ⟨-, -, -, -, -, -, -, -, -, -, e0, e1, -⟩ := idx2 t
  unfold iblk2
  rw [View.read_apply]
  show V c main_v167 _ = V c main_v167 _
  congr 1
  funext a
  apply Fin.ext
  match a with
  | ⟨0, _⟩ => show win2_5.index t 0 * 256 + 1 * k.val = k.val; rw [e0]; omega
  | ⟨1, _⟩ => show win2_5.index t 1 * 256 + 1 * q.val = q.val; rw [e1]; omega

/-- The entry at `(p, q)` of the output's block `t` sits at row `2000·t + p`, column `q` of the output array. -/
theorem emb2_6 (t : Fin cfg2.N) (p : Fin 2000) (q : Fin 256) :
    ((cfg2.win 6).blk t).view.emb (ix2 p q : S2000x256.Idx)
      = (ix2 (⟨2000 * t.val + p.val, by have := tN2 t; omega⟩ : Fin 20000) q : S20000x256.Idx) := by
  obtain ⟨-, -, -, -, -, -, -, -, -, -, -, -, e0, e1⟩ := idx2 t
  funext a
  apply Fin.ext
  match a with
  | ⟨0, _⟩ => show win2_6.index t 0 * 2000 + 1 * p.val = 2000 * t.val + p.val; rw [e0]; omega
  | ⟨1, _⟩ => show win2_6.index t 1 * 256 + 1 * q.val = q.val; rw [e1]; omega

/-- What point `t` writes back is block `t` of the folded layer of the whole arrays. -/
theorem flushed2 (c : Dev nD) (t : Fin cfg2.N) :
    (dat2 V c).flushed 6 t = ((cfg2.win 6).blk t).view.read (Elt Ideal)
      (layerArr (V c main_v121) (V c main_v138) (V c main_v153) (V c main_v159) (V c main_v162) (V c main_v167)) := by
  show (cfg2.win 6).cut (grid2.coords t) ((dat2 V c).after 6 t) = _
  rw [after2_6, out2_eq]
  funext y
  obtain ⟨p, q, rfl⟩ : ∃ (p : Fin 2000) (q : Fin 256), y = ix2 p q := ⟨y 0, y 1, eq_ix2 y⟩
  rw [View.read_apply, emb2_6, layerArr_apply]
  refine (cheb2_apply _ _ _ _ _ _ p q).trans ?_
  unfold layerFolded dot
  simp only [rows2_0, rows2_1, rows2_2, mat2_3, mat2_4, mat2_5]
  rfl

/-- An index of the output array is in point `t`'s block iff its row is among rows `2000·t … 2000·t + 1999`. -/
theorem mem_blk2 (t : Fin cfg2.N) (i : S20000x256.Idx) :
    i ∈ ((cfg2.win 6).blk t).view.set ↔ ∀ a : Fin 2, win2_6.index t a * S2000x256.size a ≤ (i a).val ∧ (i a).val < win2_6.index t a * S2000x256.size a + S2000x256.size a := by
  show i ∈ ((View.whole main_v168).slice (win2_6.rect t)).set ↔ _
  rw [View.set_slice_whole, Rect.mem_set_unit]
  exact Iff.rfl

/-- Every index of the output array is in the block of the point its row belongs to. -/
theorem cover2 (i : S20000x256.Idx) : ∃ t : Fin cfg2.N, (cfg2.win 6).flush t = true ∧ i ∈ ((cfg2.win 6).blk t).view.set := by
  have h0 : (i 0).val < 20000 := (i 0).isLt
  have h1 : (i 1).val < 256 := (i 1).isLt
  let t : Fin cfg2.N := ⟨(i 0).val / 2000, by rw [show cfg2.N = 10 from N_2]; omega⟩
  obtain ⟨-, -, -, -, -, -, -, -, -, -, -, -, e0, e1⟩ := idx2 t
  refine ⟨t, flush2_6 t, ?_⟩
  rw [mem_blk2]
  intro a
  match a with
  | ⟨0, _⟩ => show win2_6.index t 0 * 2000 ≤ (i 0).val ∧ (i 0).val < win2_6.index t 0 * 2000 + 2000; rw [e0]; show (i 0).val / 2000 * 2000 ≤ _ ∧ _ < (i 0).val / 2000 * 2000 + 2000; omega
  | ⟨1, _⟩ => show win2_6.index t 1 * 256 ≤ (i 1).val ∧ (i 1).val < win2_6.index t 1 * 256 + 256; rw [e1]; omega

/-- THE OUTPUT ARRAY of launch 2: the folded layer of the arrays the launch finds. -/
theorem final2 (c : Dev nD) :
    (dat2 V c).arrAt 6 cfg2.N
      = layerArr (V c main_v121) (V c main_v138) (V c main_v153) (V c main_v159) (V c main_v162) (V c main_v167) :=
  (dat2 V c).arrAt_eq_of_cover 6 _ (fun t _ => flushed2 V c t) (cover2)

/-! ## Launch 3 -/

/-- The printed index maps over the grid: the row windows sit at block `t`, the matrix windows at block 0. -/
theorem idx3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = t.val ∧ win3_6.index t (1 : Fin 2) = 0 :=
  (by decide +kernel : ∀ t : Fin grid3.N, _)

/-- The body's result is its one store's value of the blocks. -/
theorem out3_eq (x0 x1 x2 : Vec Ideal S2000x256 .f32) (w0 w1 w2 : Vec Ideal S256x256 .bf16) :
    out3_6 (F := Ideal) x0 x1 x2 w0 w1 w2 = k3_pay1 x0 x1 x2 w0 w1 w2 := by
  unfold out3_6
  rw [View.canon_unit_zero hz]
  simp only [View.ld_unit_zero (S := S2000x256) hz, View.ld_unit_zero (S := S256x256) hz]

/-- The grid has ten points. -/
theorem tN3 (t : Fin cfg3.N) : t.val < 10 := by
  have h := t.isLt
  have e : cfg3.N = 10 := N_3
  omega

/-- Row `p` of the layer input's block at point `t` is row `2000·t + p` of the array. -/
theorem rows3_0 (c : Dev nD) (t : Fin cfg3.N) (p : Fin 2000) (k : Fin 256) :
    (iblk3 V c 0 t : Vec Ideal S2000x256 .f32) (ix2 p k)
      = (V c main_v168 : Mat 20000 256) (ix2 ⟨2000 * t.val + p.val, by have := tN3 t; omega⟩ k) := by
  obtain ⟨e0, e1, -⟩ := idx3 t
  unfold iblk3
  rw [View.read_apply]
  show V c main_v168 _ = V c main_v168 _
  congr 1
  funext a
  apply Fin.ext
  match a with
  | ⟨0, _⟩ => show win3_0.index t 0 * 2000 + 1 * p.val = 2000 * t.val + p.val; rw [e0]; omega
  | ⟨1, _⟩ => show win3_0.index t 1 * 256 + 1 * k.val = k.val; rw [e1]; omega

/-- The same for the first propagation's block. -/
theorem rows3_1 (c : Dev nD) (t : Fin cfg3.N) (p : Fin 2000) (k : Fin 256) :
    (iblk3 V c 1 t : Vec Ideal S2000x256 .f32) (ix2 p k)
      = (V c main_v185 : Mat 20000 256) (ix2 ⟨2000 * t.val + p.val, by have := tN3 t; omega⟩ k) := by
  obtain ⟨-, -, e0, e1, -⟩ := idx3 t
  unfold iblk3
  rw [View.read_apply]
  show V c main_v185 _ = V c main_v185 _
  congr 1
  funext a
  apply Fin.ext
  match a with
  | ⟨0, _⟩ => show win3_1.index t 0 * 2000 + 1 * p.val = 2000 * t.val + p.val; rw [e0]; omega
  | ⟨1, _⟩ => show win3_1.index t 1 * 256 + 1 * k.val = k.val; rw [e1]; omega

/-- The same for the second propagation's block. -/
theorem rows3_2 (c : Dev nD) (t : Fin cfg3.N) (p : Fin 2000) (k : Fin 256) :
    (iblk3 V c 2 t : Vec Ideal S2000x256 .f32) (ix2 p k)
      = (V c main_v200 : Mat 20000 256) (ix2 ⟨2000 * t.val + p.val, by have := tN3 t; omega⟩ k) := by
  obtain ⟨-, -, -, -, e0, e1, -⟩ := idx3 t
  unfold iblk3
  rw [View.read_apply]
  show V c main_v200 _ = V c main_v200 _
  congr 1
  funext a
  apply Fin.ext
  match a with
  | ⟨0, _⟩ => show win3_2.index t 0 * 2000 + 1 * p.val = 2000 * t.val + p.val; rw [e0]; omega
  | ⟨1, _⟩ => show win3_2.index t 1 * 256 + 1 * k.val = k.val; rw [e1]; omega

/-- A matrix window's one block is the whole matrix, at every point. -/
theorem mat3_3 (c : Dev nD) (t : Fin cfg3.N) (k : Fin 256) (q : Fin 256) :
    (iblk3 V c 3 t : Vec Ideal S256x256 .bf16) (ix2 k q) = (V c main_v206 : Mat 256 256) (ix2 k q) := by
  obtain ⟨-, -, -, -, -, -, e0, e1, -⟩ := idx3 t
  unfold iblk3
  rw [View.read_apply]
  show V c main_v206 _ = V c main_v206 _
  congr 1
  funext a
  apply Fin.ext
  match a with
  | ⟨0, _⟩ => show win3_3.index t 0 * 256 + 1 * k.val = k.val; rw [e0]; omega
  | ⟨1, _⟩ => show win3_3.index t 1 * 256 + 1 * q.val = q.val; rw [e1]; omega

/-- The same for the second matrix. -/
theorem mat3_4 (c : Dev nD) (t : Fin cfg3.N) (k : Fin 256) (q : Fin 256) :
    (iblk3 V c 4 t : Vec Ideal S256x256 .bf16) (ix2 k q) = (V c main_v209 : Mat 256 256) (ix2 k q) := by
  obtain ⟨-, -, -, -, -, -, -, -, e0, e1, -⟩ := idx3 t
  unfold iblk3
  rw [View.read_apply]
  show V c main_v209 _ = V c main_v209 _
  congr 1
  funext a
  apply Fin.ext
  match a with
  | ⟨0, _⟩ => show win3_4.index t 0 * 256 + 1 * k.val = k.val; rw [e0]; omega
  | ⟨1, _⟩ => show win3_4.index t 1 * 256 + 1 * q.val = q.val; rw [e1]; omega

/-- The same for the third matrix. -/
theorem mat3_5 (c : Dev nD) (t : Fin cfg3.N) (k : Fin 256) (q : Fin 256) :
    (iblk3 V c 5 t : Vec Ideal S256x256 .bf16) (ix2 k q) = (V c main_v214 : Mat 256 256) (ix2 k q) := by
  obtain ⟨-, -, -, -, -, -, -, -, -, -, e0, e1, -⟩ := idx3 t
  unfold iblk3
  rw [View.read_apply]
  show V c main_v214 _ = V c main_v214 _
  congr 1
  funext a
  apply Fin.ext
  match a with
  | ⟨0, _⟩ => show win3_5.index t 0 * 256 + 1 * k.val = k.val; rw [e0]; omega
  | ⟨1, _⟩ => show win3_5.index t 1 * 256 + 1 * q.val = q.val; rw [e1]; omega

/-- The entry at `(p, q)` of the output's block `t` sits at row `2000·t + p`, column `q` of the output array. -/
theorem emb3_6 (t : Fin cfg3.N) (p : Fin 2000) (q : Fin 256) :
    ((cfg3.win 6).blk t).view.emb (ix2 p q : S2000x256.Idx)
      = (ix2 (⟨2000 * t.val + p.val, by have := tN3 t; omega⟩ : Fin 20000) q : S20000x256.Idx) := by
  obtain ⟨-, -, -, -, -, -, -, -, -, -, -, -, e0, e1⟩ := idx3 t
  funext a
  apply Fin.ext
  match a with
  | ⟨0, _⟩ => show win3_6.index t 0 * 2000 + 1 * p.val = 2000 * t.val + p.val; rw [e0]; omega
  | ⟨1, _⟩ => show win3_6.index t 1 * 256 + 1 * q.val = q.val; rw [e1]; omega

/-- What point `t` writes back is block `t` of the folded layer of the whole arrays. -/
theorem flushed3 (c : Dev nD) (t : Fin cfg3.N) :
    (dat3 V c).flushed 6 t = ((cfg3.win 6).blk t).view.read (Elt Ideal)
      (layerArr (V c main_v168) (V c main_v185) (V c main_v200) (V c main_v206) (V c main_v209) (V c main_v214)) := by
  show (cfg3.win 6).cut (grid3.coords t) ((dat3 V c).after 6 t) = _
  rw [after3_6, out3_eq]
  funext y
  obtain ⟨p, q, rfl⟩ : ∃ (p : Fin 2000) (q : Fin 256), y = ix2 p q := ⟨y 0, y 1, eq_ix2 y⟩
  rw [View.read_apply, emb3_6, layerArr_apply]
  refine (cheb3_apply _ _ _ _ _ _ p q).trans ?_
  unfold layerFolded dot
  simp only [rows3_0, rows3_1, rows3_2, mat3_3, mat3_4, mat3_5]
  rfl

/-- An index of the output array is in point `t`'s block iff its row is among rows `2000·t … 2000·t + 1999`. -/
theorem mem_blk3 (t : Fin cfg3.N) (i : S20000x256.Idx) :
    i ∈ ((cfg3.win 6).blk t).view.set ↔ ∀ a : Fin 2, win3_6.index t a * S2000x256.size a ≤ (i a).val ∧ (i a).val < win3_6.index t a * S2000x256.size a + S2000x256.size a := by
  show i ∈ ((View.whole main_v215).slice (win3_6.rect t)).set ↔ _
  rw [View.set_slice_whole, Rect.mem_set_unit]
  exact Iff.rfl

/-- Every index of the output array is in the block of the point its row belongs to. -/
theorem cover3 (i : S20000x256.Idx) : ∃ t : Fin cfg3.N, (cfg3.win 6).flush t = true ∧ i ∈ ((cfg3.win 6).blk t).view.set := by
  have h0 : (i 0).val < 20000 := (i 0).isLt
  have h1 : (i 1).val < 256 := (i 1).isLt
  let t : Fin cfg3.N := ⟨(i 0).val / 2000, by rw [show cfg3.N = 10 from N_3]; omega⟩
  obtain ⟨-, -, -, -, -, -, -, -, -, -, -, -, e0, e1⟩ := idx3 t
  refine ⟨t, flush3_6 t, ?_⟩
  rw [mem_blk3]
  intro a
  match a with
  | ⟨0, _⟩ => show win3_6.index t 0 * 2000 ≤ (i 0).val ∧ (i 0).val < win3_6.index t 0 * 2000 + 2000; rw [e0]; show (i 0).val / 2000 * 2000 ≤ _ ∧ _ < (i 0).val / 2000 * 2000 + 2000; omega
  | ⟨1, _⟩ => show win3_6.index t 1 * 256 ≤ (i 1).val ∧ (i 1).val < win3_6.index t 1 * 256 + 256; rw [e1]; omega

/-- THE OUTPUT ARRAY of launch 3: the folded layer of the arrays the launch finds. -/
theorem final3 (c : Dev nD) :
    (dat3 V c).arrAt 6 cfg3.N
      = layerArr (V c main_v168) (V c main_v185) (V c main_v200) (V c main_v206) (V c main_v209) (V c main_v214) :=
  (dat3 V c).arrAt_eq_of_cover 6 _ (fun t _ => flushed3 V c t) (cover3)

end Cert.KernelRegions

end
-- ==== Proof.KernelRegion4.lean ====
/-
  What the classifier launch leaves in its output array.

  Ten grid points again; point `t` fetches rows `2000·t … 2000·t + 1999` of the four layers' outputs and the whole of the
  small operands (four 256×256 matrices, three 1×256 rows, a 256×128 matrix and a 1×128 row), and writes a 2000×128
  block back as the same rows of a 20000×128 array. The entry at `(r, j)` is therefore the body's value at
  `(r mod 2000, j)`: with `z[r,k]` the hidden layer contracted block by block (bias, relu),
  `Σ_k (z[r,k]·s[k] + t[k])·w[k,j] + b[j]`, a function of row `r` of the four inputs only.
-/
import proofs.«165358_j80178449481840_2_alg».proof.Proof.Gen.KernelIdeal.Frame
import proofs.«165358_j80178449481840_2_alg».proof.Proof.KernelBodies
import proofs.«165358_j80178449481840_2_alg».proof.Proof.Spec
import Idealize.ShloMosaic.Lib.Pipeline.Value
import Idealize.ShloMosaic.Lib.ValueIdx

set_option maxRecDepth 16384

noncomputable section

namespace Cert.KernelRegion4

open Idealize.ShloMosaic Idealize.ShloMosaic.TcCoe Idealize.ShloMosaic.ValueIdx Idealize.SL.Sem
open Cert.KernelIdeal Cert.KernelIdeal.Gen Cert.Spec Cert.KernelBodies
open Idealize.ShloMosaic.Pipeline (Dat)
open scoped BigOperators

variable (V : (c : Dev nD) → (b : Ref sig .tc) → Buf (Elt Ideal) ((c : Thread nD τ).loc b))

theorem hz : (![0, 0] : Fin 2 → Nat) = fun _ => 0 := funext fun a => by fin_cases a <;> rfl

/-- The classifier's padded logits as one function of whole arrays. -/
def headArr (h0 h1 h2 h3 : Mat 20000 256) (v0 v1 v2 v3 : Mat 256 256) (b1 s t : Mat 1 256) (w : Mat 256 128) (b : Mat 1 128) :
    Mat 20000 128 :=
  fun i => ∑ k : Fin 256,
      (hiddenBlocks h0 h1 h2 h3 v0 v1 v2 v3 b1 (⟨(i 0).val, idx2_lt0 i⟩ : Fin 20000) k * s (ix2 (0 : Fin 1) k) + t (ix2 (0 : Fin 1) k))
        * w (ix2 k (⟨(i 1).val, idx2_lt1 i⟩ : Fin 128))
    + b (ix2 (0 : Fin 1) (⟨(i 1).val, idx2_lt1 i⟩ : Fin 128))

theorem headArr_apply (h0 h1 h2 h3 : Mat 20000 256) (v0 v1 v2 v3 : Mat 256 256) (b1 s t : Mat 1 256) (w : Mat 256 128) (b : Mat 1 128)
    (n : Fin 20000) (j : Fin 128) :
    headArr h0 h1 h2 h3 v0 v1 v2 v3 b1 s t w b (ix2 n j)
      = ∑ k : Fin 256, (hiddenBlocks h0 h1 h2 h3 v0 v1 v2 v3 b1 n k * s (ix2 (0 : Fin 1) k) + t (ix2 (0 : Fin 1) k)) * w (ix2 k j)
        + b (ix2 (0 : Fin 1) j) := rfl

/-! ## The printed index maps over the grid: the row windows sit at block `t`, every other window at block 0 -/

theorem idx4_0 : ∀ t : Fin cfg4.N, win4_0.index t (0 : Fin 2) = t.val ∧ win4_0.index t (1 : Fin 2) = 0 :=
  (by decide +kernel : ∀ t : Fin grid4.N, _)
theorem idx4_1 : ∀ t : Fin cfg4.N, win4_1.index t (0 : Fin 2) = t.val ∧ win4_1.index t (1 : Fin 2) = 0 :=
  (by decide +kernel : ∀ t : Fin grid4.N, _)
theorem idx4_2 : ∀ t : Fin cfg4.N, win4_2.index t (0 : Fin 2) = t.val ∧ win4_2.index t (1 : Fin 2) = 0 :=
  (by decide +kernel : ∀ t : Fin grid4.N, _)
theorem idx4_3 : ∀ t : Fin cfg4.N, win4_3.index t (0 : Fin 2) = t.val ∧ win4_3.index t (1 : Fin 2) = 0 :=
  (by decide +kernel : ∀ t : Fin grid4.N, _)
theorem idx4_4 : ∀ t : Fin cfg4.N, win4_4.index t (0 : Fin 2) = 0 ∧ win4_4.index t (1 : Fin 2) = 0 :=
  (by decide +kernel : ∀ t : Fin grid4.N, _)
theorem idx4_5 : ∀ t : Fin cfg4.N, win4_5.index t (0 : Fin 2) = 0 ∧ win4_5.index t (1 : Fin 2) = 0 :=
  (by decide +kernel : ∀ t : Fin grid4.N, _)
theorem idx4_6 : ∀ t : Fin cfg4.N, win4_6.index t (0 : Fin 2) = 0 ∧ win4_6.index t (1 : Fin 2) = 0 :=
  (by decide +kernel : ∀ t : Fin grid4.N, _)
theorem idx4_7 : ∀ t : Fin cfg4.N, win4_7.index t (0 : Fin 2) = 0 ∧ win4_7.index t (1 : Fin 2) = 0 :=
  (by decide +kernel : ∀ t : Fin grid4.N, _)
theorem idx4_8 : ∀ t : Fin cfg4.N, win4_8.index t (0 : Fin 2) = 0 ∧ win4_8.index t (1 : Fin 2) = 0 :=
  (by decide +kernel : ∀ t : Fin grid4.N, _)
theorem idx4_9 : ∀ t : Fin cfg4.N, win4_9.index t (0 : Fin 2) = 0 ∧ win4_9.index t (1 : Fin 2) = 0 :=
  (by decide +kernel : ∀ t : Fin grid4.N, _)
theorem idx4_10 : ∀ t : Fin cfg4.N, win4_10.index t (0 : Fin 2) = 0 ∧ win4_10.index t (1 : Fin 2) = 0 :=
  (by decide +kernel : ∀ t : Fin grid4.N, _)
theorem idx4_11 : ∀ t : Fin cfg4.N, win4_11.index t (0 : Fin 2) = 0 ∧ win4_11.index t (1 : Fin 2) = 0 :=
  (by decide +kernel : ∀ t : Fin grid4.N, _)
theorem idx4_12 : ∀ t : Fin cfg4.N, win4_12.index t (0 : Fin 2) = 0 ∧ win4_12.index t (1 : Fin 2) = 0 :=
  (by decide +kernel : ∀ t : Fin grid4.N, _)
theorem idx4_13 : ∀ t : Fin cfg4.N, win4_13.index t (0 : Fin 2) = t.val ∧ win4_13.index t (1 : Fin 2) = 0 :=
  (by decide +kernel : ∀ t : Fin grid4.N, _)

/-- The grid has ten points. -/
theorem tN4 (t : Fin cfg4.N) : t.val < 10 := by
  have h := t.isLt
  have e : cfg4.N = 10 := N_4
  omega

/-- The body's result is its one store's value of the blocks: the output payload of the hidden payload. -/
theorem out4_eq (x0 x1 x2 x3 : Vec Ideal S2000x256 .f32) (x4 x5 x6 x7 : Vec Ideal S256x256 .bf16) (x8 x9 x10 : Vec Ideal S1x256 .f32)
    (x11 : Vec Ideal S256x128 .bf16) (x12 : Vec Ideal S1x128 .f32) :
    out4_13 (F := Ideal) x0 x1 x2 x3 x4 x5 x6 x7 x8 x9 x10 x11 x12
      = k4_pay1 (k4_pay2 x0 x4 x1 x5 x2 x6 x3 x7 x8) x9 x10 x11 x12 := by
  unfold out4_13
  rw [View.canon_unit_zero hz]
  simp only [View.ld_unit_zero (S := S2000x256) hz, View.ld_unit_zero (S := S256x256) hz, View.ld_unit_zero (S := S1x256) hz,
    View.ld_unit_zero (S := S256x128) hz, View.ld_unit_zero (S := S1x128) hz]

/-! ## Each window's block at a point, read off its array -/

theorem blk4_0 (c : Dev nD) (t : Fin cfg4.N) (p : Fin 2000) (k : Fin 256) :
    (iblk4 V c 0 t : Vec Ideal S2000x256 .f32) (ix2 p k) = (V c main_v74 : Mat 20000 256) (ix2 ⟨2000 * t.val + p.val, by have := tN4 t; omega⟩ k) := by
  obtain ⟨e0, e1⟩ := idx4_0 t
  unfold iblk4
  rw [View.read_apply]
  show V c main_v74 _ = V c main_v74 _
  congr 1
  funext a
  apply Fin.ext
  match a with
  | ⟨0, _⟩ => show win4_0.index t 0 * 2000 + 1 * p.val = 2000 * t.val + p.val; rw [e0]; omega
  | ⟨1, _⟩ => show win4_0.index t 1 * 256 + 1 * k.val = k.val; rw [e1]; omega

theorem blk4_1 (c : Dev nD) (t : Fin cfg4.N) (p : Fin 2000) (k : Fin 256) :
    (iblk4 V c 1 t : Vec Ideal S2000x256 .f32) (ix2 p k) = (V c main_v121 : Mat 20000 256) (ix2 ⟨2000 * t.val + p.val, by have := tN4 t; omega⟩ k) := by
  obtain ⟨e0, e1⟩ := idx4_1 t
  unfold iblk4
  rw [View.read_apply]
  show V c main_v121 _ = V c main_v121 _
  congr 1
  funext a
  apply Fin.ext
  match a with
  | ⟨0, _⟩ => show win4_1.index t 0 * 2000 + 1 * p.val = 2000 * t.val + p.val; rw [e0]; omega
  | ⟨1, _⟩ => show win4_1.index t 1 * 256 + 1 * k.val = k.val; rw [e1]; omega

theorem blk4_2 (c : Dev nD) (t : Fin cfg4.N) (p : Fin 2000) (k : Fin 256) :
    (iblk4 V c 2 t : Vec Ideal S2000x256 .f32) (ix2 p k) = (V c main_v168 : Mat 20000 256) (ix2 ⟨2000 * t.val + p.val, by have := tN4 t; omega⟩ k) := by
  obtain ⟨e0, e1⟩ := idx4_2 t
  unfold iblk4
  rw [View.read_apply]
  show V c main_v168 _ = V c main_v168 _
  congr 1
  funext a
  apply Fin.ext
  match a with
  | ⟨0, _⟩ => show win4_2.index t 0 * 2000 + 1 * p.val = 2000 * t.val + p.val; rw [e0]; omega
  | ⟨1, _⟩ => show win4_2.index t 1 * 256 + 1 * k.val = k.val; rw [e1]; omega

theorem blk4_3 (c : Dev nD) (t : Fin cfg4.N) (p : Fin 2000) (k : Fin 256) :
    (iblk4 V c 3 t : Vec Ideal S2000x256 .f32) (ix2 p k) = (V c main_v215 : Mat 20000 256) (ix2 ⟨2000 * t.val + p.val, by have := tN4 t; omega⟩ k) := by
  obtain ⟨e0, e1⟩ := idx4_3 t
  unfold iblk4
  rw [View.read_apply]
  show V c main_v215 _ = V c main_v215 _
  congr 1
  funext a
  apply Fin.ext
  match a with
  | ⟨0, _⟩ => show win4_3.index t 0 * 2000 + 1 * p.val = 2000 * t.val + p.val; rw [e0]; omega
  | ⟨1, _⟩ => show win4_3.index t 1 * 256 + 1 * k.val = k.val; rw [e1]; omega

theorem blk4_4 (c : Dev nD) (t : Fin cfg4.N) (p : Fin 256) (k : Fin 256) :
    (iblk4 V c 4 t : Vec Ideal S256x256 .bf16) (ix2 p k) = (V c main_v223 : Mat 256 256) (ix2 p k) := by
  obtain ⟨e0, e1⟩ := idx4_4 t
  unfold iblk4
  rw [View.read_apply]
  show V c main_v223 _ = V c main_v223 _
  congr 1
  funext a
  apply Fin.ext
  match a with
  | ⟨0, _⟩ => show win4_4.index t 0 * 256 + 1 * p.val = p.val; rw [e0]; omega
  | ⟨1, _⟩ => show win4_4.index t 1 * 256 + 1 * k.val = k.val; rw [e1]; omega

theorem blk4_5 (c : Dev nD) (t : Fin cfg4.N) (p : Fin 256) (k : Fin 256) :
    (iblk4 V c 5 t : Vec Ideal S256x256 .bf16) (ix2 p k) = (V c main_v225 : Mat 256 256) (ix2 p k) := by
  obtain ⟨e0, e1⟩ := idx4_5 t
  unfold iblk4
  rw [View.read_apply]
  show V c main_v225 _ = V c main_v225 _
  congr 1
  funext a
  apply Fin.ext
  match a with
  | ⟨0, _⟩ => show win4_5.index t 0 * 256 + 1 * p.val = p.val; rw [e0]; omega
  | ⟨1, _⟩ => show win4_5.index t 1 * 256 + 1 * k.val = k.val; rw [e1]; omega

theorem blk4_6 (c : Dev nD) (t : Fin cfg4.N) (p : Fin 256) (k : Fin 256) :
    (iblk4 V c 6 t : Vec Ideal S256x256 .bf16) (ix2 p k) = (V c main_v227 : Mat 256 256) (ix2 p k) := by
  obtain ⟨e0, e1⟩ := idx4_6 t
  unfold iblk4
  rw [View.read_apply]
  show V c main_v227 _ = V c main_v227 _
  congr 1
  funext a
  apply Fin.ext
  match a with
  | ⟨0, _⟩ => show win4_6.index t 0 * 256 + 1 * p.val = p.val; rw [e0]; omega
  | ⟨1, _⟩ => show win4_6.index t 1 * 256 + 1 * k.val = k.val; rw [e1]; omega

theorem blk4_7 (c : Dev nD) (t : Fin cfg4.N) (p : Fin 256) (k : Fin 256) :
    (iblk4 V c 7 t : Vec Ideal S256x256 .bf16) (ix2 p k) = (V c main_v229 : Mat 256 256) (ix2 p k) := by
  obtain ⟨e0, e1⟩ := idx4_7 t
  unfold iblk4
  rw [View.read_apply]
  show V c main_v229 _ = V c main_v229 _
  congr 1
  funext a
  apply Fin.ext
  match a with
  | ⟨0, _⟩ => show win4_7.index t 0 * 256 + 1 * p.val = p.val; rw [e0]; omega
  | ⟨1, _⟩ => show win4_7.index t 1 * 256 + 1 * k.val = k.val; rw [e1]; omega

theorem blk4_8 (c : Dev nD) (t : Fin cfg4.N) (p : Fin 1) (k : Fin 256) :
    (iblk4 V c 8 t : Vec Ideal S1x256 .f32) (ix2 p k) = (V c main_v230 : Mat 1 256) (ix2 p k) := by
  obtain ⟨e0, e1⟩ := idx4_8 t
  unfold iblk4
  rw [View.read_apply]
  show V c main_v230 _ = V c main_v230 _
  congr 1
  funext a
  apply Fin.ext
  match a with
  | ⟨0, _⟩ => show win4_8.index t 0 * 1 + 1 * p.val = p.val; rw [e0]; omega
  | ⟨1, _⟩ => show win4_8.index t 1 * 256 + 1 * k.val = k.val; rw [e1]; omega

theorem blk4_9 (c : Dev nD) (t : Fin cfg4.N) (p : Fin 1) (k : Fin 256) :
    (iblk4 V c 9 t : Vec Ideal S1x256 .f32) (ix2 p k) = (V c main_v231 : Mat 1 256) (ix2 p k) := by
  obtain ⟨e0, e1⟩ := idx4_9 t
  unfold iblk4
  rw [View.read_apply]
  show V c main_v231 _ = V c main_v231 _
  congr 1
  funext a
  apply Fin.ext
  match a with
  | ⟨0, _⟩ => show win4_9.index t 0 * 1 + 1 * p.val = p.val; rw [e0]; omega
  | ⟨1, _⟩ => show win4_9.index t 1 * 256 + 1 * k.val = k.val; rw [e1]; omega

theorem blk4_10 (c : Dev nD) (t : Fin cfg4.N) (p : Fin 1) (k : Fin 256) :
    (iblk4 V c 10 t : Vec Ideal S1x256 .f32) (ix2 p k) = (V c main_v232 : Mat 1 256) (ix2 p k) := by
  obtain ⟨e0, e1⟩ := idx4_10 t
  unfold iblk4
  rw [View.read_apply]
  show V c main_v232 _ = V c main_v232 _
  congr 1
  funext a
  apply Fin.ext
  match a with
  | ⟨0, _⟩ => show win4_10.index t 0 * 1 + 1 * p.val = p.val; rw [e0]; omega
  | ⟨1, _⟩ => show win4_10.index t 1 * 256 + 1 * k.val = k.val; rw [e1]; omega

theorem blk4_11 (c : Dev nD) (t : Fin cfg4.N) (p : Fin 256) (k : Fin 128) :
    (iblk4 V c 11 t : Vec Ideal S256x128 .bf16) (ix2 p k) = (V c main_v234 : Mat 256 128) (ix2 p k) := by
  obtain ⟨e0, e1⟩ := idx4_11 t
  unfold iblk4
  rw [View.read_apply]
  show V c main_v234 _ = V c main_v234 _
  congr 1
  funext a
  apply Fin.ext
  match a with
  | ⟨0, _⟩ => show win4_11.index t 0 * 256 + 1 * p.val = p.val; rw [e0]; omega
  | ⟨1, _⟩ => show win4_11.index t 1 * 128 + 1 * k.val = k.val; rw [e1]; omega

theorem blk4_12 (c : Dev nD) (t : Fin cfg4.N) (p : Fin 1) (k : Fin 128) :
    (iblk4 V c 12 t : Vec Ideal S1x128 .f32) (ix2 p k) = (V c main_v236 : Mat 1 128) (ix2 p k) := by
  obtain ⟨e0, e1⟩ := idx4_12 t
  unfold iblk4
  rw [View.read_apply]
  show V c main_v236 _ = V c main_v236 _
  congr 1
  funext a
  apply Fin.ext
  match a with
  | ⟨0, _⟩ => show win4_12.index t 0 * 1 + 1 * p.val = p.val; rw [e0]; omega
  | ⟨1, _⟩ => show win4_12.index t 1 * 128 + 1 * k.val = k.val; rw [e1]; omega

/-- The entry at `(p, j)` of the output's block `t` sits at row `2000·t + p`, column `j` of the output array. -/
theorem emb4_13 (t : Fin cfg4.N) (p : Fin 2000) (j : Fin 128) :
    ((cfg4.win 13).blk t).view.emb (ix2 p j : S2000x128.Idx)
      = (ix2 (⟨2000 * t.val + p.val, by have := tN4 t; omega⟩ : Fin 20000) j : S20000x128.Idx) := by
  obtain ⟨e0, e1⟩ := idx4_13 t
  funext a
  apply Fin.ext
  match a with
  | ⟨0, _⟩ => show win4_13.index t 0 * 2000 + 1 * p.val = 2000 * t.val + p.val; rw [e0]; omega
  | ⟨1, _⟩ => show win4_13.index t 1 * 128 + 1 * j.val = j.val; rw [e1]; omega

/-- What point `t` writes back is block `t` of the padded logits of the whole arrays. -/
theorem flushed4 (c : Dev nD) (t : Fin cfg4.N) :
    (dat4 V c).flushed 13 t = ((cfg4.win 13).blk t).view.read (Elt Ideal)
      (headArr (V c main_v74) (V c main_v121) (V c main_v168) (V c main_v215) (V c main_v223) (V c main_v225) (V c main_v227) (V c main_v229)
        (V c main_v230) (V c main_v231) (V c main_v232) (V c main_v234) (V c main_v236)) := by
  show (cfg4.win 13).cut (grid4.coords t) ((dat4 V c).after 13 t) = _
  rw [after4_13, out4_eq]
  funext y
  obtain ⟨p, j, rfl⟩ : ∃ (p : Fin 2000) (j : Fin 128), y = ix2 p j := ⟨y 0, y 1, eq_ix2 y⟩
  rw [View.read_apply, emb4_13, headArr_apply]
  refine (logit_apply _ _ _ _ _ p j).trans ?_
  unfold hiddenBlocks dot
  simp only [hidden_apply, blk4_0, blk4_1, blk4_2, blk4_3, blk4_4, blk4_5, blk4_6, blk4_7, blk4_8, blk4_9, blk4_10, blk4_11, blk4_12]
  rfl

/-- An index of the output array is in point `t`'s block iff its row is among rows `2000·t … 2000·t + 1999`. -/
theorem mem_blk4 (t : Fin cfg4.N) (i : S20000x128.Idx) :
    i ∈ ((cfg4.win 13).blk t).view.set ↔ ∀ a : Fin 2, win4_13.index t a * S2000x128.size a ≤ (i a).val ∧ (i a).val < win4_13.index t a * S2000x128.size a + S2000x128.size a := by
  show i ∈ ((View.whole main_v237).slice (win4_13.rect t)).set ↔ _
  rw [View.set_slice_whole, Rect.mem_set_unit]
  exact Iff.rfl

/-- Every index of the output array is in the block of the point its row belongs to. -/
theorem cover4 (i : S20000x128.Idx) : ∃ t : Fin cfg4.N, (cfg4.win 13).flush t = true ∧ i ∈ ((cfg4.win 13).blk t).view.set := by
  have h0 : (i 0).val < 20000 := (i 0).isLt
  have h1 : (i 1).val < 128 := (i 1).isLt
  let t : Fin cfg4.N := ⟨(i 0).val / 2000, by rw [show cfg4.N = 10 from N_4]; omega⟩
  obtain ⟨e0, e1⟩ := idx4_13 t
  refine ⟨t, flush4_13 t, ?_⟩
  rw [mem_blk4]
  intro a
  match a with
  | ⟨0, _⟩ => show win4_13.index t 0 * 2000 ≤ (i 0).val ∧ (i 0).val < win4_13.index t 0 * 2000 + 2000; rw [e0]; show (i 0).val / 2000 * 2000 ≤ _ ∧ _ < (i 0).val / 2000 * 2000 + 2000; omega
  | ⟨1, _⟩ => show win4_13.index t 1 * 128 ≤ (i 1).val ∧ (i 1).val < win4_13.index t 1 * 128 + 128; rw [e1]; omega

/-- THE OUTPUT ARRAY of the classifier launch: the padded logits of the arrays the launch finds. -/
theorem final4 (c : Dev nD) :
    (dat4 V c).arrAt 13 cfg4.N
      = headArr (V c main_v74) (V c main_v121) (V c main_v168) (V c main_v215) (V c main_v223) (V c main_v225) (V c main_v227) (V c main_v229)
          (V c main_v230) (V c main_v231) (V c main_v232) (V c main_v234) (V c main_v236) :=
  (dat4 V c).arrAt_eq_of_cover 13 _ (fun t _ => flushed4 V c t) (cover4)

end Cert.KernelRegion4

end
-- ==== Proof.LayerStep.lean ====
/-
  One layer's step of the bridge, free of either program: if the three matrices a launch finds are, entry by entry,
  layer `l`'s folded matrices, and every entry of its three feature arrays and of the weight tensor is a real number,
  then the folded layer it leaves is the reference's layer, entry by entry — and is again real.
-/
import proofs.«165358_j80178449481840_2_alg».proof.Proof.KernelRegions
import proofs.«165358_j80178449481840_2_alg».proof.Proof.BridgeLaws

noncomputable section

namespace Cert.LayerStep

open Idealize.ShloMosaic Idealize.ShloMosaic.ValueIdx Cert.Spec Cert.Lib.RealSums Cert.BridgeLaws Cert.KernelRegions
open scoped BigOperators

/-- Replacing the three matrices by equal ones, entry by entry, does not change the folded layer. -/
theorem layerFolded_congr (X T1 P2 : Mat 20000 256) (A B C A' B' C' : Mat 256 256)
    (hA : ∀ k j : Fin 256, A (ix2 k j) = A' (ix2 k j)) (hB : ∀ k j : Fin 256, B (ix2 k j) = B' (ix2 k j))
    (hC : ∀ k j : Fin 256, C (ix2 k j) = C' (ix2 k j)) (n : Fin 20000) (j : Fin 256) :
    layerFolded X T1 P2 A B C n j = layerFolded X T1 P2 A' B' C' n j := by
  unfold layerFolded dot
  simp only [hA, hB, hC]

/-- The launch's output array is the reference's layer, entry by entry. -/
theorem layerArr_apply_ref (l : Fin 4) (X T1 P2 : Mat 20000 256) (A B C : Mat 256 256) (W : Weights)
    (hA : ∀ k j : Fin 256, A (ix2 k j) = foldA W l (ix2 k j)) (hB : ∀ k j : Fin 256, B (ix2 k j) = foldB W l (ix2 k j))
    (hC : ∀ k j : Fin 256, C (ix2 k j) = foldC W l (ix2 k j))
    (hX : ∀ i, IsReal (X i)) (hT : ∀ i, IsReal (T1 i)) (hP : ∀ i, IsReal (P2 i)) (hW : ∀ i, IsReal (W i))
    (n : Fin 20000) (j : Fin 256) :
    layerArr X T1 P2 A B C (ix2 n j) = layerRef X T1 P2 W l n j := by
  rw [layerArr_apply, layerFolded_congr X T1 P2 A B C _ _ _ hA hB hC n j]
  exact layer_fold X T1 P2 W l n j hX hT hP hW

/-- An array that is a reference layer of real arrays, entry by entry, is real. -/
theorem isReal_of_layerRef (l : Fin 4) (H X T1 P2 : Mat 20000 256) (W : Weights)
    (hH : ∀ (n : Fin 20000) (j : Fin 256), H (ix2 n j) = layerRef X T1 P2 W l n j)
    (hX : ∀ i, IsReal (X i)) (hT : ∀ i, IsReal (T1 i)) (hP : ∀ i, IsReal (P2 i)) (hW : ∀ i, IsReal (W i)) :
    ∀ i, IsReal (H i) := fun i => by
  obtain ⟨n, j, rfl⟩ : ∃ (n : Fin 20000) (j : Fin 256), i = ix2 n j := ⟨i 0, i 1, eq_ix2 i⟩
  rw [hH]
  exact isReal_layerRef X T1 P2 W l n j hX hT hP hW

/-- Two arrays that agree at every `(n, j)` are equal. -/
theorem mat_ext {r c : Nat} (f g : Mat r c) (h : ∀ (n : Fin r) (j : Fin c), f (ix2 n j) = g (ix2 n j)) : f = g :=
  funext fun i => by rw [eq_ix2 i]; exact h _ _

end Cert.LayerStep

end
-- ==== Proof.RealOps.lean ====
/-
  Operations that keep an array of extended reals real.

  An entry of a gather is an entry of its operand; an entry of an accumulating scatter is the operand's entry
  plus a finite sum of update entries; the reciprocal square root of a positive real is the real `1/√r`; an
  entry of a select is an entry of one of its two branches. So each of these, fed arrays whose every entry is
  a real number, gives an array whose every entry is a real number.
-/
import proofs.«165358_j80178449481840_2_alg».proof.Proof.LibRealSums
import Idealize.ShloMosaic.PureOps.Ideal

namespace Cert.RealOps

open Idealize.ShloMosaic Cert.Lib.RealSums

open scoped BigOperators

/-- A gather reads entries of its operand: if every operand entry is real, so is every gathered entry. -/
theorem isReal_gather {s t si : Shape} {w : Nat} {φ : FTy} (d : GatherDims s si t) (x : FVec Ideal s φ)
    (idx : IVec si w) (hx : ∀ i, IsReal (x i)) : ∀ j, IsReal (Host.gather d x idx j) :=
  fun j => hx (d.operandIdx j idx)

/-- An accumulating scatter gives, at each index, the operand's entry plus a finite sum of update entries:
    if every operand entry and every update entry is real, so is every entry of the result. -/
theorem isReal_scatterAdd {s si u : Shape} {w : Nat} {φ : FTy} (d : ScatterDims s si u) (x : FVec Ideal s φ)
    (idx : IVec si w) (upd : FVec Ideal u φ) (hx : ∀ i, IsReal (x i)) (hu : ∀ j, IsReal (upd j)) :
    ∀ i, IsReal (Host.scatterAdd (F := Ideal) d x idx upd i) := fun i => by
  show IsReal (x i + ∑ j ∈ Finset.univ.filter (fun j => d.resultIdx? j idx = some i), upd j)
  exact (hx i).add (isReal_sum _ _ fun j _ => hu j)

/-- The reciprocal square root of a positive real is real: `1/√r` with `r > 0`. -/
theorem isReal_rsqrt_of_pos {x : EReal} (hx : IsReal x) (h : 0 < x) : IsReal (Ideal.rsqrt x) := by
  obtain ⟨r, rfl⟩ := hx
  have hr : 0 < r := EReal.coe_pos.1 h
  rw [Ideal.rsqrt_coe, if_neg (not_lt.2 hr.le), if_neg hr.ne']
  exact ⟨_, rfl⟩

/-- A select takes each entry from one of its two branches: if both are real everywhere, so is the result. -/
theorem isReal_select {s : Shape} {φ : FTy} (c : IVec s 1) (a b : FVec Ideal s φ) (ha : ∀ i, IsReal (a i))
    (hb : ∀ i, IsReal (b i)) : ∀ i, IsReal (select c a b i) := fun i => by
  show IsReal (if c i = 1 then a i else b i)
  split_ifs
  · exact ha i
  · exact hb i

end Cert.RealOps
-- ==== Proof.NormReal.lean ====
/-
  The reference's edge norm is real when the edge weights are.

  The degree of a node is the sum of the weights of the edges leaving it (the weights scatter-added into zeros):
  a finite sum of reals. Its inverse square root, taken as zero where the degree is not positive, is real: where
  the comparison `deg > 0` holds, `1/√deg` is the real inverse square root of a positive real. The norm of an
  edge is minus the product of that value at the edge's source, the edge's weight, and that value at the edge's
  target: a product of three reals, negated.
-/
import proofs.«165358_j80178449481840_2_alg».proof.Proof.RefRead
import proofs.«165358_j80178449481840_2_alg».proof.Proof.LibRealSums
import proofs.«165358_j80178449481840_2_alg».proof.Proof.RealOps

namespace Cert.PropReal

open Idealize.ShloMosaic Idealize.ShloMosaic.TcCoe Idealize.SL.Sem Idealize.ShloMosaic.StableHlo
open Cert.Lib.RealSums Cert.RealOps Cert.ReferenceIdeal Cert.ReferenceIdeal.ReadP

/-- A condition word that is 1 came from a true condition. -/
theorem ofBool_eq_one {b : Bool} (h : BitVec.ofBool b = 1#1) : b = true := by
  cases b
  · exact absurd h (by decide)
  · rfl

/-- One entry of the inverse square root of the degree: `d > 0 ? 1/√d : 0` is real when `d` is. Where the
    comparison holds `d` is positive, so `1/√d` is real; elsewhere the value is zero. -/
theorem isReal_dis {d : Ideal .f32} (hd : IsReal d) :
    IsReal (Scalar.select (FloatOps.cmpf .ogt d (FloatOps.ofBits (F := Ideal) .f32 0x00000000#32))
      (FloatOps.hostUnary .rsqrt d) (FloatOps.ofBits (F := Ideal) .f32 0x00000000#32)) := by
  show IsReal (Scalar.select (Ideal.cmp .ogt d (Ideal.ofBits .f32 0x00000000#32)) (Ideal.rsqrt d)
    (Ideal.ofBits .f32 0x00000000#32))
  rw [Ideal.ofBits_zero_f32]
  unfold Scalar.select
  split_ifs with h
  · have h' : BitVec.ofBool (decide ((0 : EReal) < d)) = 1#1 := h
    exact isReal_rsqrt_of_pos hd (of_decide_eq_true (ofBool_eq_one h'))
  · exact isReal_zero

section Norm
variable (x1 : (⟨S2x320000, .i32⟩ : BufTy).Contents (Elt Ideal)) (x3 : (⟨S320000, .f32⟩ : BufTy).Contents (Elt Ideal))

/-- The zero array the degree is accumulated into. -/
theorem isReal_v4 (i : S20000.Idx) : IsReal (val_main_v4 (F := Ideal) i) := by
  show IsReal (Ideal.ofBits .f32 0x00000000#32)
  rw [Ideal.ofBits_zero_f32]
  exact isReal_zero

/-- The degree: the edge weights scatter-added into zeros. -/
theorem isReal_v6 (hx3 : ∀ e, IsReal (x3 e)) (i : S20000.Idx) : IsReal (val_main_v6 (F := Ideal) x1 x3 i) := by
  unfold val_main_v6
  exact isReal_scatterAdd (φ := .f32) _ _ _ _ isReal_v4 hx3 i

/-- The inverse square root of the degree, zero where the degree is not positive. -/
theorem isReal_v10 (hx3 : ∀ e, IsReal (x3 e)) (i : S20000.Idx) : IsReal (val_main_v10 (F := Ideal) x1 x3 i) := by
  rw [val_main_v10_apply, val_main_v8_apply, val_main_v9_apply, val_main_v7_apply, val_main_cst_0_apply,
    val_main_call0_v1_apply, val_main_call0_v0_apply, val_main_cst_1_apply]
  exact isReal_dis (isReal_v6 x1 x3 hx3 i)

/-- Its value at each edge's source. -/
theorem isReal_v17 (hx3 : ∀ e, IsReal (x3 e)) (e : S320000.Idx) : IsReal (val_main_v17 (F := Ideal) x1 x3 e) := by
  unfold val_main_v17
  exact isReal_gather (φ := .f32) _ _ _ (isReal_v10 x1 x3 hx3) e

/-- Its value at each edge's target. -/
theorem isReal_v25 (hx3 : ∀ e, IsReal (x3 e)) (e : S320000.Idx) : IsReal (val_main_v25 (F := Ideal) x1 x3 e) := by
  unfold val_main_v25
  exact isReal_gather (φ := .f32) _ _ _ (isReal_v10 x1 x3 hx3) e

/-- The edge norm `−((dis[row]·w)·dis[col])` is real at every edge when every edge weight is. -/
theorem isReal_v27 (hx3 : ∀ e, IsReal (x3 e)) (e : S320000.Idx) : IsReal (val_main_v27 (F := Ideal) x1 x3 e) := by
  show IsReal (-((val_main_v17 (F := Ideal) x1 x3 e * x3 e) * val_main_v25 (F := Ideal) x1 x3 e))
  exact (((isReal_v17 x1 x3 hx3 e).mul (hx3 e)).mul (isReal_v25 x1 x3 hx3 e)).neg

end Norm

end Cert.PropReal
-- ==== Proof.PropReal.lean ====
/-
  One graph propagation keeps a real array real.

  The propagation gathers rows of the array at the edges' sources, scales row e by the e-th normalised weight
  and adds the scaled rows up at the edges' targets, starting from zeros. A broadcast and a gather read entries
  of their operands, an entrywise product of reals is real, and an entry of the accumulating scatter is an entry
  of the zero array plus a finite sum of such products. With the edge norm real (module NormReal, imported), the
  propagation by the program's own norm keeps every real array real.
-/
import proofs.«165358_j80178449481840_2_alg».proof.Proof.RefLayers
import proofs.«165358_j80178449481840_2_alg».proof.Proof.NormReal
import proofs.«165358_j80178449481840_2_alg».proof.Proof.LibRealSums
import proofs.«165358_j80178449481840_2_alg».proof.Proof.RealOps

namespace Cert.PropReal

open Idealize.ShloMosaic Idealize.ShloMosaic.TcCoe Idealize.SL.Sem Idealize.ShloMosaic.StableHlo
open Cert.Lib.RealSums Cert.RealOps Cert.ReferenceIdeal Cert.ReferenceIdeal.Gen Cert.ReferenceIdeal.ReadP

/-! ## Layout and entrywise operations keep an array real -/

/-- A broadcast reads entries of its operand. -/
theorem isReal_broadcastInDim {s t : Shape} (dims : Fin s.rank → Fin t.rank) (h : s.BroadcastsInDim t dims)
    (x : s.Idx → EReal) (hx : ∀ i, IsReal (x i)) : ∀ j, IsReal (broadcastInDim t dims h x j) :=
  fun _ => hx _

/-- The zero constant, at every index. -/
theorem isReal_constant_zero (s : Shape) : ∀ i, IsReal (constant (F := Ideal) s .f32 0x00000000#32 i) := fun i => by
  show IsReal (Ideal.ofBits .f32 0x00000000#32)
  rw [Ideal.ofBits_zero_f32]
  exact isReal_zero

/-- An entrywise product of real arrays. -/
theorem isReal_mulf {s : Shape} (a b : s.Idx → EReal) (ha : ∀ i, IsReal (a i)) (hb : ∀ i, IsReal (b i)) :
    ∀ i, IsReal (mulf (F := Ideal) (φ := .f32) a b i) :=
  fun i => (ha i).mul (hb i)

/-- One graph propagation keeps a real array real: each entry of the result is zero plus a finite sum of
    products of an edge's normalised weight with an entry of the propagated array. -/
theorem isReal_propR (nrm : (⟨S320000, .f32⟩ : BufTy).Contents (Elt Ideal))
    (row col : (⟨S320000, .i32⟩ : BufTy).Contents (Elt Ideal)) (x : (⟨S20000x256, .f32⟩ : BufTy).Contents (Elt Ideal))
    (hn : ∀ e, IsReal (nrm e)) (hx : ∀ i, IsReal (x i)) : ∀ i, IsReal (Cert.RefLayers.propR nrm row col x i) := by
  unfold Cert.RefLayers.propR
  exact isReal_scatterAdd (φ := .f32) _ _ _ _
    (isReal_broadcastInDim _ _ _ (isReal_constant_zero _))
    (isReal_mulf _ _
      (isReal_broadcastInDim _ _ _ (isReal_broadcastInDim _ _ _ hn))
      (isReal_gather (φ := .f32) _ _ _ hx))

/-- The propagation by the program's own edge norm, sources and targets keeps a real array real when the edge
    weights are real. -/
theorem isReal_propR_nrm (x1 : (⟨S2x320000, .i32⟩ : BufTy).Contents (Elt Ideal))
    (x3 : (⟨S320000, .f32⟩ : BufTy).Contents (Elt Ideal)) (x : (⟨S20000x256, .f32⟩ : BufTy).Contents (Elt Ideal))
    (hx3 : ∀ e, IsReal (x3 e)) (hx : ∀ i, IsReal (x i)) :
    ∀ i, IsReal (Cert.RefLayers.propR (Cert.RefLayers.nrm x1 x3) (Cert.RefLayers.rowI x1) (Cert.RefLayers.colI x1) x i) :=
  isReal_propR _ _ _ _ (isReal_v27 x1 x3 hx3) hx

end Cert.PropReal
-- ==== Proof.PreReals.lean ====
/-
  From the precondition to "every entry is a real number".

  The printed predicate is a conjunction of thirteen reductions by `and` to one word: for each of the twelve
  float arrays, "every entry has |x| < +∞", and for the variance array, "every entry is ≥ 0". At the ideal
  values an entry is an extended real, |x| is `max x (-x)`, the pattern `0x7F800000` denotes `⊤` and
  `0x00000000` denotes `0`; so the predicate being all ones says every entry lies strictly between the
  infinities — it is the coercion of a real number — and every variance entry is at least zero.
-/
import proofs.«165358_j80178449481840_2_alg».proof.Proof.LibRealSums
import proofs.«165358_j80178449481840_2_alg».proof.Defs
import proofs.«165358_j80178449481840_2_alg».proof.Proof.Gen.Pre_finite_inputs
import Idealize.ShloMosaic.Lib.ReduceAll
import Idealize.ShloMosaic.Lib.ValueIdx
import Idealize.ShloMosaic.PureOps.Ideal.Laws

namespace Cert.PreReals

open Idealize.ShloMosaic Cert.Pre_finite_inputs Cert.Lib.RealSums

/-- The rank-0 shape has one index. -/
local instance : Subsingleton S_.Idx := ⟨fun _ _ => funext fun d => d.elim0⟩

/-- A condition word that is 1 came from a true condition. -/
theorem ofBool_eq_one {b : Bool} (h : BitVec.ofBool b = 1#1) : b = true := by
  cases b
  · exact absurd h (by decide)
  · rfl

/-- A conjunction of two condition words that is 1 had both words 1. -/
theorem andi_split {x y : IVec S_ 1} {j : S_.Idx} (h : andi x y j = 1#1) : x j = 1#1 ∧ y j = 1#1 :=
  IntOp.andi_eq_one.1 h

/-- `|x| < +∞` read back on one extended real: `x` is a real number. The pattern `0x7F800000` denotes `⊤`;
    `max x (-x) < ⊤` excludes `x = ⊤` directly and `x = ⊥` through `-⊥ = ⊤`. -/
theorem isReal_of_abs_lt_inf (x : EReal)
    (h : Ideal.cmp .olt (max x (-x)) (Ideal.ofBits .f32 0x7F800000#32) = 1#1) : IsReal x := by
  have htop : Ideal.ofBits .f32 0x7F800000#32 = ⊤ := by simp [Ideal.ofBits, Ideal.ieee]
  rw [htop] at h
  have h' : BitVec.ofBool (decide (max x (-x) < ⊤)) = 1#1 := h
  have hlt : max x (-x) < ⊤ := of_decide_eq_true (ofBool_eq_one h')
  rw [max_lt_iff] at hlt
  refine isReal_of_ne (ne_of_lt hlt.1) ?_
  rintro rfl
  exact absurd hlt.2 (by simp)

/-- `x ≥ 0` read back on one extended real. -/
theorem nonneg_of_oge_zero (x : EReal)
    (h : Ideal.cmp .oge x (Ideal.ofBits .f32 0x00000000#32) = 1#1) : (0 : EReal) ≤ x := by
  rw [Ideal.ofBits_zero_f32] at h
  have h' : BitVec.ofBool (decide ((0 : EReal) ≤ x)) = 1#1 := h
  exact of_decide_eq_true (ofBool_eq_one h')

/-- `jnp.all(|x| < +∞)` over an array of any shape, read back: every entry is a real number. -/
theorem all_real {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi
          (cmpf .olt (Host.absf x) (broadcastInDim s ![] hb (constant (F := Ideal) S_ .f32 0x7F800000#32)))
          (constantI S_ 1 1#1) hr hu ValueIdx.ix0 = 1#1) :
    ∀ i, IsReal (x i) := fun i =>
  isReal_of_abs_lt_inf (x i) (Host.reduce_andi_all _ _ hr hu _ e i)

/-- `jnp.all(x ≥ 0)` over an array of any shape, read back: every entry is at least zero. -/
theorem all_nonneg {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi
          (cmpf .oge x (broadcastInDim s ![] hb (constant (F := Ideal) S_ .f32 0x00000000#32)))
          (constantI S_ 1 1#1) hr hu ValueIdx.ix0 = 1#1) :
    ∀ i, (0 : EReal) ≤ x i := fun i =>
  nonneg_of_oge_zero (x i) (Host.reduce_andi_all _ _ hr hu _ e i)

/-- The precondition, all ones, says: every entry of each float array is a real number, and every entry of the
    variance array is at least zero. The printed predicate is a left-nested conjunction of thirteen `jnp.all`s. -/
theorem of_fn [Cert.Pre_finite_inputs.Facts]
    (a0 : FVec Ideal S20000x256 .f32) (a1 : IVec S2x320000 32) (a2 : FVec Ideal S320000x6 .f32)
    (a3 : FVec Ideal S320000 .f32) (a4 : FVec Ideal S4x3x256x256 .f32) (a5 : FVec Ideal S1024x256 .f32)
    (a6 : FVec Ideal S256 .f32) (a7 : FVec Ideal S256 .f32) (a8 : FVec Ideal S256 .f32) (a9 : FVec Ideal S256 .f32)
    (a10 : FVec Ideal S256 .f32) (a11 : FVec Ideal S256x2 .f32) (a12 : FVec Ideal S2 .f32)
    (h : Cert.Pre_finite_inputs.fn (F := Ideal) a0 a1 a2 a3 a4 a5 a6 a7 a8 a9 a10 a11 a12 = fun _ => 1#1) :
    (∀ i, IsReal (a0 i)) ∧ (∀ i, IsReal (a3 i)) ∧ (∀ i, IsReal (a4 i)) ∧ (∀ i, IsReal (a5 i)) ∧ (∀ i, IsReal (a6 i))
    ∧ (∀ i, IsReal (a7 i)) ∧ (∀ i, IsReal (a8 i)) ∧ (∀ i, IsReal (a9 i)) ∧ (∀ i, IsReal (a10 i))
    ∧ (∀ i, IsReal (a11 i)) ∧ (∀ i, IsReal (a12 i)) ∧ (∀ i, (0 : EReal) ≤ a10 i) := by
  have h0 := congrFun h ValueIdx.ix0
  dsimp only [Cert.Pre_finite_inputs.fn, Cert.Pre_finite_inputs.fn_part1, Cert.Pre_finite_inputs.fn_part2,
    Cert.Pre_finite_inputs.fn_part3] at h0
  obtain ⟨h0, eg⟩ := andi_split h0
  obtain ⟨h0, e12⟩ := andi_split h0
  obtain ⟨h0, e11⟩ := andi_split h0
  obtain ⟨h0, e10⟩ := andi_split h0
  obtain ⟨h0, e9⟩ := andi_split h0
  obtain ⟨h0, e8⟩ := andi_split h0
  obtain ⟨h0, e7⟩ := andi_split h0
  obtain ⟨h0, e6⟩ := andi_split h0
  obtain ⟨h0, e5⟩ := andi_split h0
  obtain ⟨h0, e4⟩ := andi_split h0
  obtain ⟨h0, e3⟩ := andi_split h0
  obtain ⟨e0, _⟩ := andi_split h0
  exact ⟨all_real a0 _ _ _ e0, all_real a3 _ _ _ e3, all_real a4 _ _ _ e4, all_real a5 _ _ _ e5,
    all_real a6 _ _ _ e6, all_real a7 _ _ _ e7, all_real a8 _ _ _ e8, all_real a9 _ _ _ e9,
    all_real a10 _ _ _ e10, all_real a11 _ _ _ e11, all_real a12 _ _ _ e12, all_nonneg a10 _ _ _ eg⟩

end Cert.PreReals
-- ==== Proof.KernelValue.lean ====
/-
  The kernel program's buffers, named by the reference's stages.

  Walking the program's segments in order: after the opening stretches the edge rows, the norm and layer 0's two
  propagations are the reference's; launch 0 then leaves the folded layer of those, which — every entry being a real
  number — is the reference's layer 0 output; the next stretch propagates that output exactly as the reference does;
  and so on through the four layers. The classifier launch and the last slice then give the reference's logits:
  contracting the four outputs block by block is contracting their concatenation, and the normalisation folded into a
  scale and a shift is the reference's affine map, every entry being real and the variance nonnegative.
-/
import proofs.«165358_j80178449481840_2_alg».proof.Proof.KernelHost
import proofs.«165358_j80178449481840_2_alg».proof.Proof.KernelHostTail
import proofs.«165358_j80178449481840_2_alg».proof.Proof.KernelRegions
import proofs.«165358_j80178449481840_2_alg».proof.Proof.KernelRegion4
import proofs.«165358_j80178449481840_2_alg».proof.Proof.LayerStep
import proofs.«165358_j80178449481840_2_alg».proof.Proof.PropReal
import proofs.«165358_j80178449481840_2_alg».proof.Proof.PreReals
import proofs.«165358_j80178449481840_2_alg».proof.Proof.BridgeLaws
import proofs.«165358_j80178449481840_2_alg».proof.Defs

set_option maxRecDepth 16384

noncomputable section

namespace Cert.KernelValue

open Cert.KernelIdeal Cert.KernelIdeal.Gen Cert.KernelHost Cert.KernelHostTail Cert.Lib.RealSums Cert.Spec
open Idealize.ShloMosaic Idealize.ShloMosaic.TcCoe Idealize.ShloMosaic.ValueIdx Idealize.SL.Sem Idealize.ShloMosaic.StableHlo
open scoped BigOperators

variable (m : (ℓ : Loc nD τ sig) → Buf (Elt Ideal) ℓ) (ρ : Dev nD → PrngReg) (c : Dev nD)

/-- What the precondition says of device `c`'s argument arrays: every float entry is a real number, and the
    variance is nonnegative. -/
theorem reals (hpre : Cert.Pre_KernelIdeal m) :
    (∀ i, IsReal ((m ((c : Thread nD τ).loc main_arg0)) i)) ∧ (∀ i, IsReal ((m ((c : Thread nD τ).loc main_arg3)) i)) ∧ (∀ i, IsReal ((m ((c : Thread nD τ).loc main_arg4)) i)) ∧ (∀ i, IsReal ((m ((c : Thread nD τ).loc main_arg5)) i))
    ∧ (∀ i, IsReal ((m ((c : Thread nD τ).loc main_arg6)) i)) ∧ (∀ i, IsReal ((m ((c : Thread nD τ).loc main_arg7)) i)) ∧ (∀ i, IsReal ((m ((c : Thread nD τ).loc main_arg8)) i)) ∧ (∀ i, IsReal ((m ((c : Thread nD τ).loc main_arg9)) i))
    ∧ (∀ i, IsReal ((m ((c : Thread nD τ).loc main_arg10)) i)) ∧ (∀ i, IsReal ((m ((c : Thread nD τ).loc main_arg11)) i)) ∧ (∀ i, IsReal ((m ((c : Thread nD τ).loc main_arg12)) i))
    ∧ (∀ i, (0 : EReal) ≤ (m ((c : Thread nD τ).loc main_arg10)) i) :=
  Cert.PreReals.of_fn _ _ _ _ _ _ _ _ _ _ _ _ _ (hpre c)

/-! ## At launch 0's entry -/
theorem w3_arg0 : W3 m ρ c (Proc.devRef .tc main_arg0) = (m ((c : Thread nD τ).loc main_arg0)) :=
  (s02_keeps_arg0 (W2 m ρ c)).trans ((s01_keeps_arg0 (W1 m ρ c)).trans (s0_keeps_arg0 (W0 m ρ c)))
theorem w3_arg1 : W3 m ρ c (Proc.devRef .tc main_arg1) = (m ((c : Thread nD τ).loc main_arg1)) :=
  (s02_keeps_arg1 (W2 m ρ c)).trans ((s01_keeps_arg1 (W1 m ρ c)).trans (s0_keeps_arg1 (W0 m ρ c)))
theorem w3_arg3 : W3 m ρ c (Proc.devRef .tc main_arg3) = (m ((c : Thread nD τ).loc main_arg3)) :=
  (s02_keeps_arg3 (W2 m ρ c)).trans ((s01_keeps_arg3 (W1 m ρ c)).trans (s0_keeps_arg3 (W0 m ρ c)))
theorem w3_arg4 : W3 m ρ c (Proc.devRef .tc main_arg4) = (m ((c : Thread nD τ).loc main_arg4)) :=
  (s02_keeps_arg4 (W2 m ρ c)).trans ((s01_keeps_arg4 (W1 m ρ c)).trans (s0_keeps_arg4 (W0 m ρ c)))
theorem w3_arg5 : W3 m ρ c (Proc.devRef .tc main_arg5) = (m ((c : Thread nD τ).loc main_arg5)) :=
  (s02_keeps_arg5 (W2 m ρ c)).trans ((s01_keeps_arg5 (W1 m ρ c)).trans (s0_keeps_arg5 (W0 m ρ c)))
theorem w3_arg6 : W3 m ρ c (Proc.devRef .tc main_arg6) = (m ((c : Thread nD τ).loc main_arg6)) :=
  (s02_keeps_arg6 (W2 m ρ c)).trans ((s01_keeps_arg6 (W1 m ρ c)).trans (s0_keeps_arg6 (W0 m ρ c)))
theorem w3_arg7 : W3 m ρ c (Proc.devRef .tc main_arg7) = (m ((c : Thread nD τ).loc main_arg7)) :=
  (s02_keeps_arg7 (W2 m ρ c)).trans ((s01_keeps_arg7 (W1 m ρ c)).trans (s0_keeps_arg7 (W0 m ρ c)))
theorem w3_arg8 : W3 m ρ c (Proc.devRef .tc main_arg8) = (m ((c : Thread nD τ).loc main_arg8)) :=
  (s02_keeps_arg8 (W2 m ρ c)).trans ((s01_keeps_arg8 (W1 m ρ c)).trans (s0_keeps_arg8 (W0 m ρ c)))
theorem w3_arg9 : W3 m ρ c (Proc.devRef .tc main_arg9) = (m ((c : Thread nD τ).loc main_arg9)) :=
  (s02_keeps_arg9 (W2 m ρ c)).trans ((s01_keeps_arg9 (W1 m ρ c)).trans (s0_keeps_arg9 (W0 m ρ c)))
theorem w3_arg10 : W3 m ρ c (Proc.devRef .tc main_arg10) = (m ((c : Thread nD τ).loc main_arg10)) :=
  (s02_keeps_arg10 (W2 m ρ c)).trans ((s01_keeps_arg10 (W1 m ρ c)).trans (s0_keeps_arg10 (W0 m ρ c)))
theorem w3_arg11 : W3 m ρ c (Proc.devRef .tc main_arg11) = (m ((c : Thread nD τ).loc main_arg11)) :=
  (s02_keeps_arg11 (W2 m ρ c)).trans ((s01_keeps_arg11 (W1 m ρ c)).trans (s0_keeps_arg11 (W0 m ρ c)))
theorem w3_arg12 : W3 m ρ c (Proc.devRef .tc main_arg12) = (m ((c : Thread nD τ).loc main_arg12)) :=
  (s02_keeps_arg12 (W2 m ρ c)).trans ((s01_keeps_arg12 (W1 m ρ c)).trans (s0_keeps_arg12 (W0 m ρ c)))

theorem w2_v1 : W2 m ρ c (Proc.devRef .tc main_v1) = (Cert.RefLayers.rowI (m ((c : Thread nD τ).loc main_arg1))) := (s01_keeps_v1 (W1 m ρ c)).trans (s0_row (W0 m ρ c))
theorem w2_v3 : W2 m ρ c (Proc.devRef .tc main_v3) = (Cert.RefLayers.colI (m ((c : Thread nD τ).loc main_arg1))) := (s01_keeps_v3 (W1 m ρ c)).trans (s0_col (W0 m ρ c))
theorem w2_arg0 : W2 m ρ c (Proc.devRef .tc main_arg0) = (m ((c : Thread nD τ).loc main_arg0)) := (s01_keeps_arg0 (W1 m ρ c)).trans (s0_keeps_arg0 (W0 m ρ c))
theorem w2_arg3 : W2 m ρ c (Proc.devRef .tc main_arg3) = (m ((c : Thread nD τ).loc main_arg3)) := (s01_keeps_arg3 (W1 m ρ c)).trans (s0_keeps_arg3 (W0 m ρ c))
theorem w2_arg4 : W2 m ρ c (Proc.devRef .tc main_arg4) = (m ((c : Thread nD τ).loc main_arg4)) := (s01_keeps_arg4 (W1 m ρ c)).trans (s0_keeps_arg4 (W0 m ρ c))
theorem w3_v1 : W3 m ρ c (Proc.devRef .tc main_v1) = (Cert.RefLayers.rowI (m ((c : Thread nD τ).loc main_arg1))) := (s02_keeps_v1 (W2 m ρ c)).trans (w2_v1 m ρ c)
theorem w3_v3 : W3 m ρ c (Proc.devRef .tc main_v3) = (Cert.RefLayers.colI (m ((c : Thread nD τ).loc main_arg1))) := (s02_keeps_v3 (W2 m ρ c)).trans (w2_v3 m ρ c)

/-- `dis` at the second boundary is the reference's. -/
theorem w2_dis : W2 m ρ c (Proc.devRef .tc main_v10) = Cert.ReferenceIdeal.ReadP.val_main_v10 (F := Ideal) (m ((c : Thread nD τ).loc main_arg1)) (m ((c : Thread nD τ).loc main_arg3)) := by
  have h8 : W1 m ρ c (Proc.devRef .tc main_v8) = Cert.ReferenceIdeal.ReadP.val_main_v8 (F := Ideal) (m ((c : Thread nD τ).loc main_arg1)) (m ((c : Thread nD τ).loc main_arg3)) := s0_pos (W0 m ρ c)
  have h9 : W1 m ρ c (Proc.devRef .tc main_v9) = Cert.ReferenceIdeal.ReadP.val_main_v9 (F := Ideal) (m ((c : Thread nD τ).loc main_arg1)) (m ((c : Thread nD τ).loc main_arg3)) := s0_rsqrt (W0 m ρ c)
  have hc : W1 m ρ c (Proc.devRef .tc main_cst_1) = constant (F := Ideal) S_ .f32 0x00000000#32 := s0_zero (W0 m ρ c)
  refine (s01_dis (W1 m ρ c)).trans ?_
  rw [Cert.RefParts.v10_eq, h8, h9, hc]

/-- The norm's tail of the second boundary's buffers is the reference's norm. -/
theorem w2_normTail : Cert.RefParts.normTail (W2 m ρ c (Proc.devRef .tc main_v10)) (W2 m ρ c (Proc.devRef .tc main_v1)) (W2 m ρ c (Proc.devRef .tc main_v3)) (W2 m ρ c (Proc.devRef .tc main_arg3)) = (Cert.RefLayers.nrm (m ((c : Thread nD τ).loc main_arg1)) (m ((c : Thread nD τ).loc main_arg3))) := by
  rw [w2_dis, w2_v1, w2_v3, w2_arg3]
  exact (Cert.RefParts.v27_eq (m ((c : Thread nD τ).loc main_arg1)) (m ((c : Thread nD τ).loc main_arg3))).symm

theorem w3_v27 : W3 m ρ c (Proc.devRef .tc main_v27) = (Cert.RefLayers.nrm (m ((c : Thread nD τ).loc main_arg1)) (m ((c : Thread nD τ).loc main_arg3))) := (s02_norm (W2 m ρ c)).trans (w2_normTail m ρ c)

/-- Layer 0's two propagations at launch 0's entry are the reference's. -/
theorem w3_v44 : W3 m ρ c (Proc.devRef .tc main_v44) = (Cert.RefLayers.T1_0 (m ((c : Thread nD τ).loc main_arg0)) (m ((c : Thread nD τ).loc main_arg1)) (m ((c : Thread nD τ).loc main_arg3))) := by
  refine (s02_T1 (W2 m ρ c)).trans ?_
  rw [w2_normTail, w2_v1, w2_v3, w2_arg0]
  exact (Cert.RefLayers.T1_0_eq (m ((c : Thread nD τ).loc main_arg0)) (m ((c : Thread nD τ).loc main_arg1)) (m ((c : Thread nD τ).loc main_arg3))).symm
theorem w3_v59 : W3 m ρ c (Proc.devRef .tc main_v59) = (Cert.RefLayers.P2_0 (m ((c : Thread nD τ).loc main_arg0)) (m ((c : Thread nD τ).loc main_arg1)) (m ((c : Thread nD τ).loc main_arg3))) := by
  refine (s02_P2 (W2 m ρ c)).trans ?_
  rw [w2_normTail, w2_v1, w2_v3, w2_arg0, ← Cert.RefLayers.T1_0_eq (m ((c : Thread nD τ).loc main_arg0)) (m ((c : Thread nD τ).loc main_arg1)) (m ((c : Thread nD τ).loc main_arg3))]
  exact (Cert.RefLayers.P2_0_eq (m ((c : Thread nD τ).loc main_arg0)) (m ((c : Thread nD τ).loc main_arg1)) (m ((c : Thread nD τ).loc main_arg3))).symm
theorem w3_v65 : W3 m ρ c (Proc.devRef .tc main_v65)
    = truncf (F := Ideal) (φ := .f32) .bf16 (subf (F := Ideal) (φ := .f32) (Cert.ReferenceIdeal.ReadP.val_main_v44 (F := Ideal) (m ((c : Thread nD τ).loc main_arg4))) (Cert.ReferenceIdeal.ReadP.val_main_v67 (F := Ideal) (m ((c : Thread nD τ).loc main_arg4)))) bitsLt_bf16_f32 := by
  refine (s02_A (W2 m ρ c)).trans ?_
  rw [w2_arg4]
theorem w3_v68 : W3 m ρ c (Proc.devRef .tc main_v68)
    = truncf (F := Ideal) (φ := .f32) .bf16 (Cert.ReferenceIdeal.ReadP.val_main_v47 (F := Ideal) (m ((c : Thread nD τ).loc main_arg4))) bitsLt_bf16_f32 := by
  refine (s02_B (W2 m ρ c)).trans ?_
  rw [w2_arg4]
theorem w3_v73 : W3 m ρ c (Proc.devRef .tc main_v73)
    = truncf (F := Ideal) (φ := .f32) .bf16 (mulf (F := Ideal) (φ := .f32) (broadcastInDim S256x256 ![] bcast_S_S256x256 (constant (F := Ideal) S_ .f32 0x40000000#32))
        (Cert.ReferenceIdeal.ReadP.val_main_v67 (F := Ideal) (m ((c : Thread nD τ).loc main_arg4)))) bitsLt_bf16_f32 := by
  refine (s02_C (W2 m ρ c)).trans ?_
  rw [w2_arg4]

/-! ## Layer 0 -/

/-- Every entry of layer 0's two propagations is real. -/
theorem real_T1_0 (hpre : Cert.Pre_KernelIdeal m) : ∀ i, IsReal ((Cert.RefLayers.T1_0 (m ((c : Thread nD τ).loc main_arg0)) (m ((c : Thread nD τ).loc main_arg1)) (m ((c : Thread nD τ).loc main_arg3))) i) := by
  rw [Cert.RefLayers.T1_0_eq (m ((c : Thread nD τ).loc main_arg0)) (m ((c : Thread nD τ).loc main_arg1)) (m ((c : Thread nD τ).loc main_arg3))]
  exact Cert.PropReal.isReal_propR_nrm (m ((c : Thread nD τ).loc main_arg1)) (m ((c : Thread nD τ).loc main_arg3)) (m ((c : Thread nD τ).loc main_arg0)) (reals m c hpre).2.1 ((reals m c hpre).1)
theorem real_P2_0 (hpre : Cert.Pre_KernelIdeal m) : ∀ i, IsReal ((Cert.RefLayers.P2_0 (m ((c : Thread nD τ).loc main_arg0)) (m ((c : Thread nD τ).loc main_arg1)) (m ((c : Thread nD τ).loc main_arg3))) i) := by
  rw [Cert.RefLayers.P2_0_eq (m ((c : Thread nD τ).loc main_arg0)) (m ((c : Thread nD τ).loc main_arg1)) (m ((c : Thread nD τ).loc main_arg3))]
  exact Cert.PropReal.isReal_propR_nrm (m ((c : Thread nD τ).loc main_arg1)) (m ((c : Thread nD τ).loc main_arg3)) (Cert.RefLayers.T1_0 (m ((c : Thread nD τ).loc main_arg0)) (m ((c : Thread nD τ).loc main_arg1)) (m ((c : Thread nD τ).loc main_arg3))) (reals m c hpre).2.1 (real_T1_0 m c hpre)
/-- The reference's layer 0 output is real. -/
theorem real_H0 (hpre : Cert.Pre_KernelIdeal m) : ∀ i, IsReal ((Cert.RefLayers.H0 (m ((c : Thread nD τ).loc main_arg0)) (m ((c : Thread nD τ).loc main_arg1)) (m ((c : Thread nD τ).loc main_arg3)) (m ((c : Thread nD τ).loc main_arg4))) i) :=
  Cert.LayerStep.isReal_of_layerRef 0 (Cert.RefLayers.H0 (m ((c : Thread nD τ).loc main_arg0)) (m ((c : Thread nD τ).loc main_arg1)) (m ((c : Thread nD τ).loc main_arg3)) (m ((c : Thread nD τ).loc main_arg4))) (m ((c : Thread nD τ).loc main_arg0)) (Cert.RefLayers.T1_0 (m ((c : Thread nD τ).loc main_arg0)) (m ((c : Thread nD τ).loc main_arg1)) (m ((c : Thread nD τ).loc main_arg3))) (Cert.RefLayers.P2_0 (m ((c : Thread nD τ).loc main_arg0)) (m ((c : Thread nD τ).loc main_arg1)) (m ((c : Thread nD τ).loc main_arg3))) (m ((c : Thread nD τ).loc main_arg4))
    (fun n j => Cert.RefLayers.H0_apply (m ((c : Thread nD τ).loc main_arg0)) (m ((c : Thread nD τ).loc main_arg1)) (m ((c : Thread nD τ).loc main_arg3)) (m ((c : Thread nD τ).loc main_arg4)) n j)
    ((reals m c hpre).1) (real_T1_0 m c hpre) (real_P2_0 m c hpre) (reals m c hpre).2.2.1

/-- LAUNCH 0 leaves the reference's layer 0 output. -/
theorem w4_v74 (hpre : Cert.Pre_KernelIdeal m) : W4 m ρ c (Proc.devRef .tc main_v74) = (Cert.RefLayers.H0 (m ((c : Thread nD τ).loc main_arg0)) (m ((c : Thread nD τ).loc main_arg1)) (m ((c : Thread nD τ).loc main_arg3)) (m ((c : Thread nD τ).loc main_arg4))) := by
  refine (W4_arr m ρ c 6).trans ((Cert.KernelRegions.final0 (V3 m ρ) c).trans ?_)
  show Cert.KernelRegions.layerArr (W3 m ρ c (Proc.devRef .tc main_arg0)) (W3 m ρ c (Proc.devRef .tc main_v44)) (W3 m ρ c (Proc.devRef .tc main_v59))
      (W3 m ρ c (Proc.devRef .tc main_v65)) (W3 m ρ c (Proc.devRef .tc main_v68)) (W3 m ρ c (Proc.devRef .tc main_v73)) = _
  rw [w3_arg0 m ρ c, w3_v44 m ρ c, w3_v59 m ρ c, w3_v65 m ρ c, w3_v68 m ρ c, w3_v73 m ρ c]
  refine Cert.LayerStep.mat_ext _ _ fun n j => ?_
  refine (Cert.LayerStep.layerArr_apply_ref 0 (m ((c : Thread nD τ).loc main_arg0)) (Cert.RefLayers.T1_0 (m ((c : Thread nD τ).loc main_arg0)) (m ((c : Thread nD τ).loc main_arg1)) (m ((c : Thread nD τ).loc main_arg3))) (Cert.RefLayers.P2_0 (m ((c : Thread nD τ).loc main_arg0)) (m ((c : Thread nD τ).loc main_arg1)) (m ((c : Thread nD τ).loc main_arg3))) _ _ _ (m ((c : Thread nD τ).loc main_arg4))
    (fun k j => Cert.RefParts.foldA0_apply (m ((c : Thread nD τ).loc main_arg4)) k j) (fun k j => Cert.RefParts.foldB0_apply (m ((c : Thread nD τ).loc main_arg4)) k j)
    (fun k j => Cert.RefParts.foldC0_apply (m ((c : Thread nD τ).loc main_arg4)) _ (fun _ => rfl) k j)
    ((reals m c hpre).1) (real_T1_0 m c hpre) (real_P2_0 m c hpre) (reals m c hpre).2.2.1 n j).trans ?_
  exact (Cert.RefLayers.H0_apply (m ((c : Thread nD τ).loc main_arg0)) (m ((c : Thread nD τ).loc main_arg1)) (m ((c : Thread nD τ).loc main_arg3)) (m ((c : Thread nD τ).loc main_arg4)) n j).symm
theorem w4_v27 : W4 m ρ c (Proc.devRef .tc main_v27) = (Cert.RefLayers.nrm (m ((c : Thread nD τ).loc main_arg1)) (m ((c : Thread nD τ).loc main_arg3))) :=
  (W4_of_ne m ρ c main_v27 (by decide)).trans (w3_v27 m ρ c)
theorem w4_v1 : W4 m ρ c (Proc.devRef .tc main_v1) = (Cert.RefLayers.rowI (m ((c : Thread nD τ).loc main_arg1))) :=
  (W4_of_ne m ρ c main_v1 (by decide)).trans (w3_v1 m ρ c)
theorem w4_v3 : W4 m ρ c (Proc.devRef .tc main_v3) = (Cert.RefLayers.colI (m ((c : Thread nD τ).loc main_arg1))) :=
  (W4_of_ne m ρ c main_v3 (by decide)).trans (w3_v3 m ρ c)
theorem w4_arg0 : W4 m ρ c (Proc.devRef .tc main_arg0) = (m ((c : Thread nD τ).loc main_arg0)) :=
  ((W4_arr m ρ c 0).trans (((dat0 (V3 m ρ) c).arrAt_in 0 rfl _).trans (A_eq0 (V3 m ρ) c 0))).trans (w3_arg0 m ρ c)
theorem w4_arg1 : W4 m ρ c (Proc.devRef .tc main_arg1) = (m ((c : Thread nD τ).loc main_arg1)) :=
  (W4_of_ne m ρ c main_arg1 (by decide)).trans (w3_arg1 m ρ c)
theorem w4_arg3 : W4 m ρ c (Proc.devRef .tc main_arg3) = (m ((c : Thread nD τ).loc main_arg3)) :=
  (W4_of_ne m ρ c main_arg3 (by decide)).trans (w3_arg3 m ρ c)
theorem w4_arg4 : W4 m ρ c (Proc.devRef .tc main_arg4) = (m ((c : Thread nD τ).loc main_arg4)) :=
  (W4_of_ne m ρ c main_arg4 (by decide)).trans (w3_arg4 m ρ c)
theorem w4_arg5 : W4 m ρ c (Proc.devRef .tc main_arg5) = (m ((c : Thread nD τ).loc main_arg5)) :=
  (W4_of_ne m ρ c main_arg5 (by decide)).trans (w3_arg5 m ρ c)
theorem w4_arg6 : W4 m ρ c (Proc.devRef .tc main_arg6) = (m ((c : Thread nD τ).loc main_arg6)) :=
  (W4_of_ne m ρ c main_arg6 (by decide)).trans (w3_arg6 m ρ c)
theorem w4_arg7 : W4 m ρ c (Proc.devRef .tc main_arg7) = (m ((c : Thread nD τ).loc main_arg7)) :=
  (W4_of_ne m ρ c main_arg7 (by decide)).trans (w3_arg7 m ρ c)
theorem w4_arg8 : W4 m ρ c (Proc.devRef .tc main_arg8) = (m ((c : Thread nD τ).loc main_arg8)) :=
  (W4_of_ne m ρ c main_arg8 (by decide)).trans (w3_arg8 m ρ c)
theorem w4_arg9 : W4 m ρ c (Proc.devRef .tc main_arg9) = (m ((c : Thread nD τ).loc main_arg9)) :=
  (W4_of_ne m ρ c main_arg9 (by decide)).trans (w3_arg9 m ρ c)
theorem w4_arg10 : W4 m ρ c (Proc.devRef .tc main_arg10) = (m ((c : Thread nD τ).loc main_arg10)) :=
  (W4_of_ne m ρ c main_arg10 (by decide)).trans (w3_arg10 m ρ c)
theorem w4_arg11 : W4 m ρ c (Proc.devRef .tc main_arg11) = (m ((c : Thread nD τ).loc main_arg11)) :=
  (W4_of_ne m ρ c main_arg11 (by decide)).trans (w3_arg11 m ρ c)
theorem w4_arg12 : W4 m ρ c (Proc.devRef .tc main_arg12) = (m ((c : Thread nD τ).loc main_arg12)) :=
  (W4_of_ne m ρ c main_arg12 (by decide)).trans (w3_arg12 m ρ c)

/-! ## Layer 1 -/
theorem w5_v27 : W5 m ρ c (Proc.devRef .tc main_v27) = (Cert.RefLayers.nrm (m ((c : Thread nD τ).loc main_arg1)) (m ((c : Thread nD τ).loc main_arg3))) :=
  (s1_keeps_v27 (W4 m ρ c)).trans (w4_v27 m ρ c)
theorem w5_v1 : W5 m ρ c (Proc.devRef .tc main_v1) = (Cert.RefLayers.rowI (m ((c : Thread nD τ).loc main_arg1))) :=
  (s1_keeps_v1 (W4 m ρ c)).trans (w4_v1 m ρ c)
theorem w5_v3 : W5 m ρ c (Proc.devRef .tc main_v3) = (Cert.RefLayers.colI (m ((c : Thread nD τ).loc main_arg1))) :=
  (s1_keeps_v3 (W4 m ρ c)).trans (w4_v3 m ρ c)
theorem w5_arg0 : W5 m ρ c (Proc.devRef .tc main_arg0) = (m ((c : Thread nD τ).loc main_arg0)) :=
  (s1_keeps_arg0 (W4 m ρ c)).trans (w4_arg0 m ρ c)
theorem w5_arg1 : W5 m ρ c (Proc.devRef .tc main_arg1) = (m ((c : Thread nD τ).loc main_arg1)) :=
  (s1_keeps_arg1 (W4 m ρ c)).trans (w4_arg1 m ρ c)
theorem w5_arg3 : W5 m ρ c (Proc.devRef .tc main_arg3) = (m ((c : Thread nD τ).loc main_arg3)) :=
  (s1_keeps_arg3 (W4 m ρ c)).trans (w4_arg3 m ρ c)
theorem w5_arg4 : W5 m ρ c (Proc.devRef .tc main_arg4) = (m ((c : Thread nD τ).loc main_arg4)) :=
  (s1_keeps_arg4 (W4 m ρ c)).trans (w4_arg4 m ρ c)
theorem w5_arg5 : W5 m ρ c (Proc.devRef .tc main_arg5) = (m ((c : Thread nD τ).loc main_arg5)) :=
  (s1_keeps_arg5 (W4 m ρ c)).trans (w4_arg5 m ρ c)
theorem w5_arg6 : W5 m ρ c (Proc.devRef .tc main_arg6) = (m ((c : Thread nD τ).loc main_arg6)) :=
  (s1_keeps_arg6 (W4 m ρ c)).trans (w4_arg6 m ρ c)
theorem w5_arg7 : W5 m ρ c (Proc.devRef .tc main_arg7) = (m ((c : Thread nD τ).loc main_arg7)) :=
  (s1_keeps_arg7 (W4 m ρ c)).trans (w4_arg7 m ρ c)
theorem w5_arg8 : W5 m ρ c (Proc.devRef .tc main_arg8) = (m ((c : Thread nD τ).loc main_arg8)) :=
  (s1_keeps_arg8 (W4 m ρ c)).trans (w4_arg8 m ρ c)
theorem w5_arg9 : W5 m ρ c (Proc.devRef .tc main_arg9) = (m ((c : Thread nD τ).loc main_arg9)) :=
  (s1_keeps_arg9 (W4 m ρ c)).trans (w4_arg9 m ρ c)
theorem w5_arg10 : W5 m ρ c (Proc.devRef .tc main_arg10) = (m ((c : Thread nD τ).loc main_arg10)) :=
  (s1_keeps_arg10 (W4 m ρ c)).trans (w4_arg10 m ρ c)
theorem w5_arg11 : W5 m ρ c (Proc.devRef .tc main_arg11) = (m ((c : Thread nD τ).loc main_arg11)) :=
  (s1_keeps_arg11 (W4 m ρ c)).trans (w4_arg11 m ρ c)
theorem w5_arg12 : W5 m ρ c (Proc.devRef .tc main_arg12) = (m ((c : Thread nD τ).loc main_arg12)) :=
  (s1_keeps_arg12 (W4 m ρ c)).trans (w4_arg12 m ρ c)
theorem w5_v74 (hpre : Cert.Pre_KernelIdeal m) : W5 m ρ c (Proc.devRef .tc main_v74) = (Cert.RefLayers.H0 (m ((c : Thread nD τ).loc main_arg0)) (m ((c : Thread nD τ).loc main_arg1)) (m ((c : Thread nD τ).loc main_arg3)) (m ((c : Thread nD τ).loc main_arg4))) :=
  (s1_keeps_v74 (W4 m ρ c)).trans (w4_v74 m ρ c hpre)

/-- Launch 1's first propagation is the reference's. -/
theorem w5_v91 (hpre : Cert.Pre_KernelIdeal m) : W5 m ρ c (Proc.devRef .tc main_v91) = (Cert.RefLayers.T1_1 (m ((c : Thread nD τ).loc main_arg0)) (m ((c : Thread nD τ).loc main_arg1)) (m ((c : Thread nD τ).loc main_arg3)) (m ((c : Thread nD τ).loc main_arg4))) := by
  refine (s1_T1 (W4 m ρ c)).trans ?_
  rw [w4_v27 m ρ c, w4_v1 m ρ c, w4_v3 m ρ c, w4_v74 m ρ c hpre]
  exact (Cert.RefLayers.T1_1_eq (m ((c : Thread nD τ).loc main_arg0)) (m ((c : Thread nD τ).loc main_arg1)) (m ((c : Thread nD τ).loc main_arg3)) (m ((c : Thread nD τ).loc main_arg4))).symm
/-- And its second. -/
theorem w5_v106 (hpre : Cert.Pre_KernelIdeal m) : W5 m ρ c (Proc.devRef .tc main_v106) = (Cert.RefLayers.P2_1 (m ((c : Thread nD τ).loc main_arg0)) (m ((c : Thread nD τ).loc main_arg1)) (m ((c : Thread nD τ).loc main_arg3)) (m ((c : Thread nD τ).loc main_arg4))) := by
  refine (s1_P2 (W4 m ρ c)).trans ?_
  rw [w4_v27 m ρ c, w4_v1 m ρ c, w4_v3 m ρ c, w4_v74 m ρ c hpre]
  rw [← Cert.RefLayers.T1_1_eq (m ((c : Thread nD τ).loc main_arg0)) (m ((c : Thread nD τ).loc main_arg1)) (m ((c : Thread nD τ).loc main_arg3)) (m ((c : Thread nD τ).loc main_arg4))]
  exact (Cert.RefLayers.P2_1_eq (m ((c : Thread nD τ).loc main_arg0)) (m ((c : Thread nD τ).loc main_arg1)) (m ((c : Thread nD τ).loc main_arg3)) (m ((c : Thread nD τ).loc main_arg4))).symm
theorem w5_v112 : W5 m ρ c (Proc.devRef .tc main_v112)
    = truncf (F := Ideal) (φ := .f32) .bf16 (subf (F := Ideal) (φ := .f32) (Cert.ReferenceIdeal.ReadP.val_main_v87 (F := Ideal) (m ((c : Thread nD τ).loc main_arg4))) (Cert.ReferenceIdeal.ReadP.val_main_v110 (F := Ideal) (m ((c : Thread nD τ).loc main_arg4)))) bitsLt_bf16_f32 := by
  refine (s1_A (W4 m ρ c)).trans ?_
  rw [w4_arg4 m ρ c]
theorem w5_v115 : W5 m ρ c (Proc.devRef .tc main_v115)
    = truncf (F := Ideal) (φ := .f32) .bf16 (Cert.ReferenceIdeal.ReadP.val_main_v90 (F := Ideal) (m ((c : Thread nD τ).loc main_arg4))) bitsLt_bf16_f32 := by
  refine (s1_B (W4 m ρ c)).trans ?_
  rw [w4_arg4 m ρ c]
theorem w5_v120 : W5 m ρ c (Proc.devRef .tc main_v120)
    = truncf (F := Ideal) (φ := .f32) .bf16 (mulf (F := Ideal) (φ := .f32) (broadcastInDim S256x256 ![] bcast_S_S256x256 (constant (F := Ideal) S_ .f32 0x40000000#32))
        (Cert.ReferenceIdeal.ReadP.val_main_v110 (F := Ideal) (m ((c : Thread nD τ).loc main_arg4)))) bitsLt_bf16_f32 := by
  refine (s1_C (W4 m ρ c)).trans ?_
  rw [w4_arg4 m ρ c]

/-- Every entry of layer 1's two propagations is real. -/
theorem real_T1_1 (hpre : Cert.Pre_KernelIdeal m) : ∀ i, IsReal ((Cert.RefLayers.T1_1 (m ((c : Thread nD τ).loc main_arg0)) (m ((c : Thread nD τ).loc main_arg1)) (m ((c : Thread nD τ).loc main_arg3)) (m ((c : Thread nD τ).loc main_arg4))) i) := by
  rw [Cert.RefLayers.T1_1_eq (m ((c : Thread nD τ).loc main_arg0)) (m ((c : Thread nD τ).loc main_arg1)) (m ((c : Thread nD τ).loc main_arg3)) (m ((c : Thread nD τ).loc main_arg4))]
  exact Cert.PropReal.isReal_propR_nrm (m ((c : Thread nD τ).loc main_arg1)) (m ((c : Thread nD τ).loc main_arg3)) (Cert.RefLayers.H0 (m ((c : Thread nD τ).loc main_arg0)) (m ((c : Thread nD τ).loc main_arg1)) (m ((c : Thread nD τ).loc main_arg3)) (m ((c : Thread nD τ).loc main_arg4))) (reals m c hpre).2.1 (real_H0 m c hpre)
theorem real_P2_1 (hpre : Cert.Pre_KernelIdeal m) : ∀ i, IsReal ((Cert.RefLayers.P2_1 (m ((c : Thread nD τ).loc main_arg0)) (m ((c : Thread nD τ).loc main_arg1)) (m ((c : Thread nD τ).loc main_arg3)) (m ((c : Thread nD τ).loc main_arg4))) i) := by
  rw [Cert.RefLayers.P2_1_eq (m ((c : Thread nD τ).loc main_arg0)) (m ((c : Thread nD τ).loc main_arg1)) (m ((c : Thread nD τ).loc main_arg3)) (m ((c : Thread nD τ).loc main_arg4))]
  exact Cert.PropReal.isReal_propR_nrm (m ((c : Thread nD τ).loc main_arg1)) (m ((c : Thread nD τ).loc main_arg3)) (Cert.RefLayers.T1_1 (m ((c : Thread nD τ).loc main_arg0)) (m ((c : Thread nD τ).loc main_arg1)) (m ((c : Thread nD τ).loc main_arg3)) (m ((c : Thread nD τ).loc main_arg4))) (reals m c hpre).2.1 (real_T1_1 m c hpre)
/-- The reference's layer 1 output is real. -/
theorem real_H1 (hpre : Cert.Pre_KernelIdeal m) : ∀ i, IsReal ((Cert.RefLayers.H1 (m ((c : Thread nD τ).loc main_arg0)) (m ((c : Thread nD τ).loc main_arg1)) (m ((c : Thread nD τ).loc main_arg3)) (m ((c : Thread nD τ).loc main_arg4))) i) :=
  Cert.LayerStep.isReal_of_layerRef 1 (Cert.RefLayers.H1 (m ((c : Thread nD τ).loc main_arg0)) (m ((c : Thread nD τ).loc main_arg1)) (m ((c : Thread nD τ).loc main_arg3)) (m ((c : Thread nD τ).loc main_arg4))) (Cert.RefLayers.H0 (m ((c : Thread nD τ).loc main_arg0)) (m ((c : Thread nD τ).loc main_arg1)) (m ((c : Thread nD τ).loc main_arg3)) (m ((c : Thread nD τ).loc main_arg4))) (Cert.RefLayers.T1_1 (m ((c : Thread nD τ).loc main_arg0)) (m ((c : Thread nD τ).loc main_arg1)) (m ((c : Thread nD τ).loc main_arg3)) (m ((c : Thread nD τ).loc main_arg4))) (Cert.RefLayers.P2_1 (m ((c : Thread nD τ).loc main_arg0)) (m ((c : Thread nD τ).loc main_arg1)) (m ((c : Thread nD τ).loc main_arg3)) (m ((c : Thread nD τ).loc main_arg4))) (m ((c : Thread nD τ).loc main_arg4))
    (fun n j => Cert.RefLayers.H1_apply (m ((c : Thread nD τ).loc main_arg0)) (m ((c : Thread nD τ).loc main_arg1)) (m ((c : Thread nD τ).loc main_arg3)) (m ((c : Thread nD τ).loc main_arg4)) n j)
    (real_H0 m c hpre) (real_T1_1 m c hpre) (real_P2_1 m c hpre) (reals m c hpre).2.2.1

/-- LAUNCH 1 leaves the reference's layer 1 output. -/
theorem w6_v121 (hpre : Cert.Pre_KernelIdeal m) : W6 m ρ c (Proc.devRef .tc main_v121) = (Cert.RefLayers.H1 (m ((c : Thread nD τ).loc main_arg0)) (m ((c : Thread nD τ).loc main_arg1)) (m ((c : Thread nD τ).loc main_arg3)) (m ((c : Thread nD τ).loc main_arg4))) := by
  refine (W6_arr m ρ c 6).trans ((Cert.KernelRegions.final1 (V5 m ρ) c).trans ?_)
  show Cert.KernelRegions.layerArr (W5 m ρ c (Proc.devRef .tc main_v74)) (W5 m ρ c (Proc.devRef .tc main_v91)) (W5 m ρ c (Proc.devRef .tc main_v106))
      (W5 m ρ c (Proc.devRef .tc main_v112)) (W5 m ρ c (Proc.devRef .tc main_v115)) (W5 m ρ c (Proc.devRef .tc main_v120)) = _
  rw [w5_v74 m ρ c hpre, w5_v91 m ρ c hpre, w5_v106 m ρ c hpre, w5_v112 m ρ c, w5_v115 m ρ c, w5_v120 m ρ c]
  refine Cert.LayerStep.mat_ext _ _ fun n j => ?_
  refine (Cert.LayerStep.layerArr_apply_ref 1 (Cert.RefLayers.H0 (m ((c : Thread nD τ).loc main_arg0)) (m ((c : Thread nD τ).loc main_arg1)) (m ((c : Thread nD τ).loc main_arg3)) (m ((c : Thread nD τ).loc main_arg4))) (Cert.RefLayers.T1_1 (m ((c : Thread nD τ).loc main_arg0)) (m ((c : Thread nD τ).loc main_arg1)) (m ((c : Thread nD τ).loc main_arg3)) (m ((c : Thread nD τ).loc main_arg4))) (Cert.RefLayers.P2_1 (m ((c : Thread nD τ).loc main_arg0)) (m ((c : Thread nD τ).loc main_arg1)) (m ((c : Thread nD τ).loc main_arg3)) (m ((c : Thread nD τ).loc main_arg4))) _ _ _ (m ((c : Thread nD τ).loc main_arg4))
    (fun k j => Cert.RefParts.foldA1_apply (m ((c : Thread nD τ).loc main_arg4)) k j) (fun k j => Cert.RefParts.foldB1_apply (m ((c : Thread nD τ).loc main_arg4)) k j)
    (fun k j => Cert.RefParts.foldC1_apply (m ((c : Thread nD τ).loc main_arg4)) _ (fun _ => rfl) k j)
    (real_H0 m c hpre) (real_T1_1 m c hpre) (real_P2_1 m c hpre) (reals m c hpre).2.2.1 n j).trans ?_
  exact (Cert.RefLayers.H1_apply (m ((c : Thread nD τ).loc main_arg0)) (m ((c : Thread nD τ).loc main_arg1)) (m ((c : Thread nD τ).loc main_arg3)) (m ((c : Thread nD τ).loc main_arg4)) n j).symm
theorem w6_v27 : W6 m ρ c (Proc.devRef .tc main_v27) = (Cert.RefLayers.nrm (m ((c : Thread nD τ).loc main_arg1)) (m ((c : Thread nD τ).loc main_arg3))) :=
  (W6_of_ne m ρ c main_v27 (by decide)).trans (w5_v27 m ρ c)
theorem w6_v1 : W6 m ρ c (Proc.devRef .tc main_v1) = (Cert.RefLayers.rowI (m ((c : Thread nD τ).loc main_arg1))) :=
  (W6_of_ne m ρ c main_v1 (by decide)).trans (w5_v1 m ρ c)
theorem w6_v3 : W6 m ρ c (Proc.devRef .tc main_v3) = (Cert.RefLayers.colI (m ((c : Thread nD τ).loc main_arg1))) :=
  (W6_of_ne m ρ c main_v3 (by decide)).trans (w5_v3 m ρ c)
theorem w6_arg0 : W6 m ρ c (Proc.devRef .tc main_arg0) = (m ((c : Thread nD τ).loc main_arg0)) :=
  (W6_of_ne m ρ c main_arg0 (by decide)).trans (w5_arg0 m ρ c)
theorem w6_arg1 : W6 m ρ c (Proc.devRef .tc main_arg1) = (m ((c : Thread nD τ).loc main_arg1)) :=
  (W6_of_ne m ρ c main_arg1 (by decide)).trans (w5_arg1 m ρ c)
theorem w6_arg3 : W6 m ρ c (Proc.devRef .tc main_arg3) = (m ((c : Thread nD τ).loc main_arg3)) :=
  (W6_of_ne m ρ c main_arg3 (by decide)).trans (w5_arg3 m ρ c)
theorem w6_arg4 : W6 m ρ c (Proc.devRef .tc main_arg4) = (m ((c : Thread nD τ).loc main_arg4)) :=
  (W6_of_ne m ρ c main_arg4 (by decide)).trans (w5_arg4 m ρ c)
theorem w6_arg5 : W6 m ρ c (Proc.devRef .tc main_arg5) = (m ((c : Thread nD τ).loc main_arg5)) :=
  (W6_of_ne m ρ c main_arg5 (by decide)).trans (w5_arg5 m ρ c)
theorem w6_arg6 : W6 m ρ c (Proc.devRef .tc main_arg6) = (m ((c : Thread nD τ).loc main_arg6)) :=
  (W6_of_ne m ρ c main_arg6 (by decide)).trans (w5_arg6 m ρ c)
theorem w6_arg7 : W6 m ρ c (Proc.devRef .tc main_arg7) = (m ((c : Thread nD τ).loc main_arg7)) :=
  (W6_of_ne m ρ c main_arg7 (by decide)).trans (w5_arg7 m ρ c)
theorem w6_arg8 : W6 m ρ c (Proc.devRef .tc main_arg8) = (m ((c : Thread nD τ).loc main_arg8)) :=
  (W6_of_ne m ρ c main_arg8 (by decide)).trans (w5_arg8 m ρ c)
theorem w6_arg9 : W6 m ρ c (Proc.devRef .tc main_arg9) = (m ((c : Thread nD τ).loc main_arg9)) :=
  (W6_of_ne m ρ c main_arg9 (by decide)).trans (w5_arg9 m ρ c)
theorem w6_arg10 : W6 m ρ c (Proc.devRef .tc main_arg10) = (m ((c : Thread nD τ).loc main_arg10)) :=
  (W6_of_ne m ρ c main_arg10 (by decide)).trans (w5_arg10 m ρ c)
theorem w6_arg11 : W6 m ρ c (Proc.devRef .tc main_arg11) = (m ((c : Thread nD τ).loc main_arg11)) :=
  (W6_of_ne m ρ c main_arg11 (by decide)).trans (w5_arg11 m ρ c)
theorem w6_arg12 : W6 m ρ c (Proc.devRef .tc main_arg12) = (m ((c : Thread nD τ).loc main_arg12)) :=
  (W6_of_ne m ρ c main_arg12 (by decide)).trans (w5_arg12 m ρ c)
theorem w6_v74 (hpre : Cert.Pre_KernelIdeal m) : W6 m ρ c (Proc.devRef .tc main_v74) = (Cert.RefLayers.H0 (m ((c : Thread nD τ).loc main_arg0)) (m ((c : Thread nD τ).loc main_arg1)) (m ((c : Thread nD τ).loc main_arg3)) (m ((c : Thread nD τ).loc main_arg4))) :=
  ((W6_arr m ρ c 0).trans (((dat1 (V5 m ρ) c).arrAt_in 0 rfl _).trans (A_eq1 (V5 m ρ) c 0))).trans (w5_v74 m ρ c hpre)

/-! ## Layer 2 -/
theorem w7_v27 : W7 m ρ c (Proc.devRef .tc main_v27) = (Cert.RefLayers.nrm (m ((c : Thread nD τ).loc main_arg1)) (m ((c : Thread nD τ).loc main_arg3))) :=
  (s2_keeps_v27 (W6 m ρ c)).trans (w6_v27 m ρ c)
theorem w7_v1 : W7 m ρ c (Proc.devRef .tc main_v1) = (Cert.RefLayers.rowI (m ((c : Thread nD τ).loc main_arg1))) :=
  (s2_keeps_v1 (W6 m ρ c)).trans (w6_v1 m ρ c)
theorem w7_v3 : W7 m ρ c (Proc.devRef .tc main_v3) = (Cert.RefLayers.colI (m ((c : Thread nD τ).loc main_arg1))) :=
  (s2_keeps_v3 (W6 m ρ c)).trans (w6_v3 m ρ c)
theorem w7_arg0 : W7 m ρ c (Proc.devRef .tc main_arg0) = (m ((c : Thread nD τ).loc main_arg0)) :=
  (s2_keeps_arg0 (W6 m ρ c)).trans (w6_arg0 m ρ c)
theorem w7_arg1 : W7 m ρ c (Proc.devRef .tc main_arg1) = (m ((c : Thread nD τ).loc main_arg1)) :=
  (s2_keeps_arg1 (W6 m ρ c)).trans (w6_arg1 m ρ c)
theorem w7_arg3 : W7 m ρ c (Proc.devRef .tc main_arg3) = (m ((c : Thread nD τ).loc main_arg3)) :=
  (s2_keeps_arg3 (W6 m ρ c)).trans (w6_arg3 m ρ c)
theorem w7_arg4 : W7 m ρ c (Proc.devRef .tc main_arg4) = (m ((c : Thread nD τ).loc main_arg4)) :=
  (s2_keeps_arg4 (W6 m ρ c)).trans (w6_arg4 m ρ c)
theorem w7_arg5 : W7 m ρ c (Proc.devRef .tc main_arg5) = (m ((c : Thread nD τ).loc main_arg5)) :=
  (s2_keeps_arg5 (W6 m ρ c)).trans (w6_arg5 m ρ c)
theorem w7_arg6 : W7 m ρ c (Proc.devRef .tc main_arg6) = (m ((c : Thread nD τ).loc main_arg6)) :=
  (s2_keeps_arg6 (W6 m ρ c)).trans (w6_arg6 m ρ c)
theorem w7_arg7 : W7 m ρ c (Proc.devRef .tc main_arg7) = (m ((c : Thread nD τ).loc main_arg7)) :=
  (s2_keeps_arg7 (W6 m ρ c)).trans (w6_arg7 m ρ c)
theorem w7_arg8 : W7 m ρ c (Proc.devRef .tc main_arg8) = (m ((c : Thread nD τ).loc main_arg8)) :=
  (s2_keeps_arg8 (W6 m ρ c)).trans (w6_arg8 m ρ c)
theorem w7_arg9 : W7 m ρ c (Proc.devRef .tc main_arg9) = (m ((c : Thread nD τ).loc main_arg9)) :=
  (s2_keeps_arg9 (W6 m ρ c)).trans (w6_arg9 m ρ c)
theorem w7_arg10 : W7 m ρ c (Proc.devRef .tc main_arg10) = (m ((c : Thread nD τ).loc main_arg10)) :=
  (s2_keeps_arg10 (W6 m ρ c)).trans (w6_arg10 m ρ c)
theorem w7_arg11 : W7 m ρ c (Proc.devRef .tc main_arg11) = (m ((c : Thread nD τ).loc main_arg11)) :=
  (s2_keeps_arg11 (W6 m ρ c)).trans (w6_arg11 m ρ c)
theorem w7_arg12 : W7 m ρ c (Proc.devRef .tc main_arg12) = (m ((c : Thread nD τ).loc main_arg12)) :=
  (s2_keeps_arg12 (W6 m ρ c)).trans (w6_arg12 m ρ c)
theorem w7_v74 (hpre : Cert.Pre_KernelIdeal m) : W7 m ρ c (Proc.devRef .tc main_v74) = (Cert.RefLayers.H0 (m ((c : Thread nD τ).loc main_arg0)) (m ((c : Thread nD τ).loc main_arg1)) (m ((c : Thread nD τ).loc main_arg3)) (m ((c : Thread nD τ).loc main_arg4))) :=
  (s2_keeps_v74 (W6 m ρ c)).trans (w6_v74 m ρ c hpre)
theorem w7_v121 (hpre : Cert.Pre_KernelIdeal m) : W7 m ρ c (Proc.devRef .tc main_v121) = (Cert.RefLayers.H1 (m ((c : Thread nD τ).loc main_arg0)) (m ((c : Thread nD τ).loc main_arg1)) (m ((c : Thread nD τ).loc main_arg3)) (m ((c : Thread nD τ).loc main_arg4))) :=
  (s2_keeps_v121 (W6 m ρ c)).trans (w6_v121 m ρ c hpre)

/-- Launch 2's first propagation is the reference's. -/
theorem w7_v138 (hpre : Cert.Pre_KernelIdeal m) : W7 m ρ c (Proc.devRef .tc main_v138) = (Cert.RefLayers.T1_2 (m ((c : Thread nD τ).loc main_arg0)) (m ((c : Thread nD τ).loc main_arg1)) (m ((c : Thread nD τ).loc main_arg3)) (m ((c : Thread nD τ).loc main_arg4))) := by
  refine (s2_T1 (W6 m ρ c)).trans ?_
  rw [w6_v27 m ρ c, w6_v1 m ρ c, w6_v3 m ρ c, w6_v121 m ρ c hpre]
  exact (Cert.RefLayers.T1_2_eq (m ((c : Thread nD τ).loc main_arg0)) (m ((c : Thread nD τ).loc main_arg1)) (m ((c : Thread nD τ).loc main_arg3)) (m ((c : Thread nD τ).loc main_arg4))).symm
/-- And its second. -/
theorem w7_v153 (hpre : Cert.Pre_KernelIdeal m) : W7 m ρ c (Proc.devRef .tc main_v153) = (Cert.RefLayers.P2_2 (m ((c : Thread nD τ).loc main_arg0)) (m ((c : Thread nD τ).loc main_arg1)) (m ((c : Thread nD τ).loc main_arg3)) (m ((c : Thread nD τ).loc main_arg4))) := by
  refine (s2_P2 (W6 m ρ c)).trans ?_
  rw [w6_v27 m ρ c, w6_v1 m ρ c, w6_v3 m ρ c, w6_v121 m ρ c hpre]
  rw [← Cert.RefLayers.T1_2_eq (m ((c : Thread nD τ).loc main_arg0)) (m ((c : Thread nD τ).loc main_arg1)) (m ((c : Thread nD τ).loc main_arg3)) (m ((c : Thread nD τ).loc main_arg4))]
  exact (Cert.RefLayers.P2_2_eq (m ((c : Thread nD τ).loc main_arg0)) (m ((c : Thread nD τ).loc main_arg1)) (m ((c : Thread nD τ).loc main_arg3)) (m ((c : Thread nD τ).loc main_arg4))).symm
theorem w7_v159 : W7 m ρ c (Proc.devRef .tc main_v159)
    = truncf (F := Ideal) (φ := .f32) .bf16 (subf (F := Ideal) (φ := .f32) (Cert.ReferenceIdeal.ReadP.val_main_v131 (F := Ideal) (m ((c : Thread nD τ).loc main_arg4))) (Cert.ReferenceIdeal.ReadP.val_main_v154 (F := Ideal) (m ((c : Thread nD τ).loc main_arg4)))) bitsLt_bf16_f32 := by
  refine (s2_A (W6 m ρ c)).trans ?_
  rw [w6_arg4 m ρ c]
theorem w7_v162 : W7 m ρ c (Proc.devRef .tc main_v162)
    = truncf (F := Ideal) (φ := .f32) .bf16 (Cert.ReferenceIdeal.ReadP.val_main_v134 (F := Ideal) (m ((c : Thread nD τ).loc main_arg4))) bitsLt_bf16_f32 := by
  refine (s2_B (W6 m ρ c)).trans ?_
  rw [w6_arg4 m ρ c]
theorem w7_v167 : W7 m ρ c (Proc.devRef .tc main_v167)
    = truncf (F := Ideal) (φ := .f32) .bf16 (mulf (F := Ideal) (φ := .f32) (broadcastInDim S256x256 ![] bcast_S_S256x256 (constant (F := Ideal) S_ .f32 0x40000000#32))
        (Cert.ReferenceIdeal.ReadP.val_main_v154 (F := Ideal) (m ((c : Thread nD τ).loc main_arg4)))) bitsLt_bf16_f32 := by
  refine (s2_C (W6 m ρ c)).trans ?_
  rw [w6_arg4 m ρ c]

/-- Every entry of layer 2's two propagations is real. -/
theorem real_T1_2 (hpre : Cert.Pre_KernelIdeal m) : ∀ i, IsReal ((Cert.RefLayers.T1_2 (m ((c : Thread nD τ).loc main_arg0)) (m ((c : Thread nD τ).loc main_arg1)) (m ((c : Thread nD τ).loc main_arg3)) (m ((c : Thread nD τ).loc main_arg4))) i) := by
  rw [Cert.RefLayers.T1_2_eq (m ((c : Thread nD τ).loc main_arg0)) (m ((c : Thread nD τ).loc main_arg1)) (m ((c : Thread nD τ).loc main_arg3)) (m ((c : Thread nD τ).loc main_arg4))]
  exact Cert.PropReal.isReal_propR_nrm (m ((c : Thread nD τ).loc main_arg1)) (m ((c : Thread nD τ).loc main_arg3)) (Cert.RefLayers.H1 (m ((c : Thread nD τ).loc main_arg0)) (m ((c : Thread nD τ).loc main_arg1)) (m ((c : Thread nD τ).loc main_arg3)) (m ((c : Thread nD τ).loc main_arg4))) (reals m c hpre).2.1 (real_H1 m c hpre)
theorem real_P2_2 (hpre : Cert.Pre_KernelIdeal m) : ∀ i, IsReal ((Cert.RefLayers.P2_2 (m ((c : Thread nD τ).loc main_arg0)) (m ((c : Thread nD τ).loc main_arg1)) (m ((c : Thread nD τ).loc main_arg3)) (m ((c : Thread nD τ).loc main_arg4))) i) := by
  rw [Cert.RefLayers.P2_2_eq (m ((c : Thread nD τ).loc main_arg0)) (m ((c : Thread nD τ).loc main_arg1)) (m ((c : Thread nD τ).loc main_arg3)) (m ((c : Thread nD τ).loc main_arg4))]
  exact Cert.PropReal.isReal_propR_nrm (m ((c : Thread nD τ).loc main_arg1)) (m ((c : Thread nD τ).loc main_arg3)) (Cert.RefLayers.T1_2 (m ((c : Thread nD τ).loc main_arg0)) (m ((c : Thread nD τ).loc main_arg1)) (m ((c : Thread nD τ).loc main_arg3)) (m ((c : Thread nD τ).loc main_arg4))) (reals m c hpre).2.1 (real_T1_2 m c hpre)
/-- The reference's layer 2 output is real. -/
theorem real_H2 (hpre : Cert.Pre_KernelIdeal m) : ∀ i, IsReal ((Cert.RefLayers.H2 (m ((c : Thread nD τ).loc main_arg0)) (m ((c : Thread nD τ).loc main_arg1)) (m ((c : Thread nD τ).loc main_arg3)) (m ((c : Thread nD τ).loc main_arg4))) i) :=
  Cert.LayerStep.isReal_of_layerRef 2 (Cert.RefLayers.H2 (m ((c : Thread nD τ).loc main_arg0)) (m ((c : Thread nD τ).loc main_arg1)) (m ((c : Thread nD τ).loc main_arg3)) (m ((c : Thread nD τ).loc main_arg4))) (Cert.RefLayers.H1 (m ((c : Thread nD τ).loc main_arg0)) (m ((c : Thread nD τ).loc main_arg1)) (m ((c : Thread nD τ).loc main_arg3)) (m ((c : Thread nD τ).loc main_arg4))) (Cert.RefLayers.T1_2 (m ((c : Thread nD τ).loc main_arg0)) (m ((c : Thread nD τ).loc main_arg1)) (m ((c : Thread nD τ).loc main_arg3)) (m ((c : Thread nD τ).loc main_arg4))) (Cert.RefLayers.P2_2 (m ((c : Thread nD τ).loc main_arg0)) (m ((c : Thread nD τ).loc main_arg1)) (m ((c : Thread nD τ).loc main_arg3)) (m ((c : Thread nD τ).loc main_arg4))) (m ((c : Thread nD τ).loc main_arg4))
    (fun n j => Cert.RefLayers.H2_apply (m ((c : Thread nD τ).loc main_arg0)) (m ((c : Thread nD τ).loc main_arg1)) (m ((c : Thread nD τ).loc main_arg3)) (m ((c : Thread nD τ).loc main_arg4)) n j)
    (real_H1 m c hpre) (real_T1_2 m c hpre) (real_P2_2 m c hpre) (reals m c hpre).2.2.1

/-- LAUNCH 2 leaves the reference's layer 2 output. -/
theorem w8_v168 (hpre : Cert.Pre_KernelIdeal m) : W8 m ρ c (Proc.devRef .tc main_v168) = (Cert.RefLayers.H2 (m ((c : Thread nD τ).loc main_arg0)) (m ((c : Thread nD τ).loc main_arg1)) (m ((c : Thread nD τ).loc main_arg3)) (m ((c : Thread nD τ).loc main_arg4))) := by
  refine (W8_arr m ρ c 6).trans ((Cert.KernelRegions.final2 (V7 m ρ) c).trans ?_)
  show Cert.KernelRegions.layerArr (W7 m ρ c (Proc.devRef .tc main_v121)) (W7 m ρ c (Proc.devRef .tc main_v138)) (W7 m ρ c (Proc.devRef .tc main_v153))
      (W7 m ρ c (Proc.devRef .tc main_v159)) (W7 m ρ c (Proc.devRef .tc main_v162)) (W7 m ρ c (Proc.devRef .tc main_v167)) = _
  rw [w7_v121 m ρ c hpre, w7_v138 m ρ c hpre, w7_v153 m ρ c hpre, w7_v159 m ρ c, w7_v162 m ρ c, w7_v167 m ρ c]
  refine Cert.LayerStep.mat_ext _ _ fun n j => ?_
  refine (Cert.LayerStep.layerArr_apply_ref 2 (Cert.RefLayers.H1 (m ((c : Thread nD τ).loc main_arg0)) (m ((c : Thread nD τ).loc main_arg1)) (m ((c : Thread nD τ).loc main_arg3)) (m ((c : Thread nD τ).loc main_arg4))) (Cert.RefLayers.T1_2 (m ((c : Thread nD τ).loc main_arg0)) (m ((c : Thread nD τ).loc main_arg1)) (m ((c : Thread nD τ).loc main_arg3)) (m ((c : Thread nD τ).loc main_arg4))) (Cert.RefLayers.P2_2 (m ((c : Thread nD τ).loc main_arg0)) (m ((c : Thread nD τ).loc main_arg1)) (m ((c : Thread nD τ).loc main_arg3)) (m ((c : Thread nD τ).loc main_arg4))) _ _ _ (m ((c : Thread nD τ).loc main_arg4))
    (fun k j => Cert.RefParts.foldA2_apply (m ((c : Thread nD τ).loc main_arg4)) k j) (fun k j => Cert.RefParts.foldB2_apply (m ((c : Thread nD τ).loc main_arg4)) k j)
    (fun k j => Cert.RefParts.foldC2_apply (m ((c : Thread nD τ).loc main_arg4)) _ (fun _ => rfl) k j)
    (real_H1 m c hpre) (real_T1_2 m c hpre) (real_P2_2 m c hpre) (reals m c hpre).2.2.1 n j).trans ?_
  exact (Cert.RefLayers.H2_apply (m ((c : Thread nD τ).loc main_arg0)) (m ((c : Thread nD τ).loc main_arg1)) (m ((c : Thread nD τ).loc main_arg3)) (m ((c : Thread nD τ).loc main_arg4)) n j).symm
theorem w8_v27 : W8 m ρ c (Proc.devRef .tc main_v27) = (Cert.RefLayers.nrm (m ((c : Thread nD τ).loc main_arg1)) (m ((c : Thread nD τ).loc main_arg3))) :=
  (W8_of_ne m ρ c main_v27 (by decide)).trans (w7_v27 m ρ c)
theorem w8_v1 : W8 m ρ c (Proc.devRef .tc main_v1) = (Cert.RefLayers.rowI (m ((c : Thread nD τ).loc main_arg1))) :=
  (W8_of_ne m ρ c main_v1 (by decide)).trans (w7_v1 m ρ c)
theorem w8_v3 : W8 m ρ c (Proc.devRef .tc main_v3) = (Cert.RefLayers.colI (m ((c : Thread nD τ).loc main_arg1))) :=
  (W8_of_ne m ρ c main_v3 (by decide)).trans (w7_v3 m ρ c)
theorem w8_arg0 : W8 m ρ c (Proc.devRef .tc main_arg0) = (m ((c : Thread nD τ).loc main_arg0)) :=
  (W8_of_ne m ρ c main_arg0 (by decide)).trans (w7_arg0 m ρ c)
theorem w8_arg1 : W8 m ρ c (Proc.devRef .tc main_arg1) = (m ((c : Thread nD τ).loc main_arg1)) :=
  (W8_of_ne m ρ c main_arg1 (by decide)).trans (w7_arg1 m ρ c)
theorem w8_arg3 : W8 m ρ c (Proc.devRef .tc main_arg3) = (m ((c : Thread nD τ).loc main_arg3)) :=
  (W8_of_ne m ρ c main_arg3 (by decide)).trans (w7_arg3 m ρ c)
theorem w8_arg4 : W8 m ρ c (Proc.devRef .tc main_arg4) = (m ((c : Thread nD τ).loc main_arg4)) :=
  (W8_of_ne m ρ c main_arg4 (by decide)).trans (w7_arg4 m ρ c)
theorem w8_arg5 : W8 m ρ c (Proc.devRef .tc main_arg5) = (m ((c : Thread nD τ).loc main_arg5)) :=
  (W8_of_ne m ρ c main_arg5 (by decide)).trans (w7_arg5 m ρ c)
theorem w8_arg6 : W8 m ρ c (Proc.devRef .tc main_arg6) = (m ((c : Thread nD τ).loc main_arg6)) :=
  (W8_of_ne m ρ c main_arg6 (by decide)).trans (w7_arg6 m ρ c)
theorem w8_arg7 : W8 m ρ c (Proc.devRef .tc main_arg7) = (m ((c : Thread nD τ).loc main_arg7)) :=
  (W8_of_ne m ρ c main_arg7 (by decide)).trans (w7_arg7 m ρ c)
theorem w8_arg8 : W8 m ρ c (Proc.devRef .tc main_arg8) = (m ((c : Thread nD τ).loc main_arg8)) :=
  (W8_of_ne m ρ c main_arg8 (by decide)).trans (w7_arg8 m ρ c)
theorem w8_arg9 : W8 m ρ c (Proc.devRef .tc main_arg9) = (m ((c : Thread nD τ).loc main_arg9)) :=
  (W8_of_ne m ρ c main_arg9 (by decide)).trans (w7_arg9 m ρ c)
theorem w8_arg10 : W8 m ρ c (Proc.devRef .tc main_arg10) = (m ((c : Thread nD τ).loc main_arg10)) :=
  (W8_of_ne m ρ c main_arg10 (by decide)).trans (w7_arg10 m ρ c)
theorem w8_arg11 : W8 m ρ c (Proc.devRef .tc main_arg11) = (m ((c : Thread nD τ).loc main_arg11)) :=
  (W8_of_ne m ρ c main_arg11 (by decide)).trans (w7_arg11 m ρ c)
theorem w8_arg12 : W8 m ρ c (Proc.devRef .tc main_arg12) = (m ((c : Thread nD τ).loc main_arg12)) :=
  (W8_of_ne m ρ c main_arg12 (by decide)).trans (w7_arg12 m ρ c)
theorem w8_v74 (hpre : Cert.Pre_KernelIdeal m) : W8 m ρ c (Proc.devRef .tc main_v74) = (Cert.RefLayers.H0 (m ((c : Thread nD τ).loc main_arg0)) (m ((c : Thread nD τ).loc main_arg1)) (m ((c : Thread nD τ).loc main_arg3)) (m ((c : Thread nD τ).loc main_arg4))) :=
  (W8_of_ne m ρ c main_v74 (by decide)).trans (w7_v74 m ρ c hpre)
theorem w8_v121 (hpre : Cert.Pre_KernelIdeal m) : W8 m ρ c (Proc.devRef .tc main_v121) = (Cert.RefLayers.H1 (m ((c : Thread nD τ).loc main_arg0)) (m ((c : Thread nD τ).loc main_arg1)) (m ((c : Thread nD τ).loc main_arg3)) (m ((c : Thread nD τ).loc main_arg4))) :=
  ((W8_arr m ρ c 0).trans (((dat2 (V7 m ρ) c).arrAt_in 0 rfl _).trans (A_eq2 (V7 m ρ) c 0))).trans (w7_v121 m ρ c hpre)

/-! ## Layer 3 -/
theorem w9_v27 : W9 m ρ c (Proc.devRef .tc main_v27) = (Cert.RefLayers.nrm (m ((c : Thread nD τ).loc main_arg1)) (m ((c : Thread nD τ).loc main_arg3))) :=
  (s3_keeps_v27 (W8 m ρ c)).trans (w8_v27 m ρ c)
theorem w9_v1 : W9 m ρ c (Proc.devRef .tc main_v1) = (Cert.RefLayers.rowI (m ((c : Thread nD τ).loc main_arg1))) :=
  (s3_keeps_v1 (W8 m ρ c)).trans (w8_v1 m ρ c)
theorem w9_v3 : W9 m ρ c (Proc.devRef .tc main_v3) = (Cert.RefLayers.colI (m ((c : Thread nD τ).loc main_arg1))) :=
  (s3_keeps_v3 (W8 m ρ c)).trans (w8_v3 m ρ c)
theorem w9_arg0 : W9 m ρ c (Proc.devRef .tc main_arg0) = (m ((c : Thread nD τ).loc main_arg0)) :=
  (s3_keeps_arg0 (W8 m ρ c)).trans (w8_arg0 m ρ c)
theorem w9_arg1 : W9 m ρ c (Proc.devRef .tc main_arg1) = (m ((c : Thread nD τ).loc main_arg1)) :=
  (s3_keeps_arg1 (W8 m ρ c)).trans (w8_arg1 m ρ c)
theorem w9_arg3 : W9 m ρ c (Proc.devRef .tc main_arg3) = (m ((c : Thread nD τ).loc main_arg3)) :=
  (s3_keeps_arg3 (W8 m ρ c)).trans (w8_arg3 m ρ c)
theorem w9_arg4 : W9 m ρ c (Proc.devRef .tc main_arg4) = (m ((c : Thread nD τ).loc main_arg4)) :=
  (s3_keeps_arg4 (W8 m ρ c)).trans (w8_arg4 m ρ c)
theorem w9_arg5 : W9 m ρ c (Proc.devRef .tc main_arg5) = (m ((c : Thread nD τ).loc main_arg5)) :=
  (s3_keeps_arg5 (W8 m ρ c)).trans (w8_arg5 m ρ c)
theorem w9_arg6 : W9 m ρ c (Proc.devRef .tc main_arg6) = (m ((c : Thread nD τ).loc main_arg6)) :=
  (s3_keeps_arg6 (W8 m ρ c)).trans (w8_arg6 m ρ c)
theorem w9_arg7 : W9 m ρ c (Proc.devRef .tc main_arg7) = (m ((c : Thread nD τ).loc main_arg7)) :=
  (s3_keeps_arg7 (W8 m ρ c)).trans (w8_arg7 m ρ c)
theorem w9_arg8 : W9 m ρ c (Proc.devRef .tc main_arg8) = (m ((c : Thread nD τ).loc main_arg8)) :=
  (s3_keeps_arg8 (W8 m ρ c)).trans (w8_arg8 m ρ c)
theorem w9_arg9 : W9 m ρ c (Proc.devRef .tc main_arg9) = (m ((c : Thread nD τ).loc main_arg9)) :=
  (s3_keeps_arg9 (W8 m ρ c)).trans (w8_arg9 m ρ c)
theorem w9_arg10 : W9 m ρ c (Proc.devRef .tc main_arg10) = (m ((c : Thread nD τ).loc main_arg10)) :=
  (s3_keeps_arg10 (W8 m ρ c)).trans (w8_arg10 m ρ c)
theorem w9_arg11 : W9 m ρ c (Proc.devRef .tc main_arg11) = (m ((c : Thread nD τ).loc main_arg11)) :=
  (s3_keeps_arg11 (W8 m ρ c)).trans (w8_arg11 m ρ c)
theorem w9_arg12 : W9 m ρ c (Proc.devRef .tc main_arg12) = (m ((c : Thread nD τ).loc main_arg12)) :=
  (s3_keeps_arg12 (W8 m ρ c)).trans (w8_arg12 m ρ c)
theorem w9_v74 (hpre : Cert.Pre_KernelIdeal m) : W9 m ρ c (Proc.devRef .tc main_v74) = (Cert.RefLayers.H0 (m ((c : Thread nD τ).loc main_arg0)) (m ((c : Thread nD τ).loc main_arg1)) (m ((c : Thread nD τ).loc main_arg3)) (m ((c : Thread nD τ).loc main_arg4))) :=
  (s3_keeps_v74 (W8 m ρ c)).trans (w8_v74 m ρ c hpre)
theorem w9_v121 (hpre : Cert.Pre_KernelIdeal m) : W9 m ρ c (Proc.devRef .tc main_v121) = (Cert.RefLayers.H1 (m ((c : Thread nD τ).loc main_arg0)) (m ((c : Thread nD τ).loc main_arg1)) (m ((c : Thread nD τ).loc main_arg3)) (m ((c : Thread nD τ).loc main_arg4))) :=
  (s3_keeps_v121 (W8 m ρ c)).trans (w8_v121 m ρ c hpre)
theorem w9_v168 (hpre : Cert.Pre_KernelIdeal m) : W9 m ρ c (Proc.devRef .tc main_v168) = (Cert.RefLayers.H2 (m ((c : Thread nD τ).loc main_arg0)) (m ((c : Thread nD τ).loc main_arg1)) (m ((c : Thread nD τ).loc main_arg3)) (m ((c : Thread nD τ).loc main_arg4))) :=
  (s3_keeps_v168 (W8 m ρ c)).trans (w8_v168 m ρ c hpre)

/-- Launch 3's first propagation is the reference's. -/
theorem w9_v185 (hpre : Cert.Pre_KernelIdeal m) : W9 m ρ c (Proc.devRef .tc main_v185) = (Cert.RefLayers.T1_3 (m ((c : Thread nD τ).loc main_arg0)) (m ((c : Thread nD τ).loc main_arg1)) (m ((c : Thread nD τ).loc main_arg3)) (m ((c : Thread nD τ).loc main_arg4))) := by
  refine (s3_T1 (W8 m ρ c)).trans ?_
  rw [w8_v27 m ρ c, w8_v1 m ρ c, w8_v3 m ρ c, w8_v168 m ρ c hpre]
  exact (Cert.RefLayers.T1_3_eq (m ((c : Thread nD τ).loc main_arg0)) (m ((c : Thread nD τ).loc main_arg1)) (m ((c : Thread nD τ).loc main_arg3)) (m ((c : Thread nD τ).loc main_arg4))).symm
/-- And its second. -/
theorem w9_v200 (hpre : Cert.Pre_KernelIdeal m) : W9 m ρ c (Proc.devRef .tc main_v200) = (Cert.RefLayers.P2_3 (m ((c : Thread nD τ).loc main_arg0)) (m ((c : Thread nD τ).loc main_arg1)) (m ((c : Thread nD τ).loc main_arg3)) (m ((c : Thread nD τ).loc main_arg4))) := by
  refine (s3_P2 (W8 m ρ c)).trans ?_
  rw [w8_v27 m ρ c, w8_v1 m ρ c, w8_v3 m ρ c, w8_v168 m ρ c hpre]
  rw [← Cert.RefLayers.T1_3_eq (m ((c : Thread nD τ).loc main_arg0)) (m ((c : Thread nD τ).loc main_arg1)) (m ((c : Thread nD τ).loc main_arg3)) (m ((c : Thread nD τ).loc main_arg4))]
  exact (Cert.RefLayers.P2_3_eq (m ((c : Thread nD τ).loc main_arg0)) (m ((c : Thread nD τ).loc main_arg1)) (m ((c : Thread nD τ).loc main_arg3)) (m ((c : Thread nD τ).loc main_arg4))).symm
theorem w9_v206 : W9 m ρ c (Proc.devRef .tc main_v206)
    = truncf (F := Ideal) (φ := .f32) .bf16 (subf (F := Ideal) (φ := .f32) (Cert.ReferenceIdeal.ReadP.val_main_v175 (F := Ideal) (m ((c : Thread nD τ).loc main_arg4))) (Cert.ReferenceIdeal.ReadP.val_main_v198 (F := Ideal) (m ((c : Thread nD τ).loc main_arg4)))) bitsLt_bf16_f32 := by
  refine (s3_A (W8 m ρ c)).trans ?_
  rw [w8_arg4 m ρ c]
theorem w9_v209 : W9 m ρ c (Proc.devRef .tc main_v209)
    = truncf (F := Ideal) (φ := .f32) .bf16 (Cert.ReferenceIdeal.ReadP.val_main_v178 (F := Ideal) (m ((c : Thread nD τ).loc main_arg4))) bitsLt_bf16_f32 := by
  refine (s3_B (W8 m ρ c)).trans ?_
  rw [w8_arg4 m ρ c]
theorem w9_v214 : W9 m ρ c (Proc.devRef .tc main_v214)
    = truncf (F := Ideal) (φ := .f32) .bf16 (mulf (F := Ideal) (φ := .f32) (broadcastInDim S256x256 ![] bcast_S_S256x256 (constant (F := Ideal) S_ .f32 0x40000000#32))
        (Cert.ReferenceIdeal.ReadP.val_main_v198 (F := Ideal) (m ((c : Thread nD τ).loc main_arg4)))) bitsLt_bf16_f32 := by
  refine (s3_C (W8 m ρ c)).trans ?_
  rw [w8_arg4 m ρ c]

/-- Every entry of layer 3's two propagations is real. -/
theorem real_T1_3 (hpre : Cert.Pre_KernelIdeal m) : ∀ i, IsReal ((Cert.RefLayers.T1_3 (m ((c : Thread nD τ).loc main_arg0)) (m ((c : Thread nD τ).loc main_arg1)) (m ((c : Thread nD τ).loc main_arg3)) (m ((c : Thread nD τ).loc main_arg4))) i) := by
  rw [Cert.RefLayers.T1_3_eq (m ((c : Thread nD τ).loc main_arg0)) (m ((c : Thread nD τ).loc main_arg1)) (m ((c : Thread nD τ).loc main_arg3)) (m ((c : Thread nD τ).loc main_arg4))]
  exact Cert.PropReal.isReal_propR_nrm (m ((c : Thread nD τ).loc main_arg1)) (m ((c : Thread nD τ).loc main_arg3)) (Cert.RefLayers.H2 (m ((c : Thread nD τ).loc main_arg0)) (m ((c : Thread nD τ).loc main_arg1)) (m ((c : Thread nD τ).loc main_arg3)) (m ((c : Thread nD τ).loc main_arg4))) (reals m c hpre).2.1 (real_H2 m c hpre)
theorem real_P2_3 (hpre : Cert.Pre_KernelIdeal m) : ∀ i, IsReal ((Cert.RefLayers.P2_3 (m ((c : Thread nD τ).loc main_arg0)) (m ((c : Thread nD τ).loc main_arg1)) (m ((c : Thread nD τ).loc main_arg3)) (m ((c : Thread nD τ).loc main_arg4))) i) := by
  rw [Cert.RefLayers.P2_3_eq (m ((c : Thread nD τ).loc main_arg0)) (m ((c : Thread nD τ).loc main_arg1)) (m ((c : Thread nD τ).loc main_arg3)) (m ((c : Thread nD τ).loc main_arg4))]
  exact Cert.PropReal.isReal_propR_nrm (m ((c : Thread nD τ).loc main_arg1)) (m ((c : Thread nD τ).loc main_arg3)) (Cert.RefLayers.T1_3 (m ((c : Thread nD τ).loc main_arg0)) (m ((c : Thread nD τ).loc main_arg1)) (m ((c : Thread nD τ).loc main_arg3)) (m ((c : Thread nD τ).loc main_arg4))) (reals m c hpre).2.1 (real_T1_3 m c hpre)
/-- The reference's layer 3 output is real. -/
theorem real_H3 (hpre : Cert.Pre_KernelIdeal m) : ∀ i, IsReal ((Cert.RefLayers.H3 (m ((c : Thread nD τ).loc main_arg0)) (m ((c : Thread nD τ).loc main_arg1)) (m ((c : Thread nD τ).loc main_arg3)) (m ((c : Thread nD τ).loc main_arg4))) i) :=
  Cert.LayerStep.isReal_of_layerRef 3 (Cert.RefLayers.H3 (m ((c : Thread nD τ).loc main_arg0)) (m ((c : Thread nD τ).loc main_arg1)) (m ((c : Thread nD τ).loc main_arg3)) (m ((c : Thread nD τ).loc main_arg4))) (Cert.RefLayers.H2 (m ((c : Thread nD τ).loc main_arg0)) (m ((c : Thread nD τ).loc main_arg1)) (m ((c : Thread nD τ).loc main_arg3)) (m ((c : Thread nD τ).loc main_arg4))) (Cert.RefLayers.T1_3 (m ((c : Thread nD τ).loc main_arg0)) (m ((c : Thread nD τ).loc main_arg1)) (m ((c : Thread nD τ).loc main_arg3)) (m ((c : Thread nD τ).loc main_arg4))) (Cert.RefLayers.P2_3 (m ((c : Thread nD τ).loc main_arg0)) (m ((c : Thread nD τ).loc main_arg1)) (m ((c : Thread nD τ).loc main_arg3)) (m ((c : Thread nD τ).loc main_arg4))) (m ((c : Thread nD τ).loc main_arg4))
    (fun n j => Cert.RefLayers.H3_apply (m ((c : Thread nD τ).loc main_arg0)) (m ((c : Thread nD τ).loc main_arg1)) (m ((c : Thread nD τ).loc main_arg3)) (m ((c : Thread nD τ).loc main_arg4)) n j)
    (real_H2 m c hpre) (real_T1_3 m c hpre) (real_P2_3 m c hpre) (reals m c hpre).2.2.1

/-- LAUNCH 3 leaves the reference's layer 3 output. -/
theorem w10_v215 (hpre : Cert.Pre_KernelIdeal m) : W10 m ρ c (Proc.devRef .tc main_v215) = (Cert.RefLayers.H3 (m ((c : Thread nD τ).loc main_arg0)) (m ((c : Thread nD τ).loc main_arg1)) (m ((c : Thread nD τ).loc main_arg3)) (m ((c : Thread nD τ).loc main_arg4))) := by
  refine (W10_arr m ρ c 6).trans ((Cert.KernelRegions.final3 (V9 m ρ) c).trans ?_)
  show Cert.KernelRegions.layerArr (W9 m ρ c (Proc.devRef .tc main_v168)) (W9 m ρ c (Proc.devRef .tc main_v185)) (W9 m ρ c (Proc.devRef .tc main_v200))
      (W9 m ρ c (Proc.devRef .tc main_v206)) (W9 m ρ c (Proc.devRef .tc main_v209)) (W9 m ρ c (Proc.devRef .tc main_v214)) = _
  rw [w9_v168 m ρ c hpre, w9_v185 m ρ c hpre, w9_v200 m ρ c hpre, w9_v206 m ρ c, w9_v209 m ρ c, w9_v214 m ρ c]
  refine Cert.LayerStep.mat_ext _ _ fun n j => ?_
  refine (Cert.LayerStep.layerArr_apply_ref 3 (Cert.RefLayers.H2 (m ((c : Thread nD τ).loc main_arg0)) (m ((c : Thread nD τ).loc main_arg1)) (m ((c : Thread nD τ).loc main_arg3)) (m ((c : Thread nD τ).loc main_arg4))) (Cert.RefLayers.T1_3 (m ((c : Thread nD τ).loc main_arg0)) (m ((c : Thread nD τ).loc main_arg1)) (m ((c : Thread nD τ).loc main_arg3)) (m ((c : Thread nD τ).loc main_arg4))) (Cert.RefLayers.P2_3 (m ((c : Thread nD τ).loc main_arg0)) (m ((c : Thread nD τ).loc main_arg1)) (m ((c : Thread nD τ).loc main_arg3)) (m ((c : Thread nD τ).loc main_arg4))) _ _ _ (m ((c : Thread nD τ).loc main_arg4))
    (fun k j => Cert.RefParts.foldA3_apply (m ((c : Thread nD τ).loc main_arg4)) k j) (fun k j => Cert.RefParts.foldB3_apply (m ((c : Thread nD τ).loc main_arg4)) k j)
    (fun k j => Cert.RefParts.foldC3_apply (m ((c : Thread nD τ).loc main_arg4)) _ (fun _ => rfl) k j)
    (real_H2 m c hpre) (real_T1_3 m c hpre) (real_P2_3 m c hpre) (reals m c hpre).2.2.1 n j).trans ?_
  exact (Cert.RefLayers.H3_apply (m ((c : Thread nD τ).loc main_arg0)) (m ((c : Thread nD τ).loc main_arg1)) (m ((c : Thread nD τ).loc main_arg3)) (m ((c : Thread nD τ).loc main_arg4)) n j).symm
theorem w10_v27 : W10 m ρ c (Proc.devRef .tc main_v27) = (Cert.RefLayers.nrm (m ((c : Thread nD τ).loc main_arg1)) (m ((c : Thread nD τ).loc main_arg3))) :=
  (W10_of_ne m ρ c main_v27 (by decide)).trans (w9_v27 m ρ c)
theorem w10_v1 : W10 m ρ c (Proc.devRef .tc main_v1) = (Cert.RefLayers.rowI (m ((c : Thread nD τ).loc main_arg1))) :=
  (W10_of_ne m ρ c main_v1 (by decide)).trans (w9_v1 m ρ c)
theorem w10_v3 : W10 m ρ c (Proc.devRef .tc main_v3) = (Cert.RefLayers.colI (m ((c : Thread nD τ).loc main_arg1))) :=
  (W10_of_ne m ρ c main_v3 (by decide)).trans (w9_v3 m ρ c)
theorem w10_arg0 : W10 m ρ c (Proc.devRef .tc main_arg0) = (m ((c : Thread nD τ).loc main_arg0)) :=
  (W10_of_ne m ρ c main_arg0 (by decide)).trans (w9_arg0 m ρ c)
theorem w10_arg1 : W10 m ρ c (Proc.devRef .tc main_arg1) = (m ((c : Thread nD τ).loc main_arg1)) :=
  (W10_of_ne m ρ c main_arg1 (by decide)).trans (w9_arg1 m ρ c)
theorem w10_arg3 : W10 m ρ c (Proc.devRef .tc main_arg3) = (m ((c : Thread nD τ).loc main_arg3)) :=
  (W10_of_ne m ρ c main_arg3 (by decide)).trans (w9_arg3 m ρ c)
theorem w10_arg4 : W10 m ρ c (Proc.devRef .tc main_arg4) = (m ((c : Thread nD τ).loc main_arg4)) :=
  (W10_of_ne m ρ c main_arg4 (by decide)).trans (w9_arg4 m ρ c)
theorem w10_arg5 : W10 m ρ c (Proc.devRef .tc main_arg5) = (m ((c : Thread nD τ).loc main_arg5)) :=
  (W10_of_ne m ρ c main_arg5 (by decide)).trans (w9_arg5 m ρ c)
theorem w10_arg6 : W10 m ρ c (Proc.devRef .tc main_arg6) = (m ((c : Thread nD τ).loc main_arg6)) :=
  (W10_of_ne m ρ c main_arg6 (by decide)).trans (w9_arg6 m ρ c)
theorem w10_arg7 : W10 m ρ c (Proc.devRef .tc main_arg7) = (m ((c : Thread nD τ).loc main_arg7)) :=
  (W10_of_ne m ρ c main_arg7 (by decide)).trans (w9_arg7 m ρ c)
theorem w10_arg8 : W10 m ρ c (Proc.devRef .tc main_arg8) = (m ((c : Thread nD τ).loc main_arg8)) :=
  (W10_of_ne m ρ c main_arg8 (by decide)).trans (w9_arg8 m ρ c)
theorem w10_arg9 : W10 m ρ c (Proc.devRef .tc main_arg9) = (m ((c : Thread nD τ).loc main_arg9)) :=
  (W10_of_ne m ρ c main_arg9 (by decide)).trans (w9_arg9 m ρ c)
theorem w10_arg10 : W10 m ρ c (Proc.devRef .tc main_arg10) = (m ((c : Thread nD τ).loc main_arg10)) :=
  (W10_of_ne m ρ c main_arg10 (by decide)).trans (w9_arg10 m ρ c)
theorem w10_arg11 : W10 m ρ c (Proc.devRef .tc main_arg11) = (m ((c : Thread nD τ).loc main_arg11)) :=
  (W10_of_ne m ρ c main_arg11 (by decide)).trans (w9_arg11 m ρ c)
theorem w10_arg12 : W10 m ρ c (Proc.devRef .tc main_arg12) = (m ((c : Thread nD τ).loc main_arg12)) :=
  (W10_of_ne m ρ c main_arg12 (by decide)).trans (w9_arg12 m ρ c)
theorem w10_v74 (hpre : Cert.Pre_KernelIdeal m) : W10 m ρ c (Proc.devRef .tc main_v74) = (Cert.RefLayers.H0 (m ((c : Thread nD τ).loc main_arg0)) (m ((c : Thread nD τ).loc main_arg1)) (m ((c : Thread nD τ).loc main_arg3)) (m ((c : Thread nD τ).loc main_arg4))) :=
  (W10_of_ne m ρ c main_v74 (by decide)).trans (w9_v74 m ρ c hpre)
theorem w10_v121 (hpre : Cert.Pre_KernelIdeal m) : W10 m ρ c (Proc.devRef .tc main_v121) = (Cert.RefLayers.H1 (m ((c : Thread nD τ).loc main_arg0)) (m ((c : Thread nD τ).loc main_arg1)) (m ((c : Thread nD τ).loc main_arg3)) (m ((c : Thread nD τ).loc main_arg4))) :=
  (W10_of_ne m ρ c main_v121 (by decide)).trans (w9_v121 m ρ c hpre)
theorem w10_v168 (hpre : Cert.Pre_KernelIdeal m) : W10 m ρ c (Proc.devRef .tc main_v168) = (Cert.RefLayers.H2 (m ((c : Thread nD τ).loc main_arg0)) (m ((c : Thread nD τ).loc main_arg1)) (m ((c : Thread nD τ).loc main_arg3)) (m ((c : Thread nD τ).loc main_arg4))) :=
  ((W10_arr m ρ c 0).trans (((dat3 (V9 m ρ) c).arrAt_in 0 rfl _).trans (A_eq3 (V9 m ρ) c 0))).trans (w9_v168 m ρ c hpre)

end Cert.KernelValue

end
-- ==== Proof.KernelHead.lean ====
/-
  The classifier launch and the last slice give the reference's logits.

  At the classifier launch's entry the four layer outputs are the reference's, the four matrices are the blocks of the
  hidden layer's matrix, and the three rows are the bias, the scale `γ·rsqrt(var + ε)` and the shift `β − μ·scale`.
  So the hidden layer the launch forms block by block is the reference's (a contraction over the concatenation), and
  with it real, the scale real (the variance is nonnegative, ε positive) and the means and offsets real, the folded
  affine map is the reference's; the padded columns are never read, the last slice keeping the first two.
-/
import proofs.«165358_j80178449481840_2_alg».proof.Proof.KernelValue

set_option maxRecDepth 16384

noncomputable section

namespace Cert.KernelHead

open Cert.KernelIdeal Cert.KernelIdeal.Gen Cert.KernelHost Cert.KernelHostTail Cert.KernelValue Cert.Lib.RealSums Cert.Spec Cert.BridgeLaws
open Idealize.ShloMosaic Idealize.ShloMosaic.TcCoe Idealize.ShloMosaic.ValueIdx Idealize.SL.Sem Idealize.ShloMosaic.StableHlo
open scoped BigOperators

/-- The block-wise hidden layer depends on its matrices and bias only through their entries. -/
theorem hiddenBlocks_congr (h0 h1 h2 h3 : Mat 20000 256) (v0 v1 v2 v3 v0' v1' v2' v3' : Mat 256 256) (b b' : Mat 1 256)
    (n : Fin 20000) (q : Fin 256)
    (f0 : ∀ k : Fin 256, v0 (ix2 k q) = v0' (ix2 k q)) (f1 : ∀ k : Fin 256, v1 (ix2 k q) = v1' (ix2 k q))
    (f2 : ∀ k : Fin 256, v2 (ix2 k q) = v2' (ix2 k q)) (f3 : ∀ k : Fin 256, v3 (ix2 k q) = v3' (ix2 k q))
    (g : b (ix2 (0 : Fin 1) q) = b' (ix2 (0 : Fin 1) q)) :
    hiddenBlocks h0 h1 h2 h3 v0 v1 v2 v3 b n q = hiddenBlocks h0 h1 h2 h3 v0' v1' v2' v3' b' n q := by
  unfold hiddenBlocks dot
  simp only [f0, f1, f2, f3, g]

/-- The block-wise hidden layer of real arrays is real. -/
theorem isReal_hiddenBlocks (h0 h1 h2 h3 : Mat 20000 256) (v0 v1 v2 v3 : Mat 256 256) (b : Mat 1 256) (n : Fin 20000) (q : Fin 256)
    (hh0 : ∀ i, IsReal (h0 i)) (hh1 : ∀ i, IsReal (h1 i)) (hh2 : ∀ i, IsReal (h2 i)) (hh3 : ∀ i, IsReal (h3 i))
    (hv0 : ∀ i, IsReal (v0 i)) (hv1 : ∀ i, IsReal (v1 i)) (hv2 : ∀ i, IsReal (v2 i)) (hv3 : ∀ i, IsReal (v3 i))
    (hb : ∀ i, IsReal (b i)) : IsReal (hiddenBlocks h0 h1 h2 h3 v0 v1 v2 v3 b n q) := by
  unfold hiddenBlocks dot
  refine IsReal.max (IsReal.add (IsReal.add (IsReal.add (IsReal.add ?_ ?_) ?_) ?_) (hb _)) isReal_zero
  · exact isReal_sum _ _ fun k _ => (hh0 _).mul (hv0 _)
  · exact isReal_sum _ _ fun k _ => (hh1 _).mul (hv1 _)
  · exact isReal_sum _ _ fun k _ => (hh2 _).mul (hv2 _)
  · exact isReal_sum _ _ fun k _ => (hh3 _).mul (hv3 _)

variable (m : (ℓ : Loc nD τ sig) → Buf (Elt Ideal) ℓ) (ρ : Dev nD → PrngReg) (c : Dev nD)

/-- The reference's hidden layer is the block-wise one of the four layer outputs. -/
theorem Z_blocks (n : Fin 20000) (q : Fin 256) :
    (Cert.RefLayers.Z (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))) (ix2 n q)
      = hiddenBlocks (Cert.RefLayers.H0 (m ((c : Thread nD τ).loc main_arg0)) (m ((c : Thread nD τ).loc main_arg1)) (m ((c : Thread nD τ).loc main_arg3)) (m ((c : Thread nD τ).loc main_arg4))) (Cert.RefLayers.H1 (m ((c : Thread nD τ).loc main_arg0)) (m ((c : Thread nD τ).loc main_arg1)) (m ((c : Thread nD τ).loc main_arg3)) (m ((c : Thread nD τ).loc main_arg4))) (Cert.RefLayers.H2 (m ((c : Thread nD τ).loc main_arg0)) (m ((c : Thread nD τ).loc main_arg1)) (m ((c : Thread nD τ).loc main_arg3)) (m ((c : Thread nD τ).loc main_arg4))) (Cert.RefLayers.H3 (m ((c : Thread nD τ).loc main_arg0)) (m ((c : Thread nD τ).loc main_arg1)) (m ((c : Thread nD τ).loc main_arg3)) (m ((c : Thread nD τ).loc main_arg4))) (rowBlock (m ((c : Thread nD τ).loc main_arg5)) 0) (rowBlock (m ((c : Thread nD τ).loc main_arg5)) 1) (rowBlock (m ((c : Thread nD τ).loc main_arg5)) 2) (rowBlock (m ((c : Thread nD τ).loc main_arg5)) 3) (asRow (m ((c : Thread nD τ).loc main_arg6))) n q := by
  rw [Cert.RefLayers.Z_apply (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) n q]
  exact (hidden_blocks (Cert.RefLayers.H0 (m ((c : Thread nD τ).loc main_arg0)) (m ((c : Thread nD τ).loc main_arg1)) (m ((c : Thread nD τ).loc main_arg3)) (m ((c : Thread nD τ).loc main_arg4))) (Cert.RefLayers.H1 (m ((c : Thread nD τ).loc main_arg0)) (m ((c : Thread nD τ).loc main_arg1)) (m ((c : Thread nD τ).loc main_arg3)) (m ((c : Thread nD τ).loc main_arg4))) (Cert.RefLayers.H2 (m ((c : Thread nD τ).loc main_arg0)) (m ((c : Thread nD τ).loc main_arg1)) (m ((c : Thread nD τ).loc main_arg3)) (m ((c : Thread nD τ).loc main_arg4))) (Cert.RefLayers.H3 (m ((c : Thread nD τ).loc main_arg0)) (m ((c : Thread nD τ).loc main_arg1)) (m ((c : Thread nD τ).loc main_arg3)) (m ((c : Thread nD τ).loc main_arg4))) (Cert.RefLayers.JK (m ((c : Thread nD τ).loc main_arg0)) (m ((c : Thread nD τ).loc main_arg1)) (m ((c : Thread nD τ).loc main_arg3)) (m ((c : Thread nD τ).loc main_arg4))) (m ((c : Thread nD τ).loc main_arg5)) (m ((c : Thread nD τ).loc main_arg6)) n q
    (fun k => Cert.RefLayers.JK_block0 (m ((c : Thread nD τ).loc main_arg0)) (m ((c : Thread nD τ).loc main_arg1)) (m ((c : Thread nD τ).loc main_arg3)) (m ((c : Thread nD τ).loc main_arg4)) n k) (fun k => Cert.RefLayers.JK_block1 (m ((c : Thread nD τ).loc main_arg0)) (m ((c : Thread nD τ).loc main_arg1)) (m ((c : Thread nD τ).loc main_arg3)) (m ((c : Thread nD τ).loc main_arg4)) n k)
    (fun k => Cert.RefLayers.JK_block2 (m ((c : Thread nD τ).loc main_arg0)) (m ((c : Thread nD τ).loc main_arg1)) (m ((c : Thread nD τ).loc main_arg3)) (m ((c : Thread nD τ).loc main_arg4)) n k) (fun k => Cert.RefLayers.JK_block3 (m ((c : Thread nD τ).loc main_arg0)) (m ((c : Thread nD τ).loc main_arg1)) (m ((c : Thread nD τ).loc main_arg3)) (m ((c : Thread nD τ).loc main_arg4)) n k)).symm

/-- The reference's hidden layer is real. -/
theorem real_Z (hpre : Cert.Pre_KernelIdeal m) : ∀ i, IsReal ((Cert.RefLayers.Z (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))) i) := fun i => by
  obtain ⟨n, q, rfl⟩ : ∃ (n : Fin 20000) (q : Fin 256), i = ix2 n q := ⟨i 0, i 1, eq_ix2 i⟩
  rw [Z_blocks]
  exact isReal_hiddenBlocks _ _ _ _ _ _ _ _ _ n q (real_H0 m c hpre) (real_H1 m c hpre) (real_H2 m c hpre) (real_H3 m c hpre)
    (fun _ => (reals m c hpre).2.2.2.1 _) (fun _ => (reals m c hpre).2.2.2.1 _) (fun _ => (reals m c hpre).2.2.2.1 _) (fun _ => (reals m c hpre).2.2.2.1 _) (fun _ => (reals m c hpre).2.2.2.2.1 _)

/-- The normalisation's scale is real. -/
theorem real_scale (hpre : Cert.Pre_KernelIdeal m) : ∀ i, IsReal (scaleRow (m ((c : Thread nD τ).loc main_arg7)) (m ((c : Thread nD τ).loc main_arg10)) i) :=
  isReal_scale (m ((c : Thread nD τ).loc main_arg7)) (m ((c : Thread nD τ).loc main_arg10)) (reals m c hpre).2.2.2.2.2.1 (reals m c hpre).2.2.2.2.2.2.2.2.1 (reals m c hpre).2.2.2.2.2.2.2.2.2.2.2 (fun x hx h => Cert.RealOps.isReal_rsqrt_of_pos hx h)

/-- THE RESULT: the kernel program's result buffer at the last boundary is the reference's logits. -/
theorem result (hpre : Cert.Pre_KernelIdeal m) : W17 m ρ c (Proc.devRef .tc main_v238) = (Cert.RefLayers.OUT (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))) := by
  refine Cert.LayerStep.mat_ext (r := 20000) (c := 2) _ _ fun n j => ?_
  refine (t5_result (W16 m ρ c) n j).trans ?_
  have e16 : W16 m ρ c (Proc.devRef .tc main_v237) = _ := (W16_arr m ρ c 13).trans (Cert.KernelRegion4.final4 (V15 m ρ) c)
  rw [e16, Cert.KernelRegion4.headArr_apply]
  -- the four layer outputs at the classifier's entry
  have h0 : V15 m ρ c main_v74 = (Cert.RefLayers.H0 (m ((c : Thread nD τ).loc main_arg0)) (m ((c : Thread nD τ).loc main_arg1)) (m ((c : Thread nD τ).loc main_arg3)) (m ((c : Thread nD τ).loc main_arg4))) := (t4_keeps_v74 (W10 m ρ c)).trans (w10_v74 m ρ c hpre)
  have h1 : V15 m ρ c main_v121 = (Cert.RefLayers.H1 (m ((c : Thread nD τ).loc main_arg0)) (m ((c : Thread nD τ).loc main_arg1)) (m ((c : Thread nD τ).loc main_arg3)) (m ((c : Thread nD τ).loc main_arg4))) := (t4_keeps_v121 (W10 m ρ c)).trans (w10_v121 m ρ c hpre)
  have h2 : V15 m ρ c main_v168 = (Cert.RefLayers.H2 (m ((c : Thread nD τ).loc main_arg0)) (m ((c : Thread nD τ).loc main_arg1)) (m ((c : Thread nD τ).loc main_arg3)) (m ((c : Thread nD τ).loc main_arg4))) := (t4_keeps_v168 (W10 m ρ c)).trans (w10_v168 m ρ c hpre)
  have h3 : V15 m ρ c main_v215 = (Cert.RefLayers.H3 (m ((c : Thread nD τ).loc main_arg0)) (m ((c : Thread nD τ).loc main_arg1)) (m ((c : Thread nD τ).loc main_arg3)) (m ((c : Thread nD τ).loc main_arg4))) := (t4_keeps_v215 (W10 m ρ c)).trans (w10_v215 m ρ c hpre)
  rw [h0, h1, h2, h3]
  -- the operands, entry by entry
  have c0 : ∀ k q : Fin 256, (V15 m ρ c main_v223 : Mat 256 256) (ix2 k q) = rowBlock (m ((c : Thread nD τ).loc main_arg5)) 0 (ix2 k q) := fun k q => by
    have := t4_chunk0 (W10 m ρ c) k q; rw [w10_arg5] at this; exact this
  have c1 : ∀ k q : Fin 256, (V15 m ρ c main_v225 : Mat 256 256) (ix2 k q) = rowBlock (m ((c : Thread nD τ).loc main_arg5)) 1 (ix2 k q) := fun k q => by
    have := t4_chunk1 (W10 m ρ c) k q; rw [w10_arg5] at this; exact this
  have c2 : ∀ k q : Fin 256, (V15 m ρ c main_v227 : Mat 256 256) (ix2 k q) = rowBlock (m ((c : Thread nD τ).loc main_arg5)) 2 (ix2 k q) := fun k q => by
    have := t4_chunk2 (W10 m ρ c) k q; rw [w10_arg5] at this; exact this
  have c3 : ∀ k q : Fin 256, (V15 m ρ c main_v229 : Mat 256 256) (ix2 k q) = rowBlock (m ((c : Thread nD τ).loc main_arg5)) 3 (ix2 k q) := fun k q => by
    have := t4_chunk3 (W10 m ρ c) k q; rw [w10_arg5] at this; exact this
  have cb : ∀ q : Fin 256, (V15 m ρ c main_v230 : Mat 1 256) (ix2 (0 : Fin 1) q) = asRow (m ((c : Thread nD τ).loc main_arg6)) (ix2 (0 : Fin 1) q) := fun q => by
    have := t4_bias (W10 m ρ c) q; rw [w10_arg6] at this; exact this
  have cs : ∀ k : Fin 256, (V15 m ρ c main_v231 : Mat 1 256) (ix2 (0 : Fin 1) k) = scaleRow (m ((c : Thread nD τ).loc main_arg7)) (m ((c : Thread nD τ).loc main_arg10)) (ix1 k) := fun k => by
    have := t4_scale (W10 m ρ c) k; rw [w10_arg7, w10_arg10] at this; exact this
  have ct : ∀ k : Fin 256, (V15 m ρ c main_v232 : Mat 1 256) (ix2 (0 : Fin 1) k) = shiftRow (m ((c : Thread nD τ).loc main_arg7)) (m ((c : Thread nD τ).loc main_arg8)) (m ((c : Thread nD τ).loc main_arg9)) (m ((c : Thread nD τ).loc main_arg10)) (ix1 k) := fun k => by
    have := t4_shift (W10 m ρ c) k; rw [w10_arg7, w10_arg8, w10_arg9, w10_arg10] at this; exact this
  have cw : ∀ k : Fin 256, (V15 m ρ c main_v234 : Mat 256 128) (ix2 k (⟨j.val, by have := j.isLt; omega⟩ : Fin 128)) = ((m ((c : Thread nD τ).loc main_arg11)) : Mat 256 2) (ix2 k j) := fun k => by
    have := t4_w2 (W10 m ρ c) k j; rw [w10_arg11] at this; exact this
  have cv : (V15 m ρ c main_v236 : Mat 1 128) (ix2 (0 : Fin 1) (⟨j.val, by have := j.isLt; omega⟩ : Fin 128)) = ((m ((c : Thread nD τ).loc main_arg12)) : Row 2) (ix1 j) := by
    have := t4_b2 (W10 m ρ c) j; rw [w10_arg12] at this; exact this
  have hz : ∀ k : Fin 256,
      hiddenBlocks (Cert.RefLayers.H0 (m ((c : Thread nD τ).loc main_arg0)) (m ((c : Thread nD τ).loc main_arg1)) (m ((c : Thread nD τ).loc main_arg3)) (m ((c : Thread nD τ).loc main_arg4))) (Cert.RefLayers.H1 (m ((c : Thread nD τ).loc main_arg0)) (m ((c : Thread nD τ).loc main_arg1)) (m ((c : Thread nD τ).loc main_arg3)) (m ((c : Thread nD τ).loc main_arg4))) (Cert.RefLayers.H2 (m ((c : Thread nD τ).loc main_arg0)) (m ((c : Thread nD τ).loc main_arg1)) (m ((c : Thread nD τ).loc main_arg3)) (m ((c : Thread nD τ).loc main_arg4))) (Cert.RefLayers.H3 (m ((c : Thread nD τ).loc main_arg0)) (m ((c : Thread nD τ).loc main_arg1)) (m ((c : Thread nD τ).loc main_arg3)) (m ((c : Thread nD τ).loc main_arg4))) (V15 m ρ c main_v223) (V15 m ρ c main_v225) (V15 m ρ c main_v227) (V15 m ρ c main_v229)
        (V15 m ρ c main_v230) n k = (Cert.RefLayers.Z (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))) (ix2 n k) := fun k => by
    rw [Z_blocks]
    exact hiddenBlocks_congr _ _ _ _ _ _ _ _ _ _ _ _ _ _ n k (fun k' => c0 k' k) (fun k' => c1 k' k) (fun k' => c2 k' k) (fun k' => c3 k' k) (cb k)
  rw [cv]
  refine (congrArg (· + ((m ((c : Thread nD τ).loc main_arg12)) : Row 2) (ix1 j)) (Finset.sum_congr rfl fun k _ => by rw [hz k, cs k, ct k, cw k])).trans ?_
  refine (logit_fold (Cert.RefLayers.Z (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) n j (real_Z m c hpre) (real_scale m c hpre) (reals m c hpre).2.2.2.2.2.2.1 (reals m c hpre).2.2.2.2.2.2.2.1).trans ?_
  exact (Cert.RefLayers.OUT_apply (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) n j).symm

end Cert.KernelHead

end
-- ==== Proof.RefCasts.lean ====
/-
  Moving a value between a tensor's type and the type the buffer table gives its buffer is the identity.

  An operation inside a called function — the `where` that guards the inverse square root of the degree, and the five
  relus — names each of its buffers together with the type of the value it holds, and carries that value to and from
  the buffer along the equality of the two types. The table gives every such buffer exactly the named type, so each
  transport does nothing: one line per buffer and direction, for any float instance.
-/
import proofs.«165358_j80178449481840_2_alg».proof.ReferenceIdeal
import Idealize.ShloMosaic.Lib.StableHlo

noncomputable section

namespace Cert.RefCasts

open Cert.ReferenceIdeal Idealize.ShloMosaic Idealize.ShloMosaic.StableHlo

variable {F : FTy → Type} [FloatOps F]

theorem toBuf_cst_1 (h1 h2 h3) (v : (⟨S_, .f32⟩ : BufTy).Contents (Elt F)) :
    (StableHlo.TRef.of (T := ⟨S_, .f32⟩) main_cst_1 h1 h2 h3).toBuf v = v := rfl
theorem ofBuf_cst_1 (h1 h2 h3) (v : main_cst_1.ty.Contents (Elt F)) :
    (StableHlo.TRef.of (T := ⟨S_, .f32⟩) main_cst_1 h1 h2 h3).ofBuf v = v := rfl
theorem toBuf_call0_v0 (h1 h2 h3) (v : (⟨S_, .f32⟩ : BufTy).Contents (Elt F)) :
    (StableHlo.TRef.of (T := ⟨S_, .f32⟩) main_call0_v0 h1 h2 h3).toBuf v = v := rfl
theorem ofBuf_call0_v0 (h1 h2 h3) (v : main_call0_v0.ty.Contents (Elt F)) :
    (StableHlo.TRef.of (T := ⟨S_, .f32⟩) main_call0_v0 h1 h2 h3).ofBuf v = v := rfl
theorem toBuf_call0_v1 (h1 h2 h3) (v : (⟨S20000, .f32⟩ : BufTy).Contents (Elt F)) :
    (StableHlo.TRef.of (T := ⟨S20000, .f32⟩) main_call0_v1 h1 h2 h3).toBuf v = v := rfl
theorem ofBuf_call0_v1 (h1 h2 h3) (v : main_call0_v1.ty.Contents (Elt F)) :
    (StableHlo.TRef.of (T := ⟨S20000, .f32⟩) main_call0_v1 h1 h2 h3).ofBuf v = v := rfl
theorem toBuf_v8 (h1 h2 h3) (v : (⟨S20000, .i1⟩ : BufTy).Contents (Elt F)) :
    (StableHlo.TRef.of (T := ⟨S20000, .i1⟩) main_v8 h1 h2 h3).toBuf v = v := rfl
theorem ofBuf_v8 (h1 h2 h3) (v : main_v8.ty.Contents (Elt F)) :
    (StableHlo.TRef.of (T := ⟨S20000, .i1⟩) main_v8 h1 h2 h3).ofBuf v = v := rfl
theorem toBuf_v9 (h1 h2 h3) (v : (⟨S20000, .f32⟩ : BufTy).Contents (Elt F)) :
    (StableHlo.TRef.of (T := ⟨S20000, .f32⟩) main_v9 h1 h2 h3).toBuf v = v := rfl
theorem ofBuf_v9 (h1 h2 h3) (v : main_v9.ty.Contents (Elt F)) :
    (StableHlo.TRef.of (T := ⟨S20000, .f32⟩) main_v9 h1 h2 h3).ofBuf v = v := rfl
theorem toBuf_v10 (h1 h2 h3) (v : (⟨S20000, .f32⟩ : BufTy).Contents (Elt F)) :
    (StableHlo.TRef.of (T := ⟨S20000, .f32⟩) main_v10 h1 h2 h3).toBuf v = v := rfl
theorem ofBuf_v10 (h1 h2 h3) (v : main_v10.ty.Contents (Elt F)) :
    (StableHlo.TRef.of (T := ⟨S20000, .f32⟩) main_v10 h1 h2 h3).ofBuf v = v := rfl
theorem toBuf_call1_cst (h1 h2 h3) (v : (⟨S_, .f32⟩ : BufTy).Contents (Elt F)) :
    (StableHlo.TRef.of (T := ⟨S_, .f32⟩) main_call1_cst h1 h2 h3).toBuf v = v := rfl
theorem ofBuf_call1_cst (h1 h2 h3) (v : main_call1_cst.ty.Contents (Elt F)) :
    (StableHlo.TRef.of (T := ⟨S_, .f32⟩) main_call1_cst h1 h2 h3).ofBuf v = v := rfl
theorem toBuf_call1_v0 (h1 h2 h3) (v : (⟨S20000x256, .f32⟩ : BufTy).Contents (Elt F)) :
    (StableHlo.TRef.of (T := ⟨S20000x256, .f32⟩) main_call1_v0 h1 h2 h3).toBuf v = v := rfl
theorem ofBuf_call1_v0 (h1 h2 h3) (v : main_call1_v0.ty.Contents (Elt F)) :
    (StableHlo.TRef.of (T := ⟨S20000x256, .f32⟩) main_call1_v0 h1 h2 h3).ofBuf v = v := rfl
theorem toBuf_v69 (h1 h2 h3) (v : (⟨S20000x256, .f32⟩ : BufTy).Contents (Elt F)) :
    (StableHlo.TRef.of (T := ⟨S20000x256, .f32⟩) main_v69 h1 h2 h3).toBuf v = v := rfl
theorem ofBuf_v69 (h1 h2 h3) (v : main_v69.ty.Contents (Elt F)) :
    (StableHlo.TRef.of (T := ⟨S20000x256, .f32⟩) main_v69 h1 h2 h3).ofBuf v = v := rfl
theorem toBuf_v70 (h1 h2 h3) (v : (⟨S20000x256, .f32⟩ : BufTy).Contents (Elt F)) :
    (StableHlo.TRef.of (T := ⟨S20000x256, .f32⟩) main_v70 h1 h2 h3).toBuf v = v := rfl
theorem ofBuf_v70 (h1 h2 h3) (v : main_v70.ty.Contents (Elt F)) :
    (StableHlo.TRef.of (T := ⟨S20000x256, .f32⟩) main_v70 h1 h2 h3).ofBuf v = v := rfl
theorem toBuf_call2_cst (h1 h2 h3) (v : (⟨S_, .f32⟩ : BufTy).Contents (Elt F)) :
    (StableHlo.TRef.of (T := ⟨S_, .f32⟩) main_call2_cst h1 h2 h3).toBuf v = v := rfl
theorem ofBuf_call2_cst (h1 h2 h3) (v : main_call2_cst.ty.Contents (Elt F)) :
    (StableHlo.TRef.of (T := ⟨S_, .f32⟩) main_call2_cst h1 h2 h3).ofBuf v = v := rfl
theorem toBuf_call2_v0 (h1 h2 h3) (v : (⟨S20000x256, .f32⟩ : BufTy).Contents (Elt F)) :
    (StableHlo.TRef.of (T := ⟨S20000x256, .f32⟩) main_call2_v0 h1 h2 h3).toBuf v = v := rfl
theorem ofBuf_call2_v0 (h1 h2 h3) (v : main_call2_v0.ty.Contents (Elt F)) :
    (StableHlo.TRef.of (T := ⟨S20000x256, .f32⟩) main_call2_v0 h1 h2 h3).ofBuf v = v := rfl
theorem toBuf_v112 (h1 h2 h3) (v : (⟨S20000x256, .f32⟩ : BufTy).Contents (Elt F)) :
    (StableHlo.TRef.of (T := ⟨S20000x256, .f32⟩) main_v112 h1 h2 h3).toBuf v = v := rfl
theorem ofBuf_v112 (h1 h2 h3) (v : main_v112.ty.Contents (Elt F)) :
    (StableHlo.TRef.of (T := ⟨S20000x256, .f32⟩) main_v112 h1 h2 h3).ofBuf v = v := rfl
theorem toBuf_v113 (h1 h2 h3) (v : (⟨S20000x256, .f32⟩ : BufTy).Contents (Elt F)) :
    (StableHlo.TRef.of (T := ⟨S20000x256, .f32⟩) main_v113 h1 h2 h3).toBuf v = v := rfl
theorem ofBuf_v113 (h1 h2 h3) (v : main_v113.ty.Contents (Elt F)) :
    (StableHlo.TRef.of (T := ⟨S20000x256, .f32⟩) main_v113 h1 h2 h3).ofBuf v = v := rfl
theorem toBuf_call3_cst (h1 h2 h3) (v : (⟨S_, .f32⟩ : BufTy).Contents (Elt F)) :
    (StableHlo.TRef.of (T := ⟨S_, .f32⟩) main_call3_cst h1 h2 h3).toBuf v = v := rfl
theorem ofBuf_call3_cst (h1 h2 h3) (v : main_call3_cst.ty.Contents (Elt F)) :
    (StableHlo.TRef.of (T := ⟨S_, .f32⟩) main_call3_cst h1 h2 h3).ofBuf v = v := rfl
theorem toBuf_call3_v0 (h1 h2 h3) (v : (⟨S20000x256, .f32⟩ : BufTy).Contents (Elt F)) :
    (StableHlo.TRef.of (T := ⟨S20000x256, .f32⟩) main_call3_v0 h1 h2 h3).toBuf v = v := rfl
theorem ofBuf_call3_v0 (h1 h2 h3) (v : main_call3_v0.ty.Contents (Elt F)) :
    (StableHlo.TRef.of (T := ⟨S20000x256, .f32⟩) main_call3_v0 h1 h2 h3).ofBuf v = v := rfl
theorem toBuf_v156 (h1 h2 h3) (v : (⟨S20000x256, .f32⟩ : BufTy).Contents (Elt F)) :
    (StableHlo.TRef.of (T := ⟨S20000x256, .f32⟩) main_v156 h1 h2 h3).toBuf v = v := rfl
theorem ofBuf_v156 (h1 h2 h3) (v : main_v156.ty.Contents (Elt F)) :
    (StableHlo.TRef.of (T := ⟨S20000x256, .f32⟩) main_v156 h1 h2 h3).ofBuf v = v := rfl
theorem toBuf_v157 (h1 h2 h3) (v : (⟨S20000x256, .f32⟩ : BufTy).Contents (Elt F)) :
    (StableHlo.TRef.of (T := ⟨S20000x256, .f32⟩) main_v157 h1 h2 h3).toBuf v = v := rfl
theorem ofBuf_v157 (h1 h2 h3) (v : main_v157.ty.Contents (Elt F)) :
    (StableHlo.TRef.of (T := ⟨S20000x256, .f32⟩) main_v157 h1 h2 h3).ofBuf v = v := rfl
theorem toBuf_call4_cst (h1 h2 h3) (v : (⟨S_, .f32⟩ : BufTy).Contents (Elt F)) :
    (StableHlo.TRef.of (T := ⟨S_, .f32⟩) main_call4_cst h1 h2 h3).toBuf v = v := rfl
theorem ofBuf_call4_cst (h1 h2 h3) (v : main_call4_cst.ty.Contents (Elt F)) :
    (StableHlo.TRef.of (T := ⟨S_, .f32⟩) main_call4_cst h1 h2 h3).ofBuf v = v := rfl
theorem toBuf_call4_v0 (h1 h2 h3) (v : (⟨S20000x256, .f32⟩ : BufTy).Contents (Elt F)) :
    (StableHlo.TRef.of (T := ⟨S20000x256, .f32⟩) main_call4_v0 h1 h2 h3).toBuf v = v := rfl
theorem ofBuf_call4_v0 (h1 h2 h3) (v : main_call4_v0.ty.Contents (Elt F)) :
    (StableHlo.TRef.of (T := ⟨S20000x256, .f32⟩) main_call4_v0 h1 h2 h3).ofBuf v = v := rfl
theorem toBuf_v200 (h1 h2 h3) (v : (⟨S20000x256, .f32⟩ : BufTy).Contents (Elt F)) :
    (StableHlo.TRef.of (T := ⟨S20000x256, .f32⟩) main_v200 h1 h2 h3).toBuf v = v := rfl
theorem ofBuf_v200 (h1 h2 h3) (v : main_v200.ty.Contents (Elt F)) :
    (StableHlo.TRef.of (T := ⟨S20000x256, .f32⟩) main_v200 h1 h2 h3).ofBuf v = v := rfl
theorem toBuf_v201 (h1 h2 h3) (v : (⟨S20000x256, .f32⟩ : BufTy).Contents (Elt F)) :
    (StableHlo.TRef.of (T := ⟨S20000x256, .f32⟩) main_v201 h1 h2 h3).toBuf v = v := rfl
theorem ofBuf_v201 (h1 h2 h3) (v : main_v201.ty.Contents (Elt F)) :
    (StableHlo.TRef.of (T := ⟨S20000x256, .f32⟩) main_v201 h1 h2 h3).ofBuf v = v := rfl
theorem toBuf_call5_cst (h1 h2 h3) (v : (⟨S_, .f32⟩ : BufTy).Contents (Elt F)) :
    (StableHlo.TRef.of (T := ⟨S_, .f32⟩) main_call5_cst h1 h2 h3).toBuf v = v := rfl
theorem ofBuf_call5_cst (h1 h2 h3) (v : main_call5_cst.ty.Contents (Elt F)) :
    (StableHlo.TRef.of (T := ⟨S_, .f32⟩) main_call5_cst h1 h2 h3).ofBuf v = v := rfl
theorem toBuf_call5_v0 (h1 h2 h3) (v : (⟨S20000x256, .f32⟩ : BufTy).Contents (Elt F)) :
    (StableHlo.TRef.of (T := ⟨S20000x256, .f32⟩) main_call5_v0 h1 h2 h3).toBuf v = v := rfl
theorem ofBuf_call5_v0 (h1 h2 h3) (v : main_call5_v0.ty.Contents (Elt F)) :
    (StableHlo.TRef.of (T := ⟨S20000x256, .f32⟩) main_call5_v0 h1 h2 h3).ofBuf v = v := rfl
theorem toBuf_v206 (h1 h2 h3) (v : (⟨S20000x256, .f32⟩ : BufTy).Contents (Elt F)) :
    (StableHlo.TRef.of (T := ⟨S20000x256, .f32⟩) main_v206 h1 h2 h3).toBuf v = v := rfl
theorem ofBuf_v206 (h1 h2 h3) (v : main_v206.ty.Contents (Elt F)) :
    (StableHlo.TRef.of (T := ⟨S20000x256, .f32⟩) main_v206 h1 h2 h3).ofBuf v = v := rfl
theorem toBuf_v207 (h1 h2 h3) (v : (⟨S20000x256, .f32⟩ : BufTy).Contents (Elt F)) :
    (StableHlo.TRef.of (T := ⟨S20000x256, .f32⟩) main_v207 h1 h2 h3).toBuf v = v := rfl
theorem ofBuf_v207 (h1 h2 h3) (v : main_v207.ty.Contents (Elt F)) :
    (StableHlo.TRef.of (T := ⟨S20000x256, .f32⟩) main_v207 h1 h2 h3).ofBuf v = v := rfl

end Cert.RefCasts

end
-- ==== Proof.RefRunParts.lean ====
/-
  The reference's result, read one stretch of its operations at a time.

  The reference is 273 host operations in a row. Cut at its six called functions (the `where` that guards the
  inverse square root of the degree, and the five relus) they fall into thirteen stretches. For each stretch and each
  buffer it writes that a later stretch reads: if, before the stretch, the buffers it reads hold the read module's
  stages of the arguments, then after it that buffer holds its own stage of the arguments — the stretch's operations
  composed are that stage's definition, unfolded down to the stretch's inputs. A buffer a stretch does not write it
  leaves as it was. Following the thirteen boundaries in order, the last buffer holds the last stage: the result.
-/
import proofs.«165358_j80178449481840_2_alg».proof.Proof.RefSegs
import proofs.«165358_j80178449481840_2_alg».proof.Proof.RefCasts

set_option maxRecDepth 16384

noncomputable section

namespace Cert.ReferenceIdeal.ValueP

open Cert.ReferenceIdeal Cert.ReferenceIdeal.Gen Idealize.ShloMosaic Idealize.ShloMosaic.TcCoe Idealize.SL.Sem Idealize.ShloMosaic.StableHlo

variable {F : FTy → Type} [FloatOps F]
variable {x0 : (⟨S20000x256, .f32⟩ : BufTy).Contents (Elt F)} {x1 : (⟨S2x320000, .i32⟩ : BufTy).Contents (Elt F)} {x3 : (⟨S320000, .f32⟩ : BufTy).Contents (Elt F)} {x4 : (⟨S4x3x256x256, .f32⟩ : BufTy).Contents (Elt F)} {x5 : (⟨S1024x256, .f32⟩ : BufTy).Contents (Elt F)} {x6 x7 x8 x9 x10 : (⟨S256, .f32⟩ : BufTy).Contents (Elt F)} {x11 : (⟨S256x2, .f32⟩ : BufTy).Contents (Elt F)} {x12 : (⟨S2, .f32⟩ : BufTy).Contents (Elt F)}

/-! ## Operations 0 … 12 -/

theorem segA_v1 (W : Valuation τ sig (Elt F)) (h_arg1 : W (Proc.devRef .tc main_arg1) = x1) (h_arg3 : W (Proc.devRef .tc main_arg3) = x3) :
    after segA W (Proc.devRef .tc main_v1) = (Cert.ReferenceIdeal.ReadP.val_main_v1 (F := F) x1) := by
  after_results_simp
  all_goals try simp only [h_arg1, h_arg3]
  all_goals try rw [h_arg1]
  all_goals try rw [h_arg3]
  all_goals try simp only [Cert.ReferenceIdeal.ReadP.val_main_v0, Cert.ReferenceIdeal.ReadP.val_main_v1, Cert.ReferenceIdeal.ReadP.val_main_v2, Cert.ReferenceIdeal.ReadP.val_main_v3, Cert.ReferenceIdeal.ReadP.val_main_cst, Cert.ReferenceIdeal.ReadP.val_main_v4, Cert.ReferenceIdeal.ReadP.val_main_v5, Cert.ReferenceIdeal.ReadP.val_main_v6, Cert.ReferenceIdeal.ReadP.val_main_cst_0, Cert.ReferenceIdeal.ReadP.val_main_v7, Cert.ReferenceIdeal.ReadP.val_main_v8, Cert.ReferenceIdeal.ReadP.val_main_v9, Cert.ReferenceIdeal.ReadP.val_main_cst_1]
  all_goals try rfl

theorem segA_v3 (W : Valuation τ sig (Elt F)) (h_arg1 : W (Proc.devRef .tc main_arg1) = x1) (h_arg3 : W (Proc.devRef .tc main_arg3) = x3) :
    after segA W (Proc.devRef .tc main_v3) = (Cert.ReferenceIdeal.ReadP.val_main_v3 (F := F) x1) := by
  after_results_simp
  all_goals try simp only [h_arg1, h_arg3]
  all_goals try rw [h_arg1]
  all_goals try rw [h_arg3]
  all_goals try simp only [Cert.ReferenceIdeal.ReadP.val_main_v0, Cert.ReferenceIdeal.ReadP.val_main_v1, Cert.ReferenceIdeal.ReadP.val_main_v2, Cert.ReferenceIdeal.ReadP.val_main_v3, Cert.ReferenceIdeal.ReadP.val_main_cst, Cert.ReferenceIdeal.ReadP.val_main_v4, Cert.ReferenceIdeal.ReadP.val_main_v5, Cert.ReferenceIdeal.ReadP.val_main_v6, Cert.ReferenceIdeal.ReadP.val_main_cst_0, Cert.ReferenceIdeal.ReadP.val_main_v7, Cert.ReferenceIdeal.ReadP.val_main_v8, Cert.ReferenceIdeal.ReadP.val_main_v9, Cert.ReferenceIdeal.ReadP.val_main_cst_1]
  all_goals try rfl

theorem segA_v8 (W : Valuation τ sig (Elt F)) (h_arg1 : W (Proc.devRef .tc main_arg1) = x1) (h_arg3 : W (Proc.devRef .tc main_arg3) = x3) :
    after segA W (Proc.devRef .tc main_v8) = (Cert.ReferenceIdeal.ReadP.val_main_v8 (F := F) x1 x3) := by
  after_results_simp
  all_goals try simp only [h_arg1, h_arg3]
  all_goals try rw [h_arg1]
  all_goals try rw [h_arg3]
  all_goals try simp only [Cert.ReferenceIdeal.ReadP.val_main_v0, Cert.ReferenceIdeal.ReadP.val_main_v1, Cert.ReferenceIdeal.ReadP.val_main_v2, Cert.ReferenceIdeal.ReadP.val_main_v3, Cert.ReferenceIdeal.ReadP.val_main_cst, Cert.ReferenceIdeal.ReadP.val_main_v4, Cert.ReferenceIdeal.ReadP.val_main_v5, Cert.ReferenceIdeal.ReadP.val_main_v6, Cert.ReferenceIdeal.ReadP.val_main_cst_0, Cert.ReferenceIdeal.ReadP.val_main_v7, Cert.ReferenceIdeal.ReadP.val_main_v8, Cert.ReferenceIdeal.ReadP.val_main_v9, Cert.ReferenceIdeal.ReadP.val_main_cst_1]
  all_goals try rfl

theorem segA_v9 (W : Valuation τ sig (Elt F)) (h_arg1 : W (Proc.devRef .tc main_arg1) = x1) (h_arg3 : W (Proc.devRef .tc main_arg3) = x3) :
    after segA W (Proc.devRef .tc main_v9) = (Cert.ReferenceIdeal.ReadP.val_main_v9 (F := F) x1 x3) := by
  after_results_simp
  all_goals try simp only [h_arg1, h_arg3]
  all_goals try rw [h_arg1]
  all_goals try rw [h_arg3]
  all_goals try simp only [Cert.ReferenceIdeal.ReadP.val_main_v0, Cert.ReferenceIdeal.ReadP.val_main_v1, Cert.ReferenceIdeal.ReadP.val_main_v2, Cert.ReferenceIdeal.ReadP.val_main_v3, Cert.ReferenceIdeal.ReadP.val_main_cst, Cert.ReferenceIdeal.ReadP.val_main_v4, Cert.ReferenceIdeal.ReadP.val_main_v5, Cert.ReferenceIdeal.ReadP.val_main_v6, Cert.ReferenceIdeal.ReadP.val_main_cst_0, Cert.ReferenceIdeal.ReadP.val_main_v7, Cert.ReferenceIdeal.ReadP.val_main_v8, Cert.ReferenceIdeal.ReadP.val_main_v9, Cert.ReferenceIdeal.ReadP.val_main_cst_1]
  all_goals try rfl

theorem segA_cst_1 (W : Valuation τ sig (Elt F)) (h_arg1 : W (Proc.devRef .tc main_arg1) = x1) (h_arg3 : W (Proc.devRef .tc main_arg3) = x3) :
    after segA W (Proc.devRef .tc main_cst_1) = (Cert.ReferenceIdeal.ReadP.val_main_cst_1 (F := F)) := by
  after_results_simp
  all_goals try simp only [h_arg1, h_arg3]
  all_goals try rw [h_arg1]
  all_goals try rw [h_arg3]
  all_goals try simp only [Cert.ReferenceIdeal.ReadP.val_main_v0, Cert.ReferenceIdeal.ReadP.val_main_v1, Cert.ReferenceIdeal.ReadP.val_main_v2, Cert.ReferenceIdeal.ReadP.val_main_v3, Cert.ReferenceIdeal.ReadP.val_main_cst, Cert.ReferenceIdeal.ReadP.val_main_v4, Cert.ReferenceIdeal.ReadP.val_main_v5, Cert.ReferenceIdeal.ReadP.val_main_v6, Cert.ReferenceIdeal.ReadP.val_main_cst_0, Cert.ReferenceIdeal.ReadP.val_main_v7, Cert.ReferenceIdeal.ReadP.val_main_v8, Cert.ReferenceIdeal.ReadP.val_main_v9, Cert.ReferenceIdeal.ReadP.val_main_cst_1]
  all_goals try rfl
theorem segA_keeps_arg3 (W : Valuation τ sig (Elt F)) : after segA W (Proc.devRef .tc main_arg3) = W (Proc.devRef .tc main_arg3) := by after_results_simp
theorem segA_keeps_arg4 (W : Valuation τ sig (Elt F)) : after segA W (Proc.devRef .tc main_arg4) = W (Proc.devRef .tc main_arg4) := by after_results_simp
theorem segA_keeps_arg0 (W : Valuation τ sig (Elt F)) : after segA W (Proc.devRef .tc main_arg0) = W (Proc.devRef .tc main_arg0) := by after_results_simp
theorem segA_keeps_arg5 (W : Valuation τ sig (Elt F)) : after segA W (Proc.devRef .tc main_arg5) = W (Proc.devRef .tc main_arg5) := by after_results_simp
theorem segA_keeps_arg6 (W : Valuation τ sig (Elt F)) : after segA W (Proc.devRef .tc main_arg6) = W (Proc.devRef .tc main_arg6) := by after_results_simp
theorem segA_keeps_arg9 (W : Valuation τ sig (Elt F)) : after segA W (Proc.devRef .tc main_arg9) = W (Proc.devRef .tc main_arg9) := by after_results_simp
theorem segA_keeps_arg10 (W : Valuation τ sig (Elt F)) : after segA W (Proc.devRef .tc main_arg10) = W (Proc.devRef .tc main_arg10) := by after_results_simp
theorem segA_keeps_arg7 (W : Valuation τ sig (Elt F)) : after segA W (Proc.devRef .tc main_arg7) = W (Proc.devRef .tc main_arg7) := by after_results_simp
theorem segA_keeps_arg8 (W : Valuation τ sig (Elt F)) : after segA W (Proc.devRef .tc main_arg8) = W (Proc.devRef .tc main_arg8) := by after_results_simp
theorem segA_keeps_arg11 (W : Valuation τ sig (Elt F)) : after segA W (Proc.devRef .tc main_arg11) = W (Proc.devRef .tc main_arg11) := by after_results_simp
theorem segA_keeps_arg12 (W : Valuation τ sig (Elt F)) : after segA W (Proc.devRef .tc main_arg12) = W (Proc.devRef .tc main_arg12) := by after_results_simp

/-! ## Operations 13 … 15 -/

theorem segW_v10 (W : Valuation τ sig (Elt F)) (h_cst_1 : W (Proc.devRef .tc main_cst_1) = (Cert.ReferenceIdeal.ReadP.val_main_cst_1 (F := F))) (h_v8 : W (Proc.devRef .tc main_v8) = (Cert.ReferenceIdeal.ReadP.val_main_v8 (F := F) x1 x3)) (h_v9 : W (Proc.devRef .tc main_v9) = (Cert.ReferenceIdeal.ReadP.val_main_v9 (F := F) x1 x3)) :
    after segW W (Proc.devRef .tc main_v10) = (Cert.ReferenceIdeal.ReadP.val_main_v10 (F := F) x1 x3) := by
  after_results_simp
  all_goals try simp only [Cert.RefCasts.toBuf_cst_1, Cert.RefCasts.ofBuf_cst_1, Cert.RefCasts.toBuf_call0_v0, Cert.RefCasts.ofBuf_call0_v0, Cert.RefCasts.toBuf_call0_v1, Cert.RefCasts.ofBuf_call0_v1, Cert.RefCasts.toBuf_v8, Cert.RefCasts.ofBuf_v8, Cert.RefCasts.toBuf_v9, Cert.RefCasts.ofBuf_v9, Cert.RefCasts.toBuf_v10, Cert.RefCasts.ofBuf_v10, Cert.RefCasts.toBuf_call1_cst, Cert.RefCasts.ofBuf_call1_cst, Cert.RefCasts.toBuf_call1_v0, Cert.RefCasts.ofBuf_call1_v0, Cert.RefCasts.toBuf_v69, Cert.RefCasts.ofBuf_v69, Cert.RefCasts.toBuf_v70, Cert.RefCasts.ofBuf_v70, Cert.RefCasts.toBuf_call2_cst, Cert.RefCasts.ofBuf_call2_cst, Cert.RefCasts.toBuf_call2_v0, Cert.RefCasts.ofBuf_call2_v0, Cert.RefCasts.toBuf_v112, Cert.RefCasts.ofBuf_v112, Cert.RefCasts.toBuf_v113, Cert.RefCasts.ofBuf_v113, Cert.RefCasts.toBuf_call3_cst, Cert.RefCasts.ofBuf_call3_cst, Cert.RefCasts.toBuf_call3_v0, Cert.RefCasts.ofBuf_call3_v0, Cert.RefCasts.toBuf_v156, Cert.RefCasts.ofBuf_v156, Cert.RefCasts.toBuf_v157, Cert.RefCasts.ofBuf_v157, Cert.RefCasts.toBuf_call4_cst, Cert.RefCasts.ofBuf_call4_cst, Cert.RefCasts.toBuf_call4_v0, Cert.RefCasts.ofBuf_call4_v0, Cert.RefCasts.toBuf_v200, Cert.RefCasts.ofBuf_v200, Cert.RefCasts.toBuf_v201, Cert.RefCasts.ofBuf_v201, Cert.RefCasts.toBuf_call5_cst, Cert.RefCasts.ofBuf_call5_cst, Cert.RefCasts.toBuf_call5_v0, Cert.RefCasts.ofBuf_call5_v0, Cert.RefCasts.toBuf_v206, Cert.RefCasts.ofBuf_v206, Cert.RefCasts.toBuf_v207, Cert.RefCasts.ofBuf_v207]
  all_goals try simp only [h_cst_1, h_v8, h_v9]
  all_goals try rw [h_cst_1]
  all_goals try rw [h_v8]
  all_goals try rw [h_v9]
  all_goals try simp only [Cert.ReferenceIdeal.ReadP.val_main_call0_v0, Cert.ReferenceIdeal.ReadP.val_main_call0_v1, Cert.ReferenceIdeal.ReadP.val_main_v10]
  all_goals try rfl
theorem segW_keeps_v1 (W : Valuation τ sig (Elt F)) : after segW W (Proc.devRef .tc main_v1) = W (Proc.devRef .tc main_v1) := by after_results_simp
theorem segW_keeps_arg3 (W : Valuation τ sig (Elt F)) : after segW W (Proc.devRef .tc main_arg3) = W (Proc.devRef .tc main_arg3) := by after_results_simp
theorem segW_keeps_v3 (W : Valuation τ sig (Elt F)) : after segW W (Proc.devRef .tc main_v3) = W (Proc.devRef .tc main_v3) := by after_results_simp
theorem segW_keeps_arg4 (W : Valuation τ sig (Elt F)) : after segW W (Proc.devRef .tc main_arg4) = W (Proc.devRef .tc main_arg4) := by after_results_simp
theorem segW_keeps_arg0 (W : Valuation τ sig (Elt F)) : after segW W (Proc.devRef .tc main_arg0) = W (Proc.devRef .tc main_arg0) := by after_results_simp
theorem segW_keeps_arg5 (W : Valuation τ sig (Elt F)) : after segW W (Proc.devRef .tc main_arg5) = W (Proc.devRef .tc main_arg5) := by after_results_simp
theorem segW_keeps_arg6 (W : Valuation τ sig (Elt F)) : after segW W (Proc.devRef .tc main_arg6) = W (Proc.devRef .tc main_arg6) := by after_results_simp
theorem segW_keeps_arg9 (W : Valuation τ sig (Elt F)) : after segW W (Proc.devRef .tc main_arg9) = W (Proc.devRef .tc main_arg9) := by after_results_simp
theorem segW_keeps_arg10 (W : Valuation τ sig (Elt F)) : after segW W (Proc.devRef .tc main_arg10) = W (Proc.devRef .tc main_arg10) := by after_results_simp
theorem segW_keeps_arg7 (W : Valuation τ sig (Elt F)) : after segW W (Proc.devRef .tc main_arg7) = W (Proc.devRef .tc main_arg7) := by after_results_simp
theorem segW_keeps_arg8 (W : Valuation τ sig (Elt F)) : after segW W (Proc.devRef .tc main_arg8) = W (Proc.devRef .tc main_arg8) := by after_results_simp
theorem segW_keeps_arg11 (W : Valuation τ sig (Elt F)) : after segW W (Proc.devRef .tc main_arg11) = W (Proc.devRef .tc main_arg11) := by after_results_simp
theorem segW_keeps_arg12 (W : Valuation τ sig (Elt F)) : after segW W (Proc.devRef .tc main_arg12) = W (Proc.devRef .tc main_arg12) := by after_results_simp

/-! ## Operations 16 … 85 -/

theorem segB_v27 (W : Valuation τ sig (Elt F)) (h_v1 : W (Proc.devRef .tc main_v1) = (Cert.ReferenceIdeal.ReadP.val_main_v1 (F := F) x1)) (h_v10 : W (Proc.devRef .tc main_v10) = (Cert.ReferenceIdeal.ReadP.val_main_v10 (F := F) x1 x3)) (h_arg3 : W (Proc.devRef .tc main_arg3) = x3) (h_v3 : W (Proc.devRef .tc main_v3) = (Cert.ReferenceIdeal.ReadP.val_main_v3 (F := F) x1)) (h_arg4 : W (Proc.devRef .tc main_arg4) = x4) (h_arg0 : W (Proc.devRef .tc main_arg0) = x0) :
    after segB W (Proc.devRef .tc main_v27) = (Cert.ReferenceIdeal.ReadP.val_main_v27 (F := F) x1 x3) := by
  after_results_simp
  all_goals try simp only [h_v1, h_v10, h_arg3, h_v3, h_arg4, h_arg0]
  all_goals try rw [h_v1]
  all_goals try rw [h_v10]
  all_goals try rw [h_arg3]
  all_goals try rw [h_v3]
  all_goals try rw [h_arg4]
  all_goals try rw [h_arg0]
  all_goals try simp only [Cert.ReferenceIdeal.ReadP.val_main_c, Cert.ReferenceIdeal.ReadP.val_main_v11, Cert.ReferenceIdeal.ReadP.val_main_v12, Cert.ReferenceIdeal.ReadP.val_main_c_2, Cert.ReferenceIdeal.ReadP.val_main_v13, Cert.ReferenceIdeal.ReadP.val_main_v14, Cert.ReferenceIdeal.ReadP.val_main_v15, Cert.ReferenceIdeal.ReadP.val_main_v16, Cert.ReferenceIdeal.ReadP.val_main_v17, Cert.ReferenceIdeal.ReadP.val_main_v18, Cert.ReferenceIdeal.ReadP.val_main_c_3, Cert.ReferenceIdeal.ReadP.val_main_v19, Cert.ReferenceIdeal.ReadP.val_main_v20, Cert.ReferenceIdeal.ReadP.val_main_c_4, Cert.ReferenceIdeal.ReadP.val_main_v21, Cert.ReferenceIdeal.ReadP.val_main_v22, Cert.ReferenceIdeal.ReadP.val_main_v23, Cert.ReferenceIdeal.ReadP.val_main_v24, Cert.ReferenceIdeal.ReadP.val_main_v25, Cert.ReferenceIdeal.ReadP.val_main_v26, Cert.ReferenceIdeal.ReadP.val_main_v27, Cert.ReferenceIdeal.ReadP.val_main_v28, Cert.ReferenceIdeal.ReadP.val_main_v29, Cert.ReferenceIdeal.ReadP.val_main_v30, Cert.ReferenceIdeal.ReadP.val_main_c_5, Cert.ReferenceIdeal.ReadP.val_main_v31, Cert.ReferenceIdeal.ReadP.val_main_v32, Cert.ReferenceIdeal.ReadP.val_main_c_6, Cert.ReferenceIdeal.ReadP.val_main_v33, Cert.ReferenceIdeal.ReadP.val_main_v34, Cert.ReferenceIdeal.ReadP.val_main_v35, Cert.ReferenceIdeal.ReadP.val_main_v36, Cert.ReferenceIdeal.ReadP.val_main_v37, Cert.ReferenceIdeal.ReadP.val_main_v38, Cert.ReferenceIdeal.ReadP.val_main_v39, Cert.ReferenceIdeal.ReadP.val_main_cst_7, Cert.ReferenceIdeal.ReadP.val_main_v40, Cert.ReferenceIdeal.ReadP.val_main_v41, Cert.ReferenceIdeal.ReadP.val_main_v42, Cert.ReferenceIdeal.ReadP.val_main_v43, Cert.ReferenceIdeal.ReadP.val_main_v44, Cert.ReferenceIdeal.ReadP.val_main_v45, Cert.ReferenceIdeal.ReadP.val_main_v46, Cert.ReferenceIdeal.ReadP.val_main_v47, Cert.ReferenceIdeal.ReadP.val_main_v48, Cert.ReferenceIdeal.ReadP.val_main_v49, Cert.ReferenceIdeal.ReadP.val_main_v50, Cert.ReferenceIdeal.ReadP.val_main_c_8, Cert.ReferenceIdeal.ReadP.val_main_v51, Cert.ReferenceIdeal.ReadP.val_main_v52, Cert.ReferenceIdeal.ReadP.val_main_c_9, Cert.ReferenceIdeal.ReadP.val_main_v53, Cert.ReferenceIdeal.ReadP.val_main_v54, Cert.ReferenceIdeal.ReadP.val_main_v55, Cert.ReferenceIdeal.ReadP.val_main_v56, Cert.ReferenceIdeal.ReadP.val_main_v57, Cert.ReferenceIdeal.ReadP.val_main_v58, Cert.ReferenceIdeal.ReadP.val_main_v59, Cert.ReferenceIdeal.ReadP.val_main_cst_10, Cert.ReferenceIdeal.ReadP.val_main_v60, Cert.ReferenceIdeal.ReadP.val_main_v61, Cert.ReferenceIdeal.ReadP.val_main_v62, Cert.ReferenceIdeal.ReadP.val_main_cst_11, Cert.ReferenceIdeal.ReadP.val_main_v63, Cert.ReferenceIdeal.ReadP.val_main_v64, Cert.ReferenceIdeal.ReadP.val_main_v65, Cert.ReferenceIdeal.ReadP.val_main_v66, Cert.ReferenceIdeal.ReadP.val_main_v67, Cert.ReferenceIdeal.ReadP.val_main_v68, Cert.ReferenceIdeal.ReadP.val_main_v69]
  all_goals try rfl

theorem segB_v69 (W : Valuation τ sig (Elt F)) (h_v1 : W (Proc.devRef .tc main_v1) = (Cert.ReferenceIdeal.ReadP.val_main_v1 (F := F) x1)) (h_v10 : W (Proc.devRef .tc main_v10) = (Cert.ReferenceIdeal.ReadP.val_main_v10 (F := F) x1 x3)) (h_arg3 : W (Proc.devRef .tc main_arg3) = x3) (h_v3 : W (Proc.devRef .tc main_v3) = (Cert.ReferenceIdeal.ReadP.val_main_v3 (F := F) x1)) (h_arg4 : W (Proc.devRef .tc main_arg4) = x4) (h_arg0 : W (Proc.devRef .tc main_arg0) = x0) :
    after segB W (Proc.devRef .tc main_v69) = (Cert.ReferenceIdeal.ReadP.val_main_v69 (F := F) x0 x1 x3 x4) := by
  after_results_simp
  all_goals try simp only [h_v1, h_v10, h_arg3, h_v3, h_arg4, h_arg0]
  all_goals try rw [h_v1]
  all_goals try rw [h_v10]
  all_goals try rw [h_arg3]
  all_goals try rw [h_v3]
  all_goals try rw [h_arg4]
  all_goals try rw [h_arg0]
  all_goals try simp only [Cert.ReferenceIdeal.ReadP.val_main_c, Cert.ReferenceIdeal.ReadP.val_main_v11, Cert.ReferenceIdeal.ReadP.val_main_v12, Cert.ReferenceIdeal.ReadP.val_main_c_2, Cert.ReferenceIdeal.ReadP.val_main_v13, Cert.ReferenceIdeal.ReadP.val_main_v14, Cert.ReferenceIdeal.ReadP.val_main_v15, Cert.ReferenceIdeal.ReadP.val_main_v16, Cert.ReferenceIdeal.ReadP.val_main_v17, Cert.ReferenceIdeal.ReadP.val_main_v18, Cert.ReferenceIdeal.ReadP.val_main_c_3, Cert.ReferenceIdeal.ReadP.val_main_v19, Cert.ReferenceIdeal.ReadP.val_main_v20, Cert.ReferenceIdeal.ReadP.val_main_c_4, Cert.ReferenceIdeal.ReadP.val_main_v21, Cert.ReferenceIdeal.ReadP.val_main_v22, Cert.ReferenceIdeal.ReadP.val_main_v23, Cert.ReferenceIdeal.ReadP.val_main_v24, Cert.ReferenceIdeal.ReadP.val_main_v25, Cert.ReferenceIdeal.ReadP.val_main_v26, Cert.ReferenceIdeal.ReadP.val_main_v27, Cert.ReferenceIdeal.ReadP.val_main_v28, Cert.ReferenceIdeal.ReadP.val_main_v29, Cert.ReferenceIdeal.ReadP.val_main_v30, Cert.ReferenceIdeal.ReadP.val_main_c_5, Cert.ReferenceIdeal.ReadP.val_main_v31, Cert.ReferenceIdeal.ReadP.val_main_v32, Cert.ReferenceIdeal.ReadP.val_main_c_6, Cert.ReferenceIdeal.ReadP.val_main_v33, Cert.ReferenceIdeal.ReadP.val_main_v34, Cert.ReferenceIdeal.ReadP.val_main_v35, Cert.ReferenceIdeal.ReadP.val_main_v36, Cert.ReferenceIdeal.ReadP.val_main_v37, Cert.ReferenceIdeal.ReadP.val_main_v38, Cert.ReferenceIdeal.ReadP.val_main_v39, Cert.ReferenceIdeal.ReadP.val_main_cst_7, Cert.ReferenceIdeal.ReadP.val_main_v40, Cert.ReferenceIdeal.ReadP.val_main_v41, Cert.ReferenceIdeal.ReadP.val_main_v42, Cert.ReferenceIdeal.ReadP.val_main_v43, Cert.ReferenceIdeal.ReadP.val_main_v44, Cert.ReferenceIdeal.ReadP.val_main_v45, Cert.ReferenceIdeal.ReadP.val_main_v46, Cert.ReferenceIdeal.ReadP.val_main_v47, Cert.ReferenceIdeal.ReadP.val_main_v48, Cert.ReferenceIdeal.ReadP.val_main_v49, Cert.ReferenceIdeal.ReadP.val_main_v50, Cert.ReferenceIdeal.ReadP.val_main_c_8, Cert.ReferenceIdeal.ReadP.val_main_v51, Cert.ReferenceIdeal.ReadP.val_main_v52, Cert.ReferenceIdeal.ReadP.val_main_c_9, Cert.ReferenceIdeal.ReadP.val_main_v53, Cert.ReferenceIdeal.ReadP.val_main_v54, Cert.ReferenceIdeal.ReadP.val_main_v55, Cert.ReferenceIdeal.ReadP.val_main_v56, Cert.ReferenceIdeal.ReadP.val_main_v57, Cert.ReferenceIdeal.ReadP.val_main_v58, Cert.ReferenceIdeal.ReadP.val_main_v59, Cert.ReferenceIdeal.ReadP.val_main_cst_10, Cert.ReferenceIdeal.ReadP.val_main_v60, Cert.ReferenceIdeal.ReadP.val_main_v61, Cert.ReferenceIdeal.ReadP.val_main_v62, Cert.ReferenceIdeal.ReadP.val_main_cst_11, Cert.ReferenceIdeal.ReadP.val_main_v63, Cert.ReferenceIdeal.ReadP.val_main_v64, Cert.ReferenceIdeal.ReadP.val_main_v65, Cert.ReferenceIdeal.ReadP.val_main_v66, Cert.ReferenceIdeal.ReadP.val_main_v67, Cert.ReferenceIdeal.ReadP.val_main_v68, Cert.ReferenceIdeal.ReadP.val_main_v69]
  all_goals try rfl
theorem segB_keeps_arg4 (W : Valuation τ sig (Elt F)) : after segB W (Proc.devRef .tc main_arg4) = W (Proc.devRef .tc main_arg4) := by after_results_simp
theorem segB_keeps_v1 (W : Valuation τ sig (Elt F)) : after segB W (Proc.devRef .tc main_v1) = W (Proc.devRef .tc main_v1) := by after_results_simp
theorem segB_keeps_v3 (W : Valuation τ sig (Elt F)) : after segB W (Proc.devRef .tc main_v3) = W (Proc.devRef .tc main_v3) := by after_results_simp
theorem segB_keeps_arg5 (W : Valuation τ sig (Elt F)) : after segB W (Proc.devRef .tc main_arg5) = W (Proc.devRef .tc main_arg5) := by after_results_simp
theorem segB_keeps_arg6 (W : Valuation τ sig (Elt F)) : after segB W (Proc.devRef .tc main_arg6) = W (Proc.devRef .tc main_arg6) := by after_results_simp
theorem segB_keeps_arg9 (W : Valuation τ sig (Elt F)) : after segB W (Proc.devRef .tc main_arg9) = W (Proc.devRef .tc main_arg9) := by after_results_simp
theorem segB_keeps_arg10 (W : Valuation τ sig (Elt F)) : after segB W (Proc.devRef .tc main_arg10) = W (Proc.devRef .tc main_arg10) := by after_results_simp
theorem segB_keeps_arg7 (W : Valuation τ sig (Elt F)) : after segB W (Proc.devRef .tc main_arg7) = W (Proc.devRef .tc main_arg7) := by after_results_simp
theorem segB_keeps_arg8 (W : Valuation τ sig (Elt F)) : after segB W (Proc.devRef .tc main_arg8) = W (Proc.devRef .tc main_arg8) := by after_results_simp
theorem segB_keeps_arg11 (W : Valuation τ sig (Elt F)) : after segB W (Proc.devRef .tc main_arg11) = W (Proc.devRef .tc main_arg11) := by after_results_simp
theorem segB_keeps_arg12 (W : Valuation τ sig (Elt F)) : after segB W (Proc.devRef .tc main_arg12) = W (Proc.devRef .tc main_arg12) := by after_results_simp

/-! ## Operations 86 … 88 -/

theorem segR1_v70 (W : Valuation τ sig (Elt F)) (h_v69 : W (Proc.devRef .tc main_v69) = (Cert.ReferenceIdeal.ReadP.val_main_v69 (F := F) x0 x1 x3 x4)) :
    after segR1 W (Proc.devRef .tc main_v70) = (Cert.ReferenceIdeal.ReadP.val_main_v70 (F := F) x0 x1 x3 x4) := by
  after_results_simp
  all_goals try simp only [Cert.RefCasts.toBuf_cst_1, Cert.RefCasts.ofBuf_cst_1, Cert.RefCasts.toBuf_call0_v0, Cert.RefCasts.ofBuf_call0_v0, Cert.RefCasts.toBuf_call0_v1, Cert.RefCasts.ofBuf_call0_v1, Cert.RefCasts.toBuf_v8, Cert.RefCasts.ofBuf_v8, Cert.RefCasts.toBuf_v9, Cert.RefCasts.ofBuf_v9, Cert.RefCasts.toBuf_v10, Cert.RefCasts.ofBuf_v10, Cert.RefCasts.toBuf_call1_cst, Cert.RefCasts.ofBuf_call1_cst, Cert.RefCasts.toBuf_call1_v0, Cert.RefCasts.ofBuf_call1_v0, Cert.RefCasts.toBuf_v69, Cert.RefCasts.ofBuf_v69, Cert.RefCasts.toBuf_v70, Cert.RefCasts.ofBuf_v70, Cert.RefCasts.toBuf_call2_cst, Cert.RefCasts.ofBuf_call2_cst, Cert.RefCasts.toBuf_call2_v0, Cert.RefCasts.ofBuf_call2_v0, Cert.RefCasts.toBuf_v112, Cert.RefCasts.ofBuf_v112, Cert.RefCasts.toBuf_v113, Cert.RefCasts.ofBuf_v113, Cert.RefCasts.toBuf_call3_cst, Cert.RefCasts.ofBuf_call3_cst, Cert.RefCasts.toBuf_call3_v0, Cert.RefCasts.ofBuf_call3_v0, Cert.RefCasts.toBuf_v156, Cert.RefCasts.ofBuf_v156, Cert.RefCasts.toBuf_v157, Cert.RefCasts.ofBuf_v157, Cert.RefCasts.toBuf_call4_cst, Cert.RefCasts.ofBuf_call4_cst, Cert.RefCasts.toBuf_call4_v0, Cert.RefCasts.ofBuf_call4_v0, Cert.RefCasts.toBuf_v200, Cert.RefCasts.ofBuf_v200, Cert.RefCasts.toBuf_v201, Cert.RefCasts.ofBuf_v201, Cert.RefCasts.toBuf_call5_cst, Cert.RefCasts.ofBuf_call5_cst, Cert.RefCasts.toBuf_call5_v0, Cert.RefCasts.ofBuf_call5_v0, Cert.RefCasts.toBuf_v206, Cert.RefCasts.ofBuf_v206, Cert.RefCasts.toBuf_v207, Cert.RefCasts.ofBuf_v207]
  all_goals try simp only [h_v69]
  all_goals try rw [h_v69]
  all_goals try simp only [Cert.ReferenceIdeal.ReadP.val_main_call1_cst, Cert.ReferenceIdeal.ReadP.val_main_call1_v0, Cert.ReferenceIdeal.ReadP.val_main_v70]
  all_goals try rfl
theorem segR1_keeps_arg4 (W : Valuation τ sig (Elt F)) : after segR1 W (Proc.devRef .tc main_arg4) = W (Proc.devRef .tc main_arg4) := by after_results_simp
theorem segR1_keeps_v27 (W : Valuation τ sig (Elt F)) : after segR1 W (Proc.devRef .tc main_v27) = W (Proc.devRef .tc main_v27) := by after_results_simp
theorem segR1_keeps_v1 (W : Valuation τ sig (Elt F)) : after segR1 W (Proc.devRef .tc main_v1) = W (Proc.devRef .tc main_v1) := by after_results_simp
theorem segR1_keeps_v3 (W : Valuation τ sig (Elt F)) : after segR1 W (Proc.devRef .tc main_v3) = W (Proc.devRef .tc main_v3) := by after_results_simp
theorem segR1_keeps_arg5 (W : Valuation τ sig (Elt F)) : after segR1 W (Proc.devRef .tc main_arg5) = W (Proc.devRef .tc main_arg5) := by after_results_simp
theorem segR1_keeps_arg6 (W : Valuation τ sig (Elt F)) : after segR1 W (Proc.devRef .tc main_arg6) = W (Proc.devRef .tc main_arg6) := by after_results_simp
theorem segR1_keeps_arg9 (W : Valuation τ sig (Elt F)) : after segR1 W (Proc.devRef .tc main_arg9) = W (Proc.devRef .tc main_arg9) := by after_results_simp
theorem segR1_keeps_arg10 (W : Valuation τ sig (Elt F)) : after segR1 W (Proc.devRef .tc main_arg10) = W (Proc.devRef .tc main_arg10) := by after_results_simp
theorem segR1_keeps_arg7 (W : Valuation τ sig (Elt F)) : after segR1 W (Proc.devRef .tc main_arg7) = W (Proc.devRef .tc main_arg7) := by after_results_simp
theorem segR1_keeps_arg8 (W : Valuation τ sig (Elt F)) : after segR1 W (Proc.devRef .tc main_arg8) = W (Proc.devRef .tc main_arg8) := by after_results_simp
theorem segR1_keeps_arg11 (W : Valuation τ sig (Elt F)) : after segR1 W (Proc.devRef .tc main_arg11) = W (Proc.devRef .tc main_arg11) := by after_results_simp
theorem segR1_keeps_arg12 (W : Valuation τ sig (Elt F)) : after segR1 W (Proc.devRef .tc main_arg12) = W (Proc.devRef .tc main_arg12) := by after_results_simp

/-! ## Operations 89 … 137 -/

theorem segC_v112 (W : Valuation τ sig (Elt F)) (h_arg4 : W (Proc.devRef .tc main_arg4) = x4) (h_v27 : W (Proc.devRef .tc main_v27) = (Cert.ReferenceIdeal.ReadP.val_main_v27 (F := F) x1 x3)) (h_v1 : W (Proc.devRef .tc main_v1) = (Cert.ReferenceIdeal.ReadP.val_main_v1 (F := F) x1)) (h_v70 : W (Proc.devRef .tc main_v70) = (Cert.ReferenceIdeal.ReadP.val_main_v70 (F := F) x0 x1 x3 x4)) (h_v3 : W (Proc.devRef .tc main_v3) = (Cert.ReferenceIdeal.ReadP.val_main_v3 (F := F) x1)) :
    after segC W (Proc.devRef .tc main_v112) = (Cert.ReferenceIdeal.ReadP.val_main_v112 (F := F) x0 x1 x3 x4) := by
  after_results_simp
  all_goals try simp only [h_arg4, h_v27, h_v1, h_v70, h_v3]
  all_goals try rw [h_arg4]
  all_goals try rw [h_v27]
  all_goals try rw [h_v1]
  all_goals try rw [h_v70]
  all_goals try rw [h_v3]
  all_goals try simp only [Cert.ReferenceIdeal.ReadP.val_main_v71, Cert.ReferenceIdeal.ReadP.val_main_v72, Cert.ReferenceIdeal.ReadP.val_main_v73, Cert.ReferenceIdeal.ReadP.val_main_c_12, Cert.ReferenceIdeal.ReadP.val_main_v74, Cert.ReferenceIdeal.ReadP.val_main_v75, Cert.ReferenceIdeal.ReadP.val_main_c_13, Cert.ReferenceIdeal.ReadP.val_main_v76, Cert.ReferenceIdeal.ReadP.val_main_v77, Cert.ReferenceIdeal.ReadP.val_main_v78, Cert.ReferenceIdeal.ReadP.val_main_v79, Cert.ReferenceIdeal.ReadP.val_main_v80, Cert.ReferenceIdeal.ReadP.val_main_v81, Cert.ReferenceIdeal.ReadP.val_main_v82, Cert.ReferenceIdeal.ReadP.val_main_cst_14, Cert.ReferenceIdeal.ReadP.val_main_v83, Cert.ReferenceIdeal.ReadP.val_main_v84, Cert.ReferenceIdeal.ReadP.val_main_v85, Cert.ReferenceIdeal.ReadP.val_main_v86, Cert.ReferenceIdeal.ReadP.val_main_v87, Cert.ReferenceIdeal.ReadP.val_main_v88, Cert.ReferenceIdeal.ReadP.val_main_v89, Cert.ReferenceIdeal.ReadP.val_main_v90, Cert.ReferenceIdeal.ReadP.val_main_v91, Cert.ReferenceIdeal.ReadP.val_main_v92, Cert.ReferenceIdeal.ReadP.val_main_v93, Cert.ReferenceIdeal.ReadP.val_main_c_15, Cert.ReferenceIdeal.ReadP.val_main_v94, Cert.ReferenceIdeal.ReadP.val_main_v95, Cert.ReferenceIdeal.ReadP.val_main_c_16, Cert.ReferenceIdeal.ReadP.val_main_v96, Cert.ReferenceIdeal.ReadP.val_main_v97, Cert.ReferenceIdeal.ReadP.val_main_v98, Cert.ReferenceIdeal.ReadP.val_main_v99, Cert.ReferenceIdeal.ReadP.val_main_v100, Cert.ReferenceIdeal.ReadP.val_main_v101, Cert.ReferenceIdeal.ReadP.val_main_v102, Cert.ReferenceIdeal.ReadP.val_main_cst_17, Cert.ReferenceIdeal.ReadP.val_main_v103, Cert.ReferenceIdeal.ReadP.val_main_v104, Cert.ReferenceIdeal.ReadP.val_main_v105, Cert.ReferenceIdeal.ReadP.val_main_cst_18, Cert.ReferenceIdeal.ReadP.val_main_v106, Cert.ReferenceIdeal.ReadP.val_main_v107, Cert.ReferenceIdeal.ReadP.val_main_v108, Cert.ReferenceIdeal.ReadP.val_main_v109, Cert.ReferenceIdeal.ReadP.val_main_v110, Cert.ReferenceIdeal.ReadP.val_main_v111, Cert.ReferenceIdeal.ReadP.val_main_v112]
  all_goals try rfl
theorem segC_keeps_v70 (W : Valuation τ sig (Elt F)) : after segC W (Proc.devRef .tc main_v70) = W (Proc.devRef .tc main_v70) := by after_results_simp
theorem segC_keeps_arg4 (W : Valuation τ sig (Elt F)) : after segC W (Proc.devRef .tc main_arg4) = W (Proc.devRef .tc main_arg4) := by after_results_simp
theorem segC_keeps_v27 (W : Valuation τ sig (Elt F)) : after segC W (Proc.devRef .tc main_v27) = W (Proc.devRef .tc main_v27) := by after_results_simp
theorem segC_keeps_v1 (W : Valuation τ sig (Elt F)) : after segC W (Proc.devRef .tc main_v1) = W (Proc.devRef .tc main_v1) := by after_results_simp
theorem segC_keeps_v3 (W : Valuation τ sig (Elt F)) : after segC W (Proc.devRef .tc main_v3) = W (Proc.devRef .tc main_v3) := by after_results_simp
theorem segC_keeps_arg5 (W : Valuation τ sig (Elt F)) : after segC W (Proc.devRef .tc main_arg5) = W (Proc.devRef .tc main_arg5) := by after_results_simp
theorem segC_keeps_arg6 (W : Valuation τ sig (Elt F)) : after segC W (Proc.devRef .tc main_arg6) = W (Proc.devRef .tc main_arg6) := by after_results_simp
theorem segC_keeps_arg9 (W : Valuation τ sig (Elt F)) : after segC W (Proc.devRef .tc main_arg9) = W (Proc.devRef .tc main_arg9) := by after_results_simp
theorem segC_keeps_arg10 (W : Valuation τ sig (Elt F)) : after segC W (Proc.devRef .tc main_arg10) = W (Proc.devRef .tc main_arg10) := by after_results_simp
theorem segC_keeps_arg7 (W : Valuation τ sig (Elt F)) : after segC W (Proc.devRef .tc main_arg7) = W (Proc.devRef .tc main_arg7) := by after_results_simp
theorem segC_keeps_arg8 (W : Valuation τ sig (Elt F)) : after segC W (Proc.devRef .tc main_arg8) = W (Proc.devRef .tc main_arg8) := by after_results_simp
theorem segC_keeps_arg11 (W : Valuation τ sig (Elt F)) : after segC W (Proc.devRef .tc main_arg11) = W (Proc.devRef .tc main_arg11) := by after_results_simp
theorem segC_keeps_arg12 (W : Valuation τ sig (Elt F)) : after segC W (Proc.devRef .tc main_arg12) = W (Proc.devRef .tc main_arg12) := by after_results_simp

/-! ## Operations 138 … 140 -/

theorem segR2_v113 (W : Valuation τ sig (Elt F)) (h_v112 : W (Proc.devRef .tc main_v112) = (Cert.ReferenceIdeal.ReadP.val_main_v112 (F := F) x0 x1 x3 x4)) :
    after segR2 W (Proc.devRef .tc main_v113) = (Cert.ReferenceIdeal.ReadP.val_main_v113 (F := F) x0 x1 x3 x4) := by
  after_results_simp
  all_goals try simp only [Cert.RefCasts.toBuf_cst_1, Cert.RefCasts.ofBuf_cst_1, Cert.RefCasts.toBuf_call0_v0, Cert.RefCasts.ofBuf_call0_v0, Cert.RefCasts.toBuf_call0_v1, Cert.RefCasts.ofBuf_call0_v1, Cert.RefCasts.toBuf_v8, Cert.RefCasts.ofBuf_v8, Cert.RefCasts.toBuf_v9, Cert.RefCasts.ofBuf_v9, Cert.RefCasts.toBuf_v10, Cert.RefCasts.ofBuf_v10, Cert.RefCasts.toBuf_call1_cst, Cert.RefCasts.ofBuf_call1_cst, Cert.RefCasts.toBuf_call1_v0, Cert.RefCasts.ofBuf_call1_v0, Cert.RefCasts.toBuf_v69, Cert.RefCasts.ofBuf_v69, Cert.RefCasts.toBuf_v70, Cert.RefCasts.ofBuf_v70, Cert.RefCasts.toBuf_call2_cst, Cert.RefCasts.ofBuf_call2_cst, Cert.RefCasts.toBuf_call2_v0, Cert.RefCasts.ofBuf_call2_v0, Cert.RefCasts.toBuf_v112, Cert.RefCasts.ofBuf_v112, Cert.RefCasts.toBuf_v113, Cert.RefCasts.ofBuf_v113, Cert.RefCasts.toBuf_call3_cst, Cert.RefCasts.ofBuf_call3_cst, Cert.RefCasts.toBuf_call3_v0, Cert.RefCasts.ofBuf_call3_v0, Cert.RefCasts.toBuf_v156, Cert.RefCasts.ofBuf_v156, Cert.RefCasts.toBuf_v157, Cert.RefCasts.ofBuf_v157, Cert.RefCasts.toBuf_call4_cst, Cert.RefCasts.ofBuf_call4_cst, Cert.RefCasts.toBuf_call4_v0, Cert.RefCasts.ofBuf_call4_v0, Cert.RefCasts.toBuf_v200, Cert.RefCasts.ofBuf_v200, Cert.RefCasts.toBuf_v201, Cert.RefCasts.ofBuf_v201, Cert.RefCasts.toBuf_call5_cst, Cert.RefCasts.ofBuf_call5_cst, Cert.RefCasts.toBuf_call5_v0, Cert.RefCasts.ofBuf_call5_v0, Cert.RefCasts.toBuf_v206, Cert.RefCasts.ofBuf_v206, Cert.RefCasts.toBuf_v207, Cert.RefCasts.ofBuf_v207]
  all_goals try simp only [h_v112]
  all_goals try rw [h_v112]
  all_goals try simp only [Cert.ReferenceIdeal.ReadP.val_main_call2_cst, Cert.ReferenceIdeal.ReadP.val_main_call2_v0, Cert.ReferenceIdeal.ReadP.val_main_v113]
  all_goals try rfl
theorem segR2_keeps_v70 (W : Valuation τ sig (Elt F)) : after segR2 W (Proc.devRef .tc main_v70) = W (Proc.devRef .tc main_v70) := by after_results_simp
theorem segR2_keeps_arg4 (W : Valuation τ sig (Elt F)) : after segR2 W (Proc.devRef .tc main_arg4) = W (Proc.devRef .tc main_arg4) := by after_results_simp
theorem segR2_keeps_v27 (W : Valuation τ sig (Elt F)) : after segR2 W (Proc.devRef .tc main_v27) = W (Proc.devRef .tc main_v27) := by after_results_simp
theorem segR2_keeps_v1 (W : Valuation τ sig (Elt F)) : after segR2 W (Proc.devRef .tc main_v1) = W (Proc.devRef .tc main_v1) := by after_results_simp
theorem segR2_keeps_v3 (W : Valuation τ sig (Elt F)) : after segR2 W (Proc.devRef .tc main_v3) = W (Proc.devRef .tc main_v3) := by after_results_simp
theorem segR2_keeps_arg5 (W : Valuation τ sig (Elt F)) : after segR2 W (Proc.devRef .tc main_arg5) = W (Proc.devRef .tc main_arg5) := by after_results_simp
theorem segR2_keeps_arg6 (W : Valuation τ sig (Elt F)) : after segR2 W (Proc.devRef .tc main_arg6) = W (Proc.devRef .tc main_arg6) := by after_results_simp
theorem segR2_keeps_arg9 (W : Valuation τ sig (Elt F)) : after segR2 W (Proc.devRef .tc main_arg9) = W (Proc.devRef .tc main_arg9) := by after_results_simp
theorem segR2_keeps_arg10 (W : Valuation τ sig (Elt F)) : after segR2 W (Proc.devRef .tc main_arg10) = W (Proc.devRef .tc main_arg10) := by after_results_simp
theorem segR2_keeps_arg7 (W : Valuation τ sig (Elt F)) : after segR2 W (Proc.devRef .tc main_arg7) = W (Proc.devRef .tc main_arg7) := by after_results_simp
theorem segR2_keeps_arg8 (W : Valuation τ sig (Elt F)) : after segR2 W (Proc.devRef .tc main_arg8) = W (Proc.devRef .tc main_arg8) := by after_results_simp
theorem segR2_keeps_arg11 (W : Valuation τ sig (Elt F)) : after segR2 W (Proc.devRef .tc main_arg11) = W (Proc.devRef .tc main_arg11) := by after_results_simp
theorem segR2_keeps_arg12 (W : Valuation τ sig (Elt F)) : after segR2 W (Proc.devRef .tc main_arg12) = W (Proc.devRef .tc main_arg12) := by after_results_simp

/-! ## Operations 141 … 190 -/

theorem segD_v114 (W : Valuation τ sig (Elt F)) (h_v70 : W (Proc.devRef .tc main_v70) = (Cert.ReferenceIdeal.ReadP.val_main_v70 (F := F) x0 x1 x3 x4)) (h_v113 : W (Proc.devRef .tc main_v113) = (Cert.ReferenceIdeal.ReadP.val_main_v113 (F := F) x0 x1 x3 x4)) (h_arg4 : W (Proc.devRef .tc main_arg4) = x4) (h_v27 : W (Proc.devRef .tc main_v27) = (Cert.ReferenceIdeal.ReadP.val_main_v27 (F := F) x1 x3)) (h_v1 : W (Proc.devRef .tc main_v1) = (Cert.ReferenceIdeal.ReadP.val_main_v1 (F := F) x1)) (h_v3 : W (Proc.devRef .tc main_v3) = (Cert.ReferenceIdeal.ReadP.val_main_v3 (F := F) x1)) :
    after segD W (Proc.devRef .tc main_v114) = (Cert.ReferenceIdeal.ReadP.val_main_v114 (F := F) x0 x1 x3 x4) := by
  after_results_simp
  all_goals try simp only [h_v70, h_v113, h_arg4, h_v27, h_v1, h_v3]
  all_goals try rw [h_v70]
  all_goals try rw [h_v113]
  all_goals try rw [h_arg4]
  all_goals try rw [h_v27]
  all_goals try rw [h_v1]
  all_goals try rw [h_v3]
  all_goals try simp only [Cert.ReferenceIdeal.ReadP.val_main_v114, Cert.ReferenceIdeal.ReadP.val_main_v115, Cert.ReferenceIdeal.ReadP.val_main_v116, Cert.ReferenceIdeal.ReadP.val_main_v117, Cert.ReferenceIdeal.ReadP.val_main_c_19, Cert.ReferenceIdeal.ReadP.val_main_v118, Cert.ReferenceIdeal.ReadP.val_main_v119, Cert.ReferenceIdeal.ReadP.val_main_c_20, Cert.ReferenceIdeal.ReadP.val_main_v120, Cert.ReferenceIdeal.ReadP.val_main_v121, Cert.ReferenceIdeal.ReadP.val_main_v122, Cert.ReferenceIdeal.ReadP.val_main_v123, Cert.ReferenceIdeal.ReadP.val_main_v124, Cert.ReferenceIdeal.ReadP.val_main_v125, Cert.ReferenceIdeal.ReadP.val_main_v126, Cert.ReferenceIdeal.ReadP.val_main_cst_21, Cert.ReferenceIdeal.ReadP.val_main_v127, Cert.ReferenceIdeal.ReadP.val_main_v128, Cert.ReferenceIdeal.ReadP.val_main_v129, Cert.ReferenceIdeal.ReadP.val_main_v130, Cert.ReferenceIdeal.ReadP.val_main_v131, Cert.ReferenceIdeal.ReadP.val_main_v132, Cert.ReferenceIdeal.ReadP.val_main_v133, Cert.ReferenceIdeal.ReadP.val_main_v134, Cert.ReferenceIdeal.ReadP.val_main_v135, Cert.ReferenceIdeal.ReadP.val_main_v136, Cert.ReferenceIdeal.ReadP.val_main_v137, Cert.ReferenceIdeal.ReadP.val_main_c_22, Cert.ReferenceIdeal.ReadP.val_main_v138, Cert.ReferenceIdeal.ReadP.val_main_v139, Cert.ReferenceIdeal.ReadP.val_main_c_23, Cert.ReferenceIdeal.ReadP.val_main_v140, Cert.ReferenceIdeal.ReadP.val_main_v141, Cert.ReferenceIdeal.ReadP.val_main_v142, Cert.ReferenceIdeal.ReadP.val_main_v143, Cert.ReferenceIdeal.ReadP.val_main_v144, Cert.ReferenceIdeal.ReadP.val_main_v145, Cert.ReferenceIdeal.ReadP.val_main_v146, Cert.ReferenceIdeal.ReadP.val_main_cst_24, Cert.ReferenceIdeal.ReadP.val_main_v147, Cert.ReferenceIdeal.ReadP.val_main_v148, Cert.ReferenceIdeal.ReadP.val_main_v149, Cert.ReferenceIdeal.ReadP.val_main_cst_25, Cert.ReferenceIdeal.ReadP.val_main_v150, Cert.ReferenceIdeal.ReadP.val_main_v151, Cert.ReferenceIdeal.ReadP.val_main_v152, Cert.ReferenceIdeal.ReadP.val_main_v153, Cert.ReferenceIdeal.ReadP.val_main_v154, Cert.ReferenceIdeal.ReadP.val_main_v155, Cert.ReferenceIdeal.ReadP.val_main_v156]
  all_goals try rfl

theorem segD_v156 (W : Valuation τ sig (Elt F)) (h_v70 : W (Proc.devRef .tc main_v70) = (Cert.ReferenceIdeal.ReadP.val_main_v70 (F := F) x0 x1 x3 x4)) (h_v113 : W (Proc.devRef .tc main_v113) = (Cert.ReferenceIdeal.ReadP.val_main_v113 (F := F) x0 x1 x3 x4)) (h_arg4 : W (Proc.devRef .tc main_arg4) = x4) (h_v27 : W (Proc.devRef .tc main_v27) = (Cert.ReferenceIdeal.ReadP.val_main_v27 (F := F) x1 x3)) (h_v1 : W (Proc.devRef .tc main_v1) = (Cert.ReferenceIdeal.ReadP.val_main_v1 (F := F) x1)) (h_v3 : W (Proc.devRef .tc main_v3) = (Cert.ReferenceIdeal.ReadP.val_main_v3 (F := F) x1)) :
    after segD W (Proc.devRef .tc main_v156) = (Cert.ReferenceIdeal.ReadP.val_main_v156 (F := F) x0 x1 x3 x4) := by
  after_results_simp
  all_goals try simp only [h_v70, h_v113, h_arg4, h_v27, h_v1, h_v3]
  all_goals try rw [h_v70]
  all_goals try rw [h_v113]
  all_goals try rw [h_arg4]
  all_goals try rw [h_v27]
  all_goals try rw [h_v1]
  all_goals try rw [h_v3]
  all_goals try simp only [Cert.ReferenceIdeal.ReadP.val_main_v114, Cert.ReferenceIdeal.ReadP.val_main_v115, Cert.ReferenceIdeal.ReadP.val_main_v116, Cert.ReferenceIdeal.ReadP.val_main_v117, Cert.ReferenceIdeal.ReadP.val_main_c_19, Cert.ReferenceIdeal.ReadP.val_main_v118, Cert.ReferenceIdeal.ReadP.val_main_v119, Cert.ReferenceIdeal.ReadP.val_main_c_20, Cert.ReferenceIdeal.ReadP.val_main_v120, Cert.ReferenceIdeal.ReadP.val_main_v121, Cert.ReferenceIdeal.ReadP.val_main_v122, Cert.ReferenceIdeal.ReadP.val_main_v123, Cert.ReferenceIdeal.ReadP.val_main_v124, Cert.ReferenceIdeal.ReadP.val_main_v125, Cert.ReferenceIdeal.ReadP.val_main_v126, Cert.ReferenceIdeal.ReadP.val_main_cst_21, Cert.ReferenceIdeal.ReadP.val_main_v127, Cert.ReferenceIdeal.ReadP.val_main_v128, Cert.ReferenceIdeal.ReadP.val_main_v129, Cert.ReferenceIdeal.ReadP.val_main_v130, Cert.ReferenceIdeal.ReadP.val_main_v131, Cert.ReferenceIdeal.ReadP.val_main_v132, Cert.ReferenceIdeal.ReadP.val_main_v133, Cert.ReferenceIdeal.ReadP.val_main_v134, Cert.ReferenceIdeal.ReadP.val_main_v135, Cert.ReferenceIdeal.ReadP.val_main_v136, Cert.ReferenceIdeal.ReadP.val_main_v137, Cert.ReferenceIdeal.ReadP.val_main_c_22, Cert.ReferenceIdeal.ReadP.val_main_v138, Cert.ReferenceIdeal.ReadP.val_main_v139, Cert.ReferenceIdeal.ReadP.val_main_c_23, Cert.ReferenceIdeal.ReadP.val_main_v140, Cert.ReferenceIdeal.ReadP.val_main_v141, Cert.ReferenceIdeal.ReadP.val_main_v142, Cert.ReferenceIdeal.ReadP.val_main_v143, Cert.ReferenceIdeal.ReadP.val_main_v144, Cert.ReferenceIdeal.ReadP.val_main_v145, Cert.ReferenceIdeal.ReadP.val_main_v146, Cert.ReferenceIdeal.ReadP.val_main_cst_24, Cert.ReferenceIdeal.ReadP.val_main_v147, Cert.ReferenceIdeal.ReadP.val_main_v148, Cert.ReferenceIdeal.ReadP.val_main_v149, Cert.ReferenceIdeal.ReadP.val_main_cst_25, Cert.ReferenceIdeal.ReadP.val_main_v150, Cert.ReferenceIdeal.ReadP.val_main_v151, Cert.ReferenceIdeal.ReadP.val_main_v152, Cert.ReferenceIdeal.ReadP.val_main_v153, Cert.ReferenceIdeal.ReadP.val_main_v154, Cert.ReferenceIdeal.ReadP.val_main_v155, Cert.ReferenceIdeal.ReadP.val_main_v156]
  all_goals try rfl
theorem segD_keeps_arg4 (W : Valuation τ sig (Elt F)) : after segD W (Proc.devRef .tc main_arg4) = W (Proc.devRef .tc main_arg4) := by after_results_simp
theorem segD_keeps_v27 (W : Valuation τ sig (Elt F)) : after segD W (Proc.devRef .tc main_v27) = W (Proc.devRef .tc main_v27) := by after_results_simp
theorem segD_keeps_v1 (W : Valuation τ sig (Elt F)) : after segD W (Proc.devRef .tc main_v1) = W (Proc.devRef .tc main_v1) := by after_results_simp
theorem segD_keeps_v3 (W : Valuation τ sig (Elt F)) : after segD W (Proc.devRef .tc main_v3) = W (Proc.devRef .tc main_v3) := by after_results_simp
theorem segD_keeps_arg5 (W : Valuation τ sig (Elt F)) : after segD W (Proc.devRef .tc main_arg5) = W (Proc.devRef .tc main_arg5) := by after_results_simp
theorem segD_keeps_arg6 (W : Valuation τ sig (Elt F)) : after segD W (Proc.devRef .tc main_arg6) = W (Proc.devRef .tc main_arg6) := by after_results_simp
theorem segD_keeps_arg9 (W : Valuation τ sig (Elt F)) : after segD W (Proc.devRef .tc main_arg9) = W (Proc.devRef .tc main_arg9) := by after_results_simp
theorem segD_keeps_arg10 (W : Valuation τ sig (Elt F)) : after segD W (Proc.devRef .tc main_arg10) = W (Proc.devRef .tc main_arg10) := by after_results_simp
theorem segD_keeps_arg7 (W : Valuation τ sig (Elt F)) : after segD W (Proc.devRef .tc main_arg7) = W (Proc.devRef .tc main_arg7) := by after_results_simp
theorem segD_keeps_arg8 (W : Valuation τ sig (Elt F)) : after segD W (Proc.devRef .tc main_arg8) = W (Proc.devRef .tc main_arg8) := by after_results_simp
theorem segD_keeps_arg11 (W : Valuation τ sig (Elt F)) : after segD W (Proc.devRef .tc main_arg11) = W (Proc.devRef .tc main_arg11) := by after_results_simp
theorem segD_keeps_arg12 (W : Valuation τ sig (Elt F)) : after segD W (Proc.devRef .tc main_arg12) = W (Proc.devRef .tc main_arg12) := by after_results_simp

/-! ## Operations 191 … 193 -/

theorem segR3_v157 (W : Valuation τ sig (Elt F)) (h_v156 : W (Proc.devRef .tc main_v156) = (Cert.ReferenceIdeal.ReadP.val_main_v156 (F := F) x0 x1 x3 x4)) :
    after segR3 W (Proc.devRef .tc main_v157) = (Cert.ReferenceIdeal.ReadP.val_main_v157 (F := F) x0 x1 x3 x4) := by
  after_results_simp
  all_goals try simp only [Cert.RefCasts.toBuf_cst_1, Cert.RefCasts.ofBuf_cst_1, Cert.RefCasts.toBuf_call0_v0, Cert.RefCasts.ofBuf_call0_v0, Cert.RefCasts.toBuf_call0_v1, Cert.RefCasts.ofBuf_call0_v1, Cert.RefCasts.toBuf_v8, Cert.RefCasts.ofBuf_v8, Cert.RefCasts.toBuf_v9, Cert.RefCasts.ofBuf_v9, Cert.RefCasts.toBuf_v10, Cert.RefCasts.ofBuf_v10, Cert.RefCasts.toBuf_call1_cst, Cert.RefCasts.ofBuf_call1_cst, Cert.RefCasts.toBuf_call1_v0, Cert.RefCasts.ofBuf_call1_v0, Cert.RefCasts.toBuf_v69, Cert.RefCasts.ofBuf_v69, Cert.RefCasts.toBuf_v70, Cert.RefCasts.ofBuf_v70, Cert.RefCasts.toBuf_call2_cst, Cert.RefCasts.ofBuf_call2_cst, Cert.RefCasts.toBuf_call2_v0, Cert.RefCasts.ofBuf_call2_v0, Cert.RefCasts.toBuf_v112, Cert.RefCasts.ofBuf_v112, Cert.RefCasts.toBuf_v113, Cert.RefCasts.ofBuf_v113, Cert.RefCasts.toBuf_call3_cst, Cert.RefCasts.ofBuf_call3_cst, Cert.RefCasts.toBuf_call3_v0, Cert.RefCasts.ofBuf_call3_v0, Cert.RefCasts.toBuf_v156, Cert.RefCasts.ofBuf_v156, Cert.RefCasts.toBuf_v157, Cert.RefCasts.ofBuf_v157, Cert.RefCasts.toBuf_call4_cst, Cert.RefCasts.ofBuf_call4_cst, Cert.RefCasts.toBuf_call4_v0, Cert.RefCasts.ofBuf_call4_v0, Cert.RefCasts.toBuf_v200, Cert.RefCasts.ofBuf_v200, Cert.RefCasts.toBuf_v201, Cert.RefCasts.ofBuf_v201, Cert.RefCasts.toBuf_call5_cst, Cert.RefCasts.ofBuf_call5_cst, Cert.RefCasts.toBuf_call5_v0, Cert.RefCasts.ofBuf_call5_v0, Cert.RefCasts.toBuf_v206, Cert.RefCasts.ofBuf_v206, Cert.RefCasts.toBuf_v207, Cert.RefCasts.ofBuf_v207]
  all_goals try simp only [h_v156]
  all_goals try rw [h_v156]
  all_goals try simp only [Cert.ReferenceIdeal.ReadP.val_main_call3_cst, Cert.ReferenceIdeal.ReadP.val_main_call3_v0, Cert.ReferenceIdeal.ReadP.val_main_v157]
  all_goals try rfl
theorem segR3_keeps_v114 (W : Valuation τ sig (Elt F)) : after segR3 W (Proc.devRef .tc main_v114) = W (Proc.devRef .tc main_v114) := by after_results_simp
theorem segR3_keeps_arg4 (W : Valuation τ sig (Elt F)) : after segR3 W (Proc.devRef .tc main_arg4) = W (Proc.devRef .tc main_arg4) := by after_results_simp
theorem segR3_keeps_v27 (W : Valuation τ sig (Elt F)) : after segR3 W (Proc.devRef .tc main_v27) = W (Proc.devRef .tc main_v27) := by after_results_simp
theorem segR3_keeps_v1 (W : Valuation τ sig (Elt F)) : after segR3 W (Proc.devRef .tc main_v1) = W (Proc.devRef .tc main_v1) := by after_results_simp
theorem segR3_keeps_v3 (W : Valuation τ sig (Elt F)) : after segR3 W (Proc.devRef .tc main_v3) = W (Proc.devRef .tc main_v3) := by after_results_simp
theorem segR3_keeps_arg5 (W : Valuation τ sig (Elt F)) : after segR3 W (Proc.devRef .tc main_arg5) = W (Proc.devRef .tc main_arg5) := by after_results_simp
theorem segR3_keeps_arg6 (W : Valuation τ sig (Elt F)) : after segR3 W (Proc.devRef .tc main_arg6) = W (Proc.devRef .tc main_arg6) := by after_results_simp
theorem segR3_keeps_arg9 (W : Valuation τ sig (Elt F)) : after segR3 W (Proc.devRef .tc main_arg9) = W (Proc.devRef .tc main_arg9) := by after_results_simp
theorem segR3_keeps_arg10 (W : Valuation τ sig (Elt F)) : after segR3 W (Proc.devRef .tc main_arg10) = W (Proc.devRef .tc main_arg10) := by after_results_simp
theorem segR3_keeps_arg7 (W : Valuation τ sig (Elt F)) : after segR3 W (Proc.devRef .tc main_arg7) = W (Proc.devRef .tc main_arg7) := by after_results_simp
theorem segR3_keeps_arg8 (W : Valuation τ sig (Elt F)) : after segR3 W (Proc.devRef .tc main_arg8) = W (Proc.devRef .tc main_arg8) := by after_results_simp
theorem segR3_keeps_arg11 (W : Valuation τ sig (Elt F)) : after segR3 W (Proc.devRef .tc main_arg11) = W (Proc.devRef .tc main_arg11) := by after_results_simp
theorem segR3_keeps_arg12 (W : Valuation τ sig (Elt F)) : after segR3 W (Proc.devRef .tc main_arg12) = W (Proc.devRef .tc main_arg12) := by after_results_simp

/-! ## Operations 194 … 243 -/

theorem segE_v158 (W : Valuation τ sig (Elt F)) (h_v114 : W (Proc.devRef .tc main_v114) = (Cert.ReferenceIdeal.ReadP.val_main_v114 (F := F) x0 x1 x3 x4)) (h_v157 : W (Proc.devRef .tc main_v157) = (Cert.ReferenceIdeal.ReadP.val_main_v157 (F := F) x0 x1 x3 x4)) (h_arg4 : W (Proc.devRef .tc main_arg4) = x4) (h_v27 : W (Proc.devRef .tc main_v27) = (Cert.ReferenceIdeal.ReadP.val_main_v27 (F := F) x1 x3)) (h_v1 : W (Proc.devRef .tc main_v1) = (Cert.ReferenceIdeal.ReadP.val_main_v1 (F := F) x1)) (h_v3 : W (Proc.devRef .tc main_v3) = (Cert.ReferenceIdeal.ReadP.val_main_v3 (F := F) x1)) :
    after segE W (Proc.devRef .tc main_v158) = (Cert.ReferenceIdeal.ReadP.val_main_v158 (F := F) x0 x1 x3 x4) := by
  after_results_simp
  all_goals try simp only [h_v114, h_v157, h_arg4, h_v27, h_v1, h_v3]
  all_goals try rw [h_v114]
  all_goals try rw [h_v157]
  all_goals try rw [h_arg4]
  all_goals try rw [h_v27]
  all_goals try rw [h_v1]
  all_goals try rw [h_v3]
  all_goals try simp only [Cert.ReferenceIdeal.ReadP.val_main_v158, Cert.ReferenceIdeal.ReadP.val_main_v159, Cert.ReferenceIdeal.ReadP.val_main_v160, Cert.ReferenceIdeal.ReadP.val_main_v161, Cert.ReferenceIdeal.ReadP.val_main_c_26, Cert.ReferenceIdeal.ReadP.val_main_v162, Cert.ReferenceIdeal.ReadP.val_main_v163, Cert.ReferenceIdeal.ReadP.val_main_c_27, Cert.ReferenceIdeal.ReadP.val_main_v164, Cert.ReferenceIdeal.ReadP.val_main_v165, Cert.ReferenceIdeal.ReadP.val_main_v166, Cert.ReferenceIdeal.ReadP.val_main_v167, Cert.ReferenceIdeal.ReadP.val_main_v168, Cert.ReferenceIdeal.ReadP.val_main_v169, Cert.ReferenceIdeal.ReadP.val_main_v170, Cert.ReferenceIdeal.ReadP.val_main_cst_28, Cert.ReferenceIdeal.ReadP.val_main_v171, Cert.ReferenceIdeal.ReadP.val_main_v172, Cert.ReferenceIdeal.ReadP.val_main_v173, Cert.ReferenceIdeal.ReadP.val_main_v174, Cert.ReferenceIdeal.ReadP.val_main_v175, Cert.ReferenceIdeal.ReadP.val_main_v176, Cert.ReferenceIdeal.ReadP.val_main_v177, Cert.ReferenceIdeal.ReadP.val_main_v178, Cert.ReferenceIdeal.ReadP.val_main_v179, Cert.ReferenceIdeal.ReadP.val_main_v180, Cert.ReferenceIdeal.ReadP.val_main_v181, Cert.ReferenceIdeal.ReadP.val_main_c_29, Cert.ReferenceIdeal.ReadP.val_main_v182, Cert.ReferenceIdeal.ReadP.val_main_v183, Cert.ReferenceIdeal.ReadP.val_main_c_30, Cert.ReferenceIdeal.ReadP.val_main_v184, Cert.ReferenceIdeal.ReadP.val_main_v185, Cert.ReferenceIdeal.ReadP.val_main_v186, Cert.ReferenceIdeal.ReadP.val_main_v187, Cert.ReferenceIdeal.ReadP.val_main_v188, Cert.ReferenceIdeal.ReadP.val_main_v189, Cert.ReferenceIdeal.ReadP.val_main_v190, Cert.ReferenceIdeal.ReadP.val_main_cst_31, Cert.ReferenceIdeal.ReadP.val_main_v191, Cert.ReferenceIdeal.ReadP.val_main_v192, Cert.ReferenceIdeal.ReadP.val_main_v193, Cert.ReferenceIdeal.ReadP.val_main_cst_32, Cert.ReferenceIdeal.ReadP.val_main_v194, Cert.ReferenceIdeal.ReadP.val_main_v195, Cert.ReferenceIdeal.ReadP.val_main_v196, Cert.ReferenceIdeal.ReadP.val_main_v197, Cert.ReferenceIdeal.ReadP.val_main_v198, Cert.ReferenceIdeal.ReadP.val_main_v199, Cert.ReferenceIdeal.ReadP.val_main_v200]
  all_goals try rfl

theorem segE_v200 (W : Valuation τ sig (Elt F)) (h_v114 : W (Proc.devRef .tc main_v114) = (Cert.ReferenceIdeal.ReadP.val_main_v114 (F := F) x0 x1 x3 x4)) (h_v157 : W (Proc.devRef .tc main_v157) = (Cert.ReferenceIdeal.ReadP.val_main_v157 (F := F) x0 x1 x3 x4)) (h_arg4 : W (Proc.devRef .tc main_arg4) = x4) (h_v27 : W (Proc.devRef .tc main_v27) = (Cert.ReferenceIdeal.ReadP.val_main_v27 (F := F) x1 x3)) (h_v1 : W (Proc.devRef .tc main_v1) = (Cert.ReferenceIdeal.ReadP.val_main_v1 (F := F) x1)) (h_v3 : W (Proc.devRef .tc main_v3) = (Cert.ReferenceIdeal.ReadP.val_main_v3 (F := F) x1)) :
    after segE W (Proc.devRef .tc main_v200) = (Cert.ReferenceIdeal.ReadP.val_main_v200 (F := F) x0 x1 x3 x4) := by
  after_results_simp
  all_goals try simp only [h_v114, h_v157, h_arg4, h_v27, h_v1, h_v3]
  all_goals try rw [h_v114]
  all_goals try rw [h_v157]
  all_goals try rw [h_arg4]
  all_goals try rw [h_v27]
  all_goals try rw [h_v1]
  all_goals try rw [h_v3]
  all_goals try simp only [Cert.ReferenceIdeal.ReadP.val_main_v158, Cert.ReferenceIdeal.ReadP.val_main_v159, Cert.ReferenceIdeal.ReadP.val_main_v160, Cert.ReferenceIdeal.ReadP.val_main_v161, Cert.ReferenceIdeal.ReadP.val_main_c_26, Cert.ReferenceIdeal.ReadP.val_main_v162, Cert.ReferenceIdeal.ReadP.val_main_v163, Cert.ReferenceIdeal.ReadP.val_main_c_27, Cert.ReferenceIdeal.ReadP.val_main_v164, Cert.ReferenceIdeal.ReadP.val_main_v165, Cert.ReferenceIdeal.ReadP.val_main_v166, Cert.ReferenceIdeal.ReadP.val_main_v167, Cert.ReferenceIdeal.ReadP.val_main_v168, Cert.ReferenceIdeal.ReadP.val_main_v169, Cert.ReferenceIdeal.ReadP.val_main_v170, Cert.ReferenceIdeal.ReadP.val_main_cst_28, Cert.ReferenceIdeal.ReadP.val_main_v171, Cert.ReferenceIdeal.ReadP.val_main_v172, Cert.ReferenceIdeal.ReadP.val_main_v173, Cert.ReferenceIdeal.ReadP.val_main_v174, Cert.ReferenceIdeal.ReadP.val_main_v175, Cert.ReferenceIdeal.ReadP.val_main_v176, Cert.ReferenceIdeal.ReadP.val_main_v177, Cert.ReferenceIdeal.ReadP.val_main_v178, Cert.ReferenceIdeal.ReadP.val_main_v179, Cert.ReferenceIdeal.ReadP.val_main_v180, Cert.ReferenceIdeal.ReadP.val_main_v181, Cert.ReferenceIdeal.ReadP.val_main_c_29, Cert.ReferenceIdeal.ReadP.val_main_v182, Cert.ReferenceIdeal.ReadP.val_main_v183, Cert.ReferenceIdeal.ReadP.val_main_c_30, Cert.ReferenceIdeal.ReadP.val_main_v184, Cert.ReferenceIdeal.ReadP.val_main_v185, Cert.ReferenceIdeal.ReadP.val_main_v186, Cert.ReferenceIdeal.ReadP.val_main_v187, Cert.ReferenceIdeal.ReadP.val_main_v188, Cert.ReferenceIdeal.ReadP.val_main_v189, Cert.ReferenceIdeal.ReadP.val_main_v190, Cert.ReferenceIdeal.ReadP.val_main_cst_31, Cert.ReferenceIdeal.ReadP.val_main_v191, Cert.ReferenceIdeal.ReadP.val_main_v192, Cert.ReferenceIdeal.ReadP.val_main_v193, Cert.ReferenceIdeal.ReadP.val_main_cst_32, Cert.ReferenceIdeal.ReadP.val_main_v194, Cert.ReferenceIdeal.ReadP.val_main_v195, Cert.ReferenceIdeal.ReadP.val_main_v196, Cert.ReferenceIdeal.ReadP.val_main_v197, Cert.ReferenceIdeal.ReadP.val_main_v198, Cert.ReferenceIdeal.ReadP.val_main_v199, Cert.ReferenceIdeal.ReadP.val_main_v200]
  all_goals try rfl
theorem segE_keeps_arg5 (W : Valuation τ sig (Elt F)) : after segE W (Proc.devRef .tc main_arg5) = W (Proc.devRef .tc main_arg5) := by after_results_simp
theorem segE_keeps_arg6 (W : Valuation τ sig (Elt F)) : after segE W (Proc.devRef .tc main_arg6) = W (Proc.devRef .tc main_arg6) := by after_results_simp
theorem segE_keeps_arg9 (W : Valuation τ sig (Elt F)) : after segE W (Proc.devRef .tc main_arg9) = W (Proc.devRef .tc main_arg9) := by after_results_simp
theorem segE_keeps_arg10 (W : Valuation τ sig (Elt F)) : after segE W (Proc.devRef .tc main_arg10) = W (Proc.devRef .tc main_arg10) := by after_results_simp
theorem segE_keeps_arg7 (W : Valuation τ sig (Elt F)) : after segE W (Proc.devRef .tc main_arg7) = W (Proc.devRef .tc main_arg7) := by after_results_simp
theorem segE_keeps_arg8 (W : Valuation τ sig (Elt F)) : after segE W (Proc.devRef .tc main_arg8) = W (Proc.devRef .tc main_arg8) := by after_results_simp
theorem segE_keeps_arg11 (W : Valuation τ sig (Elt F)) : after segE W (Proc.devRef .tc main_arg11) = W (Proc.devRef .tc main_arg11) := by after_results_simp
theorem segE_keeps_arg12 (W : Valuation τ sig (Elt F)) : after segE W (Proc.devRef .tc main_arg12) = W (Proc.devRef .tc main_arg12) := by after_results_simp

/-! ## Operations 244 … 246 -/

theorem segR4_v201 (W : Valuation τ sig (Elt F)) (h_v200 : W (Proc.devRef .tc main_v200) = (Cert.ReferenceIdeal.ReadP.val_main_v200 (F := F) x0 x1 x3 x4)) :
    after segR4 W (Proc.devRef .tc main_v201) = (Cert.ReferenceIdeal.ReadP.val_main_v201 (F := F) x0 x1 x3 x4) := by
  after_results_simp
  all_goals try simp only [Cert.RefCasts.toBuf_cst_1, Cert.RefCasts.ofBuf_cst_1, Cert.RefCasts.toBuf_call0_v0, Cert.RefCasts.ofBuf_call0_v0, Cert.RefCasts.toBuf_call0_v1, Cert.RefCasts.ofBuf_call0_v1, Cert.RefCasts.toBuf_v8, Cert.RefCasts.ofBuf_v8, Cert.RefCasts.toBuf_v9, Cert.RefCasts.ofBuf_v9, Cert.RefCasts.toBuf_v10, Cert.RefCasts.ofBuf_v10, Cert.RefCasts.toBuf_call1_cst, Cert.RefCasts.ofBuf_call1_cst, Cert.RefCasts.toBuf_call1_v0, Cert.RefCasts.ofBuf_call1_v0, Cert.RefCasts.toBuf_v69, Cert.RefCasts.ofBuf_v69, Cert.RefCasts.toBuf_v70, Cert.RefCasts.ofBuf_v70, Cert.RefCasts.toBuf_call2_cst, Cert.RefCasts.ofBuf_call2_cst, Cert.RefCasts.toBuf_call2_v0, Cert.RefCasts.ofBuf_call2_v0, Cert.RefCasts.toBuf_v112, Cert.RefCasts.ofBuf_v112, Cert.RefCasts.toBuf_v113, Cert.RefCasts.ofBuf_v113, Cert.RefCasts.toBuf_call3_cst, Cert.RefCasts.ofBuf_call3_cst, Cert.RefCasts.toBuf_call3_v0, Cert.RefCasts.ofBuf_call3_v0, Cert.RefCasts.toBuf_v156, Cert.RefCasts.ofBuf_v156, Cert.RefCasts.toBuf_v157, Cert.RefCasts.ofBuf_v157, Cert.RefCasts.toBuf_call4_cst, Cert.RefCasts.ofBuf_call4_cst, Cert.RefCasts.toBuf_call4_v0, Cert.RefCasts.ofBuf_call4_v0, Cert.RefCasts.toBuf_v200, Cert.RefCasts.ofBuf_v200, Cert.RefCasts.toBuf_v201, Cert.RefCasts.ofBuf_v201, Cert.RefCasts.toBuf_call5_cst, Cert.RefCasts.ofBuf_call5_cst, Cert.RefCasts.toBuf_call5_v0, Cert.RefCasts.ofBuf_call5_v0, Cert.RefCasts.toBuf_v206, Cert.RefCasts.ofBuf_v206, Cert.RefCasts.toBuf_v207, Cert.RefCasts.ofBuf_v207]
  all_goals try simp only [h_v200]
  all_goals try rw [h_v200]
  all_goals try simp only [Cert.ReferenceIdeal.ReadP.val_main_call4_cst, Cert.ReferenceIdeal.ReadP.val_main_call4_v0, Cert.ReferenceIdeal.ReadP.val_main_v201]
  all_goals try rfl
theorem segR4_keeps_v158 (W : Valuation τ sig (Elt F)) : after segR4 W (Proc.devRef .tc main_v158) = W (Proc.devRef .tc main_v158) := by after_results_simp
theorem segR4_keeps_arg5 (W : Valuation τ sig (Elt F)) : after segR4 W (Proc.devRef .tc main_arg5) = W (Proc.devRef .tc main_arg5) := by after_results_simp
theorem segR4_keeps_arg6 (W : Valuation τ sig (Elt F)) : after segR4 W (Proc.devRef .tc main_arg6) = W (Proc.devRef .tc main_arg6) := by after_results_simp
theorem segR4_keeps_arg9 (W : Valuation τ sig (Elt F)) : after segR4 W (Proc.devRef .tc main_arg9) = W (Proc.devRef .tc main_arg9) := by after_results_simp
theorem segR4_keeps_arg10 (W : Valuation τ sig (Elt F)) : after segR4 W (Proc.devRef .tc main_arg10) = W (Proc.devRef .tc main_arg10) := by after_results_simp
theorem segR4_keeps_arg7 (W : Valuation τ sig (Elt F)) : after segR4 W (Proc.devRef .tc main_arg7) = W (Proc.devRef .tc main_arg7) := by after_results_simp
theorem segR4_keeps_arg8 (W : Valuation τ sig (Elt F)) : after segR4 W (Proc.devRef .tc main_arg8) = W (Proc.devRef .tc main_arg8) := by after_results_simp
theorem segR4_keeps_arg11 (W : Valuation τ sig (Elt F)) : after segR4 W (Proc.devRef .tc main_arg11) = W (Proc.devRef .tc main_arg11) := by after_results_simp
theorem segR4_keeps_arg12 (W : Valuation τ sig (Elt F)) : after segR4 W (Proc.devRef .tc main_arg12) = W (Proc.devRef .tc main_arg12) := by after_results_simp

/-! ## Operations 247 … 251 -/

theorem segF_v206 (W : Valuation τ sig (Elt F)) (h_v158 : W (Proc.devRef .tc main_v158) = (Cert.ReferenceIdeal.ReadP.val_main_v158 (F := F) x0 x1 x3 x4)) (h_v201 : W (Proc.devRef .tc main_v201) = (Cert.ReferenceIdeal.ReadP.val_main_v201 (F := F) x0 x1 x3 x4)) (h_arg5 : W (Proc.devRef .tc main_arg5) = x5) (h_arg6 : W (Proc.devRef .tc main_arg6) = x6) :
    after segF W (Proc.devRef .tc main_v206) = (Cert.ReferenceIdeal.ReadP.val_main_v206 (F := F) x0 x1 x3 x4 x5 x6) := by
  after_results_simp
  all_goals try simp only [h_v158, h_v201, h_arg5, h_arg6]
  all_goals try rw [h_v158]
  all_goals try rw [h_v201]
  all_goals try rw [h_arg5]
  all_goals try rw [h_arg6]
  all_goals try simp only [Cert.ReferenceIdeal.ReadP.val_main_v202, Cert.ReferenceIdeal.ReadP.val_main_v203, Cert.ReferenceIdeal.ReadP.val_main_v204, Cert.ReferenceIdeal.ReadP.val_main_v205, Cert.ReferenceIdeal.ReadP.val_main_v206]
  all_goals try rfl
theorem segF_keeps_arg9 (W : Valuation τ sig (Elt F)) : after segF W (Proc.devRef .tc main_arg9) = W (Proc.devRef .tc main_arg9) := by after_results_simp
theorem segF_keeps_arg10 (W : Valuation τ sig (Elt F)) : after segF W (Proc.devRef .tc main_arg10) = W (Proc.devRef .tc main_arg10) := by after_results_simp
theorem segF_keeps_arg7 (W : Valuation τ sig (Elt F)) : after segF W (Proc.devRef .tc main_arg7) = W (Proc.devRef .tc main_arg7) := by after_results_simp
theorem segF_keeps_arg8 (W : Valuation τ sig (Elt F)) : after segF W (Proc.devRef .tc main_arg8) = W (Proc.devRef .tc main_arg8) := by after_results_simp
theorem segF_keeps_arg11 (W : Valuation τ sig (Elt F)) : after segF W (Proc.devRef .tc main_arg11) = W (Proc.devRef .tc main_arg11) := by after_results_simp
theorem segF_keeps_arg12 (W : Valuation τ sig (Elt F)) : after segF W (Proc.devRef .tc main_arg12) = W (Proc.devRef .tc main_arg12) := by after_results_simp

/-! ## Operations 252 … 254 -/

theorem segR5_v207 (W : Valuation τ sig (Elt F)) (h_v206 : W (Proc.devRef .tc main_v206) = (Cert.ReferenceIdeal.ReadP.val_main_v206 (F := F) x0 x1 x3 x4 x5 x6)) :
    after segR5 W (Proc.devRef .tc main_v207) = (Cert.ReferenceIdeal.ReadP.val_main_v207 (F := F) x0 x1 x3 x4 x5 x6) := by
  after_results_simp
  all_goals try simp only [Cert.RefCasts.toBuf_cst_1, Cert.RefCasts.ofBuf_cst_1, Cert.RefCasts.toBuf_call0_v0, Cert.RefCasts.ofBuf_call0_v0, Cert.RefCasts.toBuf_call0_v1, Cert.RefCasts.ofBuf_call0_v1, Cert.RefCasts.toBuf_v8, Cert.RefCasts.ofBuf_v8, Cert.RefCasts.toBuf_v9, Cert.RefCasts.ofBuf_v9, Cert.RefCasts.toBuf_v10, Cert.RefCasts.ofBuf_v10, Cert.RefCasts.toBuf_call1_cst, Cert.RefCasts.ofBuf_call1_cst, Cert.RefCasts.toBuf_call1_v0, Cert.RefCasts.ofBuf_call1_v0, Cert.RefCasts.toBuf_v69, Cert.RefCasts.ofBuf_v69, Cert.RefCasts.toBuf_v70, Cert.RefCasts.ofBuf_v70, Cert.RefCasts.toBuf_call2_cst, Cert.RefCasts.ofBuf_call2_cst, Cert.RefCasts.toBuf_call2_v0, Cert.RefCasts.ofBuf_call2_v0, Cert.RefCasts.toBuf_v112, Cert.RefCasts.ofBuf_v112, Cert.RefCasts.toBuf_v113, Cert.RefCasts.ofBuf_v113, Cert.RefCasts.toBuf_call3_cst, Cert.RefCasts.ofBuf_call3_cst, Cert.RefCasts.toBuf_call3_v0, Cert.RefCasts.ofBuf_call3_v0, Cert.RefCasts.toBuf_v156, Cert.RefCasts.ofBuf_v156, Cert.RefCasts.toBuf_v157, Cert.RefCasts.ofBuf_v157, Cert.RefCasts.toBuf_call4_cst, Cert.RefCasts.ofBuf_call4_cst, Cert.RefCasts.toBuf_call4_v0, Cert.RefCasts.ofBuf_call4_v0, Cert.RefCasts.toBuf_v200, Cert.RefCasts.ofBuf_v200, Cert.RefCasts.toBuf_v201, Cert.RefCasts.ofBuf_v201, Cert.RefCasts.toBuf_call5_cst, Cert.RefCasts.ofBuf_call5_cst, Cert.RefCasts.toBuf_call5_v0, Cert.RefCasts.ofBuf_call5_v0, Cert.RefCasts.toBuf_v206, Cert.RefCasts.ofBuf_v206, Cert.RefCasts.toBuf_v207, Cert.RefCasts.ofBuf_v207]
  all_goals try simp only [h_v206]
  all_goals try rw [h_v206]
  all_goals try simp only [Cert.ReferenceIdeal.ReadP.val_main_call5_cst, Cert.ReferenceIdeal.ReadP.val_main_call5_v0, Cert.ReferenceIdeal.ReadP.val_main_v207]
  all_goals try rfl
theorem segR5_keeps_arg9 (W : Valuation τ sig (Elt F)) : after segR5 W (Proc.devRef .tc main_arg9) = W (Proc.devRef .tc main_arg9) := by after_results_simp
theorem segR5_keeps_arg10 (W : Valuation τ sig (Elt F)) : after segR5 W (Proc.devRef .tc main_arg10) = W (Proc.devRef .tc main_arg10) := by after_results_simp
theorem segR5_keeps_arg7 (W : Valuation τ sig (Elt F)) : after segR5 W (Proc.devRef .tc main_arg7) = W (Proc.devRef .tc main_arg7) := by after_results_simp
theorem segR5_keeps_arg8 (W : Valuation τ sig (Elt F)) : after segR5 W (Proc.devRef .tc main_arg8) = W (Proc.devRef .tc main_arg8) := by after_results_simp
theorem segR5_keeps_arg11 (W : Valuation τ sig (Elt F)) : after segR5 W (Proc.devRef .tc main_arg11) = W (Proc.devRef .tc main_arg11) := by after_results_simp
theorem segR5_keeps_arg12 (W : Valuation τ sig (Elt F)) : after segR5 W (Proc.devRef .tc main_arg12) = W (Proc.devRef .tc main_arg12) := by after_results_simp

/-! ## Operations 255 … 272 -/

theorem segG_v224 (W : Valuation τ sig (Elt F)) (h_arg9 : W (Proc.devRef .tc main_arg9) = x9) (h_v207 : W (Proc.devRef .tc main_v207) = (Cert.ReferenceIdeal.ReadP.val_main_v207 (F := F) x0 x1 x3 x4 x5 x6)) (h_arg10 : W (Proc.devRef .tc main_arg10) = x10) (h_arg7 : W (Proc.devRef .tc main_arg7) = x7) (h_arg8 : W (Proc.devRef .tc main_arg8) = x8) (h_arg11 : W (Proc.devRef .tc main_arg11) = x11) (h_arg12 : W (Proc.devRef .tc main_arg12) = x12) :
    after segG W (Proc.devRef .tc main_v224) = (Cert.ReferenceIdeal.ReadP.val_main_v224 (F := F) x0 x1 x3 x4 x5 x6 x7 x8 x9 x10 x11 x12) := by
  after_results_simp
  all_goals try simp only [h_arg9, h_v207, h_arg10, h_arg7, h_arg8, h_arg11, h_arg12]
  all_goals try rw [h_arg9]
  all_goals try rw [h_v207]
  all_goals try rw [h_arg10]
  all_goals try rw [h_arg7]
  all_goals try rw [h_arg8]
  all_goals try rw [h_arg11]
  all_goals try rw [h_arg12]
  all_goals try simp only [Cert.ReferenceIdeal.ReadP.val_main_v208, Cert.ReferenceIdeal.ReadP.val_main_v209, Cert.ReferenceIdeal.ReadP.val_main_v210, Cert.ReferenceIdeal.ReadP.val_main_cst_33, Cert.ReferenceIdeal.ReadP.val_main_v211, Cert.ReferenceIdeal.ReadP.val_main_v212, Cert.ReferenceIdeal.ReadP.val_main_v213, Cert.ReferenceIdeal.ReadP.val_main_v214, Cert.ReferenceIdeal.ReadP.val_main_v215, Cert.ReferenceIdeal.ReadP.val_main_v216, Cert.ReferenceIdeal.ReadP.val_main_v217, Cert.ReferenceIdeal.ReadP.val_main_v218, Cert.ReferenceIdeal.ReadP.val_main_v219, Cert.ReferenceIdeal.ReadP.val_main_v220, Cert.ReferenceIdeal.ReadP.val_main_v221, Cert.ReferenceIdeal.ReadP.val_main_v222, Cert.ReferenceIdeal.ReadP.val_main_v223, Cert.ReferenceIdeal.ReadP.val_main_v224]
  all_goals try rfl

/-! ## The boundaries, in order -/

abbrev V1 (W : Valuation τ sig (Elt F)) : Valuation τ sig (Elt F) := after segA W
abbrev V2 (W : Valuation τ sig (Elt F)) : Valuation τ sig (Elt F) := after segW (V1 W)
abbrev V3 (W : Valuation τ sig (Elt F)) : Valuation τ sig (Elt F) := after segB (V2 W)
abbrev V4 (W : Valuation τ sig (Elt F)) : Valuation τ sig (Elt F) := after segR1 (V3 W)
abbrev V5 (W : Valuation τ sig (Elt F)) : Valuation τ sig (Elt F) := after segC (V4 W)
abbrev V6 (W : Valuation τ sig (Elt F)) : Valuation τ sig (Elt F) := after segR2 (V5 W)
abbrev V7 (W : Valuation τ sig (Elt F)) : Valuation τ sig (Elt F) := after segD (V6 W)
abbrev V8 (W : Valuation τ sig (Elt F)) : Valuation τ sig (Elt F) := after segR3 (V7 W)
abbrev V9 (W : Valuation τ sig (Elt F)) : Valuation τ sig (Elt F) := after segE (V8 W)
abbrev V10 (W : Valuation τ sig (Elt F)) : Valuation τ sig (Elt F) := after segR4 (V9 W)
abbrev V11 (W : Valuation τ sig (Elt F)) : Valuation τ sig (Elt F) := after segF (V10 W)
abbrev V12 (W : Valuation τ sig (Elt F)) : Valuation τ sig (Elt F) := after segR5 (V11 W)
abbrev V13 (W : Valuation τ sig (Elt F)) : Valuation τ sig (Elt F) := after segG (V12 W)

theorem at1_v1 (W : Valuation τ sig (Elt F)) (hA0 : W (Proc.devRef .tc main_arg0) = x0) (hA1 : W (Proc.devRef .tc main_arg1) = x1) (hA3 : W (Proc.devRef .tc main_arg3) = x3) (hA4 : W (Proc.devRef .tc main_arg4) = x4) (hA5 : W (Proc.devRef .tc main_arg5) = x5) (hA6 : W (Proc.devRef .tc main_arg6) = x6) (hA7 : W (Proc.devRef .tc main_arg7) = x7) (hA8 : W (Proc.devRef .tc main_arg8) = x8) (hA9 : W (Proc.devRef .tc main_arg9) = x9) (hA10 : W (Proc.devRef .tc main_arg10) = x10) (hA11 : W (Proc.devRef .tc main_arg11) = x11) (hA12 : W (Proc.devRef .tc main_arg12) = x12) : V1 W (Proc.devRef .tc main_v1) = (Cert.ReferenceIdeal.ReadP.val_main_v1 (F := F) x1) :=
  segA_v1 W hA1 hA3
theorem at1_v3 (W : Valuation τ sig (Elt F)) (hA0 : W (Proc.devRef .tc main_arg0) = x0) (hA1 : W (Proc.devRef .tc main_arg1) = x1) (hA3 : W (Proc.devRef .tc main_arg3) = x3) (hA4 : W (Proc.devRef .tc main_arg4) = x4) (hA5 : W (Proc.devRef .tc main_arg5) = x5) (hA6 : W (Proc.devRef .tc main_arg6) = x6) (hA7 : W (Proc.devRef .tc main_arg7) = x7) (hA8 : W (Proc.devRef .tc main_arg8) = x8) (hA9 : W (Proc.devRef .tc main_arg9) = x9) (hA10 : W (Proc.devRef .tc main_arg10) = x10) (hA11 : W (Proc.devRef .tc main_arg11) = x11) (hA12 : W (Proc.devRef .tc main_arg12) = x12) : V1 W (Proc.devRef .tc main_v3) = (Cert.ReferenceIdeal.ReadP.val_main_v3 (F := F) x1) :=
  segA_v3 W hA1 hA3
theorem at1_v8 (W : Valuation τ sig (Elt F)) (hA0 : W (Proc.devRef .tc main_arg0) = x0) (hA1 : W (Proc.devRef .tc main_arg1) = x1) (hA3 : W (Proc.devRef .tc main_arg3) = x3) (hA4 : W (Proc.devRef .tc main_arg4) = x4) (hA5 : W (Proc.devRef .tc main_arg5) = x5) (hA6 : W (Proc.devRef .tc main_arg6) = x6) (hA7 : W (Proc.devRef .tc main_arg7) = x7) (hA8 : W (Proc.devRef .tc main_arg8) = x8) (hA9 : W (Proc.devRef .tc main_arg9) = x9) (hA10 : W (Proc.devRef .tc main_arg10) = x10) (hA11 : W (Proc.devRef .tc main_arg11) = x11) (hA12 : W (Proc.devRef .tc main_arg12) = x12) : V1 W (Proc.devRef .tc main_v8) = (Cert.ReferenceIdeal.ReadP.val_main_v8 (F := F) x1 x3) :=
  segA_v8 W hA1 hA3
theorem at1_v9 (W : Valuation τ sig (Elt F)) (hA0 : W (Proc.devRef .tc main_arg0) = x0) (hA1 : W (Proc.devRef .tc main_arg1) = x1) (hA3 : W (Proc.devRef .tc main_arg3) = x3) (hA4 : W (Proc.devRef .tc main_arg4) = x4) (hA5 : W (Proc.devRef .tc main_arg5) = x5) (hA6 : W (Proc.devRef .tc main_arg6) = x6) (hA7 : W (Proc.devRef .tc main_arg7) = x7) (hA8 : W (Proc.devRef .tc main_arg8) = x8) (hA9 : W (Proc.devRef .tc main_arg9) = x9) (hA10 : W (Proc.devRef .tc main_arg10) = x10) (hA11 : W (Proc.devRef .tc main_arg11) = x11) (hA12 : W (Proc.devRef .tc main_arg12) = x12) : V1 W (Proc.devRef .tc main_v9) = (Cert.ReferenceIdeal.ReadP.val_main_v9 (F := F) x1 x3) :=
  segA_v9 W hA1 hA3
theorem at1_cst_1 (W : Valuation τ sig (Elt F)) (hA0 : W (Proc.devRef .tc main_arg0) = x0) (hA1 : W (Proc.devRef .tc main_arg1) = x1) (hA3 : W (Proc.devRef .tc main_arg3) = x3) (hA4 : W (Proc.devRef .tc main_arg4) = x4) (hA5 : W (Proc.devRef .tc main_arg5) = x5) (hA6 : W (Proc.devRef .tc main_arg6) = x6) (hA7 : W (Proc.devRef .tc main_arg7) = x7) (hA8 : W (Proc.devRef .tc main_arg8) = x8) (hA9 : W (Proc.devRef .tc main_arg9) = x9) (hA10 : W (Proc.devRef .tc main_arg10) = x10) (hA11 : W (Proc.devRef .tc main_arg11) = x11) (hA12 : W (Proc.devRef .tc main_arg12) = x12) : V1 W (Proc.devRef .tc main_cst_1) = (Cert.ReferenceIdeal.ReadP.val_main_cst_1 (F := F)) :=
  segA_cst_1 W hA1 hA3
theorem at1_arg3 (W : Valuation τ sig (Elt F)) (hA0 : W (Proc.devRef .tc main_arg0) = x0) (hA1 : W (Proc.devRef .tc main_arg1) = x1) (hA3 : W (Proc.devRef .tc main_arg3) = x3) (hA4 : W (Proc.devRef .tc main_arg4) = x4) (hA5 : W (Proc.devRef .tc main_arg5) = x5) (hA6 : W (Proc.devRef .tc main_arg6) = x6) (hA7 : W (Proc.devRef .tc main_arg7) = x7) (hA8 : W (Proc.devRef .tc main_arg8) = x8) (hA9 : W (Proc.devRef .tc main_arg9) = x9) (hA10 : W (Proc.devRef .tc main_arg10) = x10) (hA11 : W (Proc.devRef .tc main_arg11) = x11) (hA12 : W (Proc.devRef .tc main_arg12) = x12) : V1 W (Proc.devRef .tc main_arg3) = x3 :=
  (segA_keeps_arg3 W).trans hA3
theorem at1_arg4 (W : Valuation τ sig (Elt F)) (hA0 : W (Proc.devRef .tc main_arg0) = x0) (hA1 : W (Proc.devRef .tc main_arg1) = x1) (hA3 : W (Proc.devRef .tc main_arg3) = x3) (hA4 : W (Proc.devRef .tc main_arg4) = x4) (hA5 : W (Proc.devRef .tc main_arg5) = x5) (hA6 : W (Proc.devRef .tc main_arg6) = x6) (hA7 : W (Proc.devRef .tc main_arg7) = x7) (hA8 : W (Proc.devRef .tc main_arg8) = x8) (hA9 : W (Proc.devRef .tc main_arg9) = x9) (hA10 : W (Proc.devRef .tc main_arg10) = x10) (hA11 : W (Proc.devRef .tc main_arg11) = x11) (hA12 : W (Proc.devRef .tc main_arg12) = x12) : V1 W (Proc.devRef .tc main_arg4) = x4 :=
  (segA_keeps_arg4 W).trans hA4
theorem at1_arg0 (W : Valuation τ sig (Elt F)) (hA0 : W (Proc.devRef .tc main_arg0) = x0) (hA1 : W (Proc.devRef .tc main_arg1) = x1) (hA3 : W (Proc.devRef .tc main_arg3) = x3) (hA4 : W (Proc.devRef .tc main_arg4) = x4) (hA5 : W (Proc.devRef .tc main_arg5) = x5) (hA6 : W (Proc.devRef .tc main_arg6) = x6) (hA7 : W (Proc.devRef .tc main_arg7) = x7) (hA8 : W (Proc.devRef .tc main_arg8) = x8) (hA9 : W (Proc.devRef .tc main_arg9) = x9) (hA10 : W (Proc.devRef .tc main_arg10) = x10) (hA11 : W (Proc.devRef .tc main_arg11) = x11) (hA12 : W (Proc.devRef .tc main_arg12) = x12) : V1 W (Proc.devRef .tc main_arg0) = x0 :=
  (segA_keeps_arg0 W).trans hA0
theorem at1_arg5 (W : Valuation τ sig (Elt F)) (hA0 : W (Proc.devRef .tc main_arg0) = x0) (hA1 : W (Proc.devRef .tc main_arg1) = x1) (hA3 : W (Proc.devRef .tc main_arg3) = x3) (hA4 : W (Proc.devRef .tc main_arg4) = x4) (hA5 : W (Proc.devRef .tc main_arg5) = x5) (hA6 : W (Proc.devRef .tc main_arg6) = x6) (hA7 : W (Proc.devRef .tc main_arg7) = x7) (hA8 : W (Proc.devRef .tc main_arg8) = x8) (hA9 : W (Proc.devRef .tc main_arg9) = x9) (hA10 : W (Proc.devRef .tc main_arg10) = x10) (hA11 : W (Proc.devRef .tc main_arg11) = x11) (hA12 : W (Proc.devRef .tc main_arg12) = x12) : V1 W (Proc.devRef .tc main_arg5) = x5 :=
  (segA_keeps_arg5 W).trans hA5
theorem at1_arg6 (W : Valuation τ sig (Elt F)) (hA0 : W (Proc.devRef .tc main_arg0) = x0) (hA1 : W (Proc.devRef .tc main_arg1) = x1) (hA3 : W (Proc.devRef .tc main_arg3) = x3) (hA4 : W (Proc.devRef .tc main_arg4) = x4) (hA5 : W (Proc.devRef .tc main_arg5) = x5) (hA6 : W (Proc.devRef .tc main_arg6) = x6) (hA7 : W (Proc.devRef .tc main_arg7) = x7) (hA8 : W (Proc.devRef .tc main_arg8) = x8) (hA9 : W (Proc.devRef .tc main_arg9) = x9) (hA10 : W (Proc.devRef .tc main_arg10) = x10) (hA11 : W (Proc.devRef .tc main_arg11) = x11) (hA12 : W (Proc.devRef .tc main_arg12) = x12) : V1 W (Proc.devRef .tc main_arg6) = x6 :=
  (segA_keeps_arg6 W).trans hA6
theorem at1_arg9 (W : Valuation τ sig (Elt F)) (hA0 : W (Proc.devRef .tc main_arg0) = x0) (hA1 : W (Proc.devRef .tc main_arg1) = x1) (hA3 : W (Proc.devRef .tc main_arg3) = x3) (hA4 : W (Proc.devRef .tc main_arg4) = x4) (hA5 : W (Proc.devRef .tc main_arg5) = x5) (hA6 : W (Proc.devRef .tc main_arg6) = x6) (hA7 : W (Proc.devRef .tc main_arg7) = x7) (hA8 : W (Proc.devRef .tc main_arg8) = x8) (hA9 : W (Proc.devRef .tc main_arg9) = x9) (hA10 : W (Proc.devRef .tc main_arg10) = x10) (hA11 : W (Proc.devRef .tc main_arg11) = x11) (hA12 : W (Proc.devRef .tc main_arg12) = x12) : V1 W (Proc.devRef .tc main_arg9) = x9 :=
  (segA_keeps_arg9 W).trans hA9
theorem at1_arg10 (W : Valuation τ sig (Elt F)) (hA0 : W (Proc.devRef .tc main_arg0) = x0) (hA1 : W (Proc.devRef .tc main_arg1) = x1) (hA3 : W (Proc.devRef .tc main_arg3) = x3) (hA4 : W (Proc.devRef .tc main_arg4) = x4) (hA5 : W (Proc.devRef .tc main_arg5) = x5) (hA6 : W (Proc.devRef .tc main_arg6) = x6) (hA7 : W (Proc.devRef .tc main_arg7) = x7) (hA8 : W (Proc.devRef .tc main_arg8) = x8) (hA9 : W (Proc.devRef .tc main_arg9) = x9) (hA10 : W (Proc.devRef .tc main_arg10) = x10) (hA11 : W (Proc.devRef .tc main_arg11) = x11) (hA12 : W (Proc.devRef .tc main_arg12) = x12) : V1 W (Proc.devRef .tc main_arg10) = x10 :=
  (segA_keeps_arg10 W).trans hA10
theorem at1_arg7 (W : Valuation τ sig (Elt F)) (hA0 : W (Proc.devRef .tc main_arg0) = x0) (hA1 : W (Proc.devRef .tc main_arg1) = x1) (hA3 : W (Proc.devRef .tc main_arg3) = x3) (hA4 : W (Proc.devRef .tc main_arg4) = x4) (hA5 : W (Proc.devRef .tc main_arg5) = x5) (hA6 : W (Proc.devRef .tc main_arg6) = x6) (hA7 : W (Proc.devRef .tc main_arg7) = x7) (hA8 : W (Proc.devRef .tc main_arg8) = x8) (hA9 : W (Proc.devRef .tc main_arg9) = x9) (hA10 : W (Proc.devRef .tc main_arg10) = x10) (hA11 : W (Proc.devRef .tc main_arg11) = x11) (hA12 : W (Proc.devRef .tc main_arg12) = x12) : V1 W (Proc.devRef .tc main_arg7) = x7 :=
  (segA_keeps_arg7 W).trans hA7
theorem at1_arg8 (W : Valuation τ sig (Elt F)) (hA0 : W (Proc.devRef .tc main_arg0) = x0) (hA1 : W (Proc.devRef .tc main_arg1) = x1) (hA3 : W (Proc.devRef .tc main_arg3) = x3) (hA4 : W (Proc.devRef .tc main_arg4) = x4) (hA5 : W (Proc.devRef .tc main_arg5) = x5) (hA6 : W (Proc.devRef .tc main_arg6) = x6) (hA7 : W (Proc.devRef .tc main_arg7) = x7) (hA8 : W (Proc.devRef .tc main_arg8) = x8) (hA9 : W (Proc.devRef .tc main_arg9) = x9) (hA10 : W (Proc.devRef .tc main_arg10) = x10) (hA11 : W (Proc.devRef .tc main_arg11) = x11) (hA12 : W (Proc.devRef .tc main_arg12) = x12) : V1 W (Proc.devRef .tc main_arg8) = x8 :=
  (segA_keeps_arg8 W).trans hA8
theorem at1_arg11 (W : Valuation τ sig (Elt F)) (hA0 : W (Proc.devRef .tc main_arg0) = x0) (hA1 : W (Proc.devRef .tc main_arg1) = x1) (hA3 : W (Proc.devRef .tc main_arg3) = x3) (hA4 : W (Proc.devRef .tc main_arg4) = x4) (hA5 : W (Proc.devRef .tc main_arg5) = x5) (hA6 : W (Proc.devRef .tc main_arg6) = x6) (hA7 : W (Proc.devRef .tc main_arg7) = x7) (hA8 : W (Proc.devRef .tc main_arg8) = x8) (hA9 : W (Proc.devRef .tc main_arg9) = x9) (hA10 : W (Proc.devRef .tc main_arg10) = x10) (hA11 : W (Proc.devRef .tc main_arg11) = x11) (hA12 : W (Proc.devRef .tc main_arg12) = x12) : V1 W (Proc.devRef .tc main_arg11) = x11 :=
  (segA_keeps_arg11 W).trans hA11
theorem at1_arg12 (W : Valuation τ sig (Elt F)) (hA0 : W (Proc.devRef .tc main_arg0) = x0) (hA1 : W (Proc.devRef .tc main_arg1) = x1) (hA3 : W (Proc.devRef .tc main_arg3) = x3) (hA4 : W (Proc.devRef .tc main_arg4) = x4) (hA5 : W (Proc.devRef .tc main_arg5) = x5) (hA6 : W (Proc.devRef .tc main_arg6) = x6) (hA7 : W (Proc.devRef .tc main_arg7) = x7) (hA8 : W (Proc.devRef .tc main_arg8) = x8) (hA9 : W (Proc.devRef .tc main_arg9) = x9) (hA10 : W (Proc.devRef .tc main_arg10) = x10) (hA11 : W (Proc.devRef .tc main_arg11) = x11) (hA12 : W (Proc.devRef .tc main_arg12) = x12) : V1 W (Proc.devRef .tc main_arg12) = x12 :=
  (segA_keeps_arg12 W).trans hA12
theorem at2_v10 (W : Valuation τ sig (Elt F)) (hA0 : W (Proc.devRef .tc main_arg0) = x0) (hA1 : W (Proc.devRef .tc main_arg1) = x1) (hA3 : W (Proc.devRef .tc main_arg3) = x3) (hA4 : W (Proc.devRef .tc main_arg4) = x4) (hA5 : W (Proc.devRef .tc main_arg5) = x5) (hA6 : W (Proc.devRef .tc main_arg6) = x6) (hA7 : W (Proc.devRef .tc main_arg7) = x7) (hA8 : W (Proc.devRef .tc main_arg8) = x8) (hA9 : W (Proc.devRef .tc main_arg9) = x9) (hA10 : W (Proc.devRef .tc main_arg10) = x10) (hA11 : W (Proc.devRef .tc main_arg11) = x11) (hA12 : W (Proc.devRef .tc main_arg12) = x12) : V2 W (Proc.devRef .tc main_v10) = (Cert.ReferenceIdeal.ReadP.val_main_v10 (F := F) x1 x3) :=
  segW_v10 (V1 W) (at1_cst_1 W hA0 hA1 hA3 hA4 hA5 hA6 hA7 hA8 hA9 hA10 hA11 hA12) (at1_v8 W hA0 hA1 hA3 hA4 hA5 hA6 hA7 hA8 hA9 hA10 hA11 hA12) (at1_v9 W hA0 hA1 hA3 hA4 hA5 hA6 hA7 hA8 hA9 hA10 hA11 hA12)
theorem at2_v1 (W : Valuation τ sig (Elt F)) (hA0 : W (Proc.devRef .tc main_arg0) = x0) (hA1 : W (Proc.devRef .tc main_arg1) = x1) (hA3 : W (Proc.devRef .tc main_arg3) = x3) (hA4 : W (Proc.devRef .tc main_arg4) = x4) (hA5 : W (Proc.devRef .tc main_arg5) = x5) (hA6 : W (Proc.devRef .tc main_arg6) = x6) (hA7 : W (Proc.devRef .tc main_arg7) = x7) (hA8 : W (Proc.devRef .tc main_arg8) = x8) (hA9 : W (Proc.devRef .tc main_arg9) = x9) (hA10 : W (Proc.devRef .tc main_arg10) = x10) (hA11 : W (Proc.devRef .tc main_arg11) = x11) (hA12 : W (Proc.devRef .tc main_arg12) = x12) : V2 W (Proc.devRef .tc main_v1) = (Cert.ReferenceIdeal.ReadP.val_main_v1 (F := F) x1) :=
  (segW_keeps_v1 (V1 W)).trans (at1_v1 W hA0 hA1 hA3 hA4 hA5 hA6 hA7 hA8 hA9 hA10 hA11 hA12)
theorem at2_arg3 (W : Valuation τ sig (Elt F)) (hA0 : W (Proc.devRef .tc main_arg0) = x0) (hA1 : W (Proc.devRef .tc main_arg1) = x1) (hA3 : W (Proc.devRef .tc main_arg3) = x3) (hA4 : W (Proc.devRef .tc main_arg4) = x4) (hA5 : W (Proc.devRef .tc main_arg5) = x5) (hA6 : W (Proc.devRef .tc main_arg6) = x6) (hA7 : W (Proc.devRef .tc main_arg7) = x7) (hA8 : W (Proc.devRef .tc main_arg8) = x8) (hA9 : W (Proc.devRef .tc main_arg9) = x9) (hA10 : W (Proc.devRef .tc main_arg10) = x10) (hA11 : W (Proc.devRef .tc main_arg11) = x11) (hA12 : W (Proc.devRef .tc main_arg12) = x12) : V2 W (Proc.devRef .tc main_arg3) = x3 :=
  (segW_keeps_arg3 (V1 W)).trans (at1_arg3 W hA0 hA1 hA3 hA4 hA5 hA6 hA7 hA8 hA9 hA10 hA11 hA12)
theorem at2_v3 (W : Valuation τ sig (Elt F)) (hA0 : W (Proc.devRef .tc main_arg0) = x0) (hA1 : W (Proc.devRef .tc main_arg1) = x1) (hA3 : W (Proc.devRef .tc main_arg3) = x3) (hA4 : W (Proc.devRef .tc main_arg4) = x4) (hA5 : W (Proc.devRef .tc main_arg5) = x5) (hA6 : W (Proc.devRef .tc main_arg6) = x6) (hA7 : W (Proc.devRef .tc main_arg7) = x7) (hA8 : W (Proc.devRef .tc main_arg8) = x8) (hA9 : W (Proc.devRef .tc main_arg9) = x9) (hA10 : W (Proc.devRef .tc main_arg10) = x10) (hA11 : W (Proc.devRef .tc main_arg11) = x11) (hA12 : W (Proc.devRef .tc main_arg12) = x12) : V2 W (Proc.devRef .tc main_v3) = (Cert.ReferenceIdeal.ReadP.val_main_v3 (F := F) x1) :=
  (segW_keeps_v3 (V1 W)).trans (at1_v3 W hA0 hA1 hA3 hA4 hA5 hA6 hA7 hA8 hA9 hA10 hA11 hA12)
theorem at2_arg4 (W : Valuation τ sig (Elt F)) (hA0 : W (Proc.devRef .tc main_arg0) = x0) (hA1 : W (Proc.devRef .tc main_arg1) = x1) (hA3 : W (Proc.devRef .tc main_arg3) = x3) (hA4 : W (Proc.devRef .tc main_arg4) = x4) (hA5 : W (Proc.devRef .tc main_arg5) = x5) (hA6 : W (Proc.devRef .tc main_arg6) = x6) (hA7 : W (Proc.devRef .tc main_arg7) = x7) (hA8 : W (Proc.devRef .tc main_arg8) = x8) (hA9 : W (Proc.devRef .tc main_arg9) = x9) (hA10 : W (Proc.devRef .tc main_arg10) = x10) (hA11 : W (Proc.devRef .tc main_arg11) = x11) (hA12 : W (Proc.devRef .tc main_arg12) = x12) : V2 W (Proc.devRef .tc main_arg4) = x4 :=
  (segW_keeps_arg4 (V1 W)).trans (at1_arg4 W hA0 hA1 hA3 hA4 hA5 hA6 hA7 hA8 hA9 hA10 hA11 hA12)
theorem at2_arg0 (W : Valuation τ sig (Elt F)) (hA0 : W (Proc.devRef .tc main_arg0) = x0) (hA1 : W (Proc.devRef .tc main_arg1) = x1) (hA3 : W (Proc.devRef .tc main_arg3) = x3) (hA4 : W (Proc.devRef .tc main_arg4) = x4) (hA5 : W (Proc.devRef .tc main_arg5) = x5) (hA6 : W (Proc.devRef .tc main_arg6) = x6) (hA7 : W (Proc.devRef .tc main_arg7) = x7) (hA8 : W (Proc.devRef .tc main_arg8) = x8) (hA9 : W (Proc.devRef .tc main_arg9) = x9) (hA10 : W (Proc.devRef .tc main_arg10) = x10) (hA11 : W (Proc.devRef .tc main_arg11) = x11) (hA12 : W (Proc.devRef .tc main_arg12) = x12) : V2 W (Proc.devRef .tc main_arg0) = x0 :=
  (segW_keeps_arg0 (V1 W)).trans (at1_arg0 W hA0 hA1 hA3 hA4 hA5 hA6 hA7 hA8 hA9 hA10 hA11 hA12)
theorem at2_arg5 (W : Valuation τ sig (Elt F)) (hA0 : W (Proc.devRef .tc main_arg0) = x0) (hA1 : W (Proc.devRef .tc main_arg1) = x1) (hA3 : W (Proc.devRef .tc main_arg3) = x3) (hA4 : W (Proc.devRef .tc main_arg4) = x4) (hA5 : W (Proc.devRef .tc main_arg5) = x5) (hA6 : W (Proc.devRef .tc main_arg6) = x6) (hA7 : W (Proc.devRef .tc main_arg7) = x7) (hA8 : W (Proc.devRef .tc main_arg8) = x8) (hA9 : W (Proc.devRef .tc main_arg9) = x9) (hA10 : W (Proc.devRef .tc main_arg10) = x10) (hA11 : W (Proc.devRef .tc main_arg11) = x11) (hA12 : W (Proc.devRef .tc main_arg12) = x12) : V2 W (Proc.devRef .tc main_arg5) = x5 :=
  (segW_keeps_arg5 (V1 W)).trans (at1_arg5 W hA0 hA1 hA3 hA4 hA5 hA6 hA7 hA8 hA9 hA10 hA11 hA12)
theorem at2_arg6 (W : Valuation τ sig (Elt F)) (hA0 : W (Proc.devRef .tc main_arg0) = x0) (hA1 : W (Proc.devRef .tc main_arg1) = x1) (hA3 : W (Proc.devRef .tc main_arg3) = x3) (hA4 : W (Proc.devRef .tc main_arg4) = x4) (hA5 : W (Proc.devRef .tc main_arg5) = x5) (hA6 : W (Proc.devRef .tc main_arg6) = x6) (hA7 : W (Proc.devRef .tc main_arg7) = x7) (hA8 : W (Proc.devRef .tc main_arg8) = x8) (hA9 : W (Proc.devRef .tc main_arg9) = x9) (hA10 : W (Proc.devRef .tc main_arg10) = x10) (hA11 : W (Proc.devRef .tc main_arg11) = x11) (hA12 : W (Proc.devRef .tc main_arg12) = x12) : V2 W (Proc.devRef .tc main_arg6) = x6 :=
  (segW_keeps_arg6 (V1 W)).trans (at1_arg6 W hA0 hA1 hA3 hA4 hA5 hA6 hA7 hA8 hA9 hA10 hA11 hA12)
theorem at2_arg9 (W : Valuation τ sig (Elt F)) (hA0 : W (Proc.devRef .tc main_arg0) = x0) (hA1 : W (Proc.devRef .tc main_arg1) = x1) (hA3 : W (Proc.devRef .tc main_arg3) = x3) (hA4 : W (Proc.devRef .tc main_arg4) = x4) (hA5 : W (Proc.devRef .tc main_arg5) = x5) (hA6 : W (Proc.devRef .tc main_arg6) = x6) (hA7 : W (Proc.devRef .tc main_arg7) = x7) (hA8 : W (Proc.devRef .tc main_arg8) = x8) (hA9 : W (Proc.devRef .tc main_arg9) = x9) (hA10 : W (Proc.devRef .tc main_arg10) = x10) (hA11 : W (Proc.devRef .tc main_arg11) = x11) (hA12 : W (Proc.devRef .tc main_arg12) = x12) : V2 W (Proc.devRef .tc main_arg9) = x9 :=
  (segW_keeps_arg9 (V1 W)).trans (at1_arg9 W hA0 hA1 hA3 hA4 hA5 hA6 hA7 hA8 hA9 hA10 hA11 hA12)
theorem at2_arg10 (W : Valuation τ sig (Elt F)) (hA0 : W (Proc.devRef .tc main_arg0) = x0) (hA1 : W (Proc.devRef .tc main_arg1) = x1) (hA3 : W (Proc.devRef .tc main_arg3) = x3) (hA4 : W (Proc.devRef .tc main_arg4) = x4) (hA5 : W (Proc.devRef .tc main_arg5) = x5) (hA6 : W (Proc.devRef .tc main_arg6) = x6) (hA7 : W (Proc.devRef .tc main_arg7) = x7) (hA8 : W (Proc.devRef .tc main_arg8) = x8) (hA9 : W (Proc.devRef .tc main_arg9) = x9) (hA10 : W (Proc.devRef .tc main_arg10) = x10) (hA11 : W (Proc.devRef .tc main_arg11) = x11) (hA12 : W (Proc.devRef .tc main_arg12) = x12) : V2 W (Proc.devRef .tc main_arg10) = x10 :=
  (segW_keeps_arg10 (V1 W)).trans (at1_arg10 W hA0 hA1 hA3 hA4 hA5 hA6 hA7 hA8 hA9 hA10 hA11 hA12)
theorem at2_arg7 (W : Valuation τ sig (Elt F)) (hA0 : W (Proc.devRef .tc main_arg0) = x0) (hA1 : W (Proc.devRef .tc main_arg1) = x1) (hA3 : W (Proc.devRef .tc main_arg3) = x3) (hA4 : W (Proc.devRef .tc main_arg4) = x4) (hA5 : W (Proc.devRef .tc main_arg5) = x5) (hA6 : W (Proc.devRef .tc main_arg6) = x6) (hA7 : W (Proc.devRef .tc main_arg7) = x7) (hA8 : W (Proc.devRef .tc main_arg8) = x8) (hA9 : W (Proc.devRef .tc main_arg9) = x9) (hA10 : W (Proc.devRef .tc main_arg10) = x10) (hA11 : W (Proc.devRef .tc main_arg11) = x11) (hA12 : W (Proc.devRef .tc main_arg12) = x12) : V2 W (Proc.devRef .tc main_arg7) = x7 :=
  (segW_keeps_arg7 (V1 W)).trans (at1_arg7 W hA0 hA1 hA3 hA4 hA5 hA6 hA7 hA8 hA9 hA10 hA11 hA12)
theorem at2_arg8 (W : Valuation τ sig (Elt F)) (hA0 : W (Proc.devRef .tc main_arg0) = x0) (hA1 : W (Proc.devRef .tc main_arg1) = x1) (hA3 : W (Proc.devRef .tc main_arg3) = x3) (hA4 : W (Proc.devRef .tc main_arg4) = x4) (hA5 : W (Proc.devRef .tc main_arg5) = x5) (hA6 : W (Proc.devRef .tc main_arg6) = x6) (hA7 : W (Proc.devRef .tc main_arg7) = x7) (hA8 : W (Proc.devRef .tc main_arg8) = x8) (hA9 : W (Proc.devRef .tc main_arg9) = x9) (hA10 : W (Proc.devRef .tc main_arg10) = x10) (hA11 : W (Proc.devRef .tc main_arg11) = x11) (hA12 : W (Proc.devRef .tc main_arg12) = x12) : V2 W (Proc.devRef .tc main_arg8) = x8 :=
  (segW_keeps_arg8 (V1 W)).trans (at1_arg8 W hA0 hA1 hA3 hA4 hA5 hA6 hA7 hA8 hA9 hA10 hA11 hA12)
theorem at2_arg11 (W : Valuation τ sig (Elt F)) (hA0 : W (Proc.devRef .tc main_arg0) = x0) (hA1 : W (Proc.devRef .tc main_arg1) = x1) (hA3 : W (Proc.devRef .tc main_arg3) = x3) (hA4 : W (Proc.devRef .tc main_arg4) = x4) (hA5 : W (Proc.devRef .tc main_arg5) = x5) (hA6 : W (Proc.devRef .tc main_arg6) = x6) (hA7 : W (Proc.devRef .tc main_arg7) = x7) (hA8 : W (Proc.devRef .tc main_arg8) = x8) (hA9 : W (Proc.devRef .tc main_arg9) = x9) (hA10 : W (Proc.devRef .tc main_arg10) = x10) (hA11 : W (Proc.devRef .tc main_arg11) = x11) (hA12 : W (Proc.devRef .tc main_arg12) = x12) : V2 W (Proc.devRef .tc main_arg11) = x11 :=
  (segW_keeps_arg11 (V1 W)).trans (at1_arg11 W hA0 hA1 hA3 hA4 hA5 hA6 hA7 hA8 hA9 hA10 hA11 hA12)
theorem at2_arg12 (W : Valuation τ sig (Elt F)) (hA0 : W (Proc.devRef .tc main_arg0) = x0) (hA1 : W (Proc.devRef .tc main_arg1) = x1) (hA3 : W (Proc.devRef .tc main_arg3) = x3) (hA4 : W (Proc.devRef .tc main_arg4) = x4) (hA5 : W (Proc.devRef .tc main_arg5) = x5) (hA6 : W (Proc.devRef .tc main_arg6) = x6) (hA7 : W (Proc.devRef .tc main_arg7) = x7) (hA8 : W (Proc.devRef .tc main_arg8) = x8) (hA9 : W (Proc.devRef .tc main_arg9) = x9) (hA10 : W (Proc.devRef .tc main_arg10) = x10) (hA11 : W (Proc.devRef .tc main_arg11) = x11) (hA12 : W (Proc.devRef .tc main_arg12) = x12) : V2 W (Proc.devRef .tc main_arg12) = x12 :=
  (segW_keeps_arg12 (V1 W)).trans (at1_arg12 W hA0 hA1 hA3 hA4 hA5 hA6 hA7 hA8 hA9 hA10 hA11 hA12)
theorem at3_v27 (W : Valuation τ sig (Elt F)) (hA0 : W (Proc.devRef .tc main_arg0) = x0) (hA1 : W (Proc.devRef .tc main_arg1) = x1) (hA3 : W (Proc.devRef .tc main_arg3) = x3) (hA4 : W (Proc.devRef .tc main_arg4) = x4) (hA5 : W (Proc.devRef .tc main_arg5) = x5) (hA6 : W (Proc.devRef .tc main_arg6) = x6) (hA7 : W (Proc.devRef .tc main_arg7) = x7) (hA8 : W (Proc.devRef .tc main_arg8) = x8) (hA9 : W (Proc.devRef .tc main_arg9) = x9) (hA10 : W (Proc.devRef .tc main_arg10) = x10) (hA11 : W (Proc.devRef .tc main_arg11) = x11) (hA12 : W (Proc.devRef .tc main_arg12) = x12) : V3 W (Proc.devRef .tc main_v27) = (Cert.ReferenceIdeal.ReadP.val_main_v27 (F := F) x1 x3) :=
  segB_v27 (V2 W) (at2_v1 W hA0 hA1 hA3 hA4 hA5 hA6 hA7 hA8 hA9 hA10 hA11 hA12) (at2_v10 W hA0 hA1 hA3 hA4 hA5 hA6 hA7 hA8 hA9 hA10 hA11 hA12) (at2_arg3 W hA0 hA1 hA3 hA4 hA5 hA6 hA7 hA8 hA9 hA10 hA11 hA12) (at2_v3 W hA0 hA1 hA3 hA4 hA5 hA6 hA7 hA8 hA9 hA10 hA11 hA12) (at2_arg4 W hA0 hA1 hA3 hA4 hA5 hA6 hA7 hA8 hA9 hA10 hA11 hA12) (at2_arg0 W hA0 hA1 hA3 hA4 hA5 hA6 hA7 hA8 hA9 hA10 hA11 hA12)
theorem at3_v69 (W : Valuation τ sig (Elt F)) (hA0 : W (Proc.devRef .tc main_arg0) = x0) (hA1 : W (Proc.devRef .tc main_arg1) = x1) (hA3 : W (Proc.devRef .tc main_arg3) = x3) (hA4 : W (Proc.devRef .tc main_arg4) = x4) (hA5 : W (Proc.devRef .tc main_arg5) = x5) (hA6 : W (Proc.devRef .tc main_arg6) = x6) (hA7 : W (Proc.devRef .tc main_arg7) = x7) (hA8 : W (Proc.devRef .tc main_arg8) = x8) (hA9 : W (Proc.devRef .tc main_arg9) = x9) (hA10 : W (Proc.devRef .tc main_arg10) = x10) (hA11 : W (Proc.devRef .tc main_arg11) = x11) (hA12 : W (Proc.devRef .tc main_arg12) = x12) : V3 W (Proc.devRef .tc main_v69) = (Cert.ReferenceIdeal.ReadP.val_main_v69 (F := F) x0 x1 x3 x4) :=
  segB_v69 (V2 W) (at2_v1 W hA0 hA1 hA3 hA4 hA5 hA6 hA7 hA8 hA9 hA10 hA11 hA12) (at2_v10 W hA0 hA1 hA3 hA4 hA5 hA6 hA7 hA8 hA9 hA10 hA11 hA12) (at2_arg3 W hA0 hA1 hA3 hA4 hA5 hA6 hA7 hA8 hA9 hA10 hA11 hA12) (at2_v3 W hA0 hA1 hA3 hA4 hA5 hA6 hA7 hA8 hA9 hA10 hA11 hA12) (at2_arg4 W hA0 hA1 hA3 hA4 hA5 hA6 hA7 hA8 hA9 hA10 hA11 hA12) (at2_arg0 W hA0 hA1 hA3 hA4 hA5 hA6 hA7 hA8 hA9 hA10 hA11 hA12)
theorem at3_arg4 (W : Valuation τ sig (Elt F)) (hA0 : W (Proc.devRef .tc main_arg0) = x0) (hA1 : W (Proc.devRef .tc main_arg1) = x1) (hA3 : W (Proc.devRef .tc main_arg3) = x3) (hA4 : W (Proc.devRef .tc main_arg4) = x4) (hA5 : W (Proc.devRef .tc main_arg5) = x5) (hA6 : W (Proc.devRef .tc main_arg6) = x6) (hA7 : W (Proc.devRef .tc main_arg7) = x7) (hA8 : W (Proc.devRef .tc main_arg8) = x8) (hA9 : W (Proc.devRef .tc main_arg9) = x9) (hA10 : W (Proc.devRef .tc main_arg10) = x10) (hA11 : W (Proc.devRef .tc main_arg11) = x11) (hA12 : W (Proc.devRef .tc main_arg12) = x12) : V3 W (Proc.devRef .tc main_arg4) = x4 :=
  (segB_keeps_arg4 (V2 W)).trans (at2_arg4 W hA0 hA1 hA3 hA4 hA5 hA6 hA7 hA8 hA9 hA10 hA11 hA12)
theorem at3_v1 (W : Valuation τ sig (Elt F)) (hA0 : W (Proc.devRef .tc main_arg0) = x0) (hA1 : W (Proc.devRef .tc main_arg1) = x1) (hA3 : W (Proc.devRef .tc main_arg3) = x3) (hA4 : W (Proc.devRef .tc main_arg4) = x4) (hA5 : W (Proc.devRef .tc main_arg5) = x5) (hA6 : W (Proc.devRef .tc main_arg6) = x6) (hA7 : W (Proc.devRef .tc main_arg7) = x7) (hA8 : W (Proc.devRef .tc main_arg8) = x8) (hA9 : W (Proc.devRef .tc main_arg9) = x9) (hA10 : W (Proc.devRef .tc main_arg10) = x10) (hA11 : W (Proc.devRef .tc main_arg11) = x11) (hA12 : W (Proc.devRef .tc main_arg12) = x12) : V3 W (Proc.devRef .tc main_v1) = (Cert.ReferenceIdeal.ReadP.val_main_v1 (F := F) x1) :=
  (segB_keeps_v1 (V2 W)).trans (at2_v1 W hA0 hA1 hA3 hA4 hA5 hA6 hA7 hA8 hA9 hA10 hA11 hA12)
theorem at3_v3 (W : Valuation τ sig (Elt F)) (hA0 : W (Proc.devRef .tc main_arg0) = x0) (hA1 : W (Proc.devRef .tc main_arg1) = x1) (hA3 : W (Proc.devRef .tc main_arg3) = x3) (hA4 : W (Proc.devRef .tc main_arg4) = x4) (hA5 : W (Proc.devRef .tc main_arg5) = x5) (hA6 : W (Proc.devRef .tc main_arg6) = x6) (hA7 : W (Proc.devRef .tc main_arg7) = x7) (hA8 : W (Proc.devRef .tc main_arg8) = x8) (hA9 : W (Proc.devRef .tc main_arg9) = x9) (hA10 : W (Proc.devRef .tc main_arg10) = x10) (hA11 : W (Proc.devRef .tc main_arg11) = x11) (hA12 : W (Proc.devRef .tc main_arg12) = x12) : V3 W (Proc.devRef .tc main_v3) = (Cert.ReferenceIdeal.ReadP.val_main_v3 (F := F) x1) :=
  (segB_keeps_v3 (V2 W)).trans (at2_v3 W hA0 hA1 hA3 hA4 hA5 hA6 hA7 hA8 hA9 hA10 hA11 hA12)
theorem at3_arg5 (W : Valuation τ sig (Elt F)) (hA0 : W (Proc.devRef .tc main_arg0) = x0) (hA1 : W (Proc.devRef .tc main_arg1) = x1) (hA3 : W (Proc.devRef .tc main_arg3) = x3) (hA4 : W (Proc.devRef .tc main_arg4) = x4) (hA5 : W (Proc.devRef .tc main_arg5) = x5) (hA6 : W (Proc.devRef .tc main_arg6) = x6) (hA7 : W (Proc.devRef .tc main_arg7) = x7) (hA8 : W (Proc.devRef .tc main_arg8) = x8) (hA9 : W (Proc.devRef .tc main_arg9) = x9) (hA10 : W (Proc.devRef .tc main_arg10) = x10) (hA11 : W (Proc.devRef .tc main_arg11) = x11) (hA12 : W (Proc.devRef .tc main_arg12) = x12) : V3 W (Proc.devRef .tc main_arg5) = x5 :=
  (segB_keeps_arg5 (V2 W)).trans (at2_arg5 W hA0 hA1 hA3 hA4 hA5 hA6 hA7 hA8 hA9 hA10 hA11 hA12)
theorem at3_arg6 (W : Valuation τ sig (Elt F)) (hA0 : W (Proc.devRef .tc main_arg0) = x0) (hA1 : W (Proc.devRef .tc main_arg1) = x1) (hA3 : W (Proc.devRef .tc main_arg3) = x3) (hA4 : W (Proc.devRef .tc main_arg4) = x4) (hA5 : W (Proc.devRef .tc main_arg5) = x5) (hA6 : W (Proc.devRef .tc main_arg6) = x6) (hA7 : W (Proc.devRef .tc main_arg7) = x7) (hA8 : W (Proc.devRef .tc main_arg8) = x8) (hA9 : W (Proc.devRef .tc main_arg9) = x9) (hA10 : W (Proc.devRef .tc main_arg10) = x10) (hA11 : W (Proc.devRef .tc main_arg11) = x11) (hA12 : W (Proc.devRef .tc main_arg12) = x12) : V3 W (Proc.devRef .tc main_arg6) = x6 :=
  (segB_keeps_arg6 (V2 W)).trans (at2_arg6 W hA0 hA1 hA3 hA4 hA5 hA6 hA7 hA8 hA9 hA10 hA11 hA12)
theorem at3_arg9 (W : Valuation τ sig (Elt F)) (hA0 : W (Proc.devRef .tc main_arg0) = x0) (hA1 : W (Proc.devRef .tc main_arg1) = x1) (hA3 : W (Proc.devRef .tc main_arg3) = x3) (hA4 : W (Proc.devRef .tc main_arg4) = x4) (hA5 : W (Proc.devRef .tc main_arg5) = x5) (hA6 : W (Proc.devRef .tc main_arg6) = x6) (hA7 : W (Proc.devRef .tc main_arg7) = x7) (hA8 : W (Proc.devRef .tc main_arg8) = x8) (hA9 : W (Proc.devRef .tc main_arg9) = x9) (hA10 : W (Proc.devRef .tc main_arg10) = x10) (hA11 : W (Proc.devRef .tc main_arg11) = x11) (hA12 : W (Proc.devRef .tc main_arg12) = x12) : V3 W (Proc.devRef .tc main_arg9) = x9 :=
  (segB_keeps_arg9 (V2 W)).trans (at2_arg9 W hA0 hA1 hA3 hA4 hA5 hA6 hA7 hA8 hA9 hA10 hA11 hA12)
theorem at3_arg10 (W : Valuation τ sig (Elt F)) (hA0 : W (Proc.devRef .tc main_arg0) = x0) (hA1 : W (Proc.devRef .tc main_arg1) = x1) (hA3 : W (Proc.devRef .tc main_arg3) = x3) (hA4 : W (Proc.devRef .tc main_arg4) = x4) (hA5 : W (Proc.devRef .tc main_arg5) = x5) (hA6 : W (Proc.devRef .tc main_arg6) = x6) (hA7 : W (Proc.devRef .tc main_arg7) = x7) (hA8 : W (Proc.devRef .tc main_arg8) = x8) (hA9 : W (Proc.devRef .tc main_arg9) = x9) (hA10 : W (Proc.devRef .tc main_arg10) = x10) (hA11 : W (Proc.devRef .tc main_arg11) = x11) (hA12 : W (Proc.devRef .tc main_arg12) = x12) : V3 W (Proc.devRef .tc main_arg10) = x10 :=
  (segB_keeps_arg10 (V2 W)).trans (at2_arg10 W hA0 hA1 hA3 hA4 hA5 hA6 hA7 hA8 hA9 hA10 hA11 hA12)
theorem at3_arg7 (W : Valuation τ sig (Elt F)) (hA0 : W (Proc.devRef .tc main_arg0) = x0) (hA1 : W (Proc.devRef .tc main_arg1) = x1) (hA3 : W (Proc.devRef .tc main_arg3) = x3) (hA4 : W (Proc.devRef .tc main_arg4) = x4) (hA5 : W (Proc.devRef .tc main_arg5) = x5) (hA6 : W (Proc.devRef .tc main_arg6) = x6) (hA7 : W (Proc.devRef .tc main_arg7) = x7) (hA8 : W (Proc.devRef .tc main_arg8) = x8) (hA9 : W (Proc.devRef .tc main_arg9) = x9) (hA10 : W (Proc.devRef .tc main_arg10) = x10) (hA11 : W (Proc.devRef .tc main_arg11) = x11) (hA12 : W (Proc.devRef .tc main_arg12) = x12) : V3 W (Proc.devRef .tc main_arg7) = x7 :=
  (segB_keeps_arg7 (V2 W)).trans (at2_arg7 W hA0 hA1 hA3 hA4 hA5 hA6 hA7 hA8 hA9 hA10 hA11 hA12)
theorem at3_arg8 (W : Valuation τ sig (Elt F)) (hA0 : W (Proc.devRef .tc main_arg0) = x0) (hA1 : W (Proc.devRef .tc main_arg1) = x1) (hA3 : W (Proc.devRef .tc main_arg3) = x3) (hA4 : W (Proc.devRef .tc main_arg4) = x4) (hA5 : W (Proc.devRef .tc main_arg5) = x5) (hA6 : W (Proc.devRef .tc main_arg6) = x6) (hA7 : W (Proc.devRef .tc main_arg7) = x7) (hA8 : W (Proc.devRef .tc main_arg8) = x8) (hA9 : W (Proc.devRef .tc main_arg9) = x9) (hA10 : W (Proc.devRef .tc main_arg10) = x10) (hA11 : W (Proc.devRef .tc main_arg11) = x11) (hA12 : W (Proc.devRef .tc main_arg12) = x12) : V3 W (Proc.devRef .tc main_arg8) = x8 :=
  (segB_keeps_arg8 (V2 W)).trans (at2_arg8 W hA0 hA1 hA3 hA4 hA5 hA6 hA7 hA8 hA9 hA10 hA11 hA12)
theorem at3_arg11 (W : Valuation τ sig (Elt F)) (hA0 : W (Proc.devRef .tc main_arg0) = x0) (hA1 : W (Proc.devRef .tc main_arg1) = x1) (hA3 : W (Proc.devRef .tc main_arg3) = x3) (hA4 : W (Proc.devRef .tc main_arg4) = x4) (hA5 : W (Proc.devRef .tc main_arg5) = x5) (hA6 : W (Proc.devRef .tc main_arg6) = x6) (hA7 : W (Proc.devRef .tc main_arg7) = x7) (hA8 : W (Proc.devRef .tc main_arg8) = x8) (hA9 : W (Proc.devRef .tc main_arg9) = x9) (hA10 : W (Proc.devRef .tc main_arg10) = x10) (hA11 : W (Proc.devRef .tc main_arg11) = x11) (hA12 : W (Proc.devRef .tc main_arg12) = x12) : V3 W (Proc.devRef .tc main_arg11) = x11 :=
  (segB_keeps_arg11 (V2 W)).trans (at2_arg11 W hA0 hA1 hA3 hA4 hA5 hA6 hA7 hA8 hA9 hA10 hA11 hA12)
theorem at3_arg12 (W : Valuation τ sig (Elt F)) (hA0 : W (Proc.devRef .tc main_arg0) = x0) (hA1 : W (Proc.devRef .tc main_arg1) = x1) (hA3 : W (Proc.devRef .tc main_arg3) = x3) (hA4 : W (Proc.devRef .tc main_arg4) = x4) (hA5 : W (Proc.devRef .tc main_arg5) = x5) (hA6 : W (Proc.devRef .tc main_arg6) = x6) (hA7 : W (Proc.devRef .tc main_arg7) = x7) (hA8 : W (Proc.devRef .tc main_arg8) = x8) (hA9 : W (Proc.devRef .tc main_arg9) = x9) (hA10 : W (Proc.devRef .tc main_arg10) = x10) (hA11 : W (Proc.devRef .tc main_arg11) = x11) (hA12 : W (Proc.devRef .tc main_arg12) = x12) : V3 W (Proc.devRef .tc main_arg12) = x12 :=
  (segB_keeps_arg12 (V2 W)).trans (at2_arg12 W hA0 hA1 hA3 hA4 hA5 hA6 hA7 hA8 hA9 hA10 hA11 hA12)
theorem at4_v70 (W : Valuation τ sig (Elt F)) (hA0 : W (Proc.devRef .tc main_arg0) = x0) (hA1 : W (Proc.devRef .tc main_arg1) = x1) (hA3 : W (Proc.devRef .tc main_arg3) = x3) (hA4 : W (Proc.devRef .tc main_arg4) = x4) (hA5 : W (Proc.devRef .tc main_arg5) = x5) (hA6 : W (Proc.devRef .tc main_arg6) = x6) (hA7 : W (Proc.devRef .tc main_arg7) = x7) (hA8 : W (Proc.devRef .tc main_arg8) = x8) (hA9 : W (Proc.devRef .tc main_arg9) = x9) (hA10 : W (Proc.devRef .tc main_arg10) = x10) (hA11 : W (Proc.devRef .tc main_arg11) = x11) (hA12 : W (Proc.devRef .tc main_arg12) = x12) : V4 W (Proc.devRef .tc main_v70) = (Cert.ReferenceIdeal.ReadP.val_main_v70 (F := F) x0 x1 x3 x4) :=
  segR1_v70 (V3 W) (at3_v69 W hA0 hA1 hA3 hA4 hA5 hA6 hA7 hA8 hA9 hA10 hA11 hA12)
theorem at4_arg4 (W : Valuation τ sig (Elt F)) (hA0 : W (Proc.devRef .tc main_arg0) = x0) (hA1 : W (Proc.devRef .tc main_arg1) = x1) (hA3 : W (Proc.devRef .tc main_arg3) = x3) (hA4 : W (Proc.devRef .tc main_arg4) = x4) (hA5 : W (Proc.devRef .tc main_arg5) = x5) (hA6 : W (Proc.devRef .tc main_arg6) = x6) (hA7 : W (Proc.devRef .tc main_arg7) = x7) (hA8 : W (Proc.devRef .tc main_arg8) = x8) (hA9 : W (Proc.devRef .tc main_arg9) = x9) (hA10 : W (Proc.devRef .tc main_arg10) = x10) (hA11 : W (Proc.devRef .tc main_arg11) = x11) (hA12 : W (Proc.devRef .tc main_arg12) = x12) : V4 W (Proc.devRef .tc main_arg4) = x4 :=
  (segR1_keeps_arg4 (V3 W)).trans (at3_arg4 W hA0 hA1 hA3 hA4 hA5 hA6 hA7 hA8 hA9 hA10 hA11 hA12)
theorem at4_v27 (W : Valuation τ sig (Elt F)) (hA0 : W (Proc.devRef .tc main_arg0) = x0) (hA1 : W (Proc.devRef .tc main_arg1) = x1) (hA3 : W (Proc.devRef .tc main_arg3) = x3) (hA4 : W (Proc.devRef .tc main_arg4) = x4) (hA5 : W (Proc.devRef .tc main_arg5) = x5) (hA6 : W (Proc.devRef .tc main_arg6) = x6) (hA7 : W (Proc.devRef .tc main_arg7) = x7) (hA8 : W (Proc.devRef .tc main_arg8) = x8) (hA9 : W (Proc.devRef .tc main_arg9) = x9) (hA10 : W (Proc.devRef .tc main_arg10) = x10) (hA11 : W (Proc.devRef .tc main_arg11) = x11) (hA12 : W (Proc.devRef .tc main_arg12) = x12) : V4 W (Proc.devRef .tc main_v27) = (Cert.ReferenceIdeal.ReadP.val_main_v27 (F := F) x1 x3) :=
  (segR1_keeps_v27 (V3 W)).trans (at3_v27 W hA0 hA1 hA3 hA4 hA5 hA6 hA7 hA8 hA9 hA10 hA11 hA12)
theorem at4_v1 (W : Valuation τ sig (Elt F)) (hA0 : W (Proc.devRef .tc main_arg0) = x0) (hA1 : W (Proc.devRef .tc main_arg1) = x1) (hA3 : W (Proc.devRef .tc main_arg3) = x3) (hA4 : W (Proc.devRef .tc main_arg4) = x4) (hA5 : W (Proc.devRef .tc main_arg5) = x5) (hA6 : W (Proc.devRef .tc main_arg6) = x6) (hA7 : W (Proc.devRef .tc main_arg7) = x7) (hA8 : W (Proc.devRef .tc main_arg8) = x8) (hA9 : W (Proc.devRef .tc main_arg9) = x9) (hA10 : W (Proc.devRef .tc main_arg10) = x10) (hA11 : W (Proc.devRef .tc main_arg11) = x11) (hA12 : W (Proc.devRef .tc main_arg12) = x12) : V4 W (Proc.devRef .tc main_v1) = (Cert.ReferenceIdeal.ReadP.val_main_v1 (F := F) x1) :=
  (segR1_keeps_v1 (V3 W)).trans (at3_v1 W hA0 hA1 hA3 hA4 hA5 hA6 hA7 hA8 hA9 hA10 hA11 hA12)
theorem at4_v3 (W : Valuation τ sig (Elt F)) (hA0 : W (Proc.devRef .tc main_arg0) = x0) (hA1 : W (Proc.devRef .tc main_arg1) = x1) (hA3 : W (Proc.devRef .tc main_arg3) = x3) (hA4 : W (Proc.devRef .tc main_arg4) = x4) (hA5 : W (Proc.devRef .tc main_arg5) = x5) (hA6 : W (Proc.devRef .tc main_arg6) = x6) (hA7 : W (Proc.devRef .tc main_arg7) = x7) (hA8 : W (Proc.devRef .tc main_arg8) = x8) (hA9 : W (Proc.devRef .tc main_arg9) = x9) (hA10 : W (Proc.devRef .tc main_arg10) = x10) (hA11 : W (Proc.devRef .tc main_arg11) = x11) (hA12 : W (Proc.devRef .tc main_arg12) = x12) : V4 W (Proc.devRef .tc main_v3) = (Cert.ReferenceIdeal.ReadP.val_main_v3 (F := F) x1) :=
  (segR1_keeps_v3 (V3 W)).trans (at3_v3 W hA0 hA1 hA3 hA4 hA5 hA6 hA7 hA8 hA9 hA10 hA11 hA12)
theorem at4_arg5 (W : Valuation τ sig (Elt F)) (hA0 : W (Proc.devRef .tc main_arg0) = x0) (hA1 : W (Proc.devRef .tc main_arg1) = x1) (hA3 : W (Proc.devRef .tc main_arg3) = x3) (hA4 : W (Proc.devRef .tc main_arg4) = x4) (hA5 : W (Proc.devRef .tc main_arg5) = x5) (hA6 : W (Proc.devRef .tc main_arg6) = x6) (hA7 : W (Proc.devRef .tc main_arg7) = x7) (hA8 : W (Proc.devRef .tc main_arg8) = x8) (hA9 : W (Proc.devRef .tc main_arg9) = x9) (hA10 : W (Proc.devRef .tc main_arg10) = x10) (hA11 : W (Proc.devRef .tc main_arg11) = x11) (hA12 : W (Proc.devRef .tc main_arg12) = x12) : V4 W (Proc.devRef .tc main_arg5) = x5 :=
  (segR1_keeps_arg5 (V3 W)).trans (at3_arg5 W hA0 hA1 hA3 hA4 hA5 hA6 hA7 hA8 hA9 hA10 hA11 hA12)
theorem at4_arg6 (W : Valuation τ sig (Elt F)) (hA0 : W (Proc.devRef .tc main_arg0) = x0) (hA1 : W (Proc.devRef .tc main_arg1) = x1) (hA3 : W (Proc.devRef .tc main_arg3) = x3) (hA4 : W (Proc.devRef .tc main_arg4) = x4) (hA5 : W (Proc.devRef .tc main_arg5) = x5) (hA6 : W (Proc.devRef .tc main_arg6) = x6) (hA7 : W (Proc.devRef .tc main_arg7) = x7) (hA8 : W (Proc.devRef .tc main_arg8) = x8) (hA9 : W (Proc.devRef .tc main_arg9) = x9) (hA10 : W (Proc.devRef .tc main_arg10) = x10) (hA11 : W (Proc.devRef .tc main_arg11) = x11) (hA12 : W (Proc.devRef .tc main_arg12) = x12) : V4 W (Proc.devRef .tc main_arg6) = x6 :=
  (segR1_keeps_arg6 (V3 W)).trans (at3_arg6 W hA0 hA1 hA3 hA4 hA5 hA6 hA7 hA8 hA9 hA10 hA11 hA12)
theorem at4_arg9 (W : Valuation τ sig (Elt F)) (hA0 : W (Proc.devRef .tc main_arg0) = x0) (hA1 : W (Proc.devRef .tc main_arg1) = x1) (hA3 : W (Proc.devRef .tc main_arg3) = x3) (hA4 : W (Proc.devRef .tc main_arg4) = x4) (hA5 : W (Proc.devRef .tc main_arg5) = x5) (hA6 : W (Proc.devRef .tc main_arg6) = x6) (hA7 : W (Proc.devRef .tc main_arg7) = x7) (hA8 : W (Proc.devRef .tc main_arg8) = x8) (hA9 : W (Proc.devRef .tc main_arg9) = x9) (hA10 : W (Proc.devRef .tc main_arg10) = x10) (hA11 : W (Proc.devRef .tc main_arg11) = x11) (hA12 : W (Proc.devRef .tc main_arg12) = x12) : V4 W (Proc.devRef .tc main_arg9) = x9 :=
  (segR1_keeps_arg9 (V3 W)).trans (at3_arg9 W hA0 hA1 hA3 hA4 hA5 hA6 hA7 hA8 hA9 hA10 hA11 hA12)
theorem at4_arg10 (W : Valuation τ sig (Elt F)) (hA0 : W (Proc.devRef .tc main_arg0) = x0) (hA1 : W (Proc.devRef .tc main_arg1) = x1) (hA3 : W (Proc.devRef .tc main_arg3) = x3) (hA4 : W (Proc.devRef .tc main_arg4) = x4) (hA5 : W (Proc.devRef .tc main_arg5) = x5) (hA6 : W (Proc.devRef .tc main_arg6) = x6) (hA7 : W (Proc.devRef .tc main_arg7) = x7) (hA8 : W (Proc.devRef .tc main_arg8) = x8) (hA9 : W (Proc.devRef .tc main_arg9) = x9) (hA10 : W (Proc.devRef .tc main_arg10) = x10) (hA11 : W (Proc.devRef .tc main_arg11) = x11) (hA12 : W (Proc.devRef .tc main_arg12) = x12) : V4 W (Proc.devRef .tc main_arg10) = x10 :=
  (segR1_keeps_arg10 (V3 W)).trans (at3_arg10 W hA0 hA1 hA3 hA4 hA5 hA6 hA7 hA8 hA9 hA10 hA11 hA12)
theorem at4_arg7 (W : Valuation τ sig (Elt F)) (hA0 : W (Proc.devRef .tc main_arg0) = x0) (hA1 : W (Proc.devRef .tc main_arg1) = x1) (hA3 : W (Proc.devRef .tc main_arg3) = x3) (hA4 : W (Proc.devRef .tc main_arg4) = x4) (hA5 : W (Proc.devRef .tc main_arg5) = x5) (hA6 : W (Proc.devRef .tc main_arg6) = x6) (hA7 : W (Proc.devRef .tc main_arg7) = x7) (hA8 : W (Proc.devRef .tc main_arg8) = x8) (hA9 : W (Proc.devRef .tc main_arg9) = x9) (hA10 : W (Proc.devRef .tc main_arg10) = x10) (hA11 : W (Proc.devRef .tc main_arg11) = x11) (hA12 : W (Proc.devRef .tc main_arg12) = x12) : V4 W (Proc.devRef .tc main_arg7) = x7 :=
  (segR1_keeps_arg7 (V3 W)).trans (at3_arg7 W hA0 hA1 hA3 hA4 hA5 hA6 hA7 hA8 hA9 hA10 hA11 hA12)
theorem at4_arg8 (W : Valuation τ sig (Elt F)) (hA0 : W (Proc.devRef .tc main_arg0) = x0) (hA1 : W (Proc.devRef .tc main_arg1) = x1) (hA3 : W (Proc.devRef .tc main_arg3) = x3) (hA4 : W (Proc.devRef .tc main_arg4) = x4) (hA5 : W (Proc.devRef .tc main_arg5) = x5) (hA6 : W (Proc.devRef .tc main_arg6) = x6) (hA7 : W (Proc.devRef .tc main_arg7) = x7) (hA8 : W (Proc.devRef .tc main_arg8) = x8) (hA9 : W (Proc.devRef .tc main_arg9) = x9) (hA10 : W (Proc.devRef .tc main_arg10) = x10) (hA11 : W (Proc.devRef .tc main_arg11) = x11) (hA12 : W (Proc.devRef .tc main_arg12) = x12) : V4 W (Proc.devRef .tc main_arg8) = x8 :=
  (segR1_keeps_arg8 (V3 W)).trans (at3_arg8 W hA0 hA1 hA3 hA4 hA5 hA6 hA7 hA8 hA9 hA10 hA11 hA12)
theorem at4_arg11 (W : Valuation τ sig (Elt F)) (hA0 : W (Proc.devRef .tc main_arg0) = x0) (hA1 : W (Proc.devRef .tc main_arg1) = x1) (hA3 : W (Proc.devRef .tc main_arg3) = x3) (hA4 : W (Proc.devRef .tc main_arg4) = x4) (hA5 : W (Proc.devRef .tc main_arg5) = x5) (hA6 : W (Proc.devRef .tc main_arg6) = x6) (hA7 : W (Proc.devRef .tc main_arg7) = x7) (hA8 : W (Proc.devRef .tc main_arg8) = x8) (hA9 : W (Proc.devRef .tc main_arg9) = x9) (hA10 : W (Proc.devRef .tc main_arg10) = x10) (hA11 : W (Proc.devRef .tc main_arg11) = x11) (hA12 : W (Proc.devRef .tc main_arg12) = x12) : V4 W (Proc.devRef .tc main_arg11) = x11 :=
  (segR1_keeps_arg11 (V3 W)).trans (at3_arg11 W hA0 hA1 hA3 hA4 hA5 hA6 hA7 hA8 hA9 hA10 hA11 hA12)
theorem at4_arg12 (W : Valuation τ sig (Elt F)) (hA0 : W (Proc.devRef .tc main_arg0) = x0) (hA1 : W (Proc.devRef .tc main_arg1) = x1) (hA3 : W (Proc.devRef .tc main_arg3) = x3) (hA4 : W (Proc.devRef .tc main_arg4) = x4) (hA5 : W (Proc.devRef .tc main_arg5) = x5) (hA6 : W (Proc.devRef .tc main_arg6) = x6) (hA7 : W (Proc.devRef .tc main_arg7) = x7) (hA8 : W (Proc.devRef .tc main_arg8) = x8) (hA9 : W (Proc.devRef .tc main_arg9) = x9) (hA10 : W (Proc.devRef .tc main_arg10) = x10) (hA11 : W (Proc.devRef .tc main_arg11) = x11) (hA12 : W (Proc.devRef .tc main_arg12) = x12) : V4 W (Proc.devRef .tc main_arg12) = x12 :=
  (segR1_keeps_arg12 (V3 W)).trans (at3_arg12 W hA0 hA1 hA3 hA4 hA5 hA6 hA7 hA8 hA9 hA10 hA11 hA12)
theorem at5_v112 (W : Valuation τ sig (Elt F)) (hA0 : W (Proc.devRef .tc main_arg0) = x0) (hA1 : W (Proc.devRef .tc main_arg1) = x1) (hA3 : W (Proc.devRef .tc main_arg3) = x3) (hA4 : W (Proc.devRef .tc main_arg4) = x4) (hA5 : W (Proc.devRef .tc main_arg5) = x5) (hA6 : W (Proc.devRef .tc main_arg6) = x6) (hA7 : W (Proc.devRef .tc main_arg7) = x7) (hA8 : W (Proc.devRef .tc main_arg8) = x8) (hA9 : W (Proc.devRef .tc main_arg9) = x9) (hA10 : W (Proc.devRef .tc main_arg10) = x10) (hA11 : W (Proc.devRef .tc main_arg11) = x11) (hA12 : W (Proc.devRef .tc main_arg12) = x12) : V5 W (Proc.devRef .tc main_v112) = (Cert.ReferenceIdeal.ReadP.val_main_v112 (F := F) x0 x1 x3 x4) :=
  segC_v112 (V4 W) (at4_arg4 W hA0 hA1 hA3 hA4 hA5 hA6 hA7 hA8 hA9 hA10 hA11 hA12) (at4_v27 W hA0 hA1 hA3 hA4 hA5 hA6 hA7 hA8 hA9 hA10 hA11 hA12) (at4_v1 W hA0 hA1 hA3 hA4 hA5 hA6 hA7 hA8 hA9 hA10 hA11 hA12) (at4_v70 W hA0 hA1 hA3 hA4 hA5 hA6 hA7 hA8 hA9 hA10 hA11 hA12) (at4_v3 W hA0 hA1 hA3 hA4 hA5 hA6 hA7 hA8 hA9 hA10 hA11 hA12)
theorem at5_v70 (W : Valuation τ sig (Elt F)) (hA0 : W (Proc.devRef .tc main_arg0) = x0) (hA1 : W (Proc.devRef .tc main_arg1) = x1) (hA3 : W (Proc.devRef .tc main_arg3) = x3) (hA4 : W (Proc.devRef .tc main_arg4) = x4) (hA5 : W (Proc.devRef .tc main_arg5) = x5) (hA6 : W (Proc.devRef .tc main_arg6) = x6) (hA7 : W (Proc.devRef .tc main_arg7) = x7) (hA8 : W (Proc.devRef .tc main_arg8) = x8) (hA9 : W (Proc.devRef .tc main_arg9) = x9) (hA10 : W (Proc.devRef .tc main_arg10) = x10) (hA11 : W (Proc.devRef .tc main_arg11) = x11) (hA12 : W (Proc.devRef .tc main_arg12) = x12) : V5 W (Proc.devRef .tc main_v70) = (Cert.ReferenceIdeal.ReadP.val_main_v70 (F := F) x0 x1 x3 x4) :=
  (segC_keeps_v70 (V4 W)).trans (at4_v70 W hA0 hA1 hA3 hA4 hA5 hA6 hA7 hA8 hA9 hA10 hA11 hA12)
theorem at5_arg4 (W : Valuation τ sig (Elt F)) (hA0 : W (Proc.devRef .tc main_arg0) = x0) (hA1 : W (Proc.devRef .tc main_arg1) = x1) (hA3 : W (Proc.devRef .tc main_arg3) = x3) (hA4 : W (Proc.devRef .tc main_arg4) = x4) (hA5 : W (Proc.devRef .tc main_arg5) = x5) (hA6 : W (Proc.devRef .tc main_arg6) = x6) (hA7 : W (Proc.devRef .tc main_arg7) = x7) (hA8 : W (Proc.devRef .tc main_arg8) = x8) (hA9 : W (Proc.devRef .tc main_arg9) = x9) (hA10 : W (Proc.devRef .tc main_arg10) = x10) (hA11 : W (Proc.devRef .tc main_arg11) = x11) (hA12 : W (Proc.devRef .tc main_arg12) = x12) : V5 W (Proc.devRef .tc main_arg4) = x4 :=
  (segC_keeps_arg4 (V4 W)).trans (at4_arg4 W hA0 hA1 hA3 hA4 hA5 hA6 hA7 hA8 hA9 hA10 hA11 hA12)
theorem at5_v27 (W : Valuation τ sig (Elt F)) (hA0 : W (Proc.devRef .tc main_arg0) = x0) (hA1 : W (Proc.devRef .tc main_arg1) = x1) (hA3 : W (Proc.devRef .tc main_arg3) = x3) (hA4 : W (Proc.devRef .tc main_arg4) = x4) (hA5 : W (Proc.devRef .tc main_arg5) = x5) (hA6 : W (Proc.devRef .tc main_arg6) = x6) (hA7 : W (Proc.devRef .tc main_arg7) = x7) (hA8 : W (Proc.devRef .tc main_arg8) = x8) (hA9 : W (Proc.devRef .tc main_arg9) = x9) (hA10 : W (Proc.devRef .tc main_arg10) = x10) (hA11 : W (Proc.devRef .tc main_arg11) = x11) (hA12 : W (Proc.devRef .tc main_arg12) = x12) : V5 W (Proc.devRef .tc main_v27) = (Cert.ReferenceIdeal.ReadP.val_main_v27 (F := F) x1 x3) :=
  (segC_keeps_v27 (V4 W)).trans (at4_v27 W hA0 hA1 hA3 hA4 hA5 hA6 hA7 hA8 hA9 hA10 hA11 hA12)
theorem at5_v1 (W : Valuation τ sig (Elt F)) (hA0 : W (Proc.devRef .tc main_arg0) = x0) (hA1 : W (Proc.devRef .tc main_arg1) = x1) (hA3 : W (Proc.devRef .tc main_arg3) = x3) (hA4 : W (Proc.devRef .tc main_arg4) = x4) (hA5 : W (Proc.devRef .tc main_arg5) = x5) (hA6 : W (Proc.devRef .tc main_arg6) = x6) (hA7 : W (Proc.devRef .tc main_arg7) = x7) (hA8 : W (Proc.devRef .tc main_arg8) = x8) (hA9 : W (Proc.devRef .tc main_arg9) = x9) (hA10 : W (Proc.devRef .tc main_arg10) = x10) (hA11 : W (Proc.devRef .tc main_arg11) = x11) (hA12 : W (Proc.devRef .tc main_arg12) = x12) : V5 W (Proc.devRef .tc main_v1) = (Cert.ReferenceIdeal.ReadP.val_main_v1 (F := F) x1) :=
  (segC_keeps_v1 (V4 W)).trans (at4_v1 W hA0 hA1 hA3 hA4 hA5 hA6 hA7 hA8 hA9 hA10 hA11 hA12)
theorem at5_v3 (W : Valuation τ sig (Elt F)) (hA0 : W (Proc.devRef .tc main_arg0) = x0) (hA1 : W (Proc.devRef .tc main_arg1) = x1) (hA3 : W (Proc.devRef .tc main_arg3) = x3) (hA4 : W (Proc.devRef .tc main_arg4) = x4) (hA5 : W (Proc.devRef .tc main_arg5) = x5) (hA6 : W (Proc.devRef .tc main_arg6) = x6) (hA7 : W (Proc.devRef .tc main_arg7) = x7) (hA8 : W (Proc.devRef .tc main_arg8) = x8) (hA9 : W (Proc.devRef .tc main_arg9) = x9) (hA10 : W (Proc.devRef .tc main_arg10) = x10) (hA11 : W (Proc.devRef .tc main_arg11) = x11) (hA12 : W (Proc.devRef .tc main_arg12) = x12) : V5 W (Proc.devRef .tc main_v3) = (Cert.ReferenceIdeal.ReadP.val_main_v3 (F := F) x1) :=
  (segC_keeps_v3 (V4 W)).trans (at4_v3 W hA0 hA1 hA3 hA4 hA5 hA6 hA7 hA8 hA9 hA10 hA11 hA12)
theorem at5_arg5 (W : Valuation τ sig (Elt F)) (hA0 : W (Proc.devRef .tc main_arg0) = x0) (hA1 : W (Proc.devRef .tc main_arg1) = x1) (hA3 : W (Proc.devRef .tc main_arg3) = x3) (hA4 : W (Proc.devRef .tc main_arg4) = x4) (hA5 : W (Proc.devRef .tc main_arg5) = x5) (hA6 : W (Proc.devRef .tc main_arg6) = x6) (hA7 : W (Proc.devRef .tc main_arg7) = x7) (hA8 : W (Proc.devRef .tc main_arg8) = x8) (hA9 : W (Proc.devRef .tc main_arg9) = x9) (hA10 : W (Proc.devRef .tc main_arg10) = x10) (hA11 : W (Proc.devRef .tc main_arg11) = x11) (hA12 : W (Proc.devRef .tc main_arg12) = x12) : V5 W (Proc.devRef .tc main_arg5) = x5 :=
  (segC_keeps_arg5 (V4 W)).trans (at4_arg5 W hA0 hA1 hA3 hA4 hA5 hA6 hA7 hA8 hA9 hA10 hA11 hA12)
theorem at5_arg6 (W : Valuation τ sig (Elt F)) (hA0 : W (Proc.devRef .tc main_arg0) = x0) (hA1 : W (Proc.devRef .tc main_arg1) = x1) (hA3 : W (Proc.devRef .tc main_arg3) = x3) (hA4 : W (Proc.devRef .tc main_arg4) = x4) (hA5 : W (Proc.devRef .tc main_arg5) = x5) (hA6 : W (Proc.devRef .tc main_arg6) = x6) (hA7 : W (Proc.devRef .tc main_arg7) = x7) (hA8 : W (Proc.devRef .tc main_arg8) = x8) (hA9 : W (Proc.devRef .tc main_arg9) = x9) (hA10 : W (Proc.devRef .tc main_arg10) = x10) (hA11 : W (Proc.devRef .tc main_arg11) = x11) (hA12 : W (Proc.devRef .tc main_arg12) = x12) : V5 W (Proc.devRef .tc main_arg6) = x6 :=
  (segC_keeps_arg6 (V4 W)).trans (at4_arg6 W hA0 hA1 hA3 hA4 hA5 hA6 hA7 hA8 hA9 hA10 hA11 hA12)
theorem at5_arg9 (W : Valuation τ sig (Elt F)) (hA0 : W (Proc.devRef .tc main_arg0) = x0) (hA1 : W (Proc.devRef .tc main_arg1) = x1) (hA3 : W (Proc.devRef .tc main_arg3) = x3) (hA4 : W (Proc.devRef .tc main_arg4) = x4) (hA5 : W (Proc.devRef .tc main_arg5) = x5) (hA6 : W (Proc.devRef .tc main_arg6) = x6) (hA7 : W (Proc.devRef .tc main_arg7) = x7) (hA8 : W (Proc.devRef .tc main_arg8) = x8) (hA9 : W (Proc.devRef .tc main_arg9) = x9) (hA10 : W (Proc.devRef .tc main_arg10) = x10) (hA11 : W (Proc.devRef .tc main_arg11) = x11) (hA12 : W (Proc.devRef .tc main_arg12) = x12) : V5 W (Proc.devRef .tc main_arg9) = x9 :=
  (segC_keeps_arg9 (V4 W)).trans (at4_arg9 W hA0 hA1 hA3 hA4 hA5 hA6 hA7 hA8 hA9 hA10 hA11 hA12)
theorem at5_arg10 (W : Valuation τ sig (Elt F)) (hA0 : W (Proc.devRef .tc main_arg0) = x0) (hA1 : W (Proc.devRef .tc main_arg1) = x1) (hA3 : W (Proc.devRef .tc main_arg3) = x3) (hA4 : W (Proc.devRef .tc main_arg4) = x4) (hA5 : W (Proc.devRef .tc main_arg5) = x5) (hA6 : W (Proc.devRef .tc main_arg6) = x6) (hA7 : W (Proc.devRef .tc main_arg7) = x7) (hA8 : W (Proc.devRef .tc main_arg8) = x8) (hA9 : W (Proc.devRef .tc main_arg9) = x9) (hA10 : W (Proc.devRef .tc main_arg10) = x10) (hA11 : W (Proc.devRef .tc main_arg11) = x11) (hA12 : W (Proc.devRef .tc main_arg12) = x12) : V5 W (Proc.devRef .tc main_arg10) = x10 :=
  (segC_keeps_arg10 (V4 W)).trans (at4_arg10 W hA0 hA1 hA3 hA4 hA5 hA6 hA7 hA8 hA9 hA10 hA11 hA12)
theorem at5_arg7 (W : Valuation τ sig (Elt F)) (hA0 : W (Proc.devRef .tc main_arg0) = x0) (hA1 : W (Proc.devRef .tc main_arg1) = x1) (hA3 : W (Proc.devRef .tc main_arg3) = x3) (hA4 : W (Proc.devRef .tc main_arg4) = x4) (hA5 : W (Proc.devRef .tc main_arg5) = x5) (hA6 : W (Proc.devRef .tc main_arg6) = x6) (hA7 : W (Proc.devRef .tc main_arg7) = x7) (hA8 : W (Proc.devRef .tc main_arg8) = x8) (hA9 : W (Proc.devRef .tc main_arg9) = x9) (hA10 : W (Proc.devRef .tc main_arg10) = x10) (hA11 : W (Proc.devRef .tc main_arg11) = x11) (hA12 : W (Proc.devRef .tc main_arg12) = x12) : V5 W (Proc.devRef .tc main_arg7) = x7 :=
  (segC_keeps_arg7 (V4 W)).trans (at4_arg7 W hA0 hA1 hA3 hA4 hA5 hA6 hA7 hA8 hA9 hA10 hA11 hA12)
theorem at5_arg8 (W : Valuation τ sig (Elt F)) (hA0 : W (Proc.devRef .tc main_arg0) = x0) (hA1 : W (Proc.devRef .tc main_arg1) = x1) (hA3 : W (Proc.devRef .tc main_arg3) = x3) (hA4 : W (Proc.devRef .tc main_arg4) = x4) (hA5 : W (Proc.devRef .tc main_arg5) = x5) (hA6 : W (Proc.devRef .tc main_arg6) = x6) (hA7 : W (Proc.devRef .tc main_arg7) = x7) (hA8 : W (Proc.devRef .tc main_arg8) = x8) (hA9 : W (Proc.devRef .tc main_arg9) = x9) (hA10 : W (Proc.devRef .tc main_arg10) = x10) (hA11 : W (Proc.devRef .tc main_arg11) = x11) (hA12 : W (Proc.devRef .tc main_arg12) = x12) : V5 W (Proc.devRef .tc main_arg8) = x8 :=
  (segC_keeps_arg8 (V4 W)).trans (at4_arg8 W hA0 hA1 hA3 hA4 hA5 hA6 hA7 hA8 hA9 hA10 hA11 hA12)
theorem at5_arg11 (W : Valuation τ sig (Elt F)) (hA0 : W (Proc.devRef .tc main_arg0) = x0) (hA1 : W (Proc.devRef .tc main_arg1) = x1) (hA3 : W (Proc.devRef .tc main_arg3) = x3) (hA4 : W (Proc.devRef .tc main_arg4) = x4) (hA5 : W (Proc.devRef .tc main_arg5) = x5) (hA6 : W (Proc.devRef .tc main_arg6) = x6) (hA7 : W (Proc.devRef .tc main_arg7) = x7) (hA8 : W (Proc.devRef .tc main_arg8) = x8) (hA9 : W (Proc.devRef .tc main_arg9) = x9) (hA10 : W (Proc.devRef .tc main_arg10) = x10) (hA11 : W (Proc.devRef .tc main_arg11) = x11) (hA12 : W (Proc.devRef .tc main_arg12) = x12) : V5 W (Proc.devRef .tc main_arg11) = x11 :=
  (segC_keeps_arg11 (V4 W)).trans (at4_arg11 W hA0 hA1 hA3 hA4 hA5 hA6 hA7 hA8 hA9 hA10 hA11 hA12)
theorem at5_arg12 (W : Valuation τ sig (Elt F)) (hA0 : W (Proc.devRef .tc main_arg0) = x0) (hA1 : W (Proc.devRef .tc main_arg1) = x1) (hA3 : W (Proc.devRef .tc main_arg3) = x3) (hA4 : W (Proc.devRef .tc main_arg4) = x4) (hA5 : W (Proc.devRef .tc main_arg5) = x5) (hA6 : W (Proc.devRef .tc main_arg6) = x6) (hA7 : W (Proc.devRef .tc main_arg7) = x7) (hA8 : W (Proc.devRef .tc main_arg8) = x8) (hA9 : W (Proc.devRef .tc main_arg9) = x9) (hA10 : W (Proc.devRef .tc main_arg10) = x10) (hA11 : W (Proc.devRef .tc main_arg11) = x11) (hA12 : W (Proc.devRef .tc main_arg12) = x12) : V5 W (Proc.devRef .tc main_arg12) = x12 :=
  (segC_keeps_arg12 (V4 W)).trans (at4_arg12 W hA0 hA1 hA3 hA4 hA5 hA6 hA7 hA8 hA9 hA10 hA11 hA12)
theorem at6_v113 (W : Valuation τ sig (Elt F)) (hA0 : W (Proc.devRef .tc main_arg0) = x0) (hA1 : W (Proc.devRef .tc main_arg1) = x1) (hA3 : W (Proc.devRef .tc main_arg3) = x3) (hA4 : W (Proc.devRef .tc main_arg4) = x4) (hA5 : W (Proc.devRef .tc main_arg5) = x5) (hA6 : W (Proc.devRef .tc main_arg6) = x6) (hA7 : W (Proc.devRef .tc main_arg7) = x7) (hA8 : W (Proc.devRef .tc main_arg8) = x8) (hA9 : W (Proc.devRef .tc main_arg9) = x9) (hA10 : W (Proc.devRef .tc main_arg10) = x10) (hA11 : W (Proc.devRef .tc main_arg11) = x11) (hA12 : W (Proc.devRef .tc main_arg12) = x12) : V6 W (Proc.devRef .tc main_v113) = (Cert.ReferenceIdeal.ReadP.val_main_v113 (F := F) x0 x1 x3 x4) :=
  segR2_v113 (V5 W) (at5_v112 W hA0 hA1 hA3 hA4 hA5 hA6 hA7 hA8 hA9 hA10 hA11 hA12)
theorem at6_v70 (W : Valuation τ sig (Elt F)) (hA0 : W (Proc.devRef .tc main_arg0) = x0) (hA1 : W (Proc.devRef .tc main_arg1) = x1) (hA3 : W (Proc.devRef .tc main_arg3) = x3) (hA4 : W (Proc.devRef .tc main_arg4) = x4) (hA5 : W (Proc.devRef .tc main_arg5) = x5) (hA6 : W (Proc.devRef .tc main_arg6) = x6) (hA7 : W (Proc.devRef .tc main_arg7) = x7) (hA8 : W (Proc.devRef .tc main_arg8) = x8) (hA9 : W (Proc.devRef .tc main_arg9) = x9) (hA10 : W (Proc.devRef .tc main_arg10) = x10) (hA11 : W (Proc.devRef .tc main_arg11) = x11) (hA12 : W (Proc.devRef .tc main_arg12) = x12) : V6 W (Proc.devRef .tc main_v70) = (Cert.ReferenceIdeal.ReadP.val_main_v70 (F := F) x0 x1 x3 x4) :=
  (segR2_keeps_v70 (V5 W)).trans (at5_v70 W hA0 hA1 hA3 hA4 hA5 hA6 hA7 hA8 hA9 hA10 hA11 hA12)
theorem at6_arg4 (W : Valuation τ sig (Elt F)) (hA0 : W (Proc.devRef .tc main_arg0) = x0) (hA1 : W (Proc.devRef .tc main_arg1) = x1) (hA3 : W (Proc.devRef .tc main_arg3) = x3) (hA4 : W (Proc.devRef .tc main_arg4) = x4) (hA5 : W (Proc.devRef .tc main_arg5) = x5) (hA6 : W (Proc.devRef .tc main_arg6) = x6) (hA7 : W (Proc.devRef .tc main_arg7) = x7) (hA8 : W (Proc.devRef .tc main_arg8) = x8) (hA9 : W (Proc.devRef .tc main_arg9) = x9) (hA10 : W (Proc.devRef .tc main_arg10) = x10) (hA11 : W (Proc.devRef .tc main_arg11) = x11) (hA12 : W (Proc.devRef .tc main_arg12) = x12) : V6 W (Proc.devRef .tc main_arg4) = x4 :=
  (segR2_keeps_arg4 (V5 W)).trans (at5_arg4 W hA0 hA1 hA3 hA4 hA5 hA6 hA7 hA8 hA9 hA10 hA11 hA12)
theorem at6_v27 (W : Valuation τ sig (Elt F)) (hA0 : W (Proc.devRef .tc main_arg0) = x0) (hA1 : W (Proc.devRef .tc main_arg1) = x1) (hA3 : W (Proc.devRef .tc main_arg3) = x3) (hA4 : W (Proc.devRef .tc main_arg4) = x4) (hA5 : W (Proc.devRef .tc main_arg5) = x5) (hA6 : W (Proc.devRef .tc main_arg6) = x6) (hA7 : W (Proc.devRef .tc main_arg7) = x7) (hA8 : W (Proc.devRef .tc main_arg8) = x8) (hA9 : W (Proc.devRef .tc main_arg9) = x9) (hA10 : W (Proc.devRef .tc main_arg10) = x10) (hA11 : W (Proc.devRef .tc main_arg11) = x11) (hA12 : W (Proc.devRef .tc main_arg12) = x12) : V6 W (Proc.devRef .tc main_v27) = (Cert.ReferenceIdeal.ReadP.val_main_v27 (F := F) x1 x3) :=
  (segR2_keeps_v27 (V5 W)).trans (at5_v27 W hA0 hA1 hA3 hA4 hA5 hA6 hA7 hA8 hA9 hA10 hA11 hA12)
theorem at6_v1 (W : Valuation τ sig (Elt F)) (hA0 : W (Proc.devRef .tc main_arg0) = x0) (hA1 : W (Proc.devRef .tc main_arg1) = x1) (hA3 : W (Proc.devRef .tc main_arg3) = x3) (hA4 : W (Proc.devRef .tc main_arg4) = x4) (hA5 : W (Proc.devRef .tc main_arg5) = x5) (hA6 : W (Proc.devRef .tc main_arg6) = x6) (hA7 : W (Proc.devRef .tc main_arg7) = x7) (hA8 : W (Proc.devRef .tc main_arg8) = x8) (hA9 : W (Proc.devRef .tc main_arg9) = x9) (hA10 : W (Proc.devRef .tc main_arg10) = x10) (hA11 : W (Proc.devRef .tc main_arg11) = x11) (hA12 : W (Proc.devRef .tc main_arg12) = x12) : V6 W (Proc.devRef .tc main_v1) = (Cert.ReferenceIdeal.ReadP.val_main_v1 (F := F) x1) :=
  (segR2_keeps_v1 (V5 W)).trans (at5_v1 W hA0 hA1 hA3 hA4 hA5 hA6 hA7 hA8 hA9 hA10 hA11 hA12)
theorem at6_v3 (W : Valuation τ sig (Elt F)) (hA0 : W (Proc.devRef .tc main_arg0) = x0) (hA1 : W (Proc.devRef .tc main_arg1) = x1) (hA3 : W (Proc.devRef .tc main_arg3) = x3) (hA4 : W (Proc.devRef .tc main_arg4) = x4) (hA5 : W (Proc.devRef .tc main_arg5) = x5) (hA6 : W (Proc.devRef .tc main_arg6) = x6) (hA7 : W (Proc.devRef .tc main_arg7) = x7) (hA8 : W (Proc.devRef .tc main_arg8) = x8) (hA9 : W (Proc.devRef .tc main_arg9) = x9) (hA10 : W (Proc.devRef .tc main_arg10) = x10) (hA11 : W (Proc.devRef .tc main_arg11) = x11) (hA12 : W (Proc.devRef .tc main_arg12) = x12) : V6 W (Proc.devRef .tc main_v3) = (Cert.ReferenceIdeal.ReadP.val_main_v3 (F := F) x1) :=
  (segR2_keeps_v3 (V5 W)).trans (at5_v3 W hA0 hA1 hA3 hA4 hA5 hA6 hA7 hA8 hA9 hA10 hA11 hA12)
theorem at6_arg5 (W : Valuation τ sig (Elt F)) (hA0 : W (Proc.devRef .tc main_arg0) = x0) (hA1 : W (Proc.devRef .tc main_arg1) = x1) (hA3 : W (Proc.devRef .tc main_arg3) = x3) (hA4 : W (Proc.devRef .tc main_arg4) = x4) (hA5 : W (Proc.devRef .tc main_arg5) = x5) (hA6 : W (Proc.devRef .tc main_arg6) = x6) (hA7 : W (Proc.devRef .tc main_arg7) = x7) (hA8 : W (Proc.devRef .tc main_arg8) = x8) (hA9 : W (Proc.devRef .tc main_arg9) = x9) (hA10 : W (Proc.devRef .tc main_arg10) = x10) (hA11 : W (Proc.devRef .tc main_arg11) = x11) (hA12 : W (Proc.devRef .tc main_arg12) = x12) : V6 W (Proc.devRef .tc main_arg5) = x5 :=
  (segR2_keeps_arg5 (V5 W)).trans (at5_arg5 W hA0 hA1 hA3 hA4 hA5 hA6 hA7 hA8 hA9 hA10 hA11 hA12)
theorem at6_arg6 (W : Valuation τ sig (Elt F)) (hA0 : W (Proc.devRef .tc main_arg0) = x0) (hA1 : W (Proc.devRef .tc main_arg1) = x1) (hA3 : W (Proc.devRef .tc main_arg3) = x3) (hA4 : W (Proc.devRef .tc main_arg4) = x4) (hA5 : W (Proc.devRef .tc main_arg5) = x5) (hA6 : W (Proc.devRef .tc main_arg6) = x6) (hA7 : W (Proc.devRef .tc main_arg7) = x7) (hA8 : W (Proc.devRef .tc main_arg8) = x8) (hA9 : W (Proc.devRef .tc main_arg9) = x9) (hA10 : W (Proc.devRef .tc main_arg10) = x10) (hA11 : W (Proc.devRef .tc main_arg11) = x11) (hA12 : W (Proc.devRef .tc main_arg12) = x12) : V6 W (Proc.devRef .tc main_arg6) = x6 :=
  (segR2_keeps_arg6 (V5 W)).trans (at5_arg6 W hA0 hA1 hA3 hA4 hA5 hA6 hA7 hA8 hA9 hA10 hA11 hA12)
theorem at6_arg9 (W : Valuation τ sig (Elt F)) (hA0 : W (Proc.devRef .tc main_arg0) = x0) (hA1 : W (Proc.devRef .tc main_arg1) = x1) (hA3 : W (Proc.devRef .tc main_arg3) = x3) (hA4 : W (Proc.devRef .tc main_arg4) = x4) (hA5 : W (Proc.devRef .tc main_arg5) = x5) (hA6 : W (Proc.devRef .tc main_arg6) = x6) (hA7 : W (Proc.devRef .tc main_arg7) = x7) (hA8 : W (Proc.devRef .tc main_arg8) = x8) (hA9 : W (Proc.devRef .tc main_arg9) = x9) (hA10 : W (Proc.devRef .tc main_arg10) = x10) (hA11 : W (Proc.devRef .tc main_arg11) = x11) (hA12 : W (Proc.devRef .tc main_arg12) = x12) : V6 W (Proc.devRef .tc main_arg9) = x9 :=
  (segR2_keeps_arg9 (V5 W)).trans (at5_arg9 W hA0 hA1 hA3 hA4 hA5 hA6 hA7 hA8 hA9 hA10 hA11 hA12)
theorem at6_arg10 (W : Valuation τ sig (Elt F)) (hA0 : W (Proc.devRef .tc main_arg0) = x0) (hA1 : W (Proc.devRef .tc main_arg1) = x1) (hA3 : W (Proc.devRef .tc main_arg3) = x3) (hA4 : W (Proc.devRef .tc main_arg4) = x4) (hA5 : W (Proc.devRef .tc main_arg5) = x5) (hA6 : W (Proc.devRef .tc main_arg6) = x6) (hA7 : W (Proc.devRef .tc main_arg7) = x7) (hA8 : W (Proc.devRef .tc main_arg8) = x8) (hA9 : W (Proc.devRef .tc main_arg9) = x9) (hA10 : W (Proc.devRef .tc main_arg10) = x10) (hA11 : W (Proc.devRef .tc main_arg11) = x11) (hA12 : W (Proc.devRef .tc main_arg12) = x12) : V6 W (Proc.devRef .tc main_arg10) = x10 :=
  (segR2_keeps_arg10 (V5 W)).trans (at5_arg10 W hA0 hA1 hA3 hA4 hA5 hA6 hA7 hA8 hA9 hA10 hA11 hA12)
theorem at6_arg7 (W : Valuation τ sig (Elt F)) (hA0 : W (Proc.devRef .tc main_arg0) = x0) (hA1 : W (Proc.devRef .tc main_arg1) = x1) (hA3 : W (Proc.devRef .tc main_arg3) = x3) (hA4 : W (Proc.devRef .tc main_arg4) = x4) (hA5 : W (Proc.devRef .tc main_arg5) = x5) (hA6 : W (Proc.devRef .tc main_arg6) = x6) (hA7 : W (Proc.devRef .tc main_arg7) = x7) (hA8 : W (Proc.devRef .tc main_arg8) = x8) (hA9 : W (Proc.devRef .tc main_arg9) = x9) (hA10 : W (Proc.devRef .tc main_arg10) = x10) (hA11 : W (Proc.devRef .tc main_arg11) = x11) (hA12 : W (Proc.devRef .tc main_arg12) = x12) : V6 W (Proc.devRef .tc main_arg7) = x7 :=
  (segR2_keeps_arg7 (V5 W)).trans (at5_arg7 W hA0 hA1 hA3 hA4 hA5 hA6 hA7 hA8 hA9 hA10 hA11 hA12)
theorem at6_arg8 (W : Valuation τ sig (Elt F)) (hA0 : W (Proc.devRef .tc main_arg0) = x0) (hA1 : W (Proc.devRef .tc main_arg1) = x1) (hA3 : W (Proc.devRef .tc main_arg3) = x3) (hA4 : W (Proc.devRef .tc main_arg4) = x4) (hA5 : W (Proc.devRef .tc main_arg5) = x5) (hA6 : W (Proc.devRef .tc main_arg6) = x6) (hA7 : W (Proc.devRef .tc main_arg7) = x7) (hA8 : W (Proc.devRef .tc main_arg8) = x8) (hA9 : W (Proc.devRef .tc main_arg9) = x9) (hA10 : W (Proc.devRef .tc main_arg10) = x10) (hA11 : W (Proc.devRef .tc main_arg11) = x11) (hA12 : W (Proc.devRef .tc main_arg12) = x12) : V6 W (Proc.devRef .tc main_arg8) = x8 :=
  (segR2_keeps_arg8 (V5 W)).trans (at5_arg8 W hA0 hA1 hA3 hA4 hA5 hA6 hA7 hA8 hA9 hA10 hA11 hA12)
theorem at6_arg11 (W : Valuation τ sig (Elt F)) (hA0 : W (Proc.devRef .tc main_arg0) = x0) (hA1 : W (Proc.devRef .tc main_arg1) = x1) (hA3 : W (Proc.devRef .tc main_arg3) = x3) (hA4 : W (Proc.devRef .tc main_arg4) = x4) (hA5 : W (Proc.devRef .tc main_arg5) = x5) (hA6 : W (Proc.devRef .tc main_arg6) = x6) (hA7 : W (Proc.devRef .tc main_arg7) = x7) (hA8 : W (Proc.devRef .tc main_arg8) = x8) (hA9 : W (Proc.devRef .tc main_arg9) = x9) (hA10 : W (Proc.devRef .tc main_arg10) = x10) (hA11 : W (Proc.devRef .tc main_arg11) = x11) (hA12 : W (Proc.devRef .tc main_arg12) = x12) : V6 W (Proc.devRef .tc main_arg11) = x11 :=
  (segR2_keeps_arg11 (V5 W)).trans (at5_arg11 W hA0 hA1 hA3 hA4 hA5 hA6 hA7 hA8 hA9 hA10 hA11 hA12)
theorem at6_arg12 (W : Valuation τ sig (Elt F)) (hA0 : W (Proc.devRef .tc main_arg0) = x0) (hA1 : W (Proc.devRef .tc main_arg1) = x1) (hA3 : W (Proc.devRef .tc main_arg3) = x3) (hA4 : W (Proc.devRef .tc main_arg4) = x4) (hA5 : W (Proc.devRef .tc main_arg5) = x5) (hA6 : W (Proc.devRef .tc main_arg6) = x6) (hA7 : W (Proc.devRef .tc main_arg7) = x7) (hA8 : W (Proc.devRef .tc main_arg8) = x8) (hA9 : W (Proc.devRef .tc main_arg9) = x9) (hA10 : W (Proc.devRef .tc main_arg10) = x10) (hA11 : W (Proc.devRef .tc main_arg11) = x11) (hA12 : W (Proc.devRef .tc main_arg12) = x12) : V6 W (Proc.devRef .tc main_arg12) = x12 :=
  (segR2_keeps_arg12 (V5 W)).trans (at5_arg12 W hA0 hA1 hA3 hA4 hA5 hA6 hA7 hA8 hA9 hA10 hA11 hA12)
theorem at7_v114 (W : Valuation τ sig (Elt F)) (hA0 : W (Proc.devRef .tc main_arg0) = x0) (hA1 : W (Proc.devRef .tc main_arg1) = x1) (hA3 : W (Proc.devRef .tc main_arg3) = x3) (hA4 : W (Proc.devRef .tc main_arg4) = x4) (hA5 : W (Proc.devRef .tc main_arg5) = x5) (hA6 : W (Proc.devRef .tc main_arg6) = x6) (hA7 : W (Proc.devRef .tc main_arg7) = x7) (hA8 : W (Proc.devRef .tc main_arg8) = x8) (hA9 : W (Proc.devRef .tc main_arg9) = x9) (hA10 : W (Proc.devRef .tc main_arg10) = x10) (hA11 : W (Proc.devRef .tc main_arg11) = x11) (hA12 : W (Proc.devRef .tc main_arg12) = x12) : V7 W (Proc.devRef .tc main_v114) = (Cert.ReferenceIdeal.ReadP.val_main_v114 (F := F) x0 x1 x3 x4) :=
  segD_v114 (V6 W) (at6_v70 W hA0 hA1 hA3 hA4 hA5 hA6 hA7 hA8 hA9 hA10 hA11 hA12) (at6_v113 W hA0 hA1 hA3 hA4 hA5 hA6 hA7 hA8 hA9 hA10 hA11 hA12) (at6_arg4 W hA0 hA1 hA3 hA4 hA5 hA6 hA7 hA8 hA9 hA10 hA11 hA12) (at6_v27 W hA0 hA1 hA3 hA4 hA5 hA6 hA7 hA8 hA9 hA10 hA11 hA12) (at6_v1 W hA0 hA1 hA3 hA4 hA5 hA6 hA7 hA8 hA9 hA10 hA11 hA12) (at6_v3 W hA0 hA1 hA3 hA4 hA5 hA6 hA7 hA8 hA9 hA10 hA11 hA12)
theorem at7_v156 (W : Valuation τ sig (Elt F)) (hA0 : W (Proc.devRef .tc main_arg0) = x0) (hA1 : W (Proc.devRef .tc main_arg1) = x1) (hA3 : W (Proc.devRef .tc main_arg3) = x3) (hA4 : W (Proc.devRef .tc main_arg4) = x4) (hA5 : W (Proc.devRef .tc main_arg5) = x5) (hA6 : W (Proc.devRef .tc main_arg6) = x6) (hA7 : W (Proc.devRef .tc main_arg7) = x7) (hA8 : W (Proc.devRef .tc main_arg8) = x8) (hA9 : W (Proc.devRef .tc main_arg9) = x9) (hA10 : W (Proc.devRef .tc main_arg10) = x10) (hA11 : W (Proc.devRef .tc main_arg11) = x11) (hA12 : W (Proc.devRef .tc main_arg12) = x12) : V7 W (Proc.devRef .tc main_v156) = (Cert.ReferenceIdeal.ReadP.val_main_v156 (F := F) x0 x1 x3 x4) :=
  segD_v156 (V6 W) (at6_v70 W hA0 hA1 hA3 hA4 hA5 hA6 hA7 hA8 hA9 hA10 hA11 hA12) (at6_v113 W hA0 hA1 hA3 hA4 hA5 hA6 hA7 hA8 hA9 hA10 hA11 hA12) (at6_arg4 W hA0 hA1 hA3 hA4 hA5 hA6 hA7 hA8 hA9 hA10 hA11 hA12) (at6_v27 W hA0 hA1 hA3 hA4 hA5 hA6 hA7 hA8 hA9 hA10 hA11 hA12) (at6_v1 W hA0 hA1 hA3 hA4 hA5 hA6 hA7 hA8 hA9 hA10 hA11 hA12) (at6_v3 W hA0 hA1 hA3 hA4 hA5 hA6 hA7 hA8 hA9 hA10 hA11 hA12)
theorem at7_arg4 (W : Valuation τ sig (Elt F)) (hA0 : W (Proc.devRef .tc main_arg0) = x0) (hA1 : W (Proc.devRef .tc main_arg1) = x1) (hA3 : W (Proc.devRef .tc main_arg3) = x3) (hA4 : W (Proc.devRef .tc main_arg4) = x4) (hA5 : W (Proc.devRef .tc main_arg5) = x5) (hA6 : W (Proc.devRef .tc main_arg6) = x6) (hA7 : W (Proc.devRef .tc main_arg7) = x7) (hA8 : W (Proc.devRef .tc main_arg8) = x8) (hA9 : W (Proc.devRef .tc main_arg9) = x9) (hA10 : W (Proc.devRef .tc main_arg10) = x10) (hA11 : W (Proc.devRef .tc main_arg11) = x11) (hA12 : W (Proc.devRef .tc main_arg12) = x12) : V7 W (Proc.devRef .tc main_arg4) = x4 :=
  (segD_keeps_arg4 (V6 W)).trans (at6_arg4 W hA0 hA1 hA3 hA4 hA5 hA6 hA7 hA8 hA9 hA10 hA11 hA12)
theorem at7_v27 (W : Valuation τ sig (Elt F)) (hA0 : W (Proc.devRef .tc main_arg0) = x0) (hA1 : W (Proc.devRef .tc main_arg1) = x1) (hA3 : W (Proc.devRef .tc main_arg3) = x3) (hA4 : W (Proc.devRef .tc main_arg4) = x4) (hA5 : W (Proc.devRef .tc main_arg5) = x5) (hA6 : W (Proc.devRef .tc main_arg6) = x6) (hA7 : W (Proc.devRef .tc main_arg7) = x7) (hA8 : W (Proc.devRef .tc main_arg8) = x8) (hA9 : W (Proc.devRef .tc main_arg9) = x9) (hA10 : W (Proc.devRef .tc main_arg10) = x10) (hA11 : W (Proc.devRef .tc main_arg11) = x11) (hA12 : W (Proc.devRef .tc main_arg12) = x12) : V7 W (Proc.devRef .tc main_v27) = (Cert.ReferenceIdeal.ReadP.val_main_v27 (F := F) x1 x3) :=
  (segD_keeps_v27 (V6 W)).trans (at6_v27 W hA0 hA1 hA3 hA4 hA5 hA6 hA7 hA8 hA9 hA10 hA11 hA12)
theorem at7_v1 (W : Valuation τ sig (Elt F)) (hA0 : W (Proc.devRef .tc main_arg0) = x0) (hA1 : W (Proc.devRef .tc main_arg1) = x1) (hA3 : W (Proc.devRef .tc main_arg3) = x3) (hA4 : W (Proc.devRef .tc main_arg4) = x4) (hA5 : W (Proc.devRef .tc main_arg5) = x5) (hA6 : W (Proc.devRef .tc main_arg6) = x6) (hA7 : W (Proc.devRef .tc main_arg7) = x7) (hA8 : W (Proc.devRef .tc main_arg8) = x8) (hA9 : W (Proc.devRef .tc main_arg9) = x9) (hA10 : W (Proc.devRef .tc main_arg10) = x10) (hA11 : W (Proc.devRef .tc main_arg11) = x11) (hA12 : W (Proc.devRef .tc main_arg12) = x12) : V7 W (Proc.devRef .tc main_v1) = (Cert.ReferenceIdeal.ReadP.val_main_v1 (F := F) x1) :=
  (segD_keeps_v1 (V6 W)).trans (at6_v1 W hA0 hA1 hA3 hA4 hA5 hA6 hA7 hA8 hA9 hA10 hA11 hA12)
theorem at7_v3 (W : Valuation τ sig (Elt F)) (hA0 : W (Proc.devRef .tc main_arg0) = x0) (hA1 : W (Proc.devRef .tc main_arg1) = x1) (hA3 : W (Proc.devRef .tc main_arg3) = x3) (hA4 : W (Proc.devRef .tc main_arg4) = x4) (hA5 : W (Proc.devRef .tc main_arg5) = x5) (hA6 : W (Proc.devRef .tc main_arg6) = x6) (hA7 : W (Proc.devRef .tc main_arg7) = x7) (hA8 : W (Proc.devRef .tc main_arg8) = x8) (hA9 : W (Proc.devRef .tc main_arg9) = x9) (hA10 : W (Proc.devRef .tc main_arg10) = x10) (hA11 : W (Proc.devRef .tc main_arg11) = x11) (hA12 : W (Proc.devRef .tc main_arg12) = x12) : V7 W (Proc.devRef .tc main_v3) = (Cert.ReferenceIdeal.ReadP.val_main_v3 (F := F) x1) :=
  (segD_keeps_v3 (V6 W)).trans (at6_v3 W hA0 hA1 hA3 hA4 hA5 hA6 hA7 hA8 hA9 hA10 hA11 hA12)
theorem at7_arg5 (W : Valuation τ sig (Elt F)) (hA0 : W (Proc.devRef .tc main_arg0) = x0) (hA1 : W (Proc.devRef .tc main_arg1) = x1) (hA3 : W (Proc.devRef .tc main_arg3) = x3) (hA4 : W (Proc.devRef .tc main_arg4) = x4) (hA5 : W (Proc.devRef .tc main_arg5) = x5) (hA6 : W (Proc.devRef .tc main_arg6) = x6) (hA7 : W (Proc.devRef .tc main_arg7) = x7) (hA8 : W (Proc.devRef .tc main_arg8) = x8) (hA9 : W (Proc.devRef .tc main_arg9) = x9) (hA10 : W (Proc.devRef .tc main_arg10) = x10) (hA11 : W (Proc.devRef .tc main_arg11) = x11) (hA12 : W (Proc.devRef .tc main_arg12) = x12) : V7 W (Proc.devRef .tc main_arg5) = x5 :=
  (segD_keeps_arg5 (V6 W)).trans (at6_arg5 W hA0 hA1 hA3 hA4 hA5 hA6 hA7 hA8 hA9 hA10 hA11 hA12)
theorem at7_arg6 (W : Valuation τ sig (Elt F)) (hA0 : W (Proc.devRef .tc main_arg0) = x0) (hA1 : W (Proc.devRef .tc main_arg1) = x1) (hA3 : W (Proc.devRef .tc main_arg3) = x3) (hA4 : W (Proc.devRef .tc main_arg4) = x4) (hA5 : W (Proc.devRef .tc main_arg5) = x5) (hA6 : W (Proc.devRef .tc main_arg6) = x6) (hA7 : W (Proc.devRef .tc main_arg7) = x7) (hA8 : W (Proc.devRef .tc main_arg8) = x8) (hA9 : W (Proc.devRef .tc main_arg9) = x9) (hA10 : W (Proc.devRef .tc main_arg10) = x10) (hA11 : W (Proc.devRef .tc main_arg11) = x11) (hA12 : W (Proc.devRef .tc main_arg12) = x12) : V7 W (Proc.devRef .tc main_arg6) = x6 :=
  (segD_keeps_arg6 (V6 W)).trans (at6_arg6 W hA0 hA1 hA3 hA4 hA5 hA6 hA7 hA8 hA9 hA10 hA11 hA12)
theorem at7_arg9 (W : Valuation τ sig (Elt F)) (hA0 : W (Proc.devRef .tc main_arg0) = x0) (hA1 : W (Proc.devRef .tc main_arg1) = x1) (hA3 : W (Proc.devRef .tc main_arg3) = x3) (hA4 : W (Proc.devRef .tc main_arg4) = x4) (hA5 : W (Proc.devRef .tc main_arg5) = x5) (hA6 : W (Proc.devRef .tc main_arg6) = x6) (hA7 : W (Proc.devRef .tc main_arg7) = x7) (hA8 : W (Proc.devRef .tc main_arg8) = x8) (hA9 : W (Proc.devRef .tc main_arg9) = x9) (hA10 : W (Proc.devRef .tc main_arg10) = x10) (hA11 : W (Proc.devRef .tc main_arg11) = x11) (hA12 : W (Proc.devRef .tc main_arg12) = x12) : V7 W (Proc.devRef .tc main_arg9) = x9 :=
  (segD_keeps_arg9 (V6 W)).trans (at6_arg9 W hA0 hA1 hA3 hA4 hA5 hA6 hA7 hA8 hA9 hA10 hA11 hA12)
theorem at7_arg10 (W : Valuation τ sig (Elt F)) (hA0 : W (Proc.devRef .tc main_arg0) = x0) (hA1 : W (Proc.devRef .tc main_arg1) = x1) (hA3 : W (Proc.devRef .tc main_arg3) = x3) (hA4 : W (Proc.devRef .tc main_arg4) = x4) (hA5 : W (Proc.devRef .tc main_arg5) = x5) (hA6 : W (Proc.devRef .tc main_arg6) = x6) (hA7 : W (Proc.devRef .tc main_arg7) = x7) (hA8 : W (Proc.devRef .tc main_arg8) = x8) (hA9 : W (Proc.devRef .tc main_arg9) = x9) (hA10 : W (Proc.devRef .tc main_arg10) = x10) (hA11 : W (Proc.devRef .tc main_arg11) = x11) (hA12 : W (Proc.devRef .tc main_arg12) = x12) : V7 W (Proc.devRef .tc main_arg10) = x10 :=
  (segD_keeps_arg10 (V6 W)).trans (at6_arg10 W hA0 hA1 hA3 hA4 hA5 hA6 hA7 hA8 hA9 hA10 hA11 hA12)
theorem at7_arg7 (W : Valuation τ sig (Elt F)) (hA0 : W (Proc.devRef .tc main_arg0) = x0) (hA1 : W (Proc.devRef .tc main_arg1) = x1) (hA3 : W (Proc.devRef .tc main_arg3) = x3) (hA4 : W (Proc.devRef .tc main_arg4) = x4) (hA5 : W (Proc.devRef .tc main_arg5) = x5) (hA6 : W (Proc.devRef .tc main_arg6) = x6) (hA7 : W (Proc.devRef .tc main_arg7) = x7) (hA8 : W (Proc.devRef .tc main_arg8) = x8) (hA9 : W (Proc.devRef .tc main_arg9) = x9) (hA10 : W (Proc.devRef .tc main_arg10) = x10) (hA11 : W (Proc.devRef .tc main_arg11) = x11) (hA12 : W (Proc.devRef .tc main_arg12) = x12) : V7 W (Proc.devRef .tc main_arg7) = x7 :=
  (segD_keeps_arg7 (V6 W)).trans (at6_arg7 W hA0 hA1 hA3 hA4 hA5 hA6 hA7 hA8 hA9 hA10 hA11 hA12)
theorem at7_arg8 (W : Valuation τ sig (Elt F)) (hA0 : W (Proc.devRef .tc main_arg0) = x0) (hA1 : W (Proc.devRef .tc main_arg1) = x1) (hA3 : W (Proc.devRef .tc main_arg3) = x3) (hA4 : W (Proc.devRef .tc main_arg4) = x4) (hA5 : W (Proc.devRef .tc main_arg5) = x5) (hA6 : W (Proc.devRef .tc main_arg6) = x6) (hA7 : W (Proc.devRef .tc main_arg7) = x7) (hA8 : W (Proc.devRef .tc main_arg8) = x8) (hA9 : W (Proc.devRef .tc main_arg9) = x9) (hA10 : W (Proc.devRef .tc main_arg10) = x10) (hA11 : W (Proc.devRef .tc main_arg11) = x11) (hA12 : W (Proc.devRef .tc main_arg12) = x12) : V7 W (Proc.devRef .tc main_arg8) = x8 :=
  (segD_keeps_arg8 (V6 W)).trans (at6_arg8 W hA0 hA1 hA3 hA4 hA5 hA6 hA7 hA8 hA9 hA10 hA11 hA12)
theorem at7_arg11 (W : Valuation τ sig (Elt F)) (hA0 : W (Proc.devRef .tc main_arg0) = x0) (hA1 : W (Proc.devRef .tc main_arg1) = x1) (hA3 : W (Proc.devRef .tc main_arg3) = x3) (hA4 : W (Proc.devRef .tc main_arg4) = x4) (hA5 : W (Proc.devRef .tc main_arg5) = x5) (hA6 : W (Proc.devRef .tc main_arg6) = x6) (hA7 : W (Proc.devRef .tc main_arg7) = x7) (hA8 : W (Proc.devRef .tc main_arg8) = x8) (hA9 : W (Proc.devRef .tc main_arg9) = x9) (hA10 : W (Proc.devRef .tc main_arg10) = x10) (hA11 : W (Proc.devRef .tc main_arg11) = x11) (hA12 : W (Proc.devRef .tc main_arg12) = x12) : V7 W (Proc.devRef .tc main_arg11) = x11 :=
  (segD_keeps_arg11 (V6 W)).trans (at6_arg11 W hA0 hA1 hA3 hA4 hA5 hA6 hA7 hA8 hA9 hA10 hA11 hA12)
theorem at7_arg12 (W : Valuation τ sig (Elt F)) (hA0 : W (Proc.devRef .tc main_arg0) = x0) (hA1 : W (Proc.devRef .tc main_arg1) = x1) (hA3 : W (Proc.devRef .tc main_arg3) = x3) (hA4 : W (Proc.devRef .tc main_arg4) = x4) (hA5 : W (Proc.devRef .tc main_arg5) = x5) (hA6 : W (Proc.devRef .tc main_arg6) = x6) (hA7 : W (Proc.devRef .tc main_arg7) = x7) (hA8 : W (Proc.devRef .tc main_arg8) = x8) (hA9 : W (Proc.devRef .tc main_arg9) = x9) (hA10 : W (Proc.devRef .tc main_arg10) = x10) (hA11 : W (Proc.devRef .tc main_arg11) = x11) (hA12 : W (Proc.devRef .tc main_arg12) = x12) : V7 W (Proc.devRef .tc main_arg12) = x12 :=
  (segD_keeps_arg12 (V6 W)).trans (at6_arg12 W hA0 hA1 hA3 hA4 hA5 hA6 hA7 hA8 hA9 hA10 hA11 hA12)
theorem at8_v157 (W : Valuation τ sig (Elt F)) (hA0 : W (Proc.devRef .tc main_arg0) = x0) (hA1 : W (Proc.devRef .tc main_arg1) = x1) (hA3 : W (Proc.devRef .tc main_arg3) = x3) (hA4 : W (Proc.devRef .tc main_arg4) = x4) (hA5 : W (Proc.devRef .tc main_arg5) = x5) (hA6 : W (Proc.devRef .tc main_arg6) = x6) (hA7 : W (Proc.devRef .tc main_arg7) = x7) (hA8 : W (Proc.devRef .tc main_arg8) = x8) (hA9 : W (Proc.devRef .tc main_arg9) = x9) (hA10 : W (Proc.devRef .tc main_arg10) = x10) (hA11 : W (Proc.devRef .tc main_arg11) = x11) (hA12 : W (Proc.devRef .tc main_arg12) = x12) : V8 W (Proc.devRef .tc main_v157) = (Cert.ReferenceIdeal.ReadP.val_main_v157 (F := F) x0 x1 x3 x4) :=
  segR3_v157 (V7 W) (at7_v156 W hA0 hA1 hA3 hA4 hA5 hA6 hA7 hA8 hA9 hA10 hA11 hA12)
theorem at8_v114 (W : Valuation τ sig (Elt F)) (hA0 : W (Proc.devRef .tc main_arg0) = x0) (hA1 : W (Proc.devRef .tc main_arg1) = x1) (hA3 : W (Proc.devRef .tc main_arg3) = x3) (hA4 : W (Proc.devRef .tc main_arg4) = x4) (hA5 : W (Proc.devRef .tc main_arg5) = x5) (hA6 : W (Proc.devRef .tc main_arg6) = x6) (hA7 : W (Proc.devRef .tc main_arg7) = x7) (hA8 : W (Proc.devRef .tc main_arg8) = x8) (hA9 : W (Proc.devRef .tc main_arg9) = x9) (hA10 : W (Proc.devRef .tc main_arg10) = x10) (hA11 : W (Proc.devRef .tc main_arg11) = x11) (hA12 : W (Proc.devRef .tc main_arg12) = x12) : V8 W (Proc.devRef .tc main_v114) = (Cert.ReferenceIdeal.ReadP.val_main_v114 (F := F) x0 x1 x3 x4) :=
  (segR3_keeps_v114 (V7 W)).trans (at7_v114 W hA0 hA1 hA3 hA4 hA5 hA6 hA7 hA8 hA9 hA10 hA11 hA12)
theorem at8_arg4 (W : Valuation τ sig (Elt F)) (hA0 : W (Proc.devRef .tc main_arg0) = x0) (hA1 : W (Proc.devRef .tc main_arg1) = x1) (hA3 : W (Proc.devRef .tc main_arg3) = x3) (hA4 : W (Proc.devRef .tc main_arg4) = x4) (hA5 : W (Proc.devRef .tc main_arg5) = x5) (hA6 : W (Proc.devRef .tc main_arg6) = x6) (hA7 : W (Proc.devRef .tc main_arg7) = x7) (hA8 : W (Proc.devRef .tc main_arg8) = x8) (hA9 : W (Proc.devRef .tc main_arg9) = x9) (hA10 : W (Proc.devRef .tc main_arg10) = x10) (hA11 : W (Proc.devRef .tc main_arg11) = x11) (hA12 : W (Proc.devRef .tc main_arg12) = x12) : V8 W (Proc.devRef .tc main_arg4) = x4 :=
  (segR3_keeps_arg4 (V7 W)).trans (at7_arg4 W hA0 hA1 hA3 hA4 hA5 hA6 hA7 hA8 hA9 hA10 hA11 hA12)
theorem at8_v27 (W : Valuation τ sig (Elt F)) (hA0 : W (Proc.devRef .tc main_arg0) = x0) (hA1 : W (Proc.devRef .tc main_arg1) = x1) (hA3 : W (Proc.devRef .tc main_arg3) = x3) (hA4 : W (Proc.devRef .tc main_arg4) = x4) (hA5 : W (Proc.devRef .tc main_arg5) = x5) (hA6 : W (Proc.devRef .tc main_arg6) = x6) (hA7 : W (Proc.devRef .tc main_arg7) = x7) (hA8 : W (Proc.devRef .tc main_arg8) = x8) (hA9 : W (Proc.devRef .tc main_arg9) = x9) (hA10 : W (Proc.devRef .tc main_arg10) = x10) (hA11 : W (Proc.devRef .tc main_arg11) = x11) (hA12 : W (Proc.devRef .tc main_arg12) = x12) : V8 W (Proc.devRef .tc main_v27) = (Cert.ReferenceIdeal.ReadP.val_main_v27 (F := F) x1 x3) :=
  (segR3_keeps_v27 (V7 W)).trans (at7_v27 W hA0 hA1 hA3 hA4 hA5 hA6 hA7 hA8 hA9 hA10 hA11 hA12)
theorem at8_v1 (W : Valuation τ sig (Elt F)) (hA0 : W (Proc.devRef .tc main_arg0) = x0) (hA1 : W (Proc.devRef .tc main_arg1) = x1) (hA3 : W (Proc.devRef .tc main_arg3) = x3) (hA4 : W (Proc.devRef .tc main_arg4) = x4) (hA5 : W (Proc.devRef .tc main_arg5) = x5) (hA6 : W (Proc.devRef .tc main_arg6) = x6) (hA7 : W (Proc.devRef .tc main_arg7) = x7) (hA8 : W (Proc.devRef .tc main_arg8) = x8) (hA9 : W (Proc.devRef .tc main_arg9) = x9) (hA10 : W (Proc.devRef .tc main_arg10) = x10) (hA11 : W (Proc.devRef .tc main_arg11) = x11) (hA12 : W (Proc.devRef .tc main_arg12) = x12) : V8 W (Proc.devRef .tc main_v1) = (Cert.ReferenceIdeal.ReadP.val_main_v1 (F := F) x1) :=
  (segR3_keeps_v1 (V7 W)).trans (at7_v1 W hA0 hA1 hA3 hA4 hA5 hA6 hA7 hA8 hA9 hA10 hA11 hA12)
theorem at8_v3 (W : Valuation τ sig (Elt F)) (hA0 : W (Proc.devRef .tc main_arg0) = x0) (hA1 : W (Proc.devRef .tc main_arg1) = x1) (hA3 : W (Proc.devRef .tc main_arg3) = x3) (hA4 : W (Proc.devRef .tc main_arg4) = x4) (hA5 : W (Proc.devRef .tc main_arg5) = x5) (hA6 : W (Proc.devRef .tc main_arg6) = x6) (hA7 : W (Proc.devRef .tc main_arg7) = x7) (hA8 : W (Proc.devRef .tc main_arg8) = x8) (hA9 : W (Proc.devRef .tc main_arg9) = x9) (hA10 : W (Proc.devRef .tc main_arg10) = x10) (hA11 : W (Proc.devRef .tc main_arg11) = x11) (hA12 : W (Proc.devRef .tc main_arg12) = x12) : V8 W (Proc.devRef .tc main_v3) = (Cert.ReferenceIdeal.ReadP.val_main_v3 (F := F) x1) :=
  (segR3_keeps_v3 (V7 W)).trans (at7_v3 W hA0 hA1 hA3 hA4 hA5 hA6 hA7 hA8 hA9 hA10 hA11 hA12)
theorem at8_arg5 (W : Valuation τ sig (Elt F)) (hA0 : W (Proc.devRef .tc main_arg0) = x0) (hA1 : W (Proc.devRef .tc main_arg1) = x1) (hA3 : W (Proc.devRef .tc main_arg3) = x3) (hA4 : W (Proc.devRef .tc main_arg4) = x4) (hA5 : W (Proc.devRef .tc main_arg5) = x5) (hA6 : W (Proc.devRef .tc main_arg6) = x6) (hA7 : W (Proc.devRef .tc main_arg7) = x7) (hA8 : W (Proc.devRef .tc main_arg8) = x8) (hA9 : W (Proc.devRef .tc main_arg9) = x9) (hA10 : W (Proc.devRef .tc main_arg10) = x10) (hA11 : W (Proc.devRef .tc main_arg11) = x11) (hA12 : W (Proc.devRef .tc main_arg12) = x12) : V8 W (Proc.devRef .tc main_arg5) = x5 :=
  (segR3_keeps_arg5 (V7 W)).trans (at7_arg5 W hA0 hA1 hA3 hA4 hA5 hA6 hA7 hA8 hA9 hA10 hA11 hA12)
theorem at8_arg6 (W : Valuation τ sig (Elt F)) (hA0 : W (Proc.devRef .tc main_arg0) = x0) (hA1 : W (Proc.devRef .tc main_arg1) = x1) (hA3 : W (Proc.devRef .tc main_arg3) = x3) (hA4 : W (Proc.devRef .tc main_arg4) = x4) (hA5 : W (Proc.devRef .tc main_arg5) = x5) (hA6 : W (Proc.devRef .tc main_arg6) = x6) (hA7 : W (Proc.devRef .tc main_arg7) = x7) (hA8 : W (Proc.devRef .tc main_arg8) = x8) (hA9 : W (Proc.devRef .tc main_arg9) = x9) (hA10 : W (Proc.devRef .tc main_arg10) = x10) (hA11 : W (Proc.devRef .tc main_arg11) = x11) (hA12 : W (Proc.devRef .tc main_arg12) = x12) : V8 W (Proc.devRef .tc main_arg6) = x6 :=
  (segR3_keeps_arg6 (V7 W)).trans (at7_arg6 W hA0 hA1 hA3 hA4 hA5 hA6 hA7 hA8 hA9 hA10 hA11 hA12)
theorem at8_arg9 (W : Valuation τ sig (Elt F)) (hA0 : W (Proc.devRef .tc main_arg0) = x0) (hA1 : W (Proc.devRef .tc main_arg1) = x1) (hA3 : W (Proc.devRef .tc main_arg3) = x3) (hA4 : W (Proc.devRef .tc main_arg4) = x4) (hA5 : W (Proc.devRef .tc main_arg5) = x5) (hA6 : W (Proc.devRef .tc main_arg6) = x6) (hA7 : W (Proc.devRef .tc main_arg7) = x7) (hA8 : W (Proc.devRef .tc main_arg8) = x8) (hA9 : W (Proc.devRef .tc main_arg9) = x9) (hA10 : W (Proc.devRef .tc main_arg10) = x10) (hA11 : W (Proc.devRef .tc main_arg11) = x11) (hA12 : W (Proc.devRef .tc main_arg12) = x12) : V8 W (Proc.devRef .tc main_arg9) = x9 :=
  (segR3_keeps_arg9 (V7 W)).trans (at7_arg9 W hA0 hA1 hA3 hA4 hA5 hA6 hA7 hA8 hA9 hA10 hA11 hA12)
theorem at8_arg10 (W : Valuation τ sig (Elt F)) (hA0 : W (Proc.devRef .tc main_arg0) = x0) (hA1 : W (Proc.devRef .tc main_arg1) = x1) (hA3 : W (Proc.devRef .tc main_arg3) = x3) (hA4 : W (Proc.devRef .tc main_arg4) = x4) (hA5 : W (Proc.devRef .tc main_arg5) = x5) (hA6 : W (Proc.devRef .tc main_arg6) = x6) (hA7 : W (Proc.devRef .tc main_arg7) = x7) (hA8 : W (Proc.devRef .tc main_arg8) = x8) (hA9 : W (Proc.devRef .tc main_arg9) = x9) (hA10 : W (Proc.devRef .tc main_arg10) = x10) (hA11 : W (Proc.devRef .tc main_arg11) = x11) (hA12 : W (Proc.devRef .tc main_arg12) = x12) : V8 W (Proc.devRef .tc main_arg10) = x10 :=
  (segR3_keeps_arg10 (V7 W)).trans (at7_arg10 W hA0 hA1 hA3 hA4 hA5 hA6 hA7 hA8 hA9 hA10 hA11 hA12)
theorem at8_arg7 (W : Valuation τ sig (Elt F)) (hA0 : W (Proc.devRef .tc main_arg0) = x0) (hA1 : W (Proc.devRef .tc main_arg1) = x1) (hA3 : W (Proc.devRef .tc main_arg3) = x3) (hA4 : W (Proc.devRef .tc main_arg4) = x4) (hA5 : W (Proc.devRef .tc main_arg5) = x5) (hA6 : W (Proc.devRef .tc main_arg6) = x6) (hA7 : W (Proc.devRef .tc main_arg7) = x7) (hA8 : W (Proc.devRef .tc main_arg8) = x8) (hA9 : W (Proc.devRef .tc main_arg9) = x9) (hA10 : W (Proc.devRef .tc main_arg10) = x10) (hA11 : W (Proc.devRef .tc main_arg11) = x11) (hA12 : W (Proc.devRef .tc main_arg12) = x12) : V8 W (Proc.devRef .tc main_arg7) = x7 :=
  (segR3_keeps_arg7 (V7 W)).trans (at7_arg7 W hA0 hA1 hA3 hA4 hA5 hA6 hA7 hA8 hA9 hA10 hA11 hA12)
theorem at8_arg8 (W : Valuation τ sig (Elt F)) (hA0 : W (Proc.devRef .tc main_arg0) = x0) (hA1 : W (Proc.devRef .tc main_arg1) = x1) (hA3 : W (Proc.devRef .tc main_arg3) = x3) (hA4 : W (Proc.devRef .tc main_arg4) = x4) (hA5 : W (Proc.devRef .tc main_arg5) = x5) (hA6 : W (Proc.devRef .tc main_arg6) = x6) (hA7 : W (Proc.devRef .tc main_arg7) = x7) (hA8 : W (Proc.devRef .tc main_arg8) = x8) (hA9 : W (Proc.devRef .tc main_arg9) = x9) (hA10 : W (Proc.devRef .tc main_arg10) = x10) (hA11 : W (Proc.devRef .tc main_arg11) = x11) (hA12 : W (Proc.devRef .tc main_arg12) = x12) : V8 W (Proc.devRef .tc main_arg8) = x8 :=
  (segR3_keeps_arg8 (V7 W)).trans (at7_arg8 W hA0 hA1 hA3 hA4 hA5 hA6 hA7 hA8 hA9 hA10 hA11 hA12)
theorem at8_arg11 (W : Valuation τ sig (Elt F)) (hA0 : W (Proc.devRef .tc main_arg0) = x0) (hA1 : W (Proc.devRef .tc main_arg1) = x1) (hA3 : W (Proc.devRef .tc main_arg3) = x3) (hA4 : W (Proc.devRef .tc main_arg4) = x4) (hA5 : W (Proc.devRef .tc main_arg5) = x5) (hA6 : W (Proc.devRef .tc main_arg6) = x6) (hA7 : W (Proc.devRef .tc main_arg7) = x7) (hA8 : W (Proc.devRef .tc main_arg8) = x8) (hA9 : W (Proc.devRef .tc main_arg9) = x9) (hA10 : W (Proc.devRef .tc main_arg10) = x10) (hA11 : W (Proc.devRef .tc main_arg11) = x11) (hA12 : W (Proc.devRef .tc main_arg12) = x12) : V8 W (Proc.devRef .tc main_arg11) = x11 :=
  (segR3_keeps_arg11 (V7 W)).trans (at7_arg11 W hA0 hA1 hA3 hA4 hA5 hA6 hA7 hA8 hA9 hA10 hA11 hA12)
theorem at8_arg12 (W : Valuation τ sig (Elt F)) (hA0 : W (Proc.devRef .tc main_arg0) = x0) (hA1 : W (Proc.devRef .tc main_arg1) = x1) (hA3 : W (Proc.devRef .tc main_arg3) = x3) (hA4 : W (Proc.devRef .tc main_arg4) = x4) (hA5 : W (Proc.devRef .tc main_arg5) = x5) (hA6 : W (Proc.devRef .tc main_arg6) = x6) (hA7 : W (Proc.devRef .tc main_arg7) = x7) (hA8 : W (Proc.devRef .tc main_arg8) = x8) (hA9 : W (Proc.devRef .tc main_arg9) = x9) (hA10 : W (Proc.devRef .tc main_arg10) = x10) (hA11 : W (Proc.devRef .tc main_arg11) = x11) (hA12 : W (Proc.devRef .tc main_arg12) = x12) : V8 W (Proc.devRef .tc main_arg12) = x12 :=
  (segR3_keeps_arg12 (V7 W)).trans (at7_arg12 W hA0 hA1 hA3 hA4 hA5 hA6 hA7 hA8 hA9 hA10 hA11 hA12)
theorem at9_v158 (W : Valuation τ sig (Elt F)) (hA0 : W (Proc.devRef .tc main_arg0) = x0) (hA1 : W (Proc.devRef .tc main_arg1) = x1) (hA3 : W (Proc.devRef .tc main_arg3) = x3) (hA4 : W (Proc.devRef .tc main_arg4) = x4) (hA5 : W (Proc.devRef .tc main_arg5) = x5) (hA6 : W (Proc.devRef .tc main_arg6) = x6) (hA7 : W (Proc.devRef .tc main_arg7) = x7) (hA8 : W (Proc.devRef .tc main_arg8) = x8) (hA9 : W (Proc.devRef .tc main_arg9) = x9) (hA10 : W (Proc.devRef .tc main_arg10) = x10) (hA11 : W (Proc.devRef .tc main_arg11) = x11) (hA12 : W (Proc.devRef .tc main_arg12) = x12) : V9 W (Proc.devRef .tc main_v158) = (Cert.ReferenceIdeal.ReadP.val_main_v158 (F := F) x0 x1 x3 x4) :=
  segE_v158 (V8 W) (at8_v114 W hA0 hA1 hA3 hA4 hA5 hA6 hA7 hA8 hA9 hA10 hA11 hA12) (at8_v157 W hA0 hA1 hA3 hA4 hA5 hA6 hA7 hA8 hA9 hA10 hA11 hA12) (at8_arg4 W hA0 hA1 hA3 hA4 hA5 hA6 hA7 hA8 hA9 hA10 hA11 hA12) (at8_v27 W hA0 hA1 hA3 hA4 hA5 hA6 hA7 hA8 hA9 hA10 hA11 hA12) (at8_v1 W hA0 hA1 hA3 hA4 hA5 hA6 hA7 hA8 hA9 hA10 hA11 hA12) (at8_v3 W hA0 hA1 hA3 hA4 hA5 hA6 hA7 hA8 hA9 hA10 hA11 hA12)
theorem at9_v200 (W : Valuation τ sig (Elt F)) (hA0 : W (Proc.devRef .tc main_arg0) = x0) (hA1 : W (Proc.devRef .tc main_arg1) = x1) (hA3 : W (Proc.devRef .tc main_arg3) = x3) (hA4 : W (Proc.devRef .tc main_arg4) = x4) (hA5 : W (Proc.devRef .tc main_arg5) = x5) (hA6 : W (Proc.devRef .tc main_arg6) = x6) (hA7 : W (Proc.devRef .tc main_arg7) = x7) (hA8 : W (Proc.devRef .tc main_arg8) = x8) (hA9 : W (Proc.devRef .tc main_arg9) = x9) (hA10 : W (Proc.devRef .tc main_arg10) = x10) (hA11 : W (Proc.devRef .tc main_arg11) = x11) (hA12 : W (Proc.devRef .tc main_arg12) = x12) : V9 W (Proc.devRef .tc main_v200) = (Cert.ReferenceIdeal.ReadP.val_main_v200 (F := F) x0 x1 x3 x4) :=
  segE_v200 (V8 W) (at8_v114 W hA0 hA1 hA3 hA4 hA5 hA6 hA7 hA8 hA9 hA10 hA11 hA12) (at8_v157 W hA0 hA1 hA3 hA4 hA5 hA6 hA7 hA8 hA9 hA10 hA11 hA12) (at8_arg4 W hA0 hA1 hA3 hA4 hA5 hA6 hA7 hA8 hA9 hA10 hA11 hA12) (at8_v27 W hA0 hA1 hA3 hA4 hA5 hA6 hA7 hA8 hA9 hA10 hA11 hA12) (at8_v1 W hA0 hA1 hA3 hA4 hA5 hA6 hA7 hA8 hA9 hA10 hA11 hA12) (at8_v3 W hA0 hA1 hA3 hA4 hA5 hA6 hA7 hA8 hA9 hA10 hA11 hA12)
theorem at9_arg5 (W : Valuation τ sig (Elt F)) (hA0 : W (Proc.devRef .tc main_arg0) = x0) (hA1 : W (Proc.devRef .tc main_arg1) = x1) (hA3 : W (Proc.devRef .tc main_arg3) = x3) (hA4 : W (Proc.devRef .tc main_arg4) = x4) (hA5 : W (Proc.devRef .tc main_arg5) = x5) (hA6 : W (Proc.devRef .tc main_arg6) = x6) (hA7 : W (Proc.devRef .tc main_arg7) = x7) (hA8 : W (Proc.devRef .tc main_arg8) = x8) (hA9 : W (Proc.devRef .tc main_arg9) = x9) (hA10 : W (Proc.devRef .tc main_arg10) = x10) (hA11 : W (Proc.devRef .tc main_arg11) = x11) (hA12 : W (Proc.devRef .tc main_arg12) = x12) : V9 W (Proc.devRef .tc main_arg5) = x5 :=
  (segE_keeps_arg5 (V8 W)).trans (at8_arg5 W hA0 hA1 hA3 hA4 hA5 hA6 hA7 hA8 hA9 hA10 hA11 hA12)
theorem at9_arg6 (W : Valuation τ sig (Elt F)) (hA0 : W (Proc.devRef .tc main_arg0) = x0) (hA1 : W (Proc.devRef .tc main_arg1) = x1) (hA3 : W (Proc.devRef .tc main_arg3) = x3) (hA4 : W (Proc.devRef .tc main_arg4) = x4) (hA5 : W (Proc.devRef .tc main_arg5) = x5) (hA6 : W (Proc.devRef .tc main_arg6) = x6) (hA7 : W (Proc.devRef .tc main_arg7) = x7) (hA8 : W (Proc.devRef .tc main_arg8) = x8) (hA9 : W (Proc.devRef .tc main_arg9) = x9) (hA10 : W (Proc.devRef .tc main_arg10) = x10) (hA11 : W (Proc.devRef .tc main_arg11) = x11) (hA12 : W (Proc.devRef .tc main_arg12) = x12) : V9 W (Proc.devRef .tc main_arg6) = x6 :=
  (segE_keeps_arg6 (V8 W)).trans (at8_arg6 W hA0 hA1 hA3 hA4 hA5 hA6 hA7 hA8 hA9 hA10 hA11 hA12)
theorem at9_arg9 (W : Valuation τ sig (Elt F)) (hA0 : W (Proc.devRef .tc main_arg0) = x0) (hA1 : W (Proc.devRef .tc main_arg1) = x1) (hA3 : W (Proc.devRef .tc main_arg3) = x3) (hA4 : W (Proc.devRef .tc main_arg4) = x4) (hA5 : W (Proc.devRef .tc main_arg5) = x5) (hA6 : W (Proc.devRef .tc main_arg6) = x6) (hA7 : W (Proc.devRef .tc main_arg7) = x7) (hA8 : W (Proc.devRef .tc main_arg8) = x8) (hA9 : W (Proc.devRef .tc main_arg9) = x9) (hA10 : W (Proc.devRef .tc main_arg10) = x10) (hA11 : W (Proc.devRef .tc main_arg11) = x11) (hA12 : W (Proc.devRef .tc main_arg12) = x12) : V9 W (Proc.devRef .tc main_arg9) = x9 :=
  (segE_keeps_arg9 (V8 W)).trans (at8_arg9 W hA0 hA1 hA3 hA4 hA5 hA6 hA7 hA8 hA9 hA10 hA11 hA12)
theorem at9_arg10 (W : Valuation τ sig (Elt F)) (hA0 : W (Proc.devRef .tc main_arg0) = x0) (hA1 : W (Proc.devRef .tc main_arg1) = x1) (hA3 : W (Proc.devRef .tc main_arg3) = x3) (hA4 : W (Proc.devRef .tc main_arg4) = x4) (hA5 : W (Proc.devRef .tc main_arg5) = x5) (hA6 : W (Proc.devRef .tc main_arg6) = x6) (hA7 : W (Proc.devRef .tc main_arg7) = x7) (hA8 : W (Proc.devRef .tc main_arg8) = x8) (hA9 : W (Proc.devRef .tc main_arg9) = x9) (hA10 : W (Proc.devRef .tc main_arg10) = x10) (hA11 : W (Proc.devRef .tc main_arg11) = x11) (hA12 : W (Proc.devRef .tc main_arg12) = x12) : V9 W (Proc.devRef .tc main_arg10) = x10 :=
  (segE_keeps_arg10 (V8 W)).trans (at8_arg10 W hA0 hA1 hA3 hA4 hA5 hA6 hA7 hA8 hA9 hA10 hA11 hA12)
theorem at9_arg7 (W : Valuation τ sig (Elt F)) (hA0 : W (Proc.devRef .tc main_arg0) = x0) (hA1 : W (Proc.devRef .tc main_arg1) = x1) (hA3 : W (Proc.devRef .tc main_arg3) = x3) (hA4 : W (Proc.devRef .tc main_arg4) = x4) (hA5 : W (Proc.devRef .tc main_arg5) = x5) (hA6 : W (Proc.devRef .tc main_arg6) = x6) (hA7 : W (Proc.devRef .tc main_arg7) = x7) (hA8 : W (Proc.devRef .tc main_arg8) = x8) (hA9 : W (Proc.devRef .tc main_arg9) = x9) (hA10 : W (Proc.devRef .tc main_arg10) = x10) (hA11 : W (Proc.devRef .tc main_arg11) = x11) (hA12 : W (Proc.devRef .tc main_arg12) = x12) : V9 W (Proc.devRef .tc main_arg7) = x7 :=
  (segE_keeps_arg7 (V8 W)).trans (at8_arg7 W hA0 hA1 hA3 hA4 hA5 hA6 hA7 hA8 hA9 hA10 hA11 hA12)
theorem at9_arg8 (W : Valuation τ sig (Elt F)) (hA0 : W (Proc.devRef .tc main_arg0) = x0) (hA1 : W (Proc.devRef .tc main_arg1) = x1) (hA3 : W (Proc.devRef .tc main_arg3) = x3) (hA4 : W (Proc.devRef .tc main_arg4) = x4) (hA5 : W (Proc.devRef .tc main_arg5) = x5) (hA6 : W (Proc.devRef .tc main_arg6) = x6) (hA7 : W (Proc.devRef .tc main_arg7) = x7) (hA8 : W (Proc.devRef .tc main_arg8) = x8) (hA9 : W (Proc.devRef .tc main_arg9) = x9) (hA10 : W (Proc.devRef .tc main_arg10) = x10) (hA11 : W (Proc.devRef .tc main_arg11) = x11) (hA12 : W (Proc.devRef .tc main_arg12) = x12) : V9 W (Proc.devRef .tc main_arg8) = x8 :=
  (segE_keeps_arg8 (V8 W)).trans (at8_arg8 W hA0 hA1 hA3 hA4 hA5 hA6 hA7 hA8 hA9 hA10 hA11 hA12)
theorem at9_arg11 (W : Valuation τ sig (Elt F)) (hA0 : W (Proc.devRef .tc main_arg0) = x0) (hA1 : W (Proc.devRef .tc main_arg1) = x1) (hA3 : W (Proc.devRef .tc main_arg3) = x3) (hA4 : W (Proc.devRef .tc main_arg4) = x4) (hA5 : W (Proc.devRef .tc main_arg5) = x5) (hA6 : W (Proc.devRef .tc main_arg6) = x6) (hA7 : W (Proc.devRef .tc main_arg7) = x7) (hA8 : W (Proc.devRef .tc main_arg8) = x8) (hA9 : W (Proc.devRef .tc main_arg9) = x9) (hA10 : W (Proc.devRef .tc main_arg10) = x10) (hA11 : W (Proc.devRef .tc main_arg11) = x11) (hA12 : W (Proc.devRef .tc main_arg12) = x12) : V9 W (Proc.devRef .tc main_arg11) = x11 :=
  (segE_keeps_arg11 (V8 W)).trans (at8_arg11 W hA0 hA1 hA3 hA4 hA5 hA6 hA7 hA8 hA9 hA10 hA11 hA12)
theorem at9_arg12 (W : Valuation τ sig (Elt F)) (hA0 : W (Proc.devRef .tc main_arg0) = x0) (hA1 : W (Proc.devRef .tc main_arg1) = x1) (hA3 : W (Proc.devRef .tc main_arg3) = x3) (hA4 : W (Proc.devRef .tc main_arg4) = x4) (hA5 : W (Proc.devRef .tc main_arg5) = x5) (hA6 : W (Proc.devRef .tc main_arg6) = x6) (hA7 : W (Proc.devRef .tc main_arg7) = x7) (hA8 : W (Proc.devRef .tc main_arg8) = x8) (hA9 : W (Proc.devRef .tc main_arg9) = x9) (hA10 : W (Proc.devRef .tc main_arg10) = x10) (hA11 : W (Proc.devRef .tc main_arg11) = x11) (hA12 : W (Proc.devRef .tc main_arg12) = x12) : V9 W (Proc.devRef .tc main_arg12) = x12 :=
  (segE_keeps_arg12 (V8 W)).trans (at8_arg12 W hA0 hA1 hA3 hA4 hA5 hA6 hA7 hA8 hA9 hA10 hA11 hA12)
theorem at10_v201 (W : Valuation τ sig (Elt F)) (hA0 : W (Proc.devRef .tc main_arg0) = x0) (hA1 : W (Proc.devRef .tc main_arg1) = x1) (hA3 : W (Proc.devRef .tc main_arg3) = x3) (hA4 : W (Proc.devRef .tc main_arg4) = x4) (hA5 : W (Proc.devRef .tc main_arg5) = x5) (hA6 : W (Proc.devRef .tc main_arg6) = x6) (hA7 : W (Proc.devRef .tc main_arg7) = x7) (hA8 : W (Proc.devRef .tc main_arg8) = x8) (hA9 : W (Proc.devRef .tc main_arg9) = x9) (hA10 : W (Proc.devRef .tc main_arg10) = x10) (hA11 : W (Proc.devRef .tc main_arg11) = x11) (hA12 : W (Proc.devRef .tc main_arg12) = x12) : V10 W (Proc.devRef .tc main_v201) = (Cert.ReferenceIdeal.ReadP.val_main_v201 (F := F) x0 x1 x3 x4) :=
  segR4_v201 (V9 W) (at9_v200 W hA0 hA1 hA3 hA4 hA5 hA6 hA7 hA8 hA9 hA10 hA11 hA12)
theorem at10_v158 (W : Valuation τ sig (Elt F)) (hA0 : W (Proc.devRef .tc main_arg0) = x0) (hA1 : W (Proc.devRef .tc main_arg1) = x1) (hA3 : W (Proc.devRef .tc main_arg3) = x3) (hA4 : W (Proc.devRef .tc main_arg4) = x4) (hA5 : W (Proc.devRef .tc main_arg5) = x5) (hA6 : W (Proc.devRef .tc main_arg6) = x6) (hA7 : W (Proc.devRef .tc main_arg7) = x7) (hA8 : W (Proc.devRef .tc main_arg8) = x8) (hA9 : W (Proc.devRef .tc main_arg9) = x9) (hA10 : W (Proc.devRef .tc main_arg10) = x10) (hA11 : W (Proc.devRef .tc main_arg11) = x11) (hA12 : W (Proc.devRef .tc main_arg12) = x12) : V10 W (Proc.devRef .tc main_v158) = (Cert.ReferenceIdeal.ReadP.val_main_v158 (F := F) x0 x1 x3 x4) :=
  (segR4_keeps_v158 (V9 W)).trans (at9_v158 W hA0 hA1 hA3 hA4 hA5 hA6 hA7 hA8 hA9 hA10 hA11 hA12)
theorem at10_arg5 (W : Valuation τ sig (Elt F)) (hA0 : W (Proc.devRef .tc main_arg0) = x0) (hA1 : W (Proc.devRef .tc main_arg1) = x1) (hA3 : W (Proc.devRef .tc main_arg3) = x3) (hA4 : W (Proc.devRef .tc main_arg4) = x4) (hA5 : W (Proc.devRef .tc main_arg5) = x5) (hA6 : W (Proc.devRef .tc main_arg6) = x6) (hA7 : W (Proc.devRef .tc main_arg7) = x7) (hA8 : W (Proc.devRef .tc main_arg8) = x8) (hA9 : W (Proc.devRef .tc main_arg9) = x9) (hA10 : W (Proc.devRef .tc main_arg10) = x10) (hA11 : W (Proc.devRef .tc main_arg11) = x11) (hA12 : W (Proc.devRef .tc main_arg12) = x12) : V10 W (Proc.devRef .tc main_arg5) = x5 :=
  (segR4_keeps_arg5 (V9 W)).trans (at9_arg5 W hA0 hA1 hA3 hA4 hA5 hA6 hA7 hA8 hA9 hA10 hA11 hA12)
theorem at10_arg6 (W : Valuation τ sig (Elt F)) (hA0 : W (Proc.devRef .tc main_arg0) = x0) (hA1 : W (Proc.devRef .tc main_arg1) = x1) (hA3 : W (Proc.devRef .tc main_arg3) = x3) (hA4 : W (Proc.devRef .tc main_arg4) = x4) (hA5 : W (Proc.devRef .tc main_arg5) = x5) (hA6 : W (Proc.devRef .tc main_arg6) = x6) (hA7 : W (Proc.devRef .tc main_arg7) = x7) (hA8 : W (Proc.devRef .tc main_arg8) = x8) (hA9 : W (Proc.devRef .tc main_arg9) = x9) (hA10 : W (Proc.devRef .tc main_arg10) = x10) (hA11 : W (Proc.devRef .tc main_arg11) = x11) (hA12 : W (Proc.devRef .tc main_arg12) = x12) : V10 W (Proc.devRef .tc main_arg6) = x6 :=
  (segR4_keeps_arg6 (V9 W)).trans (at9_arg6 W hA0 hA1 hA3 hA4 hA5 hA6 hA7 hA8 hA9 hA10 hA11 hA12)
theorem at10_arg9 (W : Valuation τ sig (Elt F)) (hA0 : W (Proc.devRef .tc main_arg0) = x0) (hA1 : W (Proc.devRef .tc main_arg1) = x1) (hA3 : W (Proc.devRef .tc main_arg3) = x3) (hA4 : W (Proc.devRef .tc main_arg4) = x4) (hA5 : W (Proc.devRef .tc main_arg5) = x5) (hA6 : W (Proc.devRef .tc main_arg6) = x6) (hA7 : W (Proc.devRef .tc main_arg7) = x7) (hA8 : W (Proc.devRef .tc main_arg8) = x8) (hA9 : W (Proc.devRef .tc main_arg9) = x9) (hA10 : W (Proc.devRef .tc main_arg10) = x10) (hA11 : W (Proc.devRef .tc main_arg11) = x11) (hA12 : W (Proc.devRef .tc main_arg12) = x12) : V10 W (Proc.devRef .tc main_arg9) = x9 :=
  (segR4_keeps_arg9 (V9 W)).trans (at9_arg9 W hA0 hA1 hA3 hA4 hA5 hA6 hA7 hA8 hA9 hA10 hA11 hA12)
theorem at10_arg10 (W : Valuation τ sig (Elt F)) (hA0 : W (Proc.devRef .tc main_arg0) = x0) (hA1 : W (Proc.devRef .tc main_arg1) = x1) (hA3 : W (Proc.devRef .tc main_arg3) = x3) (hA4 : W (Proc.devRef .tc main_arg4) = x4) (hA5 : W (Proc.devRef .tc main_arg5) = x5) (hA6 : W (Proc.devRef .tc main_arg6) = x6) (hA7 : W (Proc.devRef .tc main_arg7) = x7) (hA8 : W (Proc.devRef .tc main_arg8) = x8) (hA9 : W (Proc.devRef .tc main_arg9) = x9) (hA10 : W (Proc.devRef .tc main_arg10) = x10) (hA11 : W (Proc.devRef .tc main_arg11) = x11) (hA12 : W (Proc.devRef .tc main_arg12) = x12) : V10 W (Proc.devRef .tc main_arg10) = x10 :=
  (segR4_keeps_arg10 (V9 W)).trans (at9_arg10 W hA0 hA1 hA3 hA4 hA5 hA6 hA7 hA8 hA9 hA10 hA11 hA12)
theorem at10_arg7 (W : Valuation τ sig (Elt F)) (hA0 : W (Proc.devRef .tc main_arg0) = x0) (hA1 : W (Proc.devRef .tc main_arg1) = x1) (hA3 : W (Proc.devRef .tc main_arg3) = x3) (hA4 : W (Proc.devRef .tc main_arg4) = x4) (hA5 : W (Proc.devRef .tc main_arg5) = x5) (hA6 : W (Proc.devRef .tc main_arg6) = x6) (hA7 : W (Proc.devRef .tc main_arg7) = x7) (hA8 : W (Proc.devRef .tc main_arg8) = x8) (hA9 : W (Proc.devRef .tc main_arg9) = x9) (hA10 : W (Proc.devRef .tc main_arg10) = x10) (hA11 : W (Proc.devRef .tc main_arg11) = x11) (hA12 : W (Proc.devRef .tc main_arg12) = x12) : V10 W (Proc.devRef .tc main_arg7) = x7 :=
  (segR4_keeps_arg7 (V9 W)).trans (at9_arg7 W hA0 hA1 hA3 hA4 hA5 hA6 hA7 hA8 hA9 hA10 hA11 hA12)
theorem at10_arg8 (W : Valuation τ sig (Elt F)) (hA0 : W (Proc.devRef .tc main_arg0) = x0) (hA1 : W (Proc.devRef .tc main_arg1) = x1) (hA3 : W (Proc.devRef .tc main_arg3) = x3) (hA4 : W (Proc.devRef .tc main_arg4) = x4) (hA5 : W (Proc.devRef .tc main_arg5) = x5) (hA6 : W (Proc.devRef .tc main_arg6) = x6) (hA7 : W (Proc.devRef .tc main_arg7) = x7) (hA8 : W (Proc.devRef .tc main_arg8) = x8) (hA9 : W (Proc.devRef .tc main_arg9) = x9) (hA10 : W (Proc.devRef .tc main_arg10) = x10) (hA11 : W (Proc.devRef .tc main_arg11) = x11) (hA12 : W (Proc.devRef .tc main_arg12) = x12) : V10 W (Proc.devRef .tc main_arg8) = x8 :=
  (segR4_keeps_arg8 (V9 W)).trans (at9_arg8 W hA0 hA1 hA3 hA4 hA5 hA6 hA7 hA8 hA9 hA10 hA11 hA12)
theorem at10_arg11 (W : Valuation τ sig (Elt F)) (hA0 : W (Proc.devRef .tc main_arg0) = x0) (hA1 : W (Proc.devRef .tc main_arg1) = x1) (hA3 : W (Proc.devRef .tc main_arg3) = x3) (hA4 : W (Proc.devRef .tc main_arg4) = x4) (hA5 : W (Proc.devRef .tc main_arg5) = x5) (hA6 : W (Proc.devRef .tc main_arg6) = x6) (hA7 : W (Proc.devRef .tc main_arg7) = x7) (hA8 : W (Proc.devRef .tc main_arg8) = x8) (hA9 : W (Proc.devRef .tc main_arg9) = x9) (hA10 : W (Proc.devRef .tc main_arg10) = x10) (hA11 : W (Proc.devRef .tc main_arg11) = x11) (hA12 : W (Proc.devRef .tc main_arg12) = x12) : V10 W (Proc.devRef .tc main_arg11) = x11 :=
  (segR4_keeps_arg11 (V9 W)).trans (at9_arg11 W hA0 hA1 hA3 hA4 hA5 hA6 hA7 hA8 hA9 hA10 hA11 hA12)
theorem at10_arg12 (W : Valuation τ sig (Elt F)) (hA0 : W (Proc.devRef .tc main_arg0) = x0) (hA1 : W (Proc.devRef .tc main_arg1) = x1) (hA3 : W (Proc.devRef .tc main_arg3) = x3) (hA4 : W (Proc.devRef .tc main_arg4) = x4) (hA5 : W (Proc.devRef .tc main_arg5) = x5) (hA6 : W (Proc.devRef .tc main_arg6) = x6) (hA7 : W (Proc.devRef .tc main_arg7) = x7) (hA8 : W (Proc.devRef .tc main_arg8) = x8) (hA9 : W (Proc.devRef .tc main_arg9) = x9) (hA10 : W (Proc.devRef .tc main_arg10) = x10) (hA11 : W (Proc.devRef .tc main_arg11) = x11) (hA12 : W (Proc.devRef .tc main_arg12) = x12) : V10 W (Proc.devRef .tc main_arg12) = x12 :=
  (segR4_keeps_arg12 (V9 W)).trans (at9_arg12 W hA0 hA1 hA3 hA4 hA5 hA6 hA7 hA8 hA9 hA10 hA11 hA12)
theorem at11_v206 (W : Valuation τ sig (Elt F)) (hA0 : W (Proc.devRef .tc main_arg0) = x0) (hA1 : W (Proc.devRef .tc main_arg1) = x1) (hA3 : W (Proc.devRef .tc main_arg3) = x3) (hA4 : W (Proc.devRef .tc main_arg4) = x4) (hA5 : W (Proc.devRef .tc main_arg5) = x5) (hA6 : W (Proc.devRef .tc main_arg6) = x6) (hA7 : W (Proc.devRef .tc main_arg7) = x7) (hA8 : W (Proc.devRef .tc main_arg8) = x8) (hA9 : W (Proc.devRef .tc main_arg9) = x9) (hA10 : W (Proc.devRef .tc main_arg10) = x10) (hA11 : W (Proc.devRef .tc main_arg11) = x11) (hA12 : W (Proc.devRef .tc main_arg12) = x12) : V11 W (Proc.devRef .tc main_v206) = (Cert.ReferenceIdeal.ReadP.val_main_v206 (F := F) x0 x1 x3 x4 x5 x6) :=
  segF_v206 (V10 W) (at10_v158 W hA0 hA1 hA3 hA4 hA5 hA6 hA7 hA8 hA9 hA10 hA11 hA12) (at10_v201 W hA0 hA1 hA3 hA4 hA5 hA6 hA7 hA8 hA9 hA10 hA11 hA12) (at10_arg5 W hA0 hA1 hA3 hA4 hA5 hA6 hA7 hA8 hA9 hA10 hA11 hA12) (at10_arg6 W hA0 hA1 hA3 hA4 hA5 hA6 hA7 hA8 hA9 hA10 hA11 hA12)
theorem at11_arg9 (W : Valuation τ sig (Elt F)) (hA0 : W (Proc.devRef .tc main_arg0) = x0) (hA1 : W (Proc.devRef .tc main_arg1) = x1) (hA3 : W (Proc.devRef .tc main_arg3) = x3) (hA4 : W (Proc.devRef .tc main_arg4) = x4) (hA5 : W (Proc.devRef .tc main_arg5) = x5) (hA6 : W (Proc.devRef .tc main_arg6) = x6) (hA7 : W (Proc.devRef .tc main_arg7) = x7) (hA8 : W (Proc.devRef .tc main_arg8) = x8) (hA9 : W (Proc.devRef .tc main_arg9) = x9) (hA10 : W (Proc.devRef .tc main_arg10) = x10) (hA11 : W (Proc.devRef .tc main_arg11) = x11) (hA12 : W (Proc.devRef .tc main_arg12) = x12) : V11 W (Proc.devRef .tc main_arg9) = x9 :=
  (segF_keeps_arg9 (V10 W)).trans (at10_arg9 W hA0 hA1 hA3 hA4 hA5 hA6 hA7 hA8 hA9 hA10 hA11 hA12)
theorem at11_arg10 (W : Valuation τ sig (Elt F)) (hA0 : W (Proc.devRef .tc main_arg0) = x0) (hA1 : W (Proc.devRef .tc main_arg1) = x1) (hA3 : W (Proc.devRef .tc main_arg3) = x3) (hA4 : W (Proc.devRef .tc main_arg4) = x4) (hA5 : W (Proc.devRef .tc main_arg5) = x5) (hA6 : W (Proc.devRef .tc main_arg6) = x6) (hA7 : W (Proc.devRef .tc main_arg7) = x7) (hA8 : W (Proc.devRef .tc main_arg8) = x8) (hA9 : W (Proc.devRef .tc main_arg9) = x9) (hA10 : W (Proc.devRef .tc main_arg10) = x10) (hA11 : W (Proc.devRef .tc main_arg11) = x11) (hA12 : W (Proc.devRef .tc main_arg12) = x12) : V11 W (Proc.devRef .tc main_arg10) = x10 :=
  (segF_keeps_arg10 (V10 W)).trans (at10_arg10 W hA0 hA1 hA3 hA4 hA5 hA6 hA7 hA8 hA9 hA10 hA11 hA12)
theorem at11_arg7 (W : Valuation τ sig (Elt F)) (hA0 : W (Proc.devRef .tc main_arg0) = x0) (hA1 : W (Proc.devRef .tc main_arg1) = x1) (hA3 : W (Proc.devRef .tc main_arg3) = x3) (hA4 : W (Proc.devRef .tc main_arg4) = x4) (hA5 : W (Proc.devRef .tc main_arg5) = x5) (hA6 : W (Proc.devRef .tc main_arg6) = x6) (hA7 : W (Proc.devRef .tc main_arg7) = x7) (hA8 : W (Proc.devRef .tc main_arg8) = x8) (hA9 : W (Proc.devRef .tc main_arg9) = x9) (hA10 : W (Proc.devRef .tc main_arg10) = x10) (hA11 : W (Proc.devRef .tc main_arg11) = x11) (hA12 : W (Proc.devRef .tc main_arg12) = x12) : V11 W (Proc.devRef .tc main_arg7) = x7 :=
  (segF_keeps_arg7 (V10 W)).trans (at10_arg7 W hA0 hA1 hA3 hA4 hA5 hA6 hA7 hA8 hA9 hA10 hA11 hA12)
theorem at11_arg8 (W : Valuation τ sig (Elt F)) (hA0 : W (Proc.devRef .tc main_arg0) = x0) (hA1 : W (Proc.devRef .tc main_arg1) = x1) (hA3 : W (Proc.devRef .tc main_arg3) = x3) (hA4 : W (Proc.devRef .tc main_arg4) = x4) (hA5 : W (Proc.devRef .tc main_arg5) = x5) (hA6 : W (Proc.devRef .tc main_arg6) = x6) (hA7 : W (Proc.devRef .tc main_arg7) = x7) (hA8 : W (Proc.devRef .tc main_arg8) = x8) (hA9 : W (Proc.devRef .tc main_arg9) = x9) (hA10 : W (Proc.devRef .tc main_arg10) = x10) (hA11 : W (Proc.devRef .tc main_arg11) = x11) (hA12 : W (Proc.devRef .tc main_arg12) = x12) : V11 W (Proc.devRef .tc main_arg8) = x8 :=
  (segF_keeps_arg8 (V10 W)).trans (at10_arg8 W hA0 hA1 hA3 hA4 hA5 hA6 hA7 hA8 hA9 hA10 hA11 hA12)
theorem at11_arg11 (W : Valuation τ sig (Elt F)) (hA0 : W (Proc.devRef .tc main_arg0) = x0) (hA1 : W (Proc.devRef .tc main_arg1) = x1) (hA3 : W (Proc.devRef .tc main_arg3) = x3) (hA4 : W (Proc.devRef .tc main_arg4) = x4) (hA5 : W (Proc.devRef .tc main_arg5) = x5) (hA6 : W (Proc.devRef .tc main_arg6) = x6) (hA7 : W (Proc.devRef .tc main_arg7) = x7) (hA8 : W (Proc.devRef .tc main_arg8) = x8) (hA9 : W (Proc.devRef .tc main_arg9) = x9) (hA10 : W (Proc.devRef .tc main_arg10) = x10) (hA11 : W (Proc.devRef .tc main_arg11) = x11) (hA12 : W (Proc.devRef .tc main_arg12) = x12) : V11 W (Proc.devRef .tc main_arg11) = x11 :=
  (segF_keeps_arg11 (V10 W)).trans (at10_arg11 W hA0 hA1 hA3 hA4 hA5 hA6 hA7 hA8 hA9 hA10 hA11 hA12)
theorem at11_arg12 (W : Valuation τ sig (Elt F)) (hA0 : W (Proc.devRef .tc main_arg0) = x0) (hA1 : W (Proc.devRef .tc main_arg1) = x1) (hA3 : W (Proc.devRef .tc main_arg3) = x3) (hA4 : W (Proc.devRef .tc main_arg4) = x4) (hA5 : W (Proc.devRef .tc main_arg5) = x5) (hA6 : W (Proc.devRef .tc main_arg6) = x6) (hA7 : W (Proc.devRef .tc main_arg7) = x7) (hA8 : W (Proc.devRef .tc main_arg8) = x8) (hA9 : W (Proc.devRef .tc main_arg9) = x9) (hA10 : W (Proc.devRef .tc main_arg10) = x10) (hA11 : W (Proc.devRef .tc main_arg11) = x11) (hA12 : W (Proc.devRef .tc main_arg12) = x12) : V11 W (Proc.devRef .tc main_arg12) = x12 :=
  (segF_keeps_arg12 (V10 W)).trans (at10_arg12 W hA0 hA1 hA3 hA4 hA5 hA6 hA7 hA8 hA9 hA10 hA11 hA12)
theorem at12_v207 (W : Valuation τ sig (Elt F)) (hA0 : W (Proc.devRef .tc main_arg0) = x0) (hA1 : W (Proc.devRef .tc main_arg1) = x1) (hA3 : W (Proc.devRef .tc main_arg3) = x3) (hA4 : W (Proc.devRef .tc main_arg4) = x4) (hA5 : W (Proc.devRef .tc main_arg5) = x5) (hA6 : W (Proc.devRef .tc main_arg6) = x6) (hA7 : W (Proc.devRef .tc main_arg7) = x7) (hA8 : W (Proc.devRef .tc main_arg8) = x8) (hA9 : W (Proc.devRef .tc main_arg9) = x9) (hA10 : W (Proc.devRef .tc main_arg10) = x10) (hA11 : W (Proc.devRef .tc main_arg11) = x11) (hA12 : W (Proc.devRef .tc main_arg12) = x12) : V12 W (Proc.devRef .tc main_v207) = (Cert.ReferenceIdeal.ReadP.val_main_v207 (F := F) x0 x1 x3 x4 x5 x6) :=
  segR5_v207 (V11 W) (at11_v206 W hA0 hA1 hA3 hA4 hA5 hA6 hA7 hA8 hA9 hA10 hA11 hA12)
theorem at12_arg9 (W : Valuation τ sig (Elt F)) (hA0 : W (Proc.devRef .tc main_arg0) = x0) (hA1 : W (Proc.devRef .tc main_arg1) = x1) (hA3 : W (Proc.devRef .tc main_arg3) = x3) (hA4 : W (Proc.devRef .tc main_arg4) = x4) (hA5 : W (Proc.devRef .tc main_arg5) = x5) (hA6 : W (Proc.devRef .tc main_arg6) = x6) (hA7 : W (Proc.devRef .tc main_arg7) = x7) (hA8 : W (Proc.devRef .tc main_arg8) = x8) (hA9 : W (Proc.devRef .tc main_arg9) = x9) (hA10 : W (Proc.devRef .tc main_arg10) = x10) (hA11 : W (Proc.devRef .tc main_arg11) = x11) (hA12 : W (Proc.devRef .tc main_arg12) = x12) : V12 W (Proc.devRef .tc main_arg9) = x9 :=
  (segR5_keeps_arg9 (V11 W)).trans (at11_arg9 W hA0 hA1 hA3 hA4 hA5 hA6 hA7 hA8 hA9 hA10 hA11 hA12)
theorem at12_arg10 (W : Valuation τ sig (Elt F)) (hA0 : W (Proc.devRef .tc main_arg0) = x0) (hA1 : W (Proc.devRef .tc main_arg1) = x1) (hA3 : W (Proc.devRef .tc main_arg3) = x3) (hA4 : W (Proc.devRef .tc main_arg4) = x4) (hA5 : W (Proc.devRef .tc main_arg5) = x5) (hA6 : W (Proc.devRef .tc main_arg6) = x6) (hA7 : W (Proc.devRef .tc main_arg7) = x7) (hA8 : W (Proc.devRef .tc main_arg8) = x8) (hA9 : W (Proc.devRef .tc main_arg9) = x9) (hA10 : W (Proc.devRef .tc main_arg10) = x10) (hA11 : W (Proc.devRef .tc main_arg11) = x11) (hA12 : W (Proc.devRef .tc main_arg12) = x12) : V12 W (Proc.devRef .tc main_arg10) = x10 :=
  (segR5_keeps_arg10 (V11 W)).trans (at11_arg10 W hA0 hA1 hA3 hA4 hA5 hA6 hA7 hA8 hA9 hA10 hA11 hA12)
theorem at12_arg7 (W : Valuation τ sig (Elt F)) (hA0 : W (Proc.devRef .tc main_arg0) = x0) (hA1 : W (Proc.devRef .tc main_arg1) = x1) (hA3 : W (Proc.devRef .tc main_arg3) = x3) (hA4 : W (Proc.devRef .tc main_arg4) = x4) (hA5 : W (Proc.devRef .tc main_arg5) = x5) (hA6 : W (Proc.devRef .tc main_arg6) = x6) (hA7 : W (Proc.devRef .tc main_arg7) = x7) (hA8 : W (Proc.devRef .tc main_arg8) = x8) (hA9 : W (Proc.devRef .tc main_arg9) = x9) (hA10 : W (Proc.devRef .tc main_arg10) = x10) (hA11 : W (Proc.devRef .tc main_arg11) = x11) (hA12 : W (Proc.devRef .tc main_arg12) = x12) : V12 W (Proc.devRef .tc main_arg7) = x7 :=
  (segR5_keeps_arg7 (V11 W)).trans (at11_arg7 W hA0 hA1 hA3 hA4 hA5 hA6 hA7 hA8 hA9 hA10 hA11 hA12)
theorem at12_arg8 (W : Valuation τ sig (Elt F)) (hA0 : W (Proc.devRef .tc main_arg0) = x0) (hA1 : W (Proc.devRef .tc main_arg1) = x1) (hA3 : W (Proc.devRef .tc main_arg3) = x3) (hA4 : W (Proc.devRef .tc main_arg4) = x4) (hA5 : W (Proc.devRef .tc main_arg5) = x5) (hA6 : W (Proc.devRef .tc main_arg6) = x6) (hA7 : W (Proc.devRef .tc main_arg7) = x7) (hA8 : W (Proc.devRef .tc main_arg8) = x8) (hA9 : W (Proc.devRef .tc main_arg9) = x9) (hA10 : W (Proc.devRef .tc main_arg10) = x10) (hA11 : W (Proc.devRef .tc main_arg11) = x11) (hA12 : W (Proc.devRef .tc main_arg12) = x12) : V12 W (Proc.devRef .tc main_arg8) = x8 :=
  (segR5_keeps_arg8 (V11 W)).trans (at11_arg8 W hA0 hA1 hA3 hA4 hA5 hA6 hA7 hA8 hA9 hA10 hA11 hA12)
theorem at12_arg11 (W : Valuation τ sig (Elt F)) (hA0 : W (Proc.devRef .tc main_arg0) = x0) (hA1 : W (Proc.devRef .tc main_arg1) = x1) (hA3 : W (Proc.devRef .tc main_arg3) = x3) (hA4 : W (Proc.devRef .tc main_arg4) = x4) (hA5 : W (Proc.devRef .tc main_arg5) = x5) (hA6 : W (Proc.devRef .tc main_arg6) = x6) (hA7 : W (Proc.devRef .tc main_arg7) = x7) (hA8 : W (Proc.devRef .tc main_arg8) = x8) (hA9 : W (Proc.devRef .tc main_arg9) = x9) (hA10 : W (Proc.devRef .tc main_arg10) = x10) (hA11 : W (Proc.devRef .tc main_arg11) = x11) (hA12 : W (Proc.devRef .tc main_arg12) = x12) : V12 W (Proc.devRef .tc main_arg11) = x11 :=
  (segR5_keeps_arg11 (V11 W)).trans (at11_arg11 W hA0 hA1 hA3 hA4 hA5 hA6 hA7 hA8 hA9 hA10 hA11 hA12)
theorem at12_arg12 (W : Valuation τ sig (Elt F)) (hA0 : W (Proc.devRef .tc main_arg0) = x0) (hA1 : W (Proc.devRef .tc main_arg1) = x1) (hA3 : W (Proc.devRef .tc main_arg3) = x3) (hA4 : W (Proc.devRef .tc main_arg4) = x4) (hA5 : W (Proc.devRef .tc main_arg5) = x5) (hA6 : W (Proc.devRef .tc main_arg6) = x6) (hA7 : W (Proc.devRef .tc main_arg7) = x7) (hA8 : W (Proc.devRef .tc main_arg8) = x8) (hA9 : W (Proc.devRef .tc main_arg9) = x9) (hA10 : W (Proc.devRef .tc main_arg10) = x10) (hA11 : W (Proc.devRef .tc main_arg11) = x11) (hA12 : W (Proc.devRef .tc main_arg12) = x12) : V12 W (Proc.devRef .tc main_arg12) = x12 :=
  (segR5_keeps_arg12 (V11 W)).trans (at11_arg12 W hA0 hA1 hA3 hA4 hA5 hA6 hA7 hA8 hA9 hA10 hA11 hA12)
theorem at13_v224 (W : Valuation τ sig (Elt F)) (hA0 : W (Proc.devRef .tc main_arg0) = x0) (hA1 : W (Proc.devRef .tc main_arg1) = x1) (hA3 : W (Proc.devRef .tc main_arg3) = x3) (hA4 : W (Proc.devRef .tc main_arg4) = x4) (hA5 : W (Proc.devRef .tc main_arg5) = x5) (hA6 : W (Proc.devRef .tc main_arg6) = x6) (hA7 : W (Proc.devRef .tc main_arg7) = x7) (hA8 : W (Proc.devRef .tc main_arg8) = x8) (hA9 : W (Proc.devRef .tc main_arg9) = x9) (hA10 : W (Proc.devRef .tc main_arg10) = x10) (hA11 : W (Proc.devRef .tc main_arg11) = x11) (hA12 : W (Proc.devRef .tc main_arg12) = x12) : V13 W (Proc.devRef .tc main_v224) = (Cert.ReferenceIdeal.ReadP.val_main_v224 (F := F) x0 x1 x3 x4 x5 x6 x7 x8 x9 x10 x11 x12) :=
  segG_v224 (V12 W) (at12_arg9 W hA0 hA1 hA3 hA4 hA5 hA6 hA7 hA8 hA9 hA10 hA11 hA12) (at12_v207 W hA0 hA1 hA3 hA4 hA5 hA6 hA7 hA8 hA9 hA10 hA11 hA12) (at12_arg10 W hA0 hA1 hA3 hA4 hA5 hA6 hA7 hA8 hA9 hA10 hA11 hA12) (at12_arg7 W hA0 hA1 hA3 hA4 hA5 hA6 hA7 hA8 hA9 hA10 hA11 hA12) (at12_arg8 W hA0 hA1 hA3 hA4 hA5 hA6 hA7 hA8 hA9 hA10 hA11 hA12) (at12_arg11 W hA0 hA1 hA3 hA4 hA5 hA6 hA7 hA8 hA9 hA10 hA11 hA12) (at12_arg12 W hA0 hA1 hA3 hA4 hA5 hA6 hA7 hA8 hA9 hA10 hA11 hA12)

/-- THE RESULT of the reference's operations, from any contents whose argument buffers hold `x0 … x12`. -/
theorem result_eq (W : Valuation τ sig (Elt F)) (hA0 : W (Proc.devRef .tc main_arg0) = x0) (hA1 : W (Proc.devRef .tc main_arg1) = x1) (hA3 : W (Proc.devRef .tc main_arg3) = x3) (hA4 : W (Proc.devRef .tc main_arg4) = x4) (hA5 : W (Proc.devRef .tc main_arg5) = x5) (hA6 : W (Proc.devRef .tc main_arg6) = x6) (hA7 : W (Proc.devRef .tc main_arg7) = x7) (hA8 : W (Proc.devRef .tc main_arg8) = x8) (hA9 : W (Proc.devRef .tc main_arg9) = x9) (hA10 : W (Proc.devRef .tc main_arg10) = x10) (hA11 : W (Proc.devRef .tc main_arg11) = x11) (hA12 : W (Proc.devRef .tc main_arg12) = x12) :
    after (ops (F := F)) W (Proc.devRef .tc main_v224) = (Cert.ReferenceIdeal.ReadP.val_main_v224 (F := F) x0 x1 x3 x4 x5 x6 x7 x8 x9 x10 x11 x12) := by
  rw [ops_eq]
  simp only [after_append]
  exact at13_v224 W hA0 hA1 hA3 hA4 hA5 hA6 hA7 hA8 hA9 hA10 hA11 hA12

end Cert.ReferenceIdeal.ValueP

end
-- ==== Proof.lean ====
/-
  A Chebyshev graph network with a classifier head, computed two ways, gives the same logits on the extended reals
  whenever every float input is a real number and the normalisation's variance is nonnegative.

  The reference runs four layers `relu(X·W₀ + T1·W₁ + (2·P2 − X)·W₂)`, with `T1` the propagation of the layer's input
  `X` along the graph's normalised edges and `P2` the propagation of `T1`; concatenates the four outputs; and applies a
  linear layer with bias and relu, an affine normalisation `(z − μ)·γ·rsqrt(var + ε) + β`, and a last linear layer
  with bias. The kernel program forms the same propagations on the host, folds each layer's recursion into the weights,
  `relu(X·(W₀ − W₂) + T1·W₁ + P2·(2·W₂))`, in a launch per layer over blocks of 2000 rows, and in a fifth launch
  contracts the four outputs block by block and applies the normalisation as `z·s + (β − μ·s)` with
  `s = γ·rsqrt(var + ε)`, padding the two logit columns to 128 and slicing them back.

  Both foldings are distributivity, which holds among real numbers: the inputs are real by the precondition, the edge
  norm and every propagation, layer output and hidden value are then real (sums and products of reals, a reciprocal
  root taken only of a positive degree, a maximum with 0), and `s` is real because `var + ε > 0`. The contraction by
  blocks is a regrouping of one sum and needs nothing. So the kernel program's result buffer — followed through its
  seventeen segments from the launch memory — holds, entry by entry, the reference's logits; the second result is an
  argument array, which neither program writes.
-/
import proofs.«165358_j80178449481840_2_alg».proof.Defs
import proofs.«165358_j80178449481840_2_alg».proof.Proof.Gen.Kernel
import proofs.«165358_j80178449481840_2_alg».proof.Proof.Gen.Kernel.Frame
import proofs.«165358_j80178449481840_2_alg».proof.Proof.Gen.KernelIdeal
import proofs.«165358_j80178449481840_2_alg».proof.Proof.Gen.KernelIdeal.Frame
import proofs.«165358_j80178449481840_2_alg».proof.Proof.Gen.ReferenceIdeal
import proofs.«165358_j80178449481840_2_alg».proof.Proof.Gen.Pre_finite_inputs
import proofs.«165358_j80178449481840_2_alg».proof.Proof.KernelRun
import proofs.«165358_j80178449481840_2_alg».proof.Proof.KernelHead
import proofs.«165358_j80178449481840_2_alg».proof.Proof.RefRun
import Idealize.ShloMosaic.Adequacy
import Idealize.ShloMosaic.Init

noncomputable section

namespace Cert.Proof

open Idealize.ShloMosaic Idealize.SL.Sem

/-- The word-level kernel program runs and leaves its arguments as launched. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- So does the reference: its run, with the results dropped. -/
theorem frame_reference : Cert.frame_ReferenceIdeal := fun m ρ _ =>
  (θ_run Cert.ReferenceIdeal.defs _ _).mono (fun _ h c => (h c).2.2) (Cert.ReferenceIdeal.ValueP.run (F := Ideal) m ρ)

/-- The idealization rewrote no operation: there is nothing to preserve. -/
theorem preserves : Cert.preserves_Kernel_KernelIdeal := trivial

/-- From memories agreeing on the arguments both programs end with the logits the kernel program's last boundary
    holds — the reference's, by the bridge — and with the edge weights, an argument, as launched. -/
theorem algebraic : Cert.algebraic_KernelIdeal_ReferenceIdeal := by
  intro m ρ m' ρ' hpre hagree
  refine ⟨fun c => Cert.KernelIdeal.Gen.W17 m ρ c (Proc.devRef .tc Cert.KernelIdeal.main_v238),
    fun c => m ((c.tc : Thread Cert.KernelIdeal.nD Cert.KernelIdeal.τ).loc Cert.KernelIdeal.main_arg3), ?_, ?_⟩
  · exact (θ_run Cert.KernelIdeal.defs _ _).mono (fun _ h c => ⟨(h c).1, (h c).2.2.2.2.1, (h c).2⟩)
      (Cert.KernelIdeal.Run.run (F := Ideal) m ρ)
  · refine (θ_run Cert.ReferenceIdeal.defs _ _).mono (fun _ h c => ⟨(h c).1.trans ?_, (h c).2.1.trans (hagree c).2.2.2.1, (h c).2.2⟩)
      (Cert.ReferenceIdeal.ValueP.run (F := Ideal) m' ρ')
    rw [(hagree c).1, (hagree c).2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2]
    exact (Cert.KernelHead.result m ρ c hpre).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
